-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x115x3 : Shape := ⟨3, ![100000, 115, 3]⟩
abbrev S_ : Shape := ⟨0, ![]⟩

class Facts : Prop where
  bcast_S_S100000x115x3 : S_.BroadcastsInDim S100000x115x3 (![] : Fin 0 → Fin S100000x115x3.rank)
  reducesTo_S100000x115x3_S_d0_1_2 : S100000x115x3.ReducesTo [0, 1, 2] S_
  h_S_ : 0 < S_.numel

variable [Facts]

def fn {F : FTy → Type} [FloatOps F] (main_arg0 : FVec F S100000x115x3 .f32) : IVec S_ 1 :=
  let main_v0 : FVec F S100000x115x3 .f32 := Host.absf main_arg0
  let main_cst : FVec F S_ .f32 := constant S_ .f32 0x7F800000#32
  let main_v1 : FVec F S100000x115x3 .f32 := broadcastInDim S100000x115x3 ![] bcast_S_S100000x115x3 main_cst
  let main_v2 : IVec S100000x115x3 1 := cmpf .olt main_v0 main_v1
  let main_c : IVec S_ 1 := constantI S_ 1 1#1
  let main_v3 : IVec S_ 1 := (fun x v => Host.reduce IntOp.andi x v reducesTo_S100000x115x3_S_d0_1_2 h_S_) main_v2 main_c
  main_v3
-- ==== Kernel.lean ====
abbrev S100000x115x3 : Shape := ⟨3, ![100000, 115, 3]⟩
abbrev S210 : Shape := ⟨1, ![210]⟩
abbrev S300 : Shape := ⟨1, ![300]⟩
abbrev S190 : Shape := ⟨1, ![190]⟩
abbrev S100000x345 : Shape := ⟨2, ![100000, 345]⟩
abbrev S1x1 : Shape := ⟨2, ![1, 1]⟩
abbrev S5000x345 : Shape := ⟨2, ![5000, 345]⟩
abbrev S5000x63 : Shape := ⟨2, ![5000, 63]⟩
abbrev S5000 : Shape := ⟨1, ![5000]⟩
abbrev S5000x1 : Shape := ⟨2, ![5000, 1]⟩
abbrev S1 : Shape := ⟨1, ![1]⟩
abbrev S_ : Shape := ⟨0, ![]⟩
abbrev S201x115x3 : Shape := ⟨3, ![201, 115, 3]⟩
abbrev S201x21x3 : Shape := ⟨3, ![201, 21, 3]⟩
abbrev S201x25x3 : Shape := ⟨3, ![201, 25, 3]⟩
abbrev S201x40x3 : Shape := ⟨3, ![201, 40, 3]⟩
abbrev S201x86x3 : Shape := ⟨3, ![201, 86, 3]⟩
abbrev S201x86x1 : Shape := ⟨3, ![201, 86, 1]⟩
abbrev S201x86 : Shape := ⟨2, ![201, 86]⟩
abbrev S201x86x2 : Shape := ⟨3, ![201, 86, 2]⟩
abbrev S201x63 : Shape := ⟨2, ![201, 63]⟩
abbrev S201 : Shape := ⟨1, ![201]⟩
abbrev S200x86x3 : Shape := ⟨3, ![200, 86, 3]⟩
abbrev S210x1 : Shape := ⟨2, ![210, 1]⟩
abbrev S201x210x3 : Shape := ⟨3, ![201, 210, 3]⟩
abbrev S201x210 : Shape := ⟨2, ![201, 210]⟩
abbrev S201x25x2 : Shape := ⟨3, ![201, 25, 2]⟩
abbrev S300x1 : Shape := ⟨2, ![300, 1]⟩
abbrev S201x300x2 : Shape := ⟨3, ![201, 300, 2]⟩
abbrev S201x300 : Shape := ⟨2, ![201, 300]⟩
abbrev S201x20x2 : Shape := ⟨3, ![201, 20, 2]⟩
abbrev S190x1 : Shape := ⟨2, ![190, 1]⟩
abbrev S201x190x2 : Shape := ⟨3, ![201, 190, 2]⟩
abbrev S201x190 : Shape := ⟨2, ![201, 190]⟩
abbrev S200x21x3 : Shape := ⟨3, ![200, 21, 3]⟩
abbrev S200x63 : Shape := ⟨2, ![200, 63]⟩
abbrev S200x25x2 : Shape := ⟨3, ![200, 25, 2]⟩
abbrev S200x50 : Shape := ⟨2, ![200, 50]⟩
abbrev S200x20x2 : Shape := ⟨3, ![200, 20, 2]⟩
abbrev S200x40 : Shape := ⟨2, ![200, 40]⟩
abbrev S200x210 : Shape := ⟨2, ![200, 210]⟩
abbrev S200x300 : Shape := ⟨2, ![200, 300]⟩
abbrev S200x190 : Shape := ⟨2, ![200, 190]⟩
abbrev S200 : Shape := ⟨1, ![200]⟩
abbrev S200x1 : Shape := ⟨2, ![200, 1]⟩
abbrev S200x1198 : Shape := ⟨2, ![200, 1198]⟩
abbrev S1x200x1198 : Shape := ⟨3, ![1, 200, 1198]⟩

abbrev nBuf : Space → Nat
  | .hbm => 151
  | .vmem => 6
  | .smem => 0
  | _ => 0

abbrev hbmTy0_0 (i : Nat) : BufTy := match i % 128 with
  | 0 => ⟨S100000x115x3, .f32⟩
  | 1 => ⟨S210, .i32⟩
  | 2 => ⟨S210, .i1⟩
  | 3 => ⟨S210, .i32⟩
  | 4 => ⟨S210, .i1⟩
  | 5 => ⟨S300, .i32⟩
  | 6 => ⟨S300, .i1⟩
  | 7 => ⟨S300, .i32⟩
  | 8 => ⟨S300, .i1⟩
  | 9 => ⟨S190, .i32⟩
  | 10 => ⟨S190, .i1⟩
  | 11 => ⟨S190, .i32⟩
  | 12 => ⟨S190, .i1⟩
  | 13 => ⟨S190, .i1⟩
  | 14 => ⟨S190, .i1⟩
  | 15 => ⟨S100000x345, .f32⟩
  | 16 => ⟨S1x1, .f32⟩
  | 17 => ⟨S1x1, .f32⟩
  | 18 => ⟨S_, .f32⟩
  | 19 => ⟨S_, .f32⟩
  | 20 => ⟨S_, .i1⟩
  | 21 => ⟨S201x115x3, .f32⟩
  | 22 => ⟨S201x115x3, .i1⟩
  | 23 => ⟨S_, .f32⟩
  | 24 => ⟨S_, .f32⟩
  | 25 => ⟨S201x115x3, .f32⟩
  | 26 => ⟨S201x115x3, .f32⟩
  | 27 => ⟨S201x21x3, .f32⟩
  | 28 => ⟨S201x21x3, .f32⟩
  | 29 => ⟨S201x25x3, .f32⟩
  | 30 => ⟨S201x40x3, .f32⟩
  | 31 => ⟨S201x21x3, .f32⟩
  | 32 => ⟨S201x86x3, .f32⟩
  | 33 => ⟨S201x86x3, .f32⟩
  | 34 => ⟨S201x86x3, .f32⟩
  | 35 => ⟨S201x86x1, .f32⟩
  | 36 => ⟨S201x86, .f32⟩
  | 37 => ⟨S201x86, .f32⟩
  | 38 => ⟨S201x86x1, .f32⟩
  | 39 => ⟨S201x86, .f32⟩
  | 40 => ⟨S201x86, .f32⟩
  | 41 => ⟨S201x86x1, .f32⟩
  | 42 => ⟨S201x86x2, .f32⟩
  | 43 => ⟨S201x86x3, .f32⟩
  | 44 => ⟨S201x63, .f32⟩
  | 45 => ⟨S_, .f32⟩
  | 46 => ⟨S201, .f32⟩
  | 47 => ⟨S_, .f32⟩
  | 48 => ⟨S201, .f32⟩
  | 49 => ⟨S201, .i1⟩
  | 50 => ⟨S201, .f32⟩
  | 51 => ⟨S_, .f32⟩
  | 52 => ⟨S201, .f32⟩
  | 53 => ⟨S201, .f32⟩
  | 54 => ⟨S200x86x3, .f32⟩
  | 55 => ⟨S200x86x3, .f32⟩
  | 56 => ⟨S200x86x3, .f32⟩
  | 57 => ⟨S201x21x3, .f32⟩
  | 58 => ⟨S_, .i32⟩
  | 59 => ⟨S210, .i32⟩
  | 60 => ⟨S210, .i32⟩
  | 61 => ⟨S210, .i32⟩
  | 62 => ⟨S210x1, .i32⟩
  | 63 => ⟨S201x210x3, .f32⟩
  | 64 => ⟨S_, .i32⟩
  | 65 => ⟨S210, .i32⟩
  | 66 => ⟨S210, .i32⟩
  | 67 => ⟨S210, .i32⟩
  | 68 => ⟨S210x1, .i32⟩
  | 69 => ⟨S201x210x3, .f32⟩
  | 70 => ⟨S201x210x3, .f32⟩
  | 71 => ⟨S201x210x3, .f32⟩
  | 72 => ⟨S_, .f32⟩
  | 73 => ⟨S201x210, .f32⟩
  | 74 => ⟨S201x210, .f32⟩
  | 75 => ⟨S201x25x2, .f32⟩
  | 76 => ⟨S_, .i32⟩
  | 77 => ⟨S300, .i32⟩
  | 78 => ⟨S300, .i32⟩
  | 79 => ⟨S300, .i32⟩
  | 80 => ⟨S300x1, .i32⟩
  | 81 => ⟨S201x300x2, .f32⟩
  | 82 => ⟨S_, .i32⟩
  | 83 => ⟨S300, .i32⟩
  | 84 => ⟨S300, .i32⟩
  | 85 => ⟨S300, .i32⟩
  | 86 => ⟨S300x1, .i32⟩
  | 87 => ⟨S201x300x2, .f32⟩
  | 88 => ⟨S201x300x2, .f32⟩
  | 89 => ⟨S201x300x2, .f32⟩
  | 90 => ⟨S_, .f32⟩
  | 91 => ⟨S201x300, .f32⟩
  | 92 => ⟨S201x300, .f32⟩
  | 93 => ⟨S201x20x2, .f32⟩
  | 94 => ⟨S_, .i32⟩
  | 95 => ⟨S190, .i32⟩
  | 96 => ⟨S190, .i32⟩
  | 97 => ⟨S190, .i32⟩
  | 98 => ⟨S190x1, .i32⟩
  | 99 => ⟨S201x190x2, .f32⟩
  | 100 => ⟨S_, .i32⟩
  | 101 => ⟨S190, .i32⟩
  | 102 => ⟨S190, .i32⟩
  | 103 => ⟨S190, .i32⟩
  | 104 => ⟨S190x1, .i32⟩
  | 105 => ⟨S201x190x2, .f32⟩
  | 106 => ⟨S201x190x2, .f32⟩
  | 107 => ⟨S201x190x2, .f32⟩
  | 108 => ⟨S_, .f32⟩
  | 109 => ⟨S201x190, .f32⟩
  | 110 => ⟨S201x190, .f32⟩
  | 111 => ⟨S201x20x2, .f32⟩
  | 112 => ⟨S_, .i32⟩
  | 113 => ⟨S190, .i32⟩
  | 114 => ⟨S190, .i32⟩
  | 115 => ⟨S190, .i32⟩
  | 116 => ⟨S190x1, .i32⟩
  | 117 => ⟨S201x190x2, .f32⟩
  | 118 => ⟨S_, .i32⟩
  | 119 => ⟨S190, .i32⟩
  | 120 => ⟨S190, .i32⟩
  | 121 => ⟨S190, .i32⟩
  | 122 => ⟨S190x1, .i32⟩
  | 123 => ⟨S201x190x2, .f32⟩
  | 124 => ⟨S201x190x2, .f32⟩
  | 125 => ⟨S201x190x2, .f32⟩
  | 126 => ⟨S_, .f32⟩
  | 127 => ⟨S201x190, .f32⟩
  | _ => ⟨S100000x115x3, .f32⟩

abbrev hbmTy0_1 (i : Nat) : BufTy := match i % 128 with
  | 0 => ⟨S201x190, .f32⟩
  | 1 => ⟨S200x21x3, .f32⟩
  | 2 => ⟨S200x63, .f32⟩
  | 3 => ⟨S200x25x2, .f32⟩
  | 4 => ⟨S200x50, .f32⟩
  | 5 => ⟨S200x20x2, .f32⟩
  | 6 => ⟨S200x40, .f32⟩
  | 7 => ⟨S200x21x3, .f32⟩
  | 8 => ⟨S200x63, .f32⟩
  | 9 => ⟨S200x25x2, .f32⟩
  | 10 => ⟨S200x50, .f32⟩
  | 11 => ⟨S200x20x2, .f32⟩
  | 12 => ⟨S200x40, .f32⟩
  | 13 => ⟨S200x210, .f32⟩
  | 14 => ⟨S200x300, .f32⟩
  | 15 => ⟨S200x190, .f32⟩
  | 16 => ⟨S200x190, .f32⟩
  | 17 => ⟨S200, .f32⟩
  | 18 => ⟨S200x1, .f32⟩
  | 19 => ⟨S200, .f32⟩
  | 20 => ⟨S200x1, .f32⟩
  | 21 => ⟨S200x1198, .f32⟩
  | 22 => ⟨S1x200x1198, .f32⟩
  | _ => ⟨S100000x115x3, .f32⟩

abbrev hbmTy (i : Nat) : BufTy := match i / 128 with
  | 0 => hbmTy0_0 i
  | 1 => hbmTy0_1 i
  | _ => ⟨S100000x115x3, .f32⟩

abbrev bufTy : (tb : Table) → Fin (tcTables nBuf tb) → BufTy
  | .hbm, ⟨i, _⟩ => hbmTy i
  | .local _ .vmem, ⟨0, _⟩ => ⟨S5000x345, .f32⟩
  | .local _ .vmem, ⟨1, _⟩ => ⟨S5000x345, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S100000x115x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_13 : Ref sig .tc := ⟨.hbm, 45, rfl⟩
abbrev main_v26 : Ref sig .tc := ⟨.hbm, 46, rfl⟩
abbrev main_cst_14 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_15 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_16 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_17 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_18 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_19 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_20 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_22 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_24 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_25 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_26 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_27 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v39 : BitVec 1 := Scalar.cmpi .eq arg0 c19_i32
  let v40 : BitVec 32 := Scalar.extui v39
  let c0_i32_17 : BitVec 32 := 0#32
  let v41 : BitVec 1 := Scalar.cmpi .ne v40 c0_i32_17
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x345 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S100000x115x3_S100000x345 : S100000x115x3.ShapeCasts S100000x345
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x345_S5000x345_0_0 : ∀ a, (![0, 0] : Fin 2 → Nat) a + S5000x345.size a ≤ S5000x345.size a
  h_S5000x345 : 0 < S5000x345.numel
  shapeCasts_S5000x345_S5000x345 : S5000x345.ShapeCasts S5000x345
  slices_S5000x345_o0_120_S5000x63 : S5000x345.Slices ![0, 120] S5000x63
  slices_S5000x345_o0_282_S5000x63 : S5000x345.Slices ![0, 282] S5000x63
  natLt_1_32 : 1 < 32
  reduces_S5000x63_S5000 : S5000x63.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S_ : S1x1.ShapeCasts S_
  slices_S100000x115x3_S201x115x3_0_0_0 : S100000x115x3.Slices ![0, 0, 0] S201x115x3
  bcast_S_S201x115x3 : S_.BroadcastsInDim S201x115x3 (![] : Fin 0 → Fin S201x115x3.rank)
  slices_S201x115x3_S201x21x3_0_40_0 : S201x115x3.Slices ![0, 40, 0] S201x21x3
  slices_S201x115x3_S201x21x3_0_94_0 : S201x115x3.Slices ![0, 94, 0] S201x21x3
  slices_S201x115x3_S201x25x3_0_61_0 : S201x115x3.Slices ![0, 61, 0] S201x25x3
  slices_S201x115x3_S201x40x3_0_0_0 : S201x115x3.Slices ![0, 0, 0] S201x40x3
  bcast_S_S201x21x3 : S_.BroadcastsInDim S201x21x3 (![] : Fin 0 → Fin S201x21x3.rank)
  concatenates_S201x21x3_S201x25x3_S201x40x3_S201x86x3_d1 : Shape.Concatenates [S201x21x3, S201x25x3, S201x40x3] S201x86x3 1
  bcast_S_S201x86x3 : S_.BroadcastsInDim S201x86x3 (![] : Fin 0 → Fin S201x86x3.rank)
  slices_S201x86x3_S201x86x1_0_0_0 : S201x86x3.Slices ![0, 0, 0] S201x86x1
  shapeCasts_S201x86x1_S201x86 : S201x86x1.ShapeCasts S201x86
  bcast_S_S201x86 : S_.BroadcastsInDim S201x86 (![] : Fin 0 → Fin S201x86.rank)
  bcast_S201x86_S201x86x1_0_1 : S201x86.BroadcastsInDim S201x86x1 (![0, 1] : Fin 2 → Fin S201x86x1.rank)
  slices_S201x86x3_S201x86x2_0_0_1 : S201x86x3.Slices ![0, 0, 1] S201x86x2
  concatenates_S201x86x1_S201x86x2_S201x86x3_d2 : Shape.Concatenates [S201x86x1, S201x86x2] S201x86x3 2
  shapeCasts_S201x21x3_S201x63 : S201x21x3.ShapeCasts S201x63
  reducesTo_S201x63_S201_d1 : S201x63.ReducesTo [1] S201
  h_S_ : 0 < S_.numel
  bcast_S_S201 : S_.BroadcastsInDim S201 (![] : Fin 0 → Fin S201.rank)
  slices_S201x86x3_S200x86x3_0_0_0 : S201x86x3.Slices ![0, 0, 0] S200x86x3
  slices_S201x86x3_S200x86x3_1_0_0 : S201x86x3.Slices ![1, 0, 0] S200x86x3
  slices_S201x86x3_S201x21x3_0_0_0 : S201x86x3.Slices ![0, 0, 0] S201x21x3
  bcast_S_S210 : S_.BroadcastsInDim S210 (![] : Fin 0 → Fin S210.rank)
  bcast_S210_S210x1_0 : S210.BroadcastsInDim S210x1 (![0] : Fin 1 → Fin S210x1.rank)
  reducesTo_S201x210x3_S201x210_d2 : S201x210x3.ReducesTo [2] S201x210
  slices_S201x86x3_S201x25x2_0_21_0 : S201x86x3.Slices ![0, 21, 0] S201x25x2
  bcast_S_S300 : S_.BroadcastsInDim S300 (![] : Fin 0 → Fin S300.rank)
  bcast_S300_S300x1_0 : S300.BroadcastsInDim S300x1 (![0] : Fin 1 → Fin S300x1.rank)
  reducesTo_S201x300x2_S201x300_d2 : S201x300x2.ReducesTo [2] S201x300
  slices_S201x86x3_S201x20x2_0_46_0 : S201x86x3.Slices ![0, 46, 0] S201x20x2
  bcast_S_S190 : S_.BroadcastsInDim S190 (![] : Fin 0 → Fin S190.rank)
  bcast_S190_S190x1_0 : S190.BroadcastsInDim S190x1 (![0] : Fin 1 → Fin S190x1.rank)
  reducesTo_S201x190x2_S201x190_d2 : S201x190x2.ReducesTo [2] S201x190
  slices_S201x86x3_S201x20x2_0_66_0 : S201x86x3.Slices ![0, 66, 0] S201x20x2
  slices_S201x86x3_S200x21x3_0_0_0 : S201x86x3.Slices ![0, 0, 0] S200x21x3
  shapeCasts_S200x21x3_S200x63 : S200x21x3.ShapeCasts S200x63
  slices_S201x86x3_S200x25x2_0_21_0 : S201x86x3.Slices ![0, 21, 0] S200x25x2
  shapeCasts_S200x25x2_S200x50 : S200x25x2.ShapeCasts S200x50
  slices_S201x86x3_S200x20x2_0_46_0 : S201x86x3.Slices ![0, 46, 0] S200x20x2
  shapeCasts_S200x20x2_S200x40 : S200x20x2.ShapeCasts S200x40
  slices_S200x86x3_S200x21x3_0_0_0 : S200x86x3.Slices ![0, 0, 0] S200x21x3
  slices_S200x86x3_S200x25x2_0_21_0 : S200x86x3.Slices ![0, 21, 0] S200x25x2
  slices_S200x86x3_S200x20x2_0_46_0 : S200x86x3.Slices ![0, 46, 0] S200x20x2
  slices_S201x210_S200x210_0_0 : S201x210.Slices ![0, 0] S200x210
  slices_S201x300_S200x300_0_0 : S201x300.Slices ![0, 0] S200x300
  slices_S201x190_S200x190_0_0 : S201x190.Slices ![0, 0] S200x190
  slices_S201_S200_0 : S201.Slices ![0] S200
  bcast_S200_S200x1_0 : S200.BroadcastsInDim S200x1 (![0] : Fin 1 → Fin S200x1.rank)
  concatenates_S200x63_S200x50_S200x40_S200x63_S200x50_S200x40_S200x210_S200x300_S200x190_S200x190_S200x1_S200x1_S200x1198_d1 : Shape.Concatenates [S200x63, S200x50, S200x40, S200x63, S200x50, S200x40, S200x210, S200x300, S200x190, S200x190, S200x1, S200x1] S200x1198 1
  shapeCasts_S200x1198_S1x200x1198 : S200x1198.ShapeCasts S1x200x1198
  gather_S201x21x3_S210x1_S201x210x3_02_1_n_n_1_1_20113_wf : GatherDims.WF S201x21x3 S210x1 S201x210x3 [0, 2] [1] [] [1] [] 1 ![201, 1, 3]
  gather_S201x25x2_S300x1_S201x300x2_02_1_n_n_1_1_20112_wf : GatherDims.WF S201x25x2 S300x1 S201x300x2 [0, 2] [1] [] [1] [] 1 ![201, 1, 2]
  gather_S201x20x2_S190x1_S201x190x2_02_1_n_n_1_1_20112_wf : GatherDims.WF S201x20x2 S190x1 S201x190x2 [0, 2] [1] [] [1] [] 1 ![201, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x345.size a ≤ S100000x345.size a
  hwx0_0 : ∀ i : grid0.Coords, EltTy.bits .f32 = 32 ∨ (Rect.block (s := S100000x345) S5000x345.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S201x21x3_S210x1_S201x210x3_02_1_n_n_1_1_20113 : GatherDims S201x21x3 S210x1 S201x210x3 where
  offsetDims := [0, 2]
  collapsedSliceDims := [1]
  operandBatchingDims := []
  startIndicesBatchingDims := []
  startIndexMap := [1]
  indexVectorDim := 1
  sliceSizes := ![201, 1, 3]
  wf := gather_S201x21x3_S210x1_S201x210x3_02_1_n_n_1_1_20113_wf
def gather_S201x25x2_S300x1_S201x300x2_02_1_n_n_1_1_20112 : GatherDims S201x25x2 S300x1 S201x300x2 where
  offsetDims := [0, 2]
  collapsedSliceDims := [1]
  operandBatchingDims := []
  startIndicesBatchingDims := []
  startIndexMap := [1]
  indexVectorDim := 1
  sliceSizes := ![201, 1, 2]
  wf := gather_S201x25x2_S300x1_S201x300x2_02_1_n_n_1_1_20112_wf
def gather_S201x20x2_S190x1_S201x190x2_02_1_n_n_1_1_20112 : GatherDims S201x20x2 S190x1 S201x190x2 where
  offsetDims := [0, 2]
  collapsedSliceDims := [1]
  operandBatchingDims := []
  startIndicesBatchingDims := []
  startIndexMap := [1]
  indexVectorDim := 1
  sliceSizes := ![201, 1, 2]
  wf := gather_S201x20x2_S190x1_S201x190x2_02_1_n_n_1_1_20112_wf

abbrev win0_0 : Pipeline.Window sig grid0 :=
  Pipeline.Window.ofSpec (Memref.whole main_v0) S5000x345.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x115x3 : Shape := ⟨3, ![100000, 115, 3]⟩
abbrev S210 : Shape := ⟨1, ![210]⟩
abbrev S300 : Shape := ⟨1, ![300]⟩
abbrev S190 : Shape := ⟨1, ![190]⟩
abbrev S_ : Shape := ⟨0, ![]⟩
abbrev S100000x21x3 : Shape := ⟨3, ![100000, 21, 3]⟩
abbrev S100000x25x3 : Shape := ⟨3, ![100000, 25, 3]⟩
abbrev S100000x40x3 : Shape := ⟨3, ![100000, 40, 3]⟩
abbrev S100000x86x3 : Shape := ⟨3, ![100000, 86, 3]⟩
abbrev S100000x86x1 : Shape := ⟨3, ![100000, 86, 1]⟩
abbrev S100000x86 : Shape := ⟨2, ![100000, 86]⟩
abbrev S100000x86x2 : Shape := ⟨3, ![100000, 86, 2]⟩
abbrev S100000x63 : Shape := ⟨2, ![100000, 63]⟩
abbrev S100000 : Shape := ⟨1, ![100000]⟩
abbrev S99999x86x3 : Shape := ⟨3, ![99999, 86, 3]⟩
abbrev S1x86x3 : Shape := ⟨3, ![1, 86, 3]⟩
abbrev S210x1 : Shape := ⟨2, ![210, 1]⟩
abbrev S100000x210x3 : Shape := ⟨3, ![100000, 210, 3]⟩
abbrev S100000x210 : Shape := ⟨2, ![100000, 210]⟩
abbrev S100000x25x2 : Shape := ⟨3, ![100000, 25, 2]⟩
abbrev S300x1 : Shape := ⟨2, ![300, 1]⟩
abbrev S100000x300x2 : Shape := ⟨3, ![100000, 300, 2]⟩
abbrev S100000x300 : Shape := ⟨2, ![100000, 300]⟩
abbrev S100000x20x2 : Shape := ⟨3, ![100000, 20, 2]⟩
abbrev S190x1 : Shape := ⟨2, ![190, 1]⟩
abbrev S100000x190x2 : Shape := ⟨3, ![100000, 190, 2]⟩
abbrev S100000x190 : Shape := ⟨2, ![100000, 190]⟩
abbrev S100000x50 : Shape := ⟨2, ![100000, 50]⟩
abbrev S100000x40 : Shape := ⟨2, ![100000, 40]⟩
abbrev S100000x1 : Shape := ⟨2, ![100000, 1]⟩
abbrev S100000x1198 : Shape := ⟨2, ![100000, 1198]⟩
abbrev S200x1198 : Shape := ⟨2, ![200, 1198]⟩
abbrev S1x200x1198 : Shape := ⟨3, ![1, 200, 1198]⟩

abbrev nBuf : Space → Nat
  | .hbm => 154
  | .vmem => 0
  | .smem => 0
  | _ => 0

abbrev hbmTy0_0 (i : Nat) : BufTy := match i % 128 with
  | 0 => ⟨S100000x115x3, .f32⟩
  | 1 => ⟨S210, .i32⟩
  | 2 => ⟨S210, .i1⟩
  | 3 => ⟨S210, .i32⟩
  | 4 => ⟨S210, .i1⟩
  | 5 => ⟨S300, .i32⟩
  | 6 => ⟨S300, .i1⟩
  | 7 => ⟨S300, .i32⟩
  | 8 => ⟨S300, .i1⟩
  | 9 => ⟨S190, .i32⟩
  | 10 => ⟨S190, .i1⟩
  | 11 => ⟨S190, .i32⟩
  | 12 => ⟨S190, .i1⟩
  | 13 => ⟨S190, .i1⟩
  | 14 => ⟨S190, .i1⟩
  | 15 => ⟨S100000x115x3, .i1⟩
  | 16 => ⟨S_, .f32⟩
  | 17 => ⟨S100000x115x3, .f32⟩
  | 18 => ⟨S100000x115x3, .f32⟩
  | 19 => ⟨S100000x21x3, .f32⟩
  | 20 => ⟨S100000x21x3, .f32⟩
  | 21 => ⟨S100000x25x3, .f32⟩
  | 22 => ⟨S100000x40x3, .f32⟩
  | 23 => ⟨S_, .f32⟩
  | 24 => ⟨S100000x21x3, .f32⟩
  | 25 => ⟨S100000x21x3, .i1⟩
  | 26 => ⟨S100000x21x3, .f32⟩
  | 27 => ⟨S_, .f32⟩
  | 28 => ⟨S_, .f32⟩
  | 29 => ⟨S_, .f32⟩
  | 30 => ⟨S100000x21x3, .f32⟩
  | 31 => ⟨S100000x21x3, .i1⟩
  | 32 => ⟨S100000x21x3, .f32⟩
  | 33 => ⟨S_, .f32⟩
  | 34 => ⟨S_, .f32⟩
  | 35 => ⟨S_, .i1⟩
  | 36 => ⟨S100000x21x3, .f32⟩
  | 37 => ⟨S100000x86x3, .f32⟩
  | 38 => ⟨S100000x86x3, .f32⟩
  | 39 => ⟨S100000x86x3, .f32⟩
  | 40 => ⟨S100000x86x1, .f32⟩
  | 41 => ⟨S100000x86, .f32⟩
  | 42 => ⟨S100000x86, .f32⟩
  | 43 => ⟨S100000x86x1, .f32⟩
  | 44 => ⟨S100000x86, .f32⟩
  | 45 => ⟨S100000x86, .f32⟩
  | 46 => ⟨S100000x86x1, .f32⟩
  | 47 => ⟨S100000x86x2, .f32⟩
  | 48 => ⟨S100000x86x3, .f32⟩
  | 49 => ⟨S100000x63, .f32⟩
  | 50 => ⟨S_, .f32⟩
  | 51 => ⟨S100000, .f32⟩
  | 52 => ⟨S_, .f32⟩
  | 53 => ⟨S100000, .f32⟩
  | 54 => ⟨S100000, .i1⟩
  | 55 => ⟨S100000, .f32⟩
  | 56 => ⟨S_, .f32⟩
  | 57 => ⟨S100000, .f32⟩
  | 58 => ⟨S100000, .f32⟩
  | 59 => ⟨S99999x86x3, .f32⟩
  | 60 => ⟨S99999x86x3, .f32⟩
  | 61 => ⟨S99999x86x3, .f32⟩
  | 62 => ⟨S_, .f32⟩
  | 63 => ⟨S1x86x3, .f32⟩
  | 64 => ⟨S100000x86x3, .f32⟩
  | 65 => ⟨S100000x21x3, .f32⟩
  | 66 => ⟨S_, .i32⟩
  | 67 => ⟨S210, .i32⟩
  | 68 => ⟨S210, .i32⟩
  | 69 => ⟨S210, .i32⟩
  | 70 => ⟨S210x1, .i32⟩
  | 71 => ⟨S100000x210x3, .f32⟩
  | 72 => ⟨S_, .i32⟩
  | 73 => ⟨S210, .i32⟩
  | 74 => ⟨S210, .i32⟩
  | 75 => ⟨S210, .i32⟩
  | 76 => ⟨S210x1, .i32⟩
  | 77 => ⟨S100000x210x3, .f32⟩
  | 78 => ⟨S100000x210x3, .f32⟩
  | 79 => ⟨S100000x210x3, .f32⟩
  | 80 => ⟨S_, .f32⟩
  | 81 => ⟨S100000x210, .f32⟩
  | 82 => ⟨S100000x210, .f32⟩
  | 83 => ⟨S100000x25x2, .f32⟩
  | 84 => ⟨S_, .i32⟩
  | 85 => ⟨S300, .i32⟩
  | 86 => ⟨S300, .i32⟩
  | 87 => ⟨S300, .i32⟩
  | 88 => ⟨S300x1, .i32⟩
  | 89 => ⟨S100000x300x2, .f32⟩
  | 90 => ⟨S_, .i32⟩
  | 91 => ⟨S300, .i32⟩
  | 92 => ⟨S300, .i32⟩
  | 93 => ⟨S300, .i32⟩
  | 94 => ⟨S300x1, .i32⟩
  | 95 => ⟨S100000x300x2, .f32⟩
  | 96 => ⟨S100000x300x2, .f32⟩
  | 97 => ⟨S100000x300x2, .f32⟩
  | 98 => ⟨S_, .f32⟩
  | 99 => ⟨S100000x300, .f32⟩
  | 100 => ⟨S100000x300, .f32⟩
  | 101 => ⟨S100000x20x2, .f32⟩
  | 102 => ⟨S_, .i32⟩
  | 103 => ⟨S190, .i32⟩
  | 104 => ⟨S190, .i32⟩
  | 105 => ⟨S190, .i32⟩
  | 106 => ⟨S190x1, .i32⟩
  | 107 => ⟨S100000x190x2, .f32⟩
  | 108 => ⟨S_, .i32⟩
  | 109 => ⟨S190, .i32⟩
  | 110 => ⟨S190, .i32⟩
  | 111 => ⟨S190, .i32⟩
  | 112 => ⟨S190x1, .i32⟩
  | 113 => ⟨S100000x190x2, .f32⟩
  | 114 => ⟨S100000x190x2, .f32⟩
  | 115 => ⟨S100000x190x2, .f32⟩
  | 116 => ⟨S_, .f32⟩
  | 117 => ⟨S100000x190, .f32⟩
  | 118 => ⟨S100000x190, .f32⟩
  | 119 => ⟨S100000x20x2, .f32⟩
  | 120 => ⟨S_, .i32⟩
  | 121 => ⟨S190, .i32⟩
  | 122 => ⟨S190, .i32⟩
  | 123 => ⟨S190, .i32⟩
  | 124 => ⟨S190x1, .i32⟩
  | 125 => ⟨S100000x190x2, .f32⟩
  | 126 => ⟨S_, .i32⟩
  | 127 => ⟨S190, .i32⟩
  | _ => ⟨S100000x115x3, .f32⟩

abbrev hbmTy0_1 (i : Nat) : BufTy := match i % 128 with
  | 0 => ⟨S190, .i32⟩
  | 1 => ⟨S190, .i32⟩
  | 2 => ⟨S190x1, .i32⟩
  | 3 => ⟨S100000x190x2, .f32⟩
  | 4 => ⟨S100000x190x2, .f32⟩
  | 5 => ⟨S100000x190x2, .f32⟩
  | 6 => ⟨S_, .f32⟩
  | 7 => ⟨S100000x190, .f32⟩
  | 8 => ⟨S100000x190, .f32⟩
  | 9 => ⟨S100000x21x3, .f32⟩
  | 10 => ⟨S100000x63, .f32⟩
  | 11 => ⟨S100000x25x2, .f32⟩
  | 12 => ⟨S100000x50, .f32⟩
  | 13 => ⟨S100000x20x2, .f32⟩
  | 14 => ⟨S100000x40, .f32⟩
  | 15 => ⟨S100000x21x3, .f32⟩
  | 16 => ⟨S100000x63, .f32⟩
  | 17 => ⟨S100000x25x2, .f32⟩
  | 18 => ⟨S100000x50, .f32⟩
  | 19 => ⟨S100000x20x2, .f32⟩
  | 20 => ⟨S100000x40, .f32⟩
  | 21 => ⟨S100000x1, .f32⟩
  | 22 => ⟨S100000x1, .f32⟩
  | 23 => ⟨S100000x1198, .f32⟩
  | 24 => ⟨S200x1198, .f32⟩
  | 25 => ⟨S1x200x1198, .f32⟩
  | _ => ⟨S100000x115x3, .f32⟩

abbrev hbmTy (i : Nat) : BufTy := match i / 128 with
  | 0 => hbmTy0_0 i
  | 1 => hbmTy0_1 i
  | _ => ⟨S100000x115x3, .f32⟩

abbrev bufTy : (tb : Table) → Fin (tcTables nBuf tb) → BufTy
  | .hbm, ⟨i, _⟩ => hbmTy i
  | _, _ => ⟨S100000x115x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_v0 : Ref sig .tc := ⟨.hbm, 15, rfl⟩
abbrev main_cst : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_13 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_14 : Ref sig .tc := ⟨.hbm, 27, rfl⟩
abbrev main_v9 : Ref sig .tc := ⟨.hbm, 28, rfl⟩
abbrev main_cst_15 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_16 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_17 : Ref sig .tc := ⟨.hbm, 50, rfl⟩
abbrev main_v29 : Ref sig .tc := ⟨.hbm, 51, rfl⟩
abbrev main_cst_18 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_19 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_20 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_21 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_22 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_23 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_24 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_25 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_26 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_27 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_28 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_29 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_30 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_31 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_32 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]

class Facts₀ : Prop where
  bcast_S_S100000x115x3 : S_.BroadcastsInDim S100000x115x3 (![] : Fin 0 → Fin S100000x115x3.rank)
  slices_S100000x115x3_S100000x21x3_0_40_0 : S100000x115x3.Slices ![0, 40, 0] S100000x21x3
  slices_S100000x115x3_S100000x21x3_0_94_0 : S100000x115x3.Slices ![0, 94, 0] S100000x21x3
  slices_S100000x115x3_S100000x25x3_0_61_0 : S100000x115x3.Slices ![0, 61, 0] S100000x25x3
  slices_S100000x115x3_S100000x40x3_0_0_0 : S100000x115x3.Slices ![0, 0, 0] S100000x40x3
  bcast_S_S100000x21x3 : S_.BroadcastsInDim S100000x21x3 (![] : Fin 0 → Fin S100000x21x3.rank)
  reducesTo_S100000x21x3_S_d0_1_2 : S100000x21x3.ReducesTo [0, 1, 2] S_
  h_S_ : 0 < S_.numel
  concatenates_S100000x21x3_S100000x25x3_S100000x40x3_S100000x86x3_d1 : Shape.Concatenates [S100000x21x3, S100000x25x3, S100000x40x3] S100000x86x3 1
  bcast_S_S100000x86x3 : S_.BroadcastsInDim S100000x86x3 (![] : Fin 0 → Fin S100000x86x3.rank)
  slices_S100000x86x3_S100000x86x1_0_0_0 : S100000x86x3.Slices ![0, 0, 0] S100000x86x1
  shapeCasts_S100000x86x1_S100000x86 : S100000x86x1.ShapeCasts S100000x86
  bcast_S_S100000x86 : S_.BroadcastsInDim S100000x86 (![] : Fin 0 → Fin S100000x86.rank)
  bcast_S100000x86_S100000x86x1_0_1 : S100000x86.BroadcastsInDim S100000x86x1 (![0, 1] : Fin 2 → Fin S100000x86x1.rank)
  slices_S100000x86x3_S100000x86x2_0_0_1 : S100000x86x3.Slices ![0, 0, 1] S100000x86x2
  concatenates_S100000x86x1_S100000x86x2_S100000x86x3_d2 : Shape.Concatenates [S100000x86x1, S100000x86x2] S100000x86x3 2
  shapeCasts_S100000x21x3_S100000x63 : S100000x21x3.ShapeCasts S100000x63
  reducesTo_S100000x63_S100000_d1 : S100000x63.ReducesTo [1] S100000
  bcast_S_S100000 : S_.BroadcastsInDim S100000 (![] : Fin 0 → Fin S100000.rank)
  slices_S100000x86x3_S99999x86x3_0_0_0 : S100000x86x3.Slices ![0, 0, 0] S99999x86x3
  slices_S100000x86x3_S99999x86x3_1_0_0 : S100000x86x3.Slices ![1, 0, 0] S99999x86x3
  bcast_S_S1x86x3 : S_.BroadcastsInDim S1x86x3 (![] : Fin 0 → Fin S1x86x3.rank)
  concatenates_S99999x86x3_S1x86x3_S100000x86x3_d0 : Shape.Concatenates [S99999x86x3, S1x86x3] S100000x86x3 0
  slices_S100000x86x3_S100000x21x3_0_0_0 : S100000x86x3.Slices ![0, 0, 0] S100000x21x3
  bcast_S_S210 : S_.BroadcastsInDim S210 (![] : Fin 0 → Fin S210.rank)
  bcast_S210_S210x1_0 : S210.BroadcastsInDim S210x1 (![0] : Fin 1 → Fin S210x1.rank)
  reducesTo_S100000x210x3_S100000x210_d2 : S100000x210x3.ReducesTo [2] S100000x210
  slices_S100000x86x3_S100000x25x2_0_21_0 : S100000x86x3.Slices ![0, 21, 0] S100000x25x2
  bcast_S_S300 : S_.BroadcastsInDim S300 (![] : Fin 0 → Fin S300.rank)
  bcast_S300_S300x1_0 : S300.BroadcastsInDim S300x1 (![0] : Fin 1 → Fin S300x1.rank)
  reducesTo_S100000x300x2_S100000x300_d2 : S100000x300x2.ReducesTo [2] S100000x300
  slices_S100000x86x3_S100000x20x2_0_46_0 : S100000x86x3.Slices ![0, 46, 0] S100000x20x2
  bcast_S_S190 : S_.BroadcastsInDim S190 (![] : Fin 0 → Fin S190.rank)
  bcast_S190_S190x1_0 : S190.BroadcastsInDim S190x1 (![0] : Fin 1 → Fin S190x1.rank)
  reducesTo_S100000x190x2_S100000x190_d2 : S100000x190x2.ReducesTo [2] S100000x190
  slices_S100000x86x3_S100000x20x2_0_66_0 : S100000x86x3.Slices ![0, 66, 0] S100000x20x2
  shapeCasts_S100000x25x2_S100000x50 : S100000x25x2.ShapeCasts S100000x50
  shapeCasts_S100000x20x2_S100000x40 : S100000x20x2.ShapeCasts S100000x40
  bcast_S100000_S100000x1_0 : S100000.BroadcastsInDim S100000x1 (![0] : Fin 1 → Fin S100000x1.rank)
  concatenates_S100000x63_S100000x50_S100000x40_S100000x63_S100000x50_S100000x40_S100000x210_S100000x300_S100000x190_S100000x190_S100000x1_S100000x1_S100000x1198_d1 : Shape.Concatenates [S100000x63, S100000x50, S100000x40, S100000x63, S100000x50, S100000x40, S100000x210, S100000x300, S100000x190, S100000x190, S100000x1, S100000x1] S100000x1198 1
  slices_S100000x1198_S200x1198_0_0 : S100000x1198.Slices ![0, 0] S200x1198
  shapeCasts_S200x1198_S1x200x1198 : S200x1198.ShapeCasts S1x200x1198
  gather_S100000x21x3_S210x1_S100000x210x3_02_1_n_n_1_1_10000013_wf : GatherDims.WF S100000x21x3 S210x1 S100000x210x3 [0, 2] [1] [] [1] [] 1 ![100000, 1, 3]
  gather_S100000x25x2_S300x1_S100000x300x2_02_1_n_n_1_1_10000012_wf : GatherDims.WF S100000x25x2 S300x1 S100000x300x2 [0, 2] [1] [] [1] [] 1 ![100000, 1, 2]
  gather_S100000x20x2_S190x1_S100000x190x2_02_1_n_n_1_1_10000012_wf : GatherDims.WF S100000x20x2 S190x1 S100000x190x2 [0, 2] [1] [] [1] [] 1 ![100000, 1, 2]

variable [Facts₀]

def gather_S100000x21x3_S210x1_S100000x210x3_02_1_n_n_1_1_10000013 : GatherDims S100000x21x3 S210x1 S100000x210x3 where
  offsetDims := [0, 2]
  collapsedSliceDims := [1]
  operandBatchingDims := []
  startIndicesBatchingDims := []
  startIndexMap := [1]
  indexVectorDim := 1
  sliceSizes := ![100000, 1, 3]
  wf := gather_S100000x21x3_S210x1_S100000x210x3_02_1_n_n_1_1_10000013_wf
def gather_S100000x25x2_S300x1_S100000x300x2_02_1_n_n_1_1_10000012 : GatherDims S100000x25x2 S300x1 S100000x300x2 where
  offsetDims := [0, 2]
  collapsedSliceDims := [1]
  operandBatchingDims := []
  startIndicesBatchingDims := []
  startIndexMap := [1]
  indexVectorDim := 1
  sliceSizes := ![100000, 1, 2]
  wf := gather_S100000x25x2_S300x1_S100000x300x2_02_1_n_n_1_1_10000012_wf
def gather_S100000x20x2_S190x1_S100000x190x2_02_1_n_n_1_1_10000012 : GatherDims S100000x20x2 S190x1 S100000x190x2 where
  offsetDims := [0, 2]
  collapsedSliceDims := [1]
  operandBatchingDims := []
  startIndicesBatchingDims := []
  startIndexMap := [1]
  indexVectorDim := 1
  sliceSizes := ![100000, 1, 2]
  wf := gather_S100000x20x2_S190x1_S100000x190x2_02_1_n_n_1_1_10000012_wf

class Facts : Prop extends Facts₀ where

variable [Facts]
-- ==== Proof.KB.Runs.lean ====
import proofs.«176904_j2095944041143_2_alg».proof.Proof.Gen.Kernel.Launch
import proofs.«176904_j2095944041143_2_alg».proof.Proof.Gen.Kernel.Skeleton
import proofs.«176904_j2095944041143_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region, one fact per line -/

/-- A host line that allocates nothing and whose one result buffer is none of the four protected buffers:
    the region's three arrays and the program's argument. -/
def Safe (op : HloOp τ sig (Elt F)) : Prop :=
  op.fresh = ∅ ∧ (∀ w, Proc.devRef .tc (Pipeline.arrRef spec0 w) ∉ op.writes) ∧ Proc.devRef .tc main_arg0 ∉ op.writes

/-- A line that writes the one buffer `y`, different from the four, is safe. -/
theorem safe_of_writes {op : HloOp τ sig (Elt F)} {y : Ref sig .tc} (hf : op.fresh = ∅) (hw : op.writes = {Proc.devRef .tc y})
    (h0 : main_v0 ≠ y) (h1 : main_v1_0 ≠ y) (h2 : main_v1_1 ≠ y) (h3 : main_arg0 ≠ y) : Safe op := by
  refine ⟨hf, fun w => ?_, ?_⟩
  · rw [hw, Finset.mem_singleton]
    fin_cases w
    · exact StableHlo.devRef_ne_of_ne h0
    · exact StableHlo.devRef_ne_of_ne h1
    · exact StableHlo.devRef_ne_of_ne h2
  · rw [hw, Finset.mem_singleton]; exact StableHlo.devRef_ne_of_ne h3

theorem not_writes_of {op : HloOp τ sig (Elt F)} {y : Ref sig .tc} (hw : op.writes = {Proc.devRef .tc y})
    (h : main_arg0 ≠ y) : Proc.devRef .tc main_arg0 ∉ op.writes := by
  rw [hw, Finset.mem_singleton]; exact StableHlo.devRef_ne_of_ne h

/-- One line's fact: its result buffer is read off the line, the four inequalities of references are decided. -/
local macro "safe1" : term => `(safe_of_writes rfl rfl (by decide) (by decide) (by decide) (by decide))
local macro "not_writes1" : term => `(not_writes_of rfl (by decide))

theorem hostOps1_safe : (hostOps1 : List (HloOp τ sig (Elt F))).Forall Safe :=
  ⟨safe1, safe1, safe1, safe1, safe1, safe1⟩

theorem hostOps1_1_safe : (hostOps1_1 : List (HloOp τ sig (Elt F))).Forall Safe :=
  ⟨safe1, safe1, safe1⟩

theorem hostOps1_2_safe : (hostOps1_2 : List (HloOp τ sig (Elt F))).Forall Safe :=
  ⟨safe1, safe1, safe1, safe1⟩

theorem hostOps1_3_safe : (hostOps1_3 : List (HloOp τ sig (Elt F))).Forall Safe :=
  safe1

theorem hostOps1_4_safe : (hostOps1_4 : List (HloOp τ sig (Elt F))).Forall Safe :=
  ⟨safe1, safe1⟩

theorem hostOps1_5_safe : (hostOps1_5 : List (HloOp τ sig (Elt F))).Forall Safe :=
  safe1

theorem hostOps1_6_safe : (hostOps1_6 : List (HloOp τ sig (Elt F))).Forall Safe :=
  ⟨safe1, safe1, safe1, safe1, safe1⟩

theorem hostOps1_7_safe : (hostOps1_7 : List (HloOp τ sig (Elt F))).Forall Safe :=
  safe1

set_option maxHeartbeats 40000000 in
theorem hostOps1_8_safe : (hostOps1_8 : List (HloOp τ sig (Elt F))).Forall Safe :=
  ⟨safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1⟩

/-! ## @main around the region -/

/-- Core `c`'s TensorCore buffer contents when the region is entered, as a valuation: the program's contents
    after the fifteen host lines that precede the region (fourteen constants and the reshape of the argument),
    kept as a fold. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl⟩

/-- None of them writes the program's argument: each writes its own result, a different buffer. -/
theorem hostOps0_keeps_arg : ∀ op ∈ (hostOps0 : List (HloOp τ sig (Elt F))), Proc.devRef .tc main_arg0 ∉ op.writes := by
  have h : (hostOps0 : List (HloOp τ sig (Elt F))).Forall fun op => Proc.devRef .tc main_arg0 ∉ op.writes :=
    ⟨not_writes1, not_writes1, not_writes1, not_writes1, not_writes1, not_writes1, not_writes1, not_writes1, not_writes1, not_writes1, not_writes1, not_writes1, not_writes1, not_writes1, not_writes1⟩
  exact List.forall_iff_forall_mem.mp h

/-- The lines after the region, stretch by stretch: 133 host lines in nine stretches. -/
theorem tail_safe : ([hostOps1, hostOps1_1, hostOps1_2, hostOps1_3, hostOps1_4, hostOps1_5, hostOps1_6, hostOps1_7, hostOps1_8] : List (List (HloOp τ sig (Elt F)))).Forall fun ops => ops.Forall Safe :=
  ⟨hostOps1_safe, hostOps1_1_safe, hostOps1_2_safe, hostOps1_3_safe, hostOps1_4_safe, hostOps1_5_safe, hostOps1_6_safe, hostOps1_7_safe, hostOps1_8_safe⟩

theorem tail_tc : ([hostOps1, hostOps1_1, hostOps1_2, hostOps1_3, hostOps1_4, hostOps1_5, hostOps1_6, hostOps1_7, hostOps1_8] : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub⟩

/-- @main around the region: the host lines before it, the region, the host lines after it; it reduces to the
    region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6, hostOps1_7, hostOps1_8].map StableHlo.seq)) :=
  Pipeline.hmain_around cfgs 0 defs₀ 𝒱₀ m main [hostOps0] [hostOps1, hostOps1_1, hostOps1_2, hostOps1_3, hostOps1_4, hostOps1_5, hostOps1_6, hostOps1_7, hostOps1_8] hostOps0_sub hostOps0_fresh main_chain

/-- The lines after the region touch the pipeline's arrays and the bypassing buffers only. -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_tc) ops hops)) op hop)
/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ :=
  fun ops hops op hop => ((List.forall_iff_forall_mem.mp ((List.forall_iff_forall_mem.mp tail_safe) ops hops)) op hop).1
/-- And write no array of the pipeline. -/
theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes :=
  fun ops hops op hop => ((List.forall_iff_forall_mem.mp ((List.forall_iff_forall_mem.mp tail_safe) ops hops)) op hop).2.1
/-- Nor the program's argument. -/
theorem sfx_keeps_arg : ∀ op ∈ ([hostOps1, hostOps1_1, hostOps1_2, hostOps1_3, hostOps1_4, hostOps1_5, hostOps1_6, hostOps1_7, hostOps1_8] : List (List (HloOp τ sig (Elt F)))).flatten, Proc.devRef .tc main_arg0 ∉ op.writes := by
  intro op hop
  obtain ⟨ops, hops, hop'⟩ := List.mem_flatten.mp hop
  exact ((List.forall_iff_forall_mem.mp ((List.forall_iff_forall_mem.mp tail_safe) ops hops)) op hop').2.2

/-- The argument is as the program found it when the region is entered. -/
theorem V_main_arg0 (c : Dev nD) : V m c main_arg0 = m ((c : Thread nD τ).loc main_arg0) :=
  StableHlo.after_of_forall_not_mem _ _ (by simpa only [List.flatten_cons, List.flatten_nil, List.append_nil] using hostOps0_keeps_arg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for ANY proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is no array of the pipeline and is unscoped: it is among the buffers that bypass the region. -/
theorem arg0_rest : main_arg0 ∈ Pipeline.restRefs sig spec0 :=
  Pipeline.mem_restRefs_of main_arg0 rfl (by decide)

/-- THE FRAME from a frame run: the argument bypasses the region, so the run's post gives it at what the later lines
    leave in it, which is what the region's entry had (no later line writes it, and it is no array), which is what
    the program started with (no earlier line writes it). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_rest).trans (by
    unfold Pipeline.afterTail₀
    rw [StableHlo.after_of_forall_not_mem _ _ sfx_keeps_arg,
      Pipeline.withArrays_of_ne spec0 c _ _ main_arg0 (by decide)]
    exact V_main_arg0 m c)) h

/-! ## The body's branch conditions -/

/-- The condition of the body's first `scf.if` (the reset of the two accumulators), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second `scf.if` (the two results stored). -/
abbrev cond0_1 (i : grid0.Coords) : Prop := k0_cond2 i = 1#1
/-- It holds at the last point only. -/
theorem hcond0_1 : ∀ t : Fin cfg0.N, cond0_1 (grid0.coords t) ↔ t.val = 19 :=
  (by decide +kernel : ∀ t : Fin grid0.N, cond0_1 (grid0.coords t) ↔ t.val = 19)

/-! ## Where the windows are idle -/

/-- The input window is never idle. -/
theorem liveAt0_0 : ∀ t : Fin cfg0.N, cfg0.idle 0 (grid0.coords t) = false := by decide +kernel
/-- Away from the last point the two output windows are idle and not written back; at the last point they are live. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of each output window, through which its contents are stated. -/
abbrev VO0_1 : View sig .tc .vmem S1x1 .f32 := (Memref.whole cc0_stg1_0 : Memref sig .tc .vmem S1x1 .f32).view
abbrev VO0_2 : View sig .tc .vmem S1x1 .f32 := (Memref.whole cc0_stg2_0 : Memref sig .tc .vmem S1x1 .f32).view
/-- Each window's current staging memref at point `t`, spelled as the pipeline passes it, and its wholeness. -/
abbrev ms0_0 (t : Fin cfg0.N) : Memref sig .tc .vmem S5000x345 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The two scratch operands: whole scoped buffers of the kernel's own, each one running count. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KB.RunA.lean ====
import proofs.«176904_j2095944041143_2_alg».proof.Proof.KB.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT THE FIRST POINT (the reset taken, the results not stored). On whole memrefs — the input block at its
    contents `x0`, the two idle result buffers at contents handed back untouched, the two accumulators at anything — the body
    runs to the continuation holding the input and the result buffers as they were and each accumulator with its stores
    written: the pieces (last store first) are the witness the run finds. -/
noncomputable def kernelRun0_A (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x345 .f32) :
    Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Fr

end
-- ==== Proof.KB.RunB.lean ====
import proofs.«176904_j2095944041143_2_alg».proof.Proof.KB.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A MIDDLE POINT (no reset, the results not stored): as at the first point, but each accumulator is found
    at the contents the point before left (`xs0`, `xs1`). -/
noncomputable def kernelRun0_B (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x345 .f32) (xs0 xs1 : Vec F S1x1 .f32) :
    Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Fr

end
-- ==== Proof.KB.RunC.lean ====
import proofs.«176904_j2095944041143_2_alg».proof.Proof.KB.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT THE LAST POINT (no reset, the results stored): the accumulators are found at what the point before left;
    the two result buffers, found at anything, end with their stores written too (`L1`, `L2`). -/
noncomputable def kernelRun0_C (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x345 .f32) (xs0 xs1 : Vec F S1x1 .f32) :
    Σ' (L1 : List (View.Piece (Elt F) S1x1 .f32)) (L2 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Fr

end
-- ==== Proof.KB.Frame.lean ====
import proofs.«176904_j2095944041143_2_alg».proof.Proof.KB.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators and the result buffers -/

/-- The first point's stores into the first accumulator tile it, so they cover it; -/
theorem scover0_A_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) (y : S1x1.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x1.size (by sl_kernel_rfl) y
/-- what they leave there: the pieces read back (over anything). -/
def sout0_A_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) : Vec F S1x1 .f32 :=
  VS0_0.read (Elt F) (VS0_0.writes (Elt F) VS0_0.junk (kernelRun0_A c i arg1 harg1 arg2 harg2 arg3 harg3 arg4 harg4 arg5 harg5 hc0 hc1 x0).1)
/-- The same for the second accumulator. -/
theorem scover0_A_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) (y : S1x1.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x1.size (by sl_kernel_rfl) y
def sout0_A_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) : Vec F S1x1 .f32 :=
  VS0_1.read (Elt F) (VS0_1.writes (Elt F) VS0_1.junk (kernelRun0_A c i arg1 harg1 arg2 harg2 arg3 harg3 arg4 harg4 arg5 harg5 hc0 hc1 x0).2.1)

/-- A middle point's stores into the first accumulator tile it, so they cover it; -/
theorem scover0_B_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) (y : S1x1.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x1.size (by sl_kernel_rfl) y
/-- what they leave there: the pieces read back (over anything). -/
def sout0_B_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 xs0 xs1).1)
/-- The same for the second accumulator. -/
theorem scover0_B_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) (y : S1x1.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x1.size (by sl_kernel_rfl) y
def sout0_B_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) : Vec F S1x1 .f32 :=
  VS0_1.read (Elt F) (VS0_1.writes (Elt F) VS0_1.junk (kernelRun0_B c i arg1 harg1 arg2 harg2 arg3 harg3 arg4 harg4 arg5 harg5 hc0 hc1 x0 xs0 xs1).2.1)

/-- The last point's stores into the first accumulator tile it, so they cover it; -/
theorem scover0_C_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1.size (by sl_kernel_rfl) y
/-- what they leave there: the pieces read back (over anything). -/
def sout0_C_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 xs0 xs1).2.2.1)
/-- The same for the second accumulator. -/
theorem scover0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1.size (by sl_kernel_rfl) y
def sout0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VS0_1.read (Elt F) (VS0_1.writes (Elt F) VS0_1.junk (kernelRun0_C c i arg1 harg1 arg2 harg2 arg3 harg3 arg4 harg4 arg5 harg5 hc0 hc1 x0 xs0 xs1).2.2.2.1)

/-- The last point's one store into each result buffer tiles it. -/
theorem cover0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1.size (by sl_kernel_rfl) y
def out0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VO0_1.read (Elt F) (VO0_1.writes (Elt F) VO0_1.junk (kernelRun0_C c i arg1 harg1 arg2 harg2 arg3 harg3 arg4 harg4 arg5 harg5 hc0 hc1 x0 xs0 xs1).1)
theorem cover0_C_2 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1.size (by sl_kernel_rfl) y
def out0_C_2 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VO0_2.read (Elt F) (VO0_2.writes (Elt F) VO0_2.junk (kernelRun0_C c i arg1 harg1 arg2 harg2 arg3 harg3 arg4 harg4 arg5 harg5 hc0 hc1 x0 xs0 xs1).2.1)

/-- What a result buffer is said to hold after a point that stores nothing into it: a placeholder nothing consults
    (there the window is idle and not written back). -/
def idleOut1 : Vec F S1x1 .f32 := VO0_1.read (Elt F) VO0_1.junk
def idleOut2 : Vec F S1x1 .f32 := VO0_2.read (Elt F) VO0_2.junk

/-! ## What the buffers hold after each point -/

theorem not_c0_succ (n : ℕ) (hn : n + 1 < cfg0.N) : ¬cond0_0 (grid0.coords ⟨n + 1, hn⟩) :=
  fun h => absurd ((hcond0_0 ⟨n + 1, hn⟩).mp h) (Nat.succ_ne_zero n)
theorem c0_zero (hn : 0 < cfg0.N) : cond0_0 (grid0.coords ⟨0, hn⟩) := (hcond0_0 ⟨0, hn⟩).mpr rfl
theorem not_c1_zero (hn : 0 < cfg0.N) : ¬cond0_1 (grid0.coords ⟨0, hn⟩) :=
  fun h => absurd ((hcond0_1 ⟨0, hn⟩).mp h) (show ¬(0 : ℕ) = 19 from by decide)

/-- THE ACCUMULATION. After the body at position `n`: (result buffer 1, result buffer 2, accumulator 0, accumulator 1).
    The first point resets and adds; every later point adds to what the point before left; the last also stores the
    two accumulators into the result buffers. -/
def outsAt0 (c : Dev nD) : (n : ℕ) → n < cfg0.N → Vec F S1x1 .f32 × Vec F S1x1 .f32 × Vec F S1x1 .f32 × Vec F S1x1 .f32
  | 0, hn => (idleOut1, idleOut2,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) (c0_zero hn) (not_c1_zero hn) (iblk m c 0 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) (c0_zero hn) (not_c1_zero hn) (iblk m c 0 ⟨0, hn⟩))
  | n + 1, hn =>
    if h1 : n + 1 = 19 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2,
       out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2)
    else
      (idleOut1, idleOut2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) (fun h => h1 ((hcond0_1 ⟨n + 1, hn⟩).mp h)) (iblk m c 0 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) (fun h => h1 ((hcond0_1 ⟨n + 1, hn⟩).mp h)) (iblk m c 0 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) (hc0 : cond0_0 (grid0.coords t)) (hc1 : ¬cond0_1 (grid0.coords t)) :
    outsAt0 m c t.val t.isLt = (idleOut1, idleOut2,
      sout0_A_0 c (grid0.coords t) (ms0_0 t) (hs0_0 t) (ms0_1 t) (hs0_1 t) (ms0_2 t) (hs0_2 t) scM0_0 (Memref.isWhole_whole _) scM0_1 (Memref.isWhole_whole _) hc0 hc1 (iblk m c 0 t),
      sout0_A_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 19) (hc0 : ¬cond0_0 (grid0.coords t)) (hc1 : ¬cond0_1 (grid0.coords t)) :
    outsAt0 m c t.val t.isLt = (idleOut1, idleOut2,
      sout0_B_0 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 19) (hc0 : ¬cond0_0 (grid0.coords t)) (hc1 : cond0_1 (grid0.coords t)) :
    outsAt0 m c t.val t.isLt = (
      out0_C_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      out0_C_2 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: before the first point the class's (every scratch at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    the input's buffer at its block and the two result buffers at `outsAt0`'s first two components; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The input's memref holds its block; the point is the first, a middle one or the last, and
    that case's run applies: the invariant hands the body the two accumulators (at anything at the first point, at what the
    point before left afterwards) and takes them back at this point's contents (the stores cover them); the result
    buffers are handed back untouched except at the last point, where the stores cover them; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (ms0_0 t) fullShare ((dats m 0 c).after 0 t) from by
    unfold Dat.leavesExact; rw [liveAt0_0 t], after0_0]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dats m 0 c) 1 t (idleAt0_1 t hc1) (noFlush0_1 t hc1)]
    rw [Dat.leavesExact_idle (dats m 0 c) 2 t (idleAt0_2 t hc1) (noFlush0_2 t hc1)]
    rw [outsAt0_A m c t h0 hc0 hc1]
    unfold sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩⟩
    iapply ((kernelRun0_A c (grid0.coords t) _ _ _ _ _ _ _ _ _ _ hc0 hc1 (iblk m c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _)
      iexact Hg
    isplitl [Ho]; · iexact Ho
    isplitl [H0]; · iexact H0
    isplitl [H1]; · iexists _; iexact H1
    iexists _; iexact H2
  · have hc0 : ¬cond0_0 (grid0.coords t) := fun h => h0 ((hcond0_0 t).mp h)
    by_cases h1 : t.val = 19
    · have hc1 : cond0_1 (grid0.coords t) := (hcond0_1 t).mpr h1
      rw [show (dats m 0 c).leavesExact 1 t = owns (c : Thread nD τ) (ms0_1 t) fullShare ((dats m 0 c).after 1 t) from by
        unfold Dat.leavesExact; rw [liveAt0_1 t hc1], after0_1]
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1 hc0 hc1]
      unfold out0_C_1 out0_C_2 sout0_C_0 sout0_C_1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ hc0 hc1 (iblk m c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      · unfold owns; iexists _; isplitr
        swap; · iexact H2
        ipureintro; exact View.read_writes_of_cover _ _ _ _ _ (cover0_C_2 c _ _ _ _ _ _ _ _ _ _ _ _ _ _ _ _)
    · have hc1 : ¬cond0_1 (grid0.coords t) := fun h => h1 ((hcond0_1 t).mp h)
      rw [Dat.leavesExact_idle (dats m 0 c) 1 t (idleAt0_1 t hc1) (noFlush0_1 t hc1)]
      rw [Dat.leavesExact_idle (dats m 0 c) 2 t (idleAt0_2 t hc1) (noFlush0_2 t hc1)]
      rw [outsAt0_B m c t h0 h1 hc0 hc1]
      unfold sout0_B_0 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((kernelRun0_B c (grid0.coords t) _ _ _ _ _ _ _ _ _ _ hc0 hc1 (iblk m c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 20 := N_0; omega)

/-! ## The run and the frame -/

set_option backward.isDefEq.respectTransparency.types false in
/-- From any memory with zero counters every weakly fair execution of @main on the TensorCores terminates, and every
    final state has every array of the pipeline at what the library computes from the proof data and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hin := hin m) (hout := hout m)

/-- THE FRAME: the program runs to the end, faults nowhere, and leaves its argument as it found it, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.Fr

end
-- ==== Proof.KI.Runs.lean ====
import proofs.«176904_j2095944041143_2_alg».proof.Proof.Gen.KernelIdeal.Launch
import proofs.«176904_j2095944041143_2_alg».proof.Proof.Gen.KernelIdeal.Skeleton
import proofs.«176904_j2095944041143_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region, one fact per line -/

/-- A host line that allocates nothing and whose one result buffer is none of the four protected buffers:
    the region's three arrays and the program's argument. -/
def Safe (op : HloOp τ sig (Elt F)) : Prop :=
  op.fresh = ∅ ∧ (∀ w, Proc.devRef .tc (Pipeline.arrRef spec0 w) ∉ op.writes) ∧ Proc.devRef .tc main_arg0 ∉ op.writes

/-- A line that writes the one buffer `y`, different from the four, is safe. -/
theorem safe_of_writes {op : HloOp τ sig (Elt F)} {y : Ref sig .tc} (hf : op.fresh = ∅) (hw : op.writes = {Proc.devRef .tc y})
    (h0 : main_v0 ≠ y) (h1 : main_v1_0 ≠ y) (h2 : main_v1_1 ≠ y) (h3 : main_arg0 ≠ y) : Safe op := by
  refine ⟨hf, fun w => ?_, ?_⟩
  · rw [hw, Finset.mem_singleton]
    fin_cases w
    · exact StableHlo.devRef_ne_of_ne h0
    · exact StableHlo.devRef_ne_of_ne h1
    · exact StableHlo.devRef_ne_of_ne h2
  · rw [hw, Finset.mem_singleton]; exact StableHlo.devRef_ne_of_ne h3

theorem not_writes_of {op : HloOp τ sig (Elt F)} {y : Ref sig .tc} (hw : op.writes = {Proc.devRef .tc y})
    (h : main_arg0 ≠ y) : Proc.devRef .tc main_arg0 ∉ op.writes := by
  rw [hw, Finset.mem_singleton]; exact StableHlo.devRef_ne_of_ne h

/-- One line's fact: its result buffer is read off the line, the four inequalities of references are decided. -/
local macro "safe1" : term => `(safe_of_writes rfl rfl (by decide) (by decide) (by decide) (by decide))
local macro "not_writes1" : term => `(not_writes_of rfl (by decide))

theorem hostOps1_safe : (hostOps1 : List (HloOp τ sig (Elt F))).Forall Safe :=
  ⟨safe1, safe1, safe1, safe1, safe1, safe1⟩

theorem hostOps1_1_safe : (hostOps1_1 : List (HloOp τ sig (Elt F))).Forall Safe :=
  ⟨safe1, safe1, safe1⟩

theorem hostOps1_2_safe : (hostOps1_2 : List (HloOp τ sig (Elt F))).Forall Safe :=
  ⟨safe1, safe1, safe1, safe1⟩

theorem hostOps1_3_safe : (hostOps1_3 : List (HloOp τ sig (Elt F))).Forall Safe :=
  safe1

theorem hostOps1_4_safe : (hostOps1_4 : List (HloOp τ sig (Elt F))).Forall Safe :=
  ⟨safe1, safe1⟩

theorem hostOps1_5_safe : (hostOps1_5 : List (HloOp τ sig (Elt F))).Forall Safe :=
  safe1

theorem hostOps1_6_safe : (hostOps1_6 : List (HloOp τ sig (Elt F))).Forall Safe :=
  ⟨safe1, safe1, safe1, safe1, safe1⟩

theorem hostOps1_7_safe : (hostOps1_7 : List (HloOp τ sig (Elt F))).Forall Safe :=
  safe1

set_option maxHeartbeats 40000000 in
theorem hostOps1_8_safe : (hostOps1_8 : List (HloOp τ sig (Elt F))).Forall Safe :=
  ⟨safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1, safe1⟩

/-! ## @main around the region -/

/-- Core `c`'s TensorCore buffer contents when the region is entered, as a valuation: the program's contents
    after the fifteen host lines that precede the region (fourteen constants and the reshape of the argument),
    kept as a fold. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl⟩

/-- None of them writes the program's argument: each writes its own result, a different buffer. -/
theorem hostOps0_keeps_arg : ∀ op ∈ (hostOps0 : List (HloOp τ sig (Elt F))), Proc.devRef .tc main_arg0 ∉ op.writes := by
  have h : (hostOps0 : List (HloOp τ sig (Elt F))).Forall fun op => Proc.devRef .tc main_arg0 ∉ op.writes :=
    ⟨not_writes1, not_writes1, not_writes1, not_writes1, not_writes1, not_writes1, not_writes1, not_writes1, not_writes1, not_writes1, not_writes1, not_writes1, not_writes1, not_writes1, not_writes1⟩
  exact List.forall_iff_forall_mem.mp h

/-- The lines after the region, stretch by stretch: 133 host lines in nine stretches. -/
theorem tail_safe : ([hostOps1, hostOps1_1, hostOps1_2, hostOps1_3, hostOps1_4, hostOps1_5, hostOps1_6, hostOps1_7, hostOps1_8] : List (List (HloOp τ sig (Elt F)))).Forall fun ops => ops.Forall Safe :=
  ⟨hostOps1_safe, hostOps1_1_safe, hostOps1_2_safe, hostOps1_3_safe, hostOps1_4_safe, hostOps1_5_safe, hostOps1_6_safe, hostOps1_7_safe, hostOps1_8_safe⟩

theorem tail_tc : ([hostOps1, hostOps1_1, hostOps1_2, hostOps1_3, hostOps1_4, hostOps1_5, hostOps1_6, hostOps1_7, hostOps1_8] : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub⟩

/-- @main around the region: the host lines before it, the region, the host lines after it; it reduces to the
    region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4, hostOps1_5, hostOps1_6, hostOps1_7, hostOps1_8].map StableHlo.seq)) :=
  Pipeline.hmain_around cfgs 0 defs₀ 𝒱₀ m main [hostOps0] [hostOps1, hostOps1_1, hostOps1_2, hostOps1_3, hostOps1_4, hostOps1_5, hostOps1_6, hostOps1_7, hostOps1_8] hostOps0_sub hostOps0_fresh main_chain

/-- The lines after the region touch the pipeline's arrays and the bypassing buffers only. -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_tc) ops hops)) op hop)
/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ :=
  fun ops hops op hop => ((List.forall_iff_forall_mem.mp ((List.forall_iff_forall_mem.mp tail_safe) ops hops)) op hop).1
/-- And write no array of the pipeline. -/
theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes :=
  fun ops hops op hop => ((List.forall_iff_forall_mem.mp ((List.forall_iff_forall_mem.mp tail_safe) ops hops)) op hop).2.1
/-- Nor the program's argument. -/
theorem sfx_keeps_arg : ∀ op ∈ ([hostOps1, hostOps1_1, hostOps1_2, hostOps1_3, hostOps1_4, hostOps1_5, hostOps1_6, hostOps1_7, hostOps1_8] : List (List (HloOp τ sig (Elt F)))).flatten, Proc.devRef .tc main_arg0 ∉ op.writes := by
  intro op hop
  obtain ⟨ops, hops, hop'⟩ := List.mem_flatten.mp hop
  exact ((List.forall_iff_forall_mem.mp ((List.forall_iff_forall_mem.mp tail_safe) ops hops)) op hop').2.2

/-- The argument is as the program found it when the region is entered. -/
theorem V_main_arg0 (c : Dev nD) : V m c main_arg0 = m ((c : Thread nD τ).loc main_arg0) :=
  StableHlo.after_of_forall_not_mem _ _ (by simpa only [List.flatten_cons, List.flatten_nil, List.append_nil] using hostOps0_keeps_arg)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for ANY proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument is no array of the pipeline and is unscoped: it is among the buffers that bypass the region. -/
theorem arg0_rest : main_arg0 ∈ Pipeline.restRefs sig spec0 :=
  Pipeline.mem_restRefs_of main_arg0 rfl (by decide)

/-- THE FRAME from a frame run: the argument bypasses the region, so the run's post gives it at what the later lines
    leave in it, which is what the region's entry had (no later line writes it, and it is no array), which is what
    the program started with (no earlier line writes it). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_rest).trans (by
    unfold Pipeline.afterTail₀
    rw [StableHlo.after_of_forall_not_mem _ _ sfx_keeps_arg,
      Pipeline.withArrays_of_ne spec0 c _ _ main_arg0 (by decide)]
    exact V_main_arg0 m c)) h

/-! ## The body's branch conditions -/

/-- The condition of the body's first `scf.if` (the reset of the two accumulators), from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second `scf.if` (the two results stored). -/
abbrev cond0_1 (i : grid0.Coords) : Prop := k0_cond2 i = 1#1
/-- It holds at the last point only. -/
theorem hcond0_1 : ∀ t : Fin cfg0.N, cond0_1 (grid0.coords t) ↔ t.val = 19 :=
  (by decide +kernel : ∀ t : Fin grid0.N, cond0_1 (grid0.coords t) ↔ t.val = 19)

/-! ## Where the windows are idle -/

/-- The input window is never idle. -/
theorem liveAt0_0 : ∀ t : Fin cfg0.N, cfg0.idle 0 (grid0.coords t) = false := by decide +kernel
/-- Away from the last point the two output windows are idle and not written back; at the last point they are live. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

/-- One staging buffer of each output window, through which its contents are stated. -/
abbrev VO0_1 : View sig .tc .vmem S1x1 .f32 := (Memref.whole cc0_stg1_0 : Memref sig .tc .vmem S1x1 .f32).view
abbrev VO0_2 : View sig .tc .vmem S1x1 .f32 := (Memref.whole cc0_stg2_0 : Memref sig .tc .vmem S1x1 .f32).view
/-- Each window's current staging memref at point `t`, spelled as the pipeline passes it, and its wholeness. -/
abbrev ms0_0 (t : Fin cfg0.N) : Memref sig .tc .vmem S5000x345 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The two scratch operands: whole scoped buffers of the kernel's own, each one running count. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KI.RunA.lean ====
import proofs.«176904_j2095944041143_2_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT THE FIRST POINT (the reset taken, the results not stored). On whole memrefs — the input block at its
    contents `x0`, the two idle result buffers at contents handed back untouched, the two accumulators at anything — the body
    runs to the continuation holding the input and the result buffers as they were and each accumulator with its stores
    written: the pieces (last store first) are the witness the run finds. -/
noncomputable def kernelRun0_A (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S5000x345 .f32) :
    Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Fr

end
-- ==== Proof.KI.RunB.lean ====
import proofs.«176904_j2095944041143_2_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT A MIDDLE POINT (no reset, the results not stored): as at the first point, but each accumulator is found
    at the contents the point before left (`xs0`, `xs1`). -/
noncomputable def kernelRun0_B (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S5000x345 .f32) (xs0 xs1 : Vec F S1x1 .f32) :
    Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, fun xi1 xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Fr

end
-- ==== Proof.KI.RunC.lean ====
import proofs.«176904_j2095944041143_2_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE BODY AT THE LAST POINT (no reset, the results stored): the accumulators are found at what the point before left;
    the two result buffers, found at anything, end with their stores written too (`L1`, `L2`). -/
noncomputable def kernelRun0_C (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S5000x345 .f32) (xs0 xs1 : Vec F S1x1 .f32) :
    Σ' (L1 : List (View.Piece (Elt F) S1x1 .f32)) (L2 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__reduce_kernel i arg1 harg1 arg2 harg2 arg3 harg3 arg4 harg4 arg5 harg5) K } := by
  refine ⟨?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Fr

end
-- ==== Proof.KI.Frame.lean ====
import proofs.«176904_j2095944041143_2_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators and the result buffers -/

/-- The first point's stores into the first accumulator tile it, so they cover it; -/
theorem scover0_A_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) (y : S1x1.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x1.size (by sl_kernel_rfl) y
/-- what they leave there: the pieces read back (over anything). -/
def sout0_A_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) : Vec F S1x1 .f32 :=
  VS0_0.read (Elt F) (VS0_0.writes (Elt F) VS0_0.junk (kernelRun0_A c i arg1 harg1 arg2 harg2 arg3 harg3 arg4 harg4 arg5 harg5 hc0 hc1 x0).1)
/-- The same for the second accumulator. -/
theorem scover0_A_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) (y : S1x1.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x1.size (by sl_kernel_rfl) y
def sout0_A_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) : Vec F S1x1 .f32 :=
  VS0_1.read (Elt F) (VS0_1.writes (Elt F) VS0_1.junk (kernelRun0_A c i arg1 harg1 arg2 harg2 arg3 harg3 arg4 harg4 arg5 harg5 hc0 hc1 x0).2.1)

/-- A middle point's stores into the first accumulator tile it, so they cover it; -/
theorem scover0_B_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) (y : S1x1.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x1.size (by sl_kernel_rfl) y
/-- what they leave there: the pieces read back (over anything). -/
def sout0_B_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 xs0 xs1).1)
/-- The same for the second accumulator. -/
theorem scover0_B_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) (y : S1x1.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x1.size (by sl_kernel_rfl) y
def sout0_B_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) : Vec F S1x1 .f32 :=
  VS0_1.read (Elt F) (VS0_1.writes (Elt F) VS0_1.junk (kernelRun0_B c i arg1 harg1 arg2 harg2 arg3 harg3 arg4 harg4 arg5 harg5 hc0 hc1 x0 xs0 xs1).2.1)

/-- The last point's stores into the first accumulator tile it, so they cover it; -/
theorem scover0_C_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1.size (by sl_kernel_rfl) y
/-- what they leave there: the pieces read back (over anything). -/
def sout0_C_0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 xs0 xs1).2.2.1)
/-- The same for the second accumulator. -/
theorem scover0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1.size (by sl_kernel_rfl) y
def sout0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VS0_1.read (Elt F) (VS0_1.writes (Elt F) VS0_1.junk (kernelRun0_C c i arg1 harg1 arg2 harg2 arg3 harg3 arg4 harg4 arg5 harg5 hc0 hc1 x0 xs0 xs1).2.2.2.1)

/-- The last point's one store into each result buffer tiles it. -/
theorem cover0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1.size (by sl_kernel_rfl) y
def out0_C_1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VO0_1.read (Elt F) (VO0_1.writes (Elt F) VO0_1.junk (kernelRun0_C c i arg1 harg1 arg2 harg2 arg3 harg3 arg4 harg4 arg5 harg5 hc0 hc1 x0 xs0 xs1).1)
theorem cover0_C_2 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1.size (by sl_kernel_rfl) y
def out0_C_2 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) : Vec F S1x1 .f32 :=
  VO0_2.read (Elt F) (VO0_2.writes (Elt F) VO0_2.junk (kernelRun0_C c i arg1 harg1 arg2 harg2 arg3 harg3 arg4 harg4 arg5 harg5 hc0 hc1 x0 xs0 xs1).2.1)

/-- What a result buffer is said to hold after a point that stores nothing into it: a placeholder nothing consults
    (there the window is idle and not written back). -/
def idleOut1 : Vec F S1x1 .f32 := VO0_1.read (Elt F) VO0_1.junk
def idleOut2 : Vec F S1x1 .f32 := VO0_2.read (Elt F) VO0_2.junk

/-! ## What the buffers hold after each point -/

theorem not_c0_succ (n : ℕ) (hn : n + 1 < cfg0.N) : ¬cond0_0 (grid0.coords ⟨n + 1, hn⟩) :=
  fun h => absurd ((hcond0_0 ⟨n + 1, hn⟩).mp h) (Nat.succ_ne_zero n)
theorem c0_zero (hn : 0 < cfg0.N) : cond0_0 (grid0.coords ⟨0, hn⟩) := (hcond0_0 ⟨0, hn⟩).mpr rfl
theorem not_c1_zero (hn : 0 < cfg0.N) : ¬cond0_1 (grid0.coords ⟨0, hn⟩) :=
  fun h => absurd ((hcond0_1 ⟨0, hn⟩).mp h) (show ¬(0 : ℕ) = 19 from by decide)

/-- THE ACCUMULATION. After the body at position `n`: (result buffer 1, result buffer 2, accumulator 0, accumulator 1).
    The first point resets and adds; every later point adds to what the point before left; the last also stores the
    two accumulators into the result buffers. -/
def outsAt0 (c : Dev nD) : (n : ℕ) → n < cfg0.N → Vec F S1x1 .f32 × Vec F S1x1 .f32 × Vec F S1x1 .f32 × Vec F S1x1 .f32
  | 0, hn => (idleOut1, idleOut2,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) (c0_zero hn) (not_c1_zero hn) (iblk m c 0 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) (c0_zero hn) (not_c1_zero hn) (iblk m c 0 ⟨0, hn⟩))
  | n + 1, hn =>
    if h1 : n + 1 = 19 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2,
       out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) ((hcond0_1 ⟨n + 1, hn⟩).mpr h1) (iblk m c 0 ⟨n + 1, hn⟩) (outsAt0 c n (Nat.lt_of_succ_lt hn)).2.2.1 (outsAt0 c n (Nat.lt_of_succ_lt hn)).2.2.2)
    else
      (idleOut1, idleOut2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) (fun h => h1 ((hcond0_1 ⟨n + 1, hn⟩).mp h)) (iblk m c 0 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (not_c0_succ n hn) (fun h => h1 ((hcond0_1 ⟨n + 1, hn⟩).mp h)) (iblk m c 0 ⟨n + 1, hn⟩) (outsAt0 c n (Nat.lt_of_succ_lt hn)).2.2.1 (outsAt0 c n (Nat.lt_of_succ_lt hn)).2.2.2)

/-- `outsAt0` at the first point. -/
theorem outsAt0_A (c : Dev nD) (t : Fin cfg0.N) (h0 : t.val = 0) (hc0 : cond0_0 (grid0.coords t)) (hc1 : ¬cond0_1 (grid0.coords t)) :
    outsAt0 m c t.val t.isLt = (idleOut1, idleOut2,
      sout0_A_0 c (grid0.coords t) (ms0_0 t) (hs0_0 t) (ms0_1 t) (hs0_1 t) (ms0_2 t) (hs0_2 t) scM0_0 (Memref.isWhole_whole _) scM0_1 (Memref.isWhole_whole _) hc0 hc1 (iblk m c 0 t),
      sout0_A_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 19) (hc0 : ¬cond0_0 (grid0.coords t)) (hc1 : ¬cond0_1 (grid0.coords t)) :
    outsAt0 m c t.val t.isLt = (idleOut1, idleOut2,
      sout0_B_0 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 19) (hc0 : ¬cond0_0 (grid0.coords t)) (hc1 : cond0_1 (grid0.coords t)) :
    outsAt0 m c t.val t.isLt = (
      out0_C_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      out0_C_2 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: before the first point the class's (every scratch at anything);
    afterwards each accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them; after the body at point `t`
    the input's buffer at its block and the two result buffers at `outsAt0`'s first two components; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point. The input's memref holds its block; the point is the first, a middle one or the last, and
    that case's run applies: the invariant hands the body the two accumulators (at anything at the first point, at what the
    point before left afterwards) and takes them back at this point's contents (the stores cover them); the result
    buffers are handed back untouched except at the last point, where the stores cover them; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (ms0_0 t) fullShare ((dats m 0 c).after 0 t) from by
    unfold Dat.leavesExact; rw [liveAt0_0 t], after0_0]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dats m 0 c) 1 t (idleAt0_1 t hc1) (noFlush0_1 t hc1)]
    rw [Dat.leavesExact_idle (dats m 0 c) 2 t (idleAt0_2 t hc1) (noFlush0_2 t hc1)]
    rw [outsAt0_A m c t h0 hc0 hc1]
    unfold sout0_A_0 sout0_A_1; (try dsimp only)
    rw [PhiS_castSucc m c t, PhiS_zero m c _ _ h0, PhiA0_eq]
    iintro ⟨⟨⟨HS0, HS1⟩, Hg⟩, Ho, ⟨%d0, H0⟩, ⟨%d1, H1⟩, ⟨%d2, H2⟩⟩
    iapply ((kernelRun0_A c (grid0.coords t) _ _ _ _ _ _ _ _ _ _ hc0 hc1 (iblk m c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _)
      iexact Hg
    isplitl [Ho]; · iexact Ho
    isplitl [H0]; · iexact H0
    isplitl [H1]; · iexists _; iexact H1
    iexists _; iexact H2
  · have hc0 : ¬cond0_0 (grid0.coords t) := fun h => h0 ((hcond0_0 t).mp h)
    by_cases h1 : t.val = 19
    · have hc1 : cond0_1 (grid0.coords t) := (hcond0_1 t).mpr h1
      rw [show (dats m 0 c).leavesExact 1 t = owns (c : Thread nD τ) (ms0_1 t) fullShare ((dats m 0 c).after 1 t) from by
        unfold Dat.leavesExact; rw [liveAt0_1 t hc1], after0_1]
      rw [show (dats m 0 c).leavesExact 2 t = owns (c : Thread nD τ) (ms0_2 t) fullShare ((dats m 0 c).after 2 t) from by
        unfold Dat.leavesExact; rw [liveAt0_2 t hc1], after0_2]
      rw [outsAt0_C m c t h0 h1 hc0 hc1]
      unfold out0_C_1 out0_C_2 sout0_C_0 sout0_C_1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ hc0 hc1 (iblk m c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _)
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      · unfold owns; iexists _; isplitr
        swap; · iexact H2
        ipureintro; exact View.read_writes_of_cover _ _ _ _ _ (cover0_C_2 c _ _ _ _ _ _ _ _ _ _ _ _ _ _ _ _)
    · have hc1 : ¬cond0_1 (grid0.coords t) := fun h => h1 ((hcond0_1 t).mp h)
      rw [Dat.leavesExact_idle (dats m 0 c) 1 t (idleAt0_1 t hc1) (noFlush0_1 t hc1)]
      rw [Dat.leavesExact_idle (dats m 0 c) 2 t (idleAt0_2 t hc1) (noFlush0_2 t hc1)]
      rw [outsAt0_B m c t h0 h1 hc0 hc1]
      unfold sout0_B_0 sout0_B_1; (try dsimp only)
      rw [PhiS_castSucc m c t, PhiS_pos m c _ _ h0]
      iintro ⟨⟨⟨HS0, HS1⟩, Hg⟩, Ho, ⟨%d0, H0⟩, ⟨%d1, H1⟩, ⟨%d2, H2⟩⟩
      iapply ((kernelRun0_B c (grid0.coords t) _ _ _ _ _ _ _ _ _ _ hc0 hc1 (iblk m c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _)
        iexact Hg
      isplitl [Ho]; · iexact Ho
      isplitl [H0]; · iexact H0
      isplitl [H1]; · iexists _; iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 20 := N_0; omega)

/-! ## The run and the frame -/

set_option backward.isDefEq.respectTransparency.types false in
/-- From any memory with zero counters every weakly fair execution of @main on the TensorCores terminates, and every
    final state has every array of the pipeline at what the library computes from the proof data and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hin := hin m) (hout := hout m)

/-- THE FRAME: the program runs to the end, faults nowhere, and leaves its argument as it found it, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.Fr

end
-- ==== Proof.KI.Acc.lean ====
import proofs.«176904_j2095944041143_2_alg».proof.Proof.KI.Frame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's found pieces read back as

Each accumulator is one element; every store into it is through the whole buffer, so what a point leaves in it is the
LAST store's payload, and a load of it after a store reads that store's payload. -/

theorem hz : (![0, 0] : Fin 2 → Nat) = fun _ => 0 := funext fun a => by fin_cases a <;> rfl

/-- The first point: the reset's zero, then the block's count added to it. -/
theorem sA0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) :
    sout0_A_0 c i arg1 harg1 arg2 harg2 arg3 harg3 arg4 harg4 arg5 harg5 hc0 hc1 x0 = k0_pay5 x0 (k0_pay2 (F := F)) := by
  unfold sout0_A_0
  rw [View.read_writes_eq_canon _ _ _ (scover0_A_0 c i arg1 harg1 arg2 harg2 arg3 harg3 arg4 harg4 arg5 harg5 hc0 hc1 x0)]
  unfold kernelRun0_A
  dsimp only
  sl_unfold_words
  rw [View.canon_cons_unit_zero (S := S1x1) hz, View.readCov_unit_zero (S := S1x1) _ hz]
  simp only [View.readAt_eq_ld, harg1.read_unread, harg4.read_unread, harg5.read_unread, View.ld_unit_zero (S := S5000x345) hz, View.ld_unit_zero (S := S1x1) hz]

theorem sA1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 : Vec F S5000x345 .f32) :
    sout0_A_1 c i arg1 harg1 arg2 harg2 arg3 harg3 arg4 harg4 arg5 harg5 hc0 hc1 x0 = k0_pay1 (k0_pay6 x0 (k0_pay3 (F := F))) := by
  unfold sout0_A_1
  rw [View.read_writes_eq_canon _ _ _ (scover0_A_1 c i arg1 harg1 arg2 harg2 arg3 harg3 arg4 harg4 arg5 harg5 hc0 hc1 x0)]
  unfold kernelRun0_A
  dsimp only
  sl_unfold_words
  rw [View.canon_cons_unit_zero (S := S1x1) hz, View.readCov_unit_zero (S := S1x1) _ hz]
  simp only [View.readAt_eq_ld, harg1.read_unread, harg4.read_unread, harg5.read_unread, View.ld_unit_zero (S := S5000x345) hz, View.ld_unit_zero (S := S1x1) hz]

/-- A middle point: the block's count added to what the point before left. -/
theorem sB0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) :
    sout0_B_0 c i arg1 harg1 arg2 harg2 arg3 harg3 arg4 harg4 arg5 harg5 hc0 hc1 x0 xs0 xs1 = k0_pay5 x0 xs0 := by
  unfold sout0_B_0
  rw [View.read_writes_eq_canon _ _ _ (scover0_B_0 c i arg1 harg1 arg2 harg2 arg3 harg3 arg4 harg4 arg5 harg5 hc0 hc1 x0 xs0 xs1)]
  unfold kernelRun0_B
  dsimp only
  sl_unfold_words
  rw [View.canon_unit_zero (S := S1x1) hz]
  simp only [View.readAt_eq_ld, harg1.read_unread, harg4.read_unread, harg5.read_unread, View.ld_unit_zero (S := S5000x345) hz, View.ld_unit_zero (S := S1x1) hz]

theorem sB1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 : Vec F S5000x345 .f32) (xs0 xs1 : Vec F S1x1 .f32) :
    sout0_B_1 c i arg1 harg1 arg2 harg2 arg3 harg3 arg4 harg4 arg5 harg5 hc0 hc1 x0 xs0 xs1 = k0_pay1 (k0_pay6 x0 xs1) := by
  unfold sout0_B_1
  rw [View.read_writes_eq_canon _ _ _ (scover0_B_1 c i arg1 harg1 arg2 harg2 arg3 harg3 arg4 harg4 arg5 harg5 hc0 hc1 x0 xs0 xs1)]
  unfold kernelRun0_B
  dsimp only
  sl_unfold_words
  rw [View.canon_unit_zero (S := S1x1) hz]
  simp only [View.readAt_eq_ld, harg1.read_unread, harg4.read_unread, harg5.read_unread, View.ld_unit_zero (S := S5000x345) hz, View.ld_unit_zero (S := S1x1) hz]

/-- The last point: the same, and each result buffer receives its accumulator's new contents. -/
theorem sC0 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) :
    sout0_C_0 c i arg1 harg1 arg2 harg2 arg3 harg3 arg4 harg4 arg5 harg5 hc0 hc1 x0 xs0 xs1 = k0_pay5 x0 xs0 := by
  unfold sout0_C_0
  rw [View.read_writes_eq_canon _ _ _ (scover0_C_0 c i arg1 harg1 arg2 harg2 arg3 harg3 arg4 harg4 arg5 harg5 hc0 hc1 x0 xs0 xs1)]
  unfold kernelRun0_C
  dsimp only
  sl_unfold_words
  rw [View.canon_unit_zero (S := S1x1) hz]
  simp only [View.readAt_eq_ld, harg1.read_unread, harg4.read_unread, harg5.read_unread, View.ld_unit_zero (S := S5000x345) hz, View.ld_unit_zero (S := S1x1) hz]

theorem sC1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) :
    sout0_C_1 c i arg1 harg1 arg2 harg2 arg3 harg3 arg4 harg4 arg5 harg5 hc0 hc1 x0 xs0 xs1 = k0_pay1 (k0_pay6 x0 xs1) := by
  unfold sout0_C_1
  rw [View.read_writes_eq_canon _ _ _ (scover0_C_1 c i arg1 harg1 arg2 harg2 arg3 harg3 arg4 harg4 arg5 harg5 hc0 hc1 x0 xs0 xs1)]
  unfold kernelRun0_C
  dsimp only
  sl_unfold_words
  rw [View.canon_unit_zero (S := S1x1) hz]
  simp only [View.readAt_eq_ld, harg1.read_unread, harg4.read_unread, harg5.read_unread, View.ld_unit_zero (S := S5000x345) hz, View.ld_unit_zero (S := S1x1) hz]

theorem oC1 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) :
    out0_C_1 c i arg1 harg1 arg2 harg2 arg3 harg3 arg4 harg4 arg5 harg5 hc0 hc1 x0 xs0 xs1 = k0_pay5 x0 xs0 := by
  unfold out0_C_1
  rw [View.read_writes_eq_canon _ _ _ (cover0_C_1 c i arg1 harg1 arg2 harg2 arg3 harg3 arg4 harg4 arg5 harg5 hc0 hc1 x0 xs0 xs1)]
  unfold kernelRun0_C
  dsimp only
  sl_unfold_words
  rw [View.canon_unit_zero (S := S1x1) hz, View.readCov_unit_zero (S := S1x1) _ hz]
  simp only [View.readAt_eq_ld, harg1.read_unread, harg4.read_unread, harg5.read_unread, View.ld_unit_zero (S := S5000x345) hz, View.ld_unit_zero (S := S1x1) hz]

theorem oC2 (c : Dev nD) (i : grid0.Coords) (arg1 : Memref sig .tc .vmem S5000x345 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 : Vec F S5000x345 .f32) (xs0 xs1 : Vec F S1x1 .f32) :
    out0_C_2 c i arg1 harg1 arg2 harg2 arg3 harg3 arg4 harg4 arg5 harg5 hc0 hc1 x0 xs0 xs1 = k0_pay1 (k0_pay6 x0 xs1) := by
  unfold out0_C_2
  rw [View.read_writes_eq_canon _ _ _ (cover0_C_2 c i arg1 harg1 arg2 harg2 arg3 harg3 arg4 harg4 arg5 harg5 hc0 hc1 x0 xs0 xs1)]
  unfold kernelRun0_C
  dsimp only
  sl_unfold_words
  rw [View.canon_unit_zero (S := S1x1) hz, View.readCov_unit_zero (S := S1x1) _ hz]
  simp only [View.readAt_eq_ld, harg1.read_unread, harg4.read_unread, harg5.read_unread, View.ld_unit_zero (S := S5000x345) hz, View.ld_unit_zero (S := S1x1) hz]

/-! ## The accumulation, point by point -/

/-- After the first point each accumulator holds the first block's count added to the reset's zero. -/
theorem acc_first (c : Dev nD) (h : 0 < cfg0.N) :
    (outsAt0 m c 0 h).2.2.1 = k0_pay5 (iblk m c 0 ⟨0, h⟩) (k0_pay2 (F := F))
    ∧ (outsAt0 m c 0 h).2.2.2 = k0_pay1 (k0_pay6 (iblk m c 0 ⟨0, h⟩) (k0_pay3 (F := F))) := by
  have e := outsAt0_A m c ⟨0, h⟩ rfl (c0_zero h) (not_c1_zero h)
  exact ⟨(congrArg (fun p => p.2.2.1) e).trans (sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) (c0_zero h) (not_c1_zero h) (iblk m c 0 ⟨0, h⟩)),
    (congrArg (fun p => p.2.2.2) e).trans (sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) scM0_1 (Memref.isWhole_whole _) (c0_zero h) (not_c1_zero h) (iblk m c 0 ⟨0, h⟩))⟩

/-- After every later point each accumulator holds that block's count added to what the point before left. -/
theorem acc_step (c : Dev nD) (n : ℕ) (h : n + 1 < cfg0.N) :
    (outsAt0 m c (n + 1) h).2.2.1 = k0_pay5 (iblk m c 0 ⟨n + 1, h⟩) (outsAt0 m c n (Nat.lt_of_succ_lt h)).2.2.1
    ∧ (outsAt0 m c (n + 1) h).2.2.2 = k0_pay1 (k0_pay6 (iblk m c 0 ⟨n + 1, h⟩) (outsAt0 m c n (Nat.lt_of_succ_lt h)).2.2.2) := by
  have hc0 : ¬cond0_0 (grid0.coords ⟨n + 1, h⟩) := not_c0_succ n h
  by_cases h1 : n + 1 = 19
  · have hc1 : cond0_1 (grid0.coords ⟨n + 1, h⟩) := (hcond0_1 ⟨n + 1, h⟩).mpr h1
    have e := outsAt0_C m c ⟨n + 1, h⟩ (Nat.succ_ne_zero n) h1 hc0 hc1
    exact ⟨(congrArg (fun p => p.2.2.1) e).trans (sC0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) hc0 hc1 (iblk m c 0 ⟨n + 1, h⟩) (outsAt0 m c n (Nat.lt_of_succ_lt h)).2.2.1 (outsAt0 m c n (Nat.lt_of_succ_lt h)).2.2.2),
      (congrArg (fun p => p.2.2.2) e).trans (sC1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) hc0 hc1 (iblk m c 0 ⟨n + 1, h⟩) (outsAt0 m c n (Nat.lt_of_succ_lt h)).2.2.1 (outsAt0 m c n (Nat.lt_of_succ_lt h)).2.2.2)⟩
  · have hc1 : ¬cond0_1 (grid0.coords ⟨n + 1, h⟩) := fun hh => h1 ((hcond0_1 ⟨n + 1, h⟩).mp hh)
    have e := outsAt0_B m c ⟨n + 1, h⟩ (Nat.succ_ne_zero n) h1 hc0 hc1
    exact ⟨(congrArg (fun p => p.2.2.1) e).trans (sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) hc0 hc1 (iblk m c 0 ⟨n + 1, h⟩) (outsAt0 m c n (Nat.lt_of_succ_lt h)).2.2.1 (outsAt0 m c n (Nat.lt_of_succ_lt h)).2.2.2),
      (congrArg (fun p => p.2.2.2) e).trans (sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) hc0 hc1 (iblk m c 0 ⟨n + 1, h⟩) (outsAt0 m c n (Nat.lt_of_succ_lt h)).2.2.1 (outsAt0 m c n (Nat.lt_of_succ_lt h)).2.2.2)⟩

/-- At the last point each result buffer receives what its accumulator then holds. -/
theorem out_last_at (c : Dev nD) (t : Fin cfg0.N) (h0 : ¬t.val = 0) (h1 : t.val = 19) :
    (outsAt0 m c t.val t.isLt).1 = (outsAt0 m c t.val t.isLt).2.2.1 ∧ (outsAt0 m c t.val t.isLt).2.1 = (outsAt0 m c t.val t.isLt).2.2.2 := by
  have hc0 : ¬cond0_0 (grid0.coords t) := fun hh => h0 ((hcond0_0 t).mp hh)
  have hc1 : cond0_1 (grid0.coords t) := (hcond0_1 t).mpr h1
  rw [outsAt0_C m c t h0 h1 hc0 hc1]
  dsimp only
  exact ⟨(oC1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (sC0 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).symm,
    (oC2 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (sC1 c (grid0.coords t) (ms0_0 t) (hs0_0 t) (ms0_1 t) (hs0_1 t) (ms0_2 t) (hs0_2 t) scM0_0 (Memref.isWhole_whole _) scM0_1 (Memref.isWhole_whole _) hc0 hc1 (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2).symm⟩

/-- The same with the point's position a variable equal to 19. -/
theorem out_last_n (c : Dev nD) (n : ℕ) (hn : n < cfg0.N) (h19 : n = 19) :
    (outsAt0 m c n hn).1 = (outsAt0 m c n hn).2.2.1 ∧ (outsAt0 m c n hn).2.1 = (outsAt0 m c n hn).2.2.2 :=
  out_last_at m c ⟨n, hn⟩ (fun h0 : n = 0 => by omega) h19

/-- After the last point each result buffer holds what its accumulator holds. -/
theorem out_last (c : Dev nD) (h : 19 < cfg0.N) :
    (outsAt0 m c 19 h).1 = (outsAt0 m c 19 h).2.2.1 ∧ (outsAt0 m c 19 h).2.1 = (outsAt0 m c 19 h).2.2.2 :=
  out_last_n m c 19 h rfl

end Cert.KernelIdeal.Fr

end
-- ==== Proof.KI.Value.lean ====
import proofs.«176904_j2095944041143_2_alg».proof.Proof.KI.Acc
import Idealize.ShloMosaic.PureOps.Ideal
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two result arrays after the region, and the program's run read at its result -/

/-- The accumulation depends on the position only. -/
theorem outsAt0_congr (c : Dev nD) (n n' : ℕ) (hn : n < cfg0.N) (hn' : n' < cfg0.N) (e : n = n') :
    outsAt0 m c n hn = outsAt0 m c n' hn' := by
  subst e; rfl

theorem lt19 : 19 < cfg0.N := by rw [show cfg0.N = 20 from N_0]; decide
/-- The last point of the grid: the one point that writes the two result blocks back. -/
abbrev tLast : Fin cfg0.N := ⟨19, lt19⟩

/-- What the last point leaves in each result buffer, as contents of that result's array (its one block IS the array). -/
abbrev result1 (c : Dev nD) : Buf (Elt F) ((c : Thread nD τ).loc main_v1_0) := (outsAt0 m c tLast.val tLast.isLt).1
abbrev result2 (c : Dev nD) : Buf (Elt F) ((c : Thread nD τ).loc main_v1_1) := (outsAt0 m c tLast.val tLast.isLt).2.1

theorem flush_last (t : Fin cfg0.N) (h : t.val % 20 = 19) : t = tLast := by
  have hN : cfg0.N = 20 := N_0
  have := t.isLt
  exact Fin.ext (by show t.val = 19; omega)

/-- The one write-back of result 0, at the last point, writes it: block (0, 0) of the [1,1] array read through zero
    offsets is the array. -/
theorem flushed_eq1 (c : Dev nD) (t : Fin cfg0.N) (hf : (cfg0.win 1).flush t = true) :
    (dats m 0 c).flushed 1 t = ((cfg0.win 1).blk t).view.read (Elt F) (result1 m c) := by
  obtain rfl : t = tLast := flush_last t ((flush0_1 t).mp hf)
  show (cfg0.win 1).cut (grid0.coords tLast) ((dats m 0 c).after 1 tLast) = _
  rw [after0_1]
  have hz' : (fun a => win0_1.index tLast a * main_v1_0.ty.shape.size a) = fun _ => 0 := funext fun a => by fin_cases a <;> decide
  exact (Memref.read_access_unit_zero (Elt F) main_v1_0 hz' (fun a => by rw [congrFun hz' a]; simp) (result1 m c)).symm

theorem flushed_eq2 (c : Dev nD) (t : Fin cfg0.N) (hf : (cfg0.win 2).flush t = true) :
    (dats m 0 c).flushed 2 t = ((cfg0.win 2).blk t).view.read (Elt F) (result2 m c) := by
  obtain rfl : t = tLast := flush_last t ((flush0_2 t).mp hf)
  show (cfg0.win 2).cut (grid0.coords tLast) ((dats m 0 c).after 2 tLast) = _
  rw [after0_2]
  have hz' : (fun a => win0_2.index tLast a * main_v1_1.ty.shape.size a) = fun _ => 0 := funext fun a => by fin_cases a <;> decide
  exact (Memref.read_access_unit_zero (Elt F) main_v1_1 hz' (fun a => by rw [congrFun hz' a]; simp) (result2 m c)).symm

/-- So each result array ends holding what the last point left in its buffer (that point's block covers the array). -/
theorem final1' (c : Dev nD) : (dats m 0 c).arrAt 1 cfg0.N = result1 m c :=
  (dats m 0 c).arrAt_eq_of_cover 1 (result1 m c) (flushed_eq1 m c) fun i =>
    ⟨tLast, (flush0_1 tLast).mpr rfl, by
      show i ∈ ((View.whole main_v1_0).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

theorem final2' (c : Dev nD) : (dats m 0 c).arrAt 2 cfg0.N = result2 m c :=
  (dats m 0 c).arrAt_eq_of_cover 2 (result2 m c) (flushed_eq2 m c) fun i =>
    ⟨tLast, (flush0_2 tLast).mpr rfl, by
      show i ∈ ((View.whole main_v1_1).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The same at the literal position. -/
theorem final1 (c : Dev nD) (h : 19 < cfg0.N) : (dats m 0 c).arrAt 1 cfg0.N = (outsAt0 m c 19 h).1 :=
  (final1' m c).trans (congrArg Prod.fst (outsAt0_congr m c tLast.val 19 tLast.isLt h rfl))
theorem final2 (c : Dev nD) (h : 19 < cfg0.N) : (dats m 0 c).arrAt 2 cfg0.N = (outsAt0 m c 19 h).2.1 :=
  (final2' m c).trans (congrArg (fun p => p.2.1) (outsAt0_congr m c tLast.val 19 tLast.isLt h rfl))

/-- The input array is as the region found it. -/
theorem final0 (c : Dev nD) : (dats m 0 c).arrAt 0 cfg0.N = V m c (Pipeline.arrRef spec0 0) :=
  ((dats m 0 c).arrAt_in 0 rfl _).trans (A_eq m c 0)

/-- The program's result buffer is no array of the pipeline and is unscoped: it bypasses the region. -/
theorem v116_rest : main_v116 ∈ Pipeline.restRefs sig spec0 :=
  Pipeline.mem_restRefs_of main_v116 rfl (by decide)

/-- The program's run read at its result and at its argument: the result buffer ends at what the 133 later lines compute
    from the region's exit contents (the three arrays at what the pipeline leaves, everything else as the region found
    it); the argument ends as the program found it. -/
theorem KRun_gen : θ_run defs (onTc (τ := τ) (main (F := F))) ⟨m, fun _ => 0, ρ⟩ (fun r => ∀ c : Dev nD,
      r.2.mem ((c.tc : Thread nD τ).loc main_v116)
        = StableHlo.after (List.flatten [hostOps1, hostOps1_1, hostOps1_2, hostOps1_3, hostOps1_4, hostOps1_5, hostOps1_6, hostOps1_7, hostOps1_8]) (Pipeline.withArrays spec0 c (V0 m c) fun w => (dats m 0 c).arrAt w cfg0.N) (Proc.devRef .tc main_v116)
      ∧ r.2.mem ((c.tc : Thread nD τ).loc main_arg0) = m ((c.tc : Thread nD τ).loc main_arg0)) :=
  (θ_run defs _ _).mono (fun _ h c => ⟨(h c).2 main_v116 v116_rest, ((h c).2 main_arg0 arg0_rest).trans (by
    unfold Pipeline.afterTail₀
    rw [StableHlo.after_of_forall_not_mem _ _ sfx_keeps_arg,
      Pipeline.withArrays_of_ne spec0 c _ _ main_arg0 (by decide)]
    exact V_main_arg0 m c)⟩) (run_main m ρ)

/-! ## The region's exit contents, read where the later lines read them -/

/-- Core `c`'s buffer contents when the region is left: the three arrays at what the pipeline leaves, every other buffer
    as the region found it. -/
abbrev Wx (c : Dev nD) : Valuation τ sig (Elt F) :=
  Pipeline.withArrays spec0 c (V0 m c) fun w => (dats m 0 c).arrAt w cfg0.N

/-- The two result arrays hold what the last point left in their buffers. -/
theorem Wx_v1_0 (c : Dev nD) (h : 19 < cfg0.N) : Wx m c (Proc.devRef .tc main_v1_0) = (outsAt0 m c 19 h).1 :=
  (Pipeline.withArrays_arr spec0 launch0.win.arr_inj c (V0 m c) (fun w => (dats m 0 c).arrAt w cfg0.N) 1).trans (final1 m c h)
theorem Wx_v1_1 (c : Dev nD) (h : 19 < cfg0.N) : Wx m c (Proc.devRef .tc main_v1_1) = (outsAt0 m c 19 h).2.1 :=
  (Pipeline.withArrays_arr spec0 launch0.win.arr_inj c (V0 m c) (fun w => (dats m 0 c).arrAt w cfg0.N) 2).trans (final2 m c h)
/-- The argument is no array of the pipeline: it is as the program found it. -/
theorem Wx_arg0 (c : Dev nD) : Wx m c (Proc.devRef .tc main_arg0) = m ((c : Thread nD τ).loc main_arg0) :=
  (Pipeline.withArrays_of_ne spec0 c _ _ main_arg0 (by decide)).trans (V_main_arg0 m c)

/-! The fourteen constant tables the lines before the region wrote: each is still its literal. -/
theorem V0_main_c (c : Dev nD) : V0 m c (Proc.devRef .tc main_c) = (fun i => lit0 (S210.rowMajor i)) := by
  dsimp only [V0, hostOps0]
  simp only [List.flatten_cons, List.flatten_nil, List.append_nil]
  after_results
  try rfl
theorem Wx_main_c (c : Dev nD) : Wx m c (Proc.devRef .tc main_c) = (fun i => lit0 (S210.rowMajor i)) :=
  (Pipeline.withArrays_of_ne spec0 c _ _ main_c (by decide)).trans (V0_main_c m c)
theorem V0_main_c_0 (c : Dev nD) : V0 m c (Proc.devRef .tc main_c_0) = (constantI S210 1 0#1) := by
  dsimp only [V0, hostOps0]
  simp only [List.flatten_cons, List.flatten_nil, List.append_nil]
  after_results
  try rfl
theorem Wx_main_c_0 (c : Dev nD) : Wx m c (Proc.devRef .tc main_c_0) = (constantI S210 1 0#1) :=
  (Pipeline.withArrays_of_ne spec0 c _ _ main_c_0 (by decide)).trans (V0_main_c_0 m c)
theorem V0_main_c_1 (c : Dev nD) : V0 m c (Proc.devRef .tc main_c_1) = (fun i => lit1 (S210.rowMajor i)) := by
  dsimp only [V0, hostOps0]
  simp only [List.flatten_cons, List.flatten_nil, List.append_nil]
  after_results
  try rfl
theorem Wx_main_c_1 (c : Dev nD) : Wx m c (Proc.devRef .tc main_c_1) = (fun i => lit1 (S210.rowMajor i)) :=
  (Pipeline.withArrays_of_ne spec0 c _ _ main_c_1 (by decide)).trans (V0_main_c_1 m c)
theorem V0_main_c_2 (c : Dev nD) : V0 m c (Proc.devRef .tc main_c_2) = (constantI S210 1 0#1) := by
  dsimp only [V0, hostOps0]
  simp only [List.flatten_cons, List.flatten_nil, List.append_nil]
  after_results
  try rfl
theorem Wx_main_c_2 (c : Dev nD) : Wx m c (Proc.devRef .tc main_c_2) = (constantI S210 1 0#1) :=
  (Pipeline.withArrays_of_ne spec0 c _ _ main_c_2 (by decide)).trans (V0_main_c_2 m c)
theorem V0_main_c_3 (c : Dev nD) : V0 m c (Proc.devRef .tc main_c_3) = (fun i => lit2 (S300.rowMajor i)) := by
  dsimp only [V0, hostOps0]
  simp only [List.flatten_cons, List.flatten_nil, List.append_nil]
  after_results
  try rfl
theorem Wx_main_c_3 (c : Dev nD) : Wx m c (Proc.devRef .tc main_c_3) = (fun i => lit2 (S300.rowMajor i)) :=
  (Pipeline.withArrays_of_ne spec0 c _ _ main_c_3 (by decide)).trans (V0_main_c_3 m c)
theorem V0_main_c_4 (c : Dev nD) : V0 m c (Proc.devRef .tc main_c_4) = (constantI S300 1 0#1) := by
  dsimp only [V0, hostOps0]
  simp only [List.flatten_cons, List.flatten_nil, List.append_nil]
  after_results
  try rfl
theorem Wx_main_c_4 (c : Dev nD) : Wx m c (Proc.devRef .tc main_c_4) = (constantI S300 1 0#1) :=
  (Pipeline.withArrays_of_ne spec0 c _ _ main_c_4 (by decide)).trans (V0_main_c_4 m c)
theorem V0_main_c_5 (c : Dev nD) : V0 m c (Proc.devRef .tc main_c_5) = (fun i => lit3 (S300.rowMajor i)) := by
  dsimp only [V0, hostOps0]
  simp only [List.flatten_cons, List.flatten_nil, List.append_nil]
  after_results
  try rfl
theorem Wx_main_c_5 (c : Dev nD) : Wx m c (Proc.devRef .tc main_c_5) = (fun i => lit3 (S300.rowMajor i)) :=
  (Pipeline.withArrays_of_ne spec0 c _ _ main_c_5 (by decide)).trans (V0_main_c_5 m c)
theorem V0_main_c_6 (c : Dev nD) : V0 m c (Proc.devRef .tc main_c_6) = (constantI S300 1 0#1) := by
  dsimp only [V0, hostOps0]
  simp only [List.flatten_cons, List.flatten_nil, List.append_nil]
  after_results
  try rfl
theorem Wx_main_c_6 (c : Dev nD) : Wx m c (Proc.devRef .tc main_c_6) = (constantI S300 1 0#1) :=
  (Pipeline.withArrays_of_ne spec0 c _ _ main_c_6 (by decide)).trans (V0_main_c_6 m c)
theorem V0_main_c_7 (c : Dev nD) : V0 m c (Proc.devRef .tc main_c_7) = (fun i => lit4 (S190.rowMajor i)) := by
  dsimp only [V0, hostOps0]
  simp only [List.flatten_cons, List.flatten_nil, List.append_nil]
  after_results
  try rfl
theorem Wx_main_c_7 (c : Dev nD) : Wx m c (Proc.devRef .tc main_c_7) = (fun i => lit4 (S190.rowMajor i)) :=
  (Pipeline.withArrays_of_ne spec0 c _ _ main_c_7 (by decide)).trans (V0_main_c_7 m c)
theorem V0_main_c_8 (c : Dev nD) : V0 m c (Proc.devRef .tc main_c_8) = (constantI S190 1 0#1) := by
  dsimp only [V0, hostOps0]
  simp only [List.flatten_cons, List.flatten_nil, List.append_nil]
  after_results
  try rfl
theorem Wx_main_c_8 (c : Dev nD) : Wx m c (Proc.devRef .tc main_c_8) = (constantI S190 1 0#1) :=
  (Pipeline.withArrays_of_ne spec0 c _ _ main_c_8 (by decide)).trans (V0_main_c_8 m c)
theorem V0_main_c_9 (c : Dev nD) : V0 m c (Proc.devRef .tc main_c_9) = (fun i => lit5 (S190.rowMajor i)) := by
  dsimp only [V0, hostOps0]
  simp only [List.flatten_cons, List.flatten_nil, List.append_nil]
  after_results
  try rfl
theorem Wx_main_c_9 (c : Dev nD) : Wx m c (Proc.devRef .tc main_c_9) = (fun i => lit5 (S190.rowMajor i)) :=
  (Pipeline.withArrays_of_ne spec0 c _ _ main_c_9 (by decide)).trans (V0_main_c_9 m c)
theorem V0_main_c_10 (c : Dev nD) : V0 m c (Proc.devRef .tc main_c_10) = (constantI S190 1 0#1) := by
  dsimp only [V0, hostOps0]
  simp only [List.flatten_cons, List.flatten_nil, List.append_nil]
  after_results
  try rfl
theorem Wx_main_c_10 (c : Dev nD) : Wx m c (Proc.devRef .tc main_c_10) = (constantI S190 1 0#1) :=
  (Pipeline.withArrays_of_ne spec0 c _ _ main_c_10 (by decide)).trans (V0_main_c_10 m c)
theorem V0_main_c_11 (c : Dev nD) : V0 m c (Proc.devRef .tc main_c_11) = (constantI S190 1 0#1) := by
  dsimp only [V0, hostOps0]
  simp only [List.flatten_cons, List.flatten_nil, List.append_nil]
  after_results
  try rfl
theorem Wx_main_c_11 (c : Dev nD) : Wx m c (Proc.devRef .tc main_c_11) = (constantI S190 1 0#1) :=
  (Pipeline.withArrays_of_ne spec0 c _ _ main_c_11 (by decide)).trans (V0_main_c_11 m c)
theorem V0_main_c_12 (c : Dev nD) : V0 m c (Proc.devRef .tc main_c_12) = (constantI S190 1 0#1) := by
  dsimp only [V0, hostOps0]
  simp only [List.flatten_cons, List.flatten_nil, List.append_nil]
  after_results
  try rfl
theorem Wx_main_c_12 (c : Dev nD) : Wx m c (Proc.devRef .tc main_c_12) = (constantI S190 1 0#1) :=
  (Pipeline.withArrays_of_ne spec0 c _ _ main_c_12 (by decide)).trans (V0_main_c_12 m c)

end Cert.KernelIdeal.Fr

end
-- ==== Proof.KTail.Ops.lean ====
/- The host operations that follow the kernel's region, in order, in seven consecutive chunks, with each
   concatenation spelt through a named function of plain arguments; `flatten_eq`: the nine stretches of the
   program's own list, laid end to end, are these chunks laid end to end. -/
import proofs.«176904_j2095944041143_2_alg».proof.Proof.Gen.KernelIdeal.Launch

noncomputable section

namespace Cert.KernelIdeal.HTail

open Cert.KernelIdeal Cert.KernelIdeal.Gen Idealize.ShloMosaic Idealize.ShloMosaic.TcCoe Idealize.SL.Sem Idealize.ShloMosaic.StableHlo

variable {F : FTy → Type} [FloatOps F]

/-- The operands laid side by side along one axis, as a function of plain arguments. -/
def cat_main_v13 (xa : FVec F S201x21x3 .f32) (xb : FVec F S201x25x3 .f32) (xc : FVec F S201x40x3 .f32) : FVec F S201x86x3 .f32 :=
  concatenate S201x86x3 1 [⟨S201x21x3, xa⟩, ⟨S201x25x3, xb⟩, ⟨S201x40x3, xc⟩] concatenates_S201x21x3_S201x25x3_S201x40x3_S201x86x3_d1

/-- The operands laid side by side along one axis, as a function of plain arguments. -/
def cat_main_v24 (xa : FVec F S201x86x1 .f32) (xb : FVec F S201x86x2 .f32) : FVec F S201x86x3 .f32 :=
  concatenate S201x86x3 2 [⟨S201x86x1, xa⟩, ⟨S201x86x2, xb⟩] concatenates_S201x86x1_S201x86x2_S201x86x3_d2

/-- The operands laid side by side along one axis, as a function of plain arguments. -/
def cat_main_v115 (xa : FVec F S200x63 .f32) (xb : FVec F S200x50 .f32) (xc : FVec F S200x40 .f32) (xd : FVec F S200x63 .f32) (xe : FVec F S200x50 .f32) (xf : FVec F S200x40 .f32) (xg : FVec F S200x210 .f32) (xh : FVec F S200x300 .f32) (xi : FVec F S200x190 .f32) (xj : FVec F S200x190 .f32) (xk : FVec F S200x1 .f32) (xl : FVec F S200x1 .f32) : FVec F S200x1198 .f32 :=
  concatenate S200x1198 1 [⟨S200x63, xa⟩, ⟨S200x50, xb⟩, ⟨S200x40, xc⟩, ⟨S200x63, xd⟩, ⟨S200x50, xe⟩, ⟨S200x40, xf⟩, ⟨S200x210, xg⟩, ⟨S200x300, xh⟩, ⟨S200x190, xi⟩, ⟨S200x190, xj⟩, ⟨S200x1, xk⟩, ⟨S200x1, xl⟩] concatenates_S200x63_S200x50_S200x40_S200x63_S200x50_S200x40_S200x210_S200x300_S200x190_S200x190_S200x1_S200x1_S200x1198_d1

/-- Operations 1 … 9 of 133. -/
abbrev kops0 : List (HloOp τ sig (Elt F)) :=
  [ StableHlo.reshape main_v1_0 main_v2 rfl shapeCasts_S1x1_S_,
    StableHlo.reshape main_v1_1 main_v3 rfl shapeCasts_S1x1_S_,
    StableHlo.binary main_v2 main_v3 main_v4 (cmpf .ogt : (⟨S_, .f32⟩ : BufTy).Contents (Elt F) → (⟨S_, .f32⟩ : BufTy).Contents (Elt F) → (⟨S_, .i1⟩ : BufTy).Contents (Elt F)),
    StableHlo.unary main_arg0 main_v5 ((extractStridedSlice S201x115x3 ![0, 0, 0] · slices_S100000x115x3_S201x115x3_0_0_0) : (⟨S100000x115x3, .f32⟩ : BufTy).Contents (Elt F) → (⟨S201x115x3, .f32⟩ : BufTy).Contents (Elt F)),
    StableHlo.binary main_v5 main_v5 main_v6 (cmpf .une : (⟨S201x115x3, .f32⟩ : BufTy).Contents (Elt F) → (⟨S201x115x3, .f32⟩ : BufTy).Contents (Elt F) → (⟨S201x115x3, .i1⟩ : BufTy).Contents (Elt F)),
    StableHlo.nullary main_cst (constant S_ .f32 0x00000000#32),
    StableHlo.TRef.unary (.of main_cst : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S201x115x3, .f32⟩) (broadcastInDim S201x115x3 ![] bcast_S_S201x115x3),
    StableHlo.TRef.ternary (.of main_v6 : StableHlo.TRef sig ⟨S201x115x3, .i1⟩) (.of main_call0_v1 : StableHlo.TRef sig ⟨S201x115x3, .f32⟩) (.of main_v5 : StableHlo.TRef sig ⟨S201x115x3, .f32⟩) (.of main_v7 : StableHlo.TRef sig ⟨S201x115x3, .f32⟩) select ]

/-- Operations 10 … 36 of 133. -/
abbrev kops1 : List (HloOp τ sig (Elt F)) :=
  [ StableHlo.unary main_v7 main_v8 ((extractStridedSlice S201x21x3 ![0, 40, 0] · slices_S201x115x3_S201x21x3_0_40_0) : (⟨S201x115x3, .f32⟩ : BufTy).Contents (Elt F) → (⟨S201x21x3, .f32⟩ : BufTy).Contents (Elt F)),
    StableHlo.unary main_v7 main_v9 ((extractStridedSlice S201x21x3 ![0, 94, 0] · slices_S201x115x3_S201x21x3_0_94_0) : (⟨S201x115x3, .f32⟩ : BufTy).Contents (Elt F) → (⟨S201x21x3, .f32⟩ : BufTy).Contents (Elt F)),
    StableHlo.unary main_v7 main_v10 ((extractStridedSlice S201x25x3 ![0, 61, 0] · slices_S201x115x3_S201x25x3_0_61_0) : (⟨S201x115x3, .f32⟩ : BufTy).Contents (Elt F) → (⟨S201x25x3, .f32⟩ : BufTy).Contents (Elt F)),
    StableHlo.unary main_v7 main_v11 ((extractStridedSlice S201x40x3 ![0, 0, 0] · slices_S201x115x3_S201x40x3_0_0_0) : (⟨S201x115x3, .f32⟩ : BufTy).Contents (Elt F) → (⟨S201x40x3, .f32⟩ : BufTy).Contents (Elt F)),
    StableHlo.TRef.ternary (.of main_v4 : StableHlo.TRef sig ⟨S_, .i1⟩) (.of main_v8 : StableHlo.TRef sig ⟨S201x21x3, .f32⟩) (.of main_v9 : StableHlo.TRef sig ⟨S201x21x3, .f32⟩) (.of main_v12 : StableHlo.TRef sig ⟨S201x21x3, .f32⟩) (fun p a b => select (broadcastInDim S201x21x3 ![] bcast_S_S201x21x3 p) a b),
    StableHlo.nary ![main_v8, main_v10, main_v11] main_v13 (fun u => cat_main_v13 (u 0) (u 1) (u 2)),
    StableHlo.nary ![main_v9, main_v10, main_v11] main_v14 (fun u => cat_main_v13 (u 0) (u 1) (u 2)),
    StableHlo.TRef.ternary (.of main_v4 : StableHlo.TRef sig ⟨S_, .i1⟩) (.of main_v13 : StableHlo.TRef sig ⟨S201x86x3, .f32⟩) (.of main_v14 : StableHlo.TRef sig ⟨S201x86x3, .f32⟩) (.of main_v15 : StableHlo.TRef sig ⟨S201x86x3, .f32⟩) (fun p a b => select (broadcastInDim S201x86x3 ![] bcast_S_S201x86x3 p) a b),
    StableHlo.unary main_v15 main_v16 ((extractStridedSlice S201x86x1 ![0, 0, 0] · slices_S201x86x3_S201x86x1_0_0_0) : (⟨S201x86x3, .f32⟩ : BufTy).Contents (Elt F) → (⟨S201x86x1, .f32⟩ : BufTy).Contents (Elt F)),
    StableHlo.reshape main_v16 main_v17 rfl shapeCasts_S201x86x1_S201x86,
    StableHlo.unary main_v17 main_v18 (Host.negf : (⟨S201x86, .f32⟩ : BufTy).Contents (Elt F) → (⟨S201x86, .f32⟩ : BufTy).Contents (Elt F)),
    StableHlo.unary main_v15 main_v19 ((extractStridedSlice S201x86x1 ![0, 0, 0] · slices_S201x86x3_S201x86x1_0_0_0) : (⟨S201x86x3, .f32⟩ : BufTy).Contents (Elt F) → (⟨S201x86x1, .f32⟩ : BufTy).Contents (Elt F)),
    StableHlo.reshape main_v19 main_v20 rfl shapeCasts_S201x86x1_S201x86,
    StableHlo.TRef.ternary (.of main_v4 : StableHlo.TRef sig ⟨S_, .i1⟩) (.of main_v18 : StableHlo.TRef sig ⟨S201x86, .f32⟩) (.of main_v20 : StableHlo.TRef sig ⟨S201x86, .f32⟩) (.of main_v21 : StableHlo.TRef sig ⟨S201x86, .f32⟩) (fun p a b => select (broadcastInDim S201x86 ![] bcast_S_S201x86 p) a b),
    StableHlo.unary main_v21 main_v22 (broadcastInDim S201x86x1 ![0, 1] bcast_S201x86_S201x86x1_0_1 : (⟨S201x86, .f32⟩ : BufTy).Contents (Elt F) → (⟨S201x86x1, .f32⟩ : BufTy).Contents (Elt F)),
    StableHlo.unary main_v15 main_v23 ((extractStridedSlice S201x86x2 ![0, 0, 1] · slices_S201x86x3_S201x86x2_0_0_1) : (⟨S201x86x3, .f32⟩ : BufTy).Contents (Elt F) → (⟨S201x86x2, .f32⟩ : BufTy).Contents (Elt F)),
    StableHlo.binary main_v22 main_v23 main_v24 (cat_main_v24 : (⟨S201x86x1, .f32⟩ : BufTy).Contents (Elt F) → (⟨S201x86x2, .f32⟩ : BufTy).Contents (Elt F) → (⟨S201x86x3, .f32⟩ : BufTy).Contents (Elt F)),
    StableHlo.reshape main_v12 main_v25 rfl shapeCasts_S201x21x3_S201x63,
    StableHlo.nullary main_cst_13 (constant S_ .f32 0x00000000#32),
    StableHlo.binary main_v25 main_cst_13 main_v26 ((fun x v => Host.reduceAdd x v reducesTo_S201x63_S201_d1 h_S_) : (⟨S201x63, .f32⟩ : BufTy).Contents (Elt F) → (⟨S_, .f32⟩ : BufTy).Contents (Elt F) → (⟨S201, .f32⟩ : BufTy).Contents (Elt F)),
    StableHlo.nullary main_cst_14 (constant S_ .f32 0x00000000#32),
    StableHlo.unary main_cst_14 main_v27 (broadcastInDim S201 ![] bcast_S_S201 : (⟨S_, .f32⟩ : BufTy).Contents (Elt F) → (⟨S201, .f32⟩ : BufTy).Contents (Elt F)),
    StableHlo.binary main_v26 main_v27 main_v28 (cmpf .une : (⟨S201, .f32⟩ : BufTy).Contents (Elt F) → (⟨S201, .f32⟩ : BufTy).Contents (Elt F) → (⟨S201, .i1⟩ : BufTy).Contents (Elt F)),
    StableHlo.unary main_v28 main_v29 (uitofp .f32 : (⟨S201, .i1⟩ : BufTy).Contents (Elt F) → (⟨S201, .f32⟩ : BufTy).Contents (Elt F)),
    StableHlo.nullary main_cst_15 (constant S_ .f32 0x3F800000#32),
    StableHlo.unary main_cst_15 main_v30 (broadcastInDim S201 ![] bcast_S_S201 : (⟨S_, .f32⟩ : BufTy).Contents (Elt F) → (⟨S201, .f32⟩ : BufTy).Contents (Elt F)),
    StableHlo.binary main_v29 main_v30 main_v31 (addf : (⟨S201, .f32⟩ : BufTy).Contents (Elt F) → (⟨S201, .f32⟩ : BufTy).Contents (Elt F) → (⟨S201, .f32⟩ : BufTy).Contents (Elt F)) ]

/-- Operations 37 … 57 of 133. -/
abbrev kops2 : List (HloOp τ sig (Elt F)) :=
  [ StableHlo.unary main_v24 main_v32 ((extractStridedSlice S200x86x3 ![0, 0, 0] · slices_S201x86x3_S200x86x3_0_0_0) : (⟨S201x86x3, .f32⟩ : BufTy).Contents (Elt F) → (⟨S200x86x3, .f32⟩ : BufTy).Contents (Elt F)),
    StableHlo.unary main_v24 main_v33 ((extractStridedSlice S200x86x3 ![1, 0, 0] · slices_S201x86x3_S200x86x3_1_0_0) : (⟨S201x86x3, .f32⟩ : BufTy).Contents (Elt F) → (⟨S200x86x3, .f32⟩ : BufTy).Contents (Elt F)),
    StableHlo.binary main_v32 main_v33 main_v34 (subf : (⟨S200x86x3, .f32⟩ : BufTy).Contents (Elt F) → (⟨S200x86x3, .f32⟩ : BufTy).Contents (Elt F) → (⟨S200x86x3, .f32⟩ : BufTy).Contents (Elt F)),
    StableHlo.unary main_v24 main_v35 ((extractStridedSlice S201x21x3 ![0, 0, 0] · slices_S201x86x3_S201x21x3_0_0_0) : (⟨S201x86x3, .f32⟩ : BufTy).Contents (Elt F) → (⟨S201x21x3, .f32⟩ : BufTy).Contents (Elt F)),
    StableHlo.nullary main_c_16 (constantI S_ 32 21#32),
    StableHlo.unary main_c_16 main_v36 (broadcastInDim S210 ![] bcast_S_S210 : (⟨S_, .i32⟩ : BufTy).Contents (Elt F) → (⟨S210, .i32⟩ : BufTy).Contents (Elt F)),
    StableHlo.binary main_c main_v36 main_v37 (addi : (⟨S210, .i32⟩ : BufTy).Contents (Elt F) → (⟨S210, .i32⟩ : BufTy).Contents (Elt F) → (⟨S210, .i32⟩ : BufTy).Contents (Elt F)),
    StableHlo.ternary main_c_0 main_v37 main_c main_v38 (select : (⟨S210, .i1⟩ : BufTy).Contents (Elt F) → (⟨S210, .i32⟩ : BufTy).Contents (Elt F) → (⟨S210, .i32⟩ : BufTy).Contents (Elt F) → (⟨S210, .i32⟩ : BufTy).Contents (Elt F)),
    StableHlo.unary main_v38 main_v39 (broadcastInDim S210x1 ![0] bcast_S210_S210x1_0 : (⟨S210, .i32⟩ : BufTy).Contents (Elt F) → (⟨S210x1, .i32⟩ : BufTy).Contents (Elt F)),
    StableHlo.binary main_v35 main_v39 main_v40 ((fun x i => Host.gather gather_S201x21x3_S210x1_S201x210x3_02_1_n_n_1_1_20113 x i) : (⟨S201x21x3, .f32⟩ : BufTy).Contents (Elt F) → (⟨S210x1, .i32⟩ : BufTy).Contents (Elt F) → (⟨S201x210x3, .f32⟩ : BufTy).Contents (Elt F)),
    StableHlo.nullary main_c_17 (constantI S_ 32 21#32),
    StableHlo.unary main_c_17 main_v41 (broadcastInDim S210 ![] bcast_S_S210 : (⟨S_, .i32⟩ : BufTy).Contents (Elt F) → (⟨S210, .i32⟩ : BufTy).Contents (Elt F)),
    StableHlo.binary main_c_1 main_v41 main_v42 (addi : (⟨S210, .i32⟩ : BufTy).Contents (Elt F) → (⟨S210, .i32⟩ : BufTy).Contents (Elt F) → (⟨S210, .i32⟩ : BufTy).Contents (Elt F)),
    StableHlo.ternary main_c_2 main_v42 main_c_1 main_v43 (select : (⟨S210, .i1⟩ : BufTy).Contents (Elt F) → (⟨S210, .i32⟩ : BufTy).Contents (Elt F) → (⟨S210, .i32⟩ : BufTy).Contents (Elt F) → (⟨S210, .i32⟩ : BufTy).Contents (Elt F)),
    StableHlo.unary main_v43 main_v44 (broadcastInDim S210x1 ![0] bcast_S210_S210x1_0 : (⟨S210, .i32⟩ : BufTy).Contents (Elt F) → (⟨S210x1, .i32⟩ : BufTy).Contents (Elt F)),
    StableHlo.binary main_v35 main_v44 main_v45 ((fun x i => Host.gather gather_S201x21x3_S210x1_S201x210x3_02_1_n_n_1_1_20113 x i) : (⟨S201x21x3, .f32⟩ : BufTy).Contents (Elt F) → (⟨S210x1, .i32⟩ : BufTy).Contents (Elt F) → (⟨S201x210x3, .f32⟩ : BufTy).Contents (Elt F)),
    StableHlo.binary main_v40 main_v45 main_v46 (subf : (⟨S201x210x3, .f32⟩ : BufTy).Contents (Elt F) → (⟨S201x210x3, .f32⟩ : BufTy).Contents (Elt F) → (⟨S201x210x3, .f32⟩ : BufTy).Contents (Elt F)),
    StableHlo.binary main_v46 main_v46 main_v47 (mulf : (⟨S201x210x3, .f32⟩ : BufTy).Contents (Elt F) → (⟨S201x210x3, .f32⟩ : BufTy).Contents (Elt F) → (⟨S201x210x3, .f32⟩ : BufTy).Contents (Elt F)),
    StableHlo.nullary main_cst_18 (constant S_ .f32 0x00000000#32),
    StableHlo.binary main_v47 main_cst_18 main_v48 ((fun x v => Host.reduceAdd x v reducesTo_S201x210x3_S201x210_d2 h_S_) : (⟨S201x210x3, .f32⟩ : BufTy).Contents (Elt F) → (⟨S_, .f32⟩ : BufTy).Contents (Elt F) → (⟨S201x210, .f32⟩ : BufTy).Contents (Elt F)),
    StableHlo.unary main_v48 main_v49 (Host.sqrt : (⟨S201x210, .f32⟩ : BufTy).Contents (Elt F) → (⟨S201x210, .f32⟩ : BufTy).Contents (Elt F)) ]

/-- Operations 58 … 75 of 133. -/
abbrev kops3 : List (HloOp τ sig (Elt F)) :=
  [ StableHlo.unary main_v24 main_v50 ((extractStridedSlice S201x25x2 ![0, 21, 0] · slices_S201x86x3_S201x25x2_0_21_0) : (⟨S201x86x3, .f32⟩ : BufTy).Contents (Elt F) → (⟨S201x25x2, .f32⟩ : BufTy).Contents (Elt F)),
    StableHlo.nullary main_c_19 (constantI S_ 32 25#32),
    StableHlo.unary main_c_19 main_v51 (broadcastInDim S300 ![] bcast_S_S300 : (⟨S_, .i32⟩ : BufTy).Contents (Elt F) → (⟨S300, .i32⟩ : BufTy).Contents (Elt F)),
    StableHlo.binary main_c_3 main_v51 main_v52 (addi : (⟨S300, .i32⟩ : BufTy).Contents (Elt F) → (⟨S300, .i32⟩ : BufTy).Contents (Elt F) → (⟨S300, .i32⟩ : BufTy).Contents (Elt F)),
    StableHlo.ternary main_c_4 main_v52 main_c_3 main_v53 (select : (⟨S300, .i1⟩ : BufTy).Contents (Elt F) → (⟨S300, .i32⟩ : BufTy).Contents (Elt F) → (⟨S300, .i32⟩ : BufTy).Contents (Elt F) → (⟨S300, .i32⟩ : BufTy).Contents (Elt F)),
    StableHlo.unary main_v53 main_v54 (broadcastInDim S300x1 ![0] bcast_S300_S300x1_0 : (⟨S300, .i32⟩ : BufTy).Contents (Elt F) → (⟨S300x1, .i32⟩ : BufTy).Contents (Elt F)),
    StableHlo.binary main_v50 main_v54 main_v55 ((fun x i => Host.gather gather_S201x25x2_S300x1_S201x300x2_02_1_n_n_1_1_20112 x i) : (⟨S201x25x2, .f32⟩ : BufTy).Contents (Elt F) → (⟨S300x1, .i32⟩ : BufTy).Contents (Elt F) → (⟨S201x300x2, .f32⟩ : BufTy).Contents (Elt F)),
    StableHlo.nullary main_c_20 (constantI S_ 32 25#32),
    StableHlo.unary main_c_20 main_v56 (broadcastInDim S300 ![] bcast_S_S300 : (⟨S_, .i32⟩ : BufTy).Contents (Elt F) → (⟨S300, .i32⟩ : BufTy).Contents (Elt F)),
    StableHlo.binary main_c_5 main_v56 main_v57 (addi : (⟨S300, .i32⟩ : BufTy).Contents (Elt F) → (⟨S300, .i32⟩ : BufTy).Contents (Elt F) → (⟨S300, .i32⟩ : BufTy).Contents (Elt F)),
    StableHlo.ternary main_c_6 main_v57 main_c_5 main_v58 (select : (⟨S300, .i1⟩ : BufTy).Contents (Elt F) → (⟨S300, .i32⟩ : BufTy).Contents (Elt F) → (⟨S300, .i32⟩ : BufTy).Contents (Elt F) → (⟨S300, .i32⟩ : BufTy).Contents (Elt F)),
    StableHlo.unary main_v58 main_v59 (broadcastInDim S300x1 ![0] bcast_S300_S300x1_0 : (⟨S300, .i32⟩ : BufTy).Contents (Elt F) → (⟨S300x1, .i32⟩ : BufTy).Contents (Elt F)),
    StableHlo.binary main_v50 main_v59 main_v60 ((fun x i => Host.gather gather_S201x25x2_S300x1_S201x300x2_02_1_n_n_1_1_20112 x i) : (⟨S201x25x2, .f32⟩ : BufTy).Contents (Elt F) → (⟨S300x1, .i32⟩ : BufTy).Contents (Elt F) → (⟨S201x300x2, .f32⟩ : BufTy).Contents (Elt F)),
    StableHlo.binary main_v55 main_v60 main_v61 (subf : (⟨S201x300x2, .f32⟩ : BufTy).Contents (Elt F) → (⟨S201x300x2, .f32⟩ : BufTy).Contents (Elt F) → (⟨S201x300x2, .f32⟩ : BufTy).Contents (Elt F)),
    StableHlo.binary main_v61 main_v61 main_v62 (mulf : (⟨S201x300x2, .f32⟩ : BufTy).Contents (Elt F) → (⟨S201x300x2, .f32⟩ : BufTy).Contents (Elt F) → (⟨S201x300x2, .f32⟩ : BufTy).Contents (Elt F)),
    StableHlo.nullary main_cst_21 (constant S_ .f32 0x00000000#32),
    StableHlo.binary main_v62 main_cst_21 main_v63 ((fun x v => Host.reduceAdd x v reducesTo_S201x300x2_S201x300_d2 h_S_) : (⟨S201x300x2, .f32⟩ : BufTy).Contents (Elt F) → (⟨S_, .f32⟩ : BufTy).Contents (Elt F) → (⟨S201x300, .f32⟩ : BufTy).Contents (Elt F)),
    StableHlo.unary main_v63 main_v64 (Host.sqrt : (⟨S201x300, .f32⟩ : BufTy).Contents (Elt F) → (⟨S201x300, .f32⟩ : BufTy).Contents (Elt F)) ]

/-- Operations 76 … 93 of 133. -/
abbrev kops4 : List (HloOp τ sig (Elt F)) :=
  [ StableHlo.unary main_v24 main_v65 ((extractStridedSlice S201x20x2 ![0, 46, 0] · slices_S201x86x3_S201x20x2_0_46_0) : (⟨S201x86x3, .f32⟩ : BufTy).Contents (Elt F) → (⟨S201x20x2, .f32⟩ : BufTy).Contents (Elt F)),
    StableHlo.nullary main_c_22 (constantI S_ 32 20#32),
    StableHlo.unary main_c_22 main_v66 (broadcastInDim S190 ![] bcast_S_S190 : (⟨S_, .i32⟩ : BufTy).Contents (Elt F) → (⟨S190, .i32⟩ : BufTy).Contents (Elt F)),
    StableHlo.binary main_c_7 main_v66 main_v67 (addi : (⟨S190, .i32⟩ : BufTy).Contents (Elt F) → (⟨S190, .i32⟩ : BufTy).Contents (Elt F) → (⟨S190, .i32⟩ : BufTy).Contents (Elt F)),
    StableHlo.ternary main_c_8 main_v67 main_c_7 main_v68 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v68 main_v69 (broadcastInDim S190x1 ![0] bcast_S190_S190x1_0 : (⟨S190, .i32⟩ : BufTy).Contents (Elt F) → (⟨S190x1, .i32⟩ : BufTy).Contents (Elt F)),
    StableHlo.binary main_v65 main_v69 main_v70 ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)),
    StableHlo.nullary main_c_23 (constantI S_ 32 20#32),
    StableHlo.unary main_c_23 main_v71 (broadcastInDim S190 ![] bcast_S_S190 : (⟨S_, .i32⟩ : BufTy).Contents (Elt F) → (⟨S190, .i32⟩ : BufTy).Contents (Elt F)),
    StableHlo.binary main_c_9 main_v71 main_v72 (addi : (⟨S190, .i32⟩ : BufTy).Contents (Elt F) → (⟨S190, .i32⟩ : BufTy).Contents (Elt F) → (⟨S190, .i32⟩ : BufTy).Contents (Elt F)),
    StableHlo.ternary main_c_10 main_v72 main_c_9 main_v73 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v73 main_v74 (broadcastInDim S190x1 ![0] bcast_S190_S190x1_0 : (⟨S190, .i32⟩ : BufTy).Contents (Elt F) → (⟨S190x1, .i32⟩ : BufTy).Contents (Elt F)),
    StableHlo.binary main_v65 main_v74 main_v75 ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)),
    StableHlo.binary main_v70 main_v75 main_v76 (subf : (⟨S201x190x2, .f32⟩ : BufTy).Contents (Elt F) → (⟨S201x190x2, .f32⟩ : BufTy).Contents (Elt F) → (⟨S201x190x2, .f32⟩ : BufTy).Contents (Elt F)),
    StableHlo.binary main_v76 main_v76 main_v77 (mulf : (⟨S201x190x2, .f32⟩ : BufTy).Contents (Elt F) → (⟨S201x190x2, .f32⟩ : BufTy).Contents (Elt F) → (⟨S201x190x2, .f32⟩ : BufTy).Contents (Elt F)),
    StableHlo.nullary main_cst_24 (constant S_ .f32 0x00000000#32),
    StableHlo.binary main_v77 main_cst_24 main_v78 ((fun x v => Host.reduceAdd x v reducesTo_S201x190x2_S201x190_d2 h_S_) : (⟨S201x190x2, .f32⟩ : BufTy).Contents (Elt F) → (⟨S_, .f32⟩ : BufTy).Contents (Elt F) → (⟨S201x190, .f32⟩ : BufTy).Contents (Elt F)),
    StableHlo.unary main_v78 main_v79 (Host.sqrt : (⟨S201x190, .f32⟩ : BufTy).Contents (Elt F) → (⟨S201x190, .f32⟩ : BufTy).Contents (Elt F)) ]

/-- Operations 94 … 111 of 133. -/
abbrev kops5 : List (HloOp τ sig (Elt F)) :=
  [ StableHlo.unary main_v24 main_v80 ((extractStridedSlice S201x20x2 ![0, 66, 0] · slices_S201x86x3_S201x20x2_0_66_0) : (⟨S201x86x3, .f32⟩ : BufTy).Contents (Elt F) → (⟨S201x20x2, .f32⟩ : BufTy).Contents (Elt F)),
    StableHlo.nullary main_c_25 (constantI S_ 32 20#32),
    StableHlo.unary main_c_25 main_v81 (broadcastInDim S190 ![] bcast_S_S190 : (⟨S_, .i32⟩ : BufTy).Contents (Elt F) → (⟨S190, .i32⟩ : BufTy).Contents (Elt F)),
    StableHlo.binary main_c_7 main_v81 main_v82 (addi : (⟨S190, .i32⟩ : BufTy).Contents (Elt F) → (⟨S190, .i32⟩ : BufTy).Contents (Elt F) → (⟨S190, .i32⟩ : BufTy).Contents (Elt F)),
    StableHlo.ternary main_c_11 main_v82 main_c_7 main_v83 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v83 main_v84 (broadcastInDim S190x1 ![0] bcast_S190_S190x1_0 : (⟨S190, .i32⟩ : BufTy).Contents (Elt F) → (⟨S190x1, .i32⟩ : BufTy).Contents (Elt F)),
    StableHlo.binary main_v80 main_v84 main_v85 ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)),
    StableHlo.nullary main_c_26 (constantI S_ 32 20#32),
    StableHlo.unary main_c_26 main_v86 (broadcastInDim S190 ![] bcast_S_S190 : (⟨S_, .i32⟩ : BufTy).Contents (Elt F) → (⟨S190, .i32⟩ : BufTy).Contents (Elt F)),
    StableHlo.binary main_c_9 main_v86 main_v87 (addi : (⟨S190, .i32⟩ : BufTy).Contents (Elt F) → (⟨S190, .i32⟩ : BufTy).Contents (Elt F) → (⟨S190, .i32⟩ : BufTy).Contents (Elt F)),
    StableHlo.ternary main_c_12 main_v87 main_c_9 main_v88 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v88 main_v89 (broadcastInDim S190x1 ![0] bcast_S190_S190x1_0 : (⟨S190, .i32⟩ : BufTy).Contents (Elt F) → (⟨S190x1, .i32⟩ : BufTy).Contents (Elt F)),
    StableHlo.binary main_v80 main_v89 main_v90 ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)),
    StableHlo.binary main_v85 main_v90 main_v91 (subf : (⟨S201x190x2, .f32⟩ : BufTy).Contents (Elt F) → (⟨S201x190x2, .f32⟩ : BufTy).Contents (Elt F) → (⟨S201x190x2, .f32⟩ : BufTy).Contents (Elt F)),
    StableHlo.binary main_v91 main_v91 main_v92 (mulf : (⟨S201x190x2, .f32⟩ : BufTy).Contents (Elt F) → (⟨S201x190x2, .f32⟩ : BufTy).Contents (Elt F) → (⟨S201x190x2, .f32⟩ : BufTy).Contents (Elt F)),
    StableHlo.nullary main_cst_27 (constant S_ .f32 0x00000000#32),
    StableHlo.binary main_v92 main_cst_27 main_v93 ((fun x v => Host.reduceAdd x v reducesTo_S201x190x2_S201x190_d2 h_S_) : (⟨S201x190x2, .f32⟩ : BufTy).Contents (Elt F) → (⟨S_, .f32⟩ : BufTy).Contents (Elt F) → (⟨S201x190, .f32⟩ : BufTy).Contents (Elt F)),
    StableHlo.unary main_v93 main_v94 (Host.sqrt : (⟨S201x190, .f32⟩ : BufTy).Contents (Elt F) → (⟨S201x190, .f32⟩ : BufTy).Contents (Elt F)) ]

/-- Operations 112 … 133 of 133. -/
abbrev kops6 : List (HloOp τ sig (Elt F)) :=
  [ StableHlo.unary main_v24 main_v95 ((extractStridedSlice S200x21x3 ![0, 0, 0] · slices_S201x86x3_S200x21x3_0_0_0) : (⟨S201x86x3, .f32⟩ : BufTy).Contents (Elt F) → (⟨S200x21x3, .f32⟩ : BufTy).Contents (Elt F)),
    StableHlo.reshape main_v95 main_v96 rfl shapeCasts_S200x21x3_S200x63,
    StableHlo.unary main_v24 main_v97 ((extractStridedSlice S200x25x2 ![0, 21, 0] · slices_S201x86x3_S200x25x2_0_21_0) : (⟨S201x86x3, .f32⟩ : BufTy).Contents (Elt F) → (⟨S200x25x2, .f32⟩ : BufTy).Contents (Elt F)),
    StableHlo.reshape main_v97 main_v98 rfl shapeCasts_S200x25x2_S200x50,
    StableHlo.unary main_v24 main_v99 ((extractStridedSlice S200x20x2 ![0, 46, 0] · slices_S201x86x3_S200x20x2_0_46_0) : (⟨S201x86x3, .f32⟩ : BufTy).Contents (Elt F) → (⟨S200x20x2, .f32⟩ : BufTy).Contents (Elt F)),
    StableHlo.reshape main_v99 main_v100 rfl shapeCasts_S200x20x2_S200x40,
    StableHlo.unary main_v34 main_v101 ((extractStridedSlice S200x21x3 ![0, 0, 0] · slices_S200x86x3_S200x21x3_0_0_0) : (⟨S200x86x3, .f32⟩ : BufTy).Contents (Elt F) → (⟨S200x21x3, .f32⟩ : BufTy).Contents (Elt F)),
    StableHlo.reshape main_v101 main_v102 rfl shapeCasts_S200x21x3_S200x63,
    StableHlo.unary main_v34 main_v103 ((extractStridedSlice S200x25x2 ![0, 21, 0] · slices_S200x86x3_S200x25x2_0_21_0) : (⟨S200x86x3, .f32⟩ : BufTy).Contents (Elt F) → (⟨S200x25x2, .f32⟩ : BufTy).Contents (Elt F)),
    StableHlo.reshape main_v103 main_v104 rfl shapeCasts_S200x25x2_S200x50,
    StableHlo.unary main_v34 main_v105 ((extractStridedSlice S200x20x2 ![0, 46, 0] · slices_S200x86x3_S200x20x2_0_46_0) : (⟨S200x86x3, .f32⟩ : BufTy).Contents (Elt F) → (⟨S200x20x2, .f32⟩ : BufTy).Contents (Elt F)),
    StableHlo.reshape main_v105 main_v106 rfl shapeCasts_S200x20x2_S200x40,
    StableHlo.unary main_v49 main_v107 ((extractStridedSlice S200x210 ![0, 0] · slices_S201x210_S200x210_0_0) : (⟨S201x210, .f32⟩ : BufTy).Contents (Elt F) → (⟨S200x210, .f32⟩ : BufTy).Contents (Elt F)),
    StableHlo.unary main_v64 main_v108 ((extractStridedSlice S200x300 ![0, 0] · slices_S201x300_S200x300_0_0) : (⟨S201x300, .f32⟩ : BufTy).Contents (Elt F) → (⟨S200x300, .f32⟩ : BufTy).Contents (Elt F)),
    StableHlo.unary main_v79 main_v109 ((extractStridedSlice S200x190 ![0, 0] · slices_S201x190_S200x190_0_0) : (⟨S201x190, .f32⟩ : BufTy).Contents (Elt F) → (⟨S200x190, .f32⟩ : BufTy).Contents (Elt F)),
    StableHlo.unary main_v94 main_v110 ((extractStridedSlice S200x190 ![0, 0] · slices_S201x190_S200x190_0_0) : (⟨S201x190, .f32⟩ : BufTy).Contents (Elt F) → (⟨S200x190, .f32⟩ : BufTy).Contents (Elt F)),
    StableHlo.unary main_v29 main_v111 ((extractStridedSlice S200 ![0] · slices_S201_S200_0) : (⟨S201, .f32⟩ : BufTy).Contents (Elt F) → (⟨S200, .f32⟩ : BufTy).Contents (Elt F)),
    StableHlo.unary main_v111 main_v112 (broadcastInDim S200x1 ![0] bcast_S200_S200x1_0 : (⟨S200, .f32⟩ : BufTy).Contents (Elt F) → (⟨S200x1, .f32⟩ : BufTy).Contents (Elt F)),
    StableHlo.unary main_v31 main_v113 ((extractStridedSlice S200 ![0] · slices_S201_S200_0) : (⟨S201, .f32⟩ : BufTy).Contents (Elt F) → (⟨S200, .f32⟩ : BufTy).Contents (Elt F)),
    StableHlo.unary main_v113 main_v114 (broadcastInDim S200x1 ![0] bcast_S200_S200x1_0 : (⟨S200, .f32⟩ : BufTy).Contents (Elt F) → (⟨S200x1, .f32⟩ : BufTy).Contents (Elt F)),
    StableHlo.nary ![main_v96, main_v98, main_v100, main_v102, main_v104, main_v106, main_v107, main_v108, main_v109, main_v110, main_v112, main_v114] main_v115 (fun u => cat_main_v115 (u 0) (u 1) (u 2) (u 3) (u 4) (u 5) (u 6) (u 7) (u 8) (u 9) (u 10) (u 11)),
    StableHlo.reshape main_v115 main_v116 rfl shapeCasts_S200x1198_S1x200x1198 ]

/-- The 133 operations, in order. -/
abbrev kops : List (HloOp τ sig (Elt F)) :=
  kops0 ++ (kops1 ++ (kops2 ++ (kops3 ++ (kops4 ++ (kops5 ++ (kops6))))))

set_option maxRecDepth 16384 in
set_option maxHeartbeats 4000000 in
/-- The program's nine stretches laid end to end are the chunks laid end to end: the same operations one by one. -/
theorem flatten_eq : List.flatten [hostOps1, hostOps1_1, hostOps1_2, hostOps1_3, hostOps1_4, hostOps1_5, hostOps1_6, hostOps1_7, hostOps1_8] = (kops : List (HloOp τ sig (Elt F))) := rfl

end Cert.KernelIdeal.HTail

end
-- ==== Proof.Tail.KTerm.lean ====
/-
  The host part of the kernel program after its reduction, as pure functions of arrays: the global condition from
  the two counts, the first 201 frames cleaned, the 86 selected landmarks per frame, the hand mask, and the twelve
  feature pieces of frames 0..199 laid side by side. One `let` per operation of the program, in its order.
-/
import proofs.«176904_j2095944041143_2_alg».proof.Proof.Gen.KernelIdeal

noncomputable section
namespace Cert.KernelIdeal.Tail
open Idealize.ShloMosaic Cert.KernelIdeal Cert.KernelIdeal.Gen

variable {F : FTy → Type} [FloatOps F]

/-- The global condition from the two counts: is the left count greater than the right one. -/
def kCond (main_v1_0 : FVec F S1x1 .f32) (main_v1_1 : FVec F S1x1 .f32) : IVec S_ 1 :=
  let main_v2 : FVec F S_ .f32 := shapeCast S_ main_v1_0 shapeCasts_S1x1_S_
  let main_v3 : FVec F S_ .f32 := shapeCast S_ main_v1_1 shapeCasts_S1x1_S_
  cmpf .ogt main_v2 main_v3

/-- The first 201 frames with every not-a-number entry replaced by zero. -/
def kClean (main_arg0 : FVec F S100000x115x3 .f32) : FVec F S201x115x3 .f32 :=
  let main_v5 : FVec F S201x115x3 .f32 := extractStridedSlice S201x115x3 ![0, 0, 0] main_arg0 slices_S100000x115x3_S201x115x3_0_0_0
  let main_v6 : IVec S201x115x3 1 := cmpf .une main_v5 main_v5
  let main_cst : FVec F S_ .f32 := constant S_ .f32 0x00000000#32
  let main_call0_v0 : FVec F S_ .f32 := id main_cst
  let main_call0_v1 : FVec F S201x115x3 .f32 := broadcastInDim S201x115x3 ![] bcast_S_S201x115x3 main_call0_v0
  select main_v6 main_call0_v1 main_v5

/-- The 86 selected landmarks per frame (dominant hand, pose, lips), the x coordinate mirrored when the left hand is dominant. -/
def kFeat (main_v4 : IVec S_ 1) (main_v7 : FVec F S201x115x3 .f32) : FVec F S201x86x3 .f32 :=
  let main_v8 : FVec F S201x21x3 .f32 := extractStridedSlice S201x21x3 ![0, 40, 0] main_v7 slices_S201x115x3_S201x21x3_0_40_0
  let main_v9 : FVec F S201x21x3 .f32 := extractStridedSlice S201x21x3 ![0, 94, 0] main_v7 slices_S201x115x3_S201x21x3_0_94_0
  let main_v10 : FVec F S201x25x3 .f32 := extractStridedSlice S201x25x3 ![0, 61, 0] main_v7 slices_S201x115x3_S201x25x3_0_61_0
  let main_v11 : FVec F S201x40x3 .f32 := extractStridedSlice S201x40x3 ![0, 0, 0] main_v7 slices_S201x115x3_S201x40x3_0_0_0
  let main_v13 : FVec F S201x86x3 .f32 := concatenate S201x86x3 1 [⟨S201x21x3, main_v8⟩, ⟨S201x25x3, main_v10⟩, ⟨S201x40x3, main_v11⟩] concatenates_S201x21x3_S201x25x3_S201x40x3_S201x86x3_d1
  let main_v14 : FVec F S201x86x3 .f32 := concatenate S201x86x3 1 [⟨S201x21x3, main_v9⟩, ⟨S201x25x3, main_v10⟩, ⟨S201x40x3, main_v11⟩] concatenates_S201x21x3_S201x25x3_S201x40x3_S201x86x3_d1
  let main_v15 : FVec F S201x86x3 .f32 := select (broadcastInDim S201x86x3 ![] bcast_S_S201x86x3 main_v4) main_v13 main_v14
  let main_v16 : FVec F S201x86x1 .f32 := extractStridedSlice S201x86x1 ![0, 0, 0] main_v15 slices_S201x86x3_S201x86x1_0_0_0
  let main_v17 : FVec F S201x86 .f32 := shapeCast S201x86 main_v16 shapeCasts_S201x86x1_S201x86
  let main_v18 : FVec F S201x86 .f32 := Host.negf main_v17
  let main_v19 : FVec F S201x86x1 .f32 := extractStridedSlice S201x86x1 ![0, 0, 0] main_v15 slices_S201x86x3_S201x86x1_0_0_0
  let main_v20 : FVec F S201x86 .f32 := shapeCast S201x86 main_v19 shapeCasts_S201x86x1_S201x86
  let main_v21 : FVec F S201x86 .f32 := select (broadcastInDim S201x86 ![] bcast_S_S201x86 main_v4) main_v18 main_v20
  let main_v22 : FVec F S201x86x1 .f32 := broadcastInDim S201x86x1 ![0, 1] bcast_S201x86_S201x86x1_0_1 main_v21
  let main_v23 : FVec F S201x86x2 .f32 := extractStridedSlice S201x86x2 ![0, 0, 1] main_v15 slices_S201x86x3_S201x86x2_0_0_1
  concatenate S201x86x3 2 [⟨S201x86x1, main_v22⟩, ⟨S201x86x2, main_v23⟩] concatenates_S201x86x1_S201x86x2_S201x86x3_d2

/-- Per frame: 1 if the dominant hand's 63 coordinates do not sum to zero, else 0. -/
def kHand (main_v4 : IVec S_ 1) (main_v7 : FVec F S201x115x3 .f32) : FVec F S201 .f32 :=
  let main_v8 : FVec F S201x21x3 .f32 := extractStridedSlice S201x21x3 ![0, 40, 0] main_v7 slices_S201x115x3_S201x21x3_0_40_0
  let main_v9 : FVec F S201x21x3 .f32 := extractStridedSlice S201x21x3 ![0, 94, 0] main_v7 slices_S201x115x3_S201x21x3_0_94_0
  let main_v12 : FVec F S201x21x3 .f32 := select (broadcastInDim S201x21x3 ![] bcast_S_S201x21x3 main_v4) main_v8 main_v9
  let main_v25 : FVec F S201x63 .f32 := shapeCast S201x63 main_v12 shapeCasts_S201x21x3_S201x63
  let main_cst_13 : FVec F S_ .f32 := constant S_ .f32 0x00000000#32
  let main_v26 : FVec F S201 .f32 := Host.reduceAdd main_v25 main_cst_13 reducesTo_S201x63_S201_d1 h_S_
  let main_cst_14 : FVec F S_ .f32 := constant S_ .f32 0x00000000#32
  let main_v27 : FVec F S201 .f32 := broadcastInDim S201 ![] bcast_S_S201 main_cst_14
  let main_v28 : IVec S201 1 := cmpf .une main_v26 main_v27
  uitofp .f32 main_v28

/-- The hand mask plus one. -/
def kTok (main_v29 : FVec F S201 .f32) : FVec F S201 .f32 :=
  let main_cst_15 : FVec F S_ .f32 := constant S_ .f32 0x3F800000#32
  let main_v30 : FVec F S201 .f32 := broadcastInDim S201 ![] bcast_S_S201 main_cst_15
  addf main_v29 main_v30

/-- Hand coordinates of frames 0..199, three per landmark, flattened. -/
def kP1 (main_v24 : FVec F S201x86x3 .f32) : FVec F S200x63 .f32 :=
  let main_v95 : FVec F S200x21x3 .f32 := extractStridedSlice S200x21x3 ![0, 0, 0] main_v24 slices_S201x86x3_S200x21x3_0_0_0
  shapeCast S200x63 main_v95 shapeCasts_S200x21x3_S200x63

/-- Pose x, y of frames 0..199, flattened. -/
def kP2 (main_v24 : FVec F S201x86x3 .f32) : FVec F S200x50 .f32 :=
  let main_v97 : FVec F S200x25x2 .f32 := extractStridedSlice S200x25x2 ![0, 21, 0] main_v24 slices_S201x86x3_S200x25x2_0_21_0
  shapeCast S200x50 main_v97 shapeCasts_S200x25x2_S200x50

/-- Outer-lip x, y of frames 0..199, flattened. -/
def kP3 (main_v24 : FVec F S201x86x3 .f32) : FVec F S200x40 .f32 :=
  let main_v99 : FVec F S200x20x2 .f32 := extractStridedSlice S200x20x2 ![0, 46, 0] main_v24 slices_S201x86x3_S200x20x2_0_46_0
  shapeCast S200x40 main_v99 shapeCasts_S200x20x2_S200x40

/-- Frame t minus frame t+1, for t < 200. -/
def kDx (main_v24 : FVec F S201x86x3 .f32) : FVec F S200x86x3 .f32 :=
  let main_v32 : FVec F S200x86x3 .f32 := extractStridedSlice S200x86x3 ![0, 0, 0] main_v24 slices_S201x86x3_S200x86x3_0_0_0
  let main_v33 : FVec F S200x86x3 .f32 := extractStridedSlice S200x86x3 ![1, 0, 0] main_v24 slices_S201x86x3_S200x86x3_1_0_0
  subf main_v32 main_v33

/-- Hand part of the frame differences, flattened. -/
def kP4 (main_v34 : FVec F S200x86x3 .f32) : FVec F S200x63 .f32 :=
  let main_v101 : FVec F S200x21x3 .f32 := extractStridedSlice S200x21x3 ![0, 0, 0] main_v34 slices_S200x86x3_S200x21x3_0_0_0
  shapeCast S200x63 main_v101 shapeCasts_S200x21x3_S200x63

/-- Pose part of the frame differences, flattened. -/
def kP5 (main_v34 : FVec F S200x86x3 .f32) : FVec F S200x50 .f32 :=
  let main_v103 : FVec F S200x25x2 .f32 := extractStridedSlice S200x25x2 ![0, 21, 0] main_v34 slices_S200x86x3_S200x25x2_0_21_0
  shapeCast S200x50 main_v103 shapeCasts_S200x25x2_S200x50

/-- Outer-lip part of the frame differences, flattened. -/
def kP6 (main_v34 : FVec F S200x86x3 .f32) : FVec F S200x40 .f32 :=
  let main_v105 : FVec F S200x20x2 .f32 := extractStridedSlice S200x20x2 ![0, 46, 0] main_v34 slices_S200x86x3_S200x20x2_0_46_0
  shapeCast S200x40 main_v105 shapeCasts_S200x20x2_S200x40

/-- Distances between the 210 pairs of hand landmarks, per frame. -/
def kD1 (main_v24 : FVec F S201x86x3 .f32) : FVec F S201x210 .f32 :=
  let main_c : IVec S210 32 := fun i => lit0 (S210.rowMajor i)
  let main_c_0 : IVec S210 1 := constantI S210 1 0#1
  let main_c_1 : IVec S210 32 := fun i => lit1 (S210.rowMajor i)
  let main_c_2 : IVec S210 1 := constantI S210 1 0#1
  let main_v35 : FVec F S201x21x3 .f32 := extractStridedSlice S201x21x3 ![0, 0, 0] main_v24 slices_S201x86x3_S201x21x3_0_0_0
  let main_c_16 : IVec S_ 32 := constantI S_ 32 21#32
  let main_v36 : IVec S210 32 := broadcastInDim S210 ![] bcast_S_S210 main_c_16
  let main_v37 : IVec S210 32 := addi main_c main_v36
  let main_v38 : IVec S210 32 := select main_c_0 main_v37 main_c
  let main_v39 : IVec S210x1 32 := broadcastInDim S210x1 ![0] bcast_S210_S210x1_0 main_v38
  let main_v40 : FVec F S201x210x3 .f32 := Host.gather gather_S201x21x3_S210x1_S201x210x3_02_1_n_n_1_1_20113 main_v35 main_v39
  let main_c_17 : IVec S_ 32 := constantI S_ 32 21#32
  let main_v41 : IVec S210 32 := broadcastInDim S210 ![] bcast_S_S210 main_c_17
  let main_v42 : IVec S210 32 := addi main_c_1 main_v41
  let main_v43 : IVec S210 32 := select main_c_2 main_v42 main_c_1
  let main_v44 : IVec S210x1 32 := broadcastInDim S210x1 ![0] bcast_S210_S210x1_0 main_v43
  let main_v45 : FVec F S201x210x3 .f32 := Host.gather gather_S201x21x3_S210x1_S201x210x3_02_1_n_n_1_1_20113 main_v35 main_v44
  let main_v46 : FVec F S201x210x3 .f32 := subf main_v40 main_v45
  let main_v47 : FVec F S201x210x3 .f32 := mulf main_v46 main_v46
  let main_cst_18 : FVec F S_ .f32 := constant S_ .f32 0x00000000#32
  let main_v48 : FVec F S201x210 .f32 := Host.reduceAdd main_v47 main_cst_18 reducesTo_S201x210x3_S201x210_d2 h_S_
  Host.sqrt main_v48

/-- Distances between the 300 pairs of pose landmarks (x, y), per frame. -/
def kD2 (main_v24 : FVec F S201x86x3 .f32) : FVec F S201x300 .f32 :=
  let main_c_3 : IVec S300 32 := fun i => lit2 (S300.rowMajor i)
  let main_c_4 : IVec S300 1 := constantI S300 1 0#1
  let main_c_5 : IVec S300 32 := fun i => lit3 (S300.rowMajor i)
  let main_c_6 : IVec S300 1 := constantI S300 1 0#1
  let main_v50 : FVec F S201x25x2 .f32 := extractStridedSlice S201x25x2 ![0, 21, 0] main_v24 slices_S201x86x3_S201x25x2_0_21_0
  let main_c_19 : IVec S_ 32 := constantI S_ 32 25#32
  let main_v51 : IVec S300 32 := broadcastInDim S300 ![] bcast_S_S300 main_c_19
  let main_v52 : IVec S300 32 := addi main_c_3 main_v51
  let main_v53 : IVec S300 32 := select main_c_4 main_v52 main_c_3
  let main_v54 : IVec S300x1 32 := broadcastInDim S300x1 ![0] bcast_S300_S300x1_0 main_v53
  let main_v55 : FVec F S201x300x2 .f32 := Host.gather gather_S201x25x2_S300x1_S201x300x2_02_1_n_n_1_1_20112 main_v50 main_v54
  let main_c_20 : IVec S_ 32 := constantI S_ 32 25#32
  let main_v56 : IVec S300 32 := broadcastInDim S300 ![] bcast_S_S300 main_c_20
  let main_v57 : IVec S300 32 := addi main_c_5 main_v56
  let main_v58 : IVec S300 32 := select main_c_6 main_v57 main_c_5
  let main_v59 : IVec S300x1 32 := broadcastInDim S300x1 ![0] bcast_S300_S300x1_0 main_v58
  let main_v60 : FVec F S201x300x2 .f32 := Host.gather gather_S201x25x2_S300x1_S201x300x2_02_1_n_n_1_1_20112 main_v50 main_v59
  let main_v61 : FVec F S201x300x2 .f32 := subf main_v55 main_v60
  let main_v62 : FVec F S201x300x2 .f32 := mulf main_v61 main_v61
  let main_cst_21 : FVec F S_ .f32 := constant S_ .f32 0x00000000#32
  let main_v63 : FVec F S201x300 .f32 := Host.reduceAdd main_v62 main_cst_21 reducesTo_S201x300x2_S201x300_d2 h_S_
  Host.sqrt main_v63

/-- Distances between the 190 pairs of outer-lip landmarks (x, y), per frame. -/
def kD3 (main_v24 : FVec F S201x86x3 .f32) : FVec F S201x190 .f32 :=
  let main_c_7 : IVec S190 32 := fun i => lit4 (S190.rowMajor i)
  let main_c_8 : IVec S190 1 := constantI S190 1 0#1
  let main_c_9 : IVec S190 32 := fun i => lit5 (S190.rowMajor i)
  let main_c_10 : IVec S190 1 := constantI S190 1 0#1
  let main_v65 : FVec F S201x20x2 .f32 := extractStridedSlice S201x20x2 ![0, 46, 0] main_v24 slices_S201x86x3_S201x20x2_0_46_0
  let main_c_22 : IVec S_ 32 := constantI S_ 32 20#32
  let main_v66 : IVec S190 32 := broadcastInDim S190 ![] bcast_S_S190 main_c_22
  let main_v67 : IVec S190 32 := addi main_c_7 main_v66
  let main_v68 : IVec S190 32 := select main_c_8 main_v67 main_c_7
  let main_v69 : IVec S190x1 32 := broadcastInDim S190x1 ![0] bcast_S190_S190x1_0 main_v68
  let main_v70 : FVec F S201x190x2 .f32 := Host.gather gather_S201x20x2_S190x1_S201x190x2_02_1_n_n_1_1_20112 main_v65 main_v69
  let main_c_23 : IVec S_ 32 := constantI S_ 32 20#32
  let main_v71 : IVec S190 32 := broadcastInDim S190 ![] bcast_S_S190 main_c_23
  let main_v72 : IVec S190 32 := addi main_c_9 main_v71
  let main_v73 : IVec S190 32 := select main_c_10 main_v72 main_c_9
  let main_v74 : IVec S190x1 32 := broadcastInDim S190x1 ![0] bcast_S190_S190x1_0 main_v73
  let main_v75 : FVec F S201x190x2 .f32 := Host.gather gather_S201x20x2_S190x1_S201x190x2_02_1_n_n_1_1_20112 main_v65 main_v74
  let main_v76 : FVec F S201x190x2 .f32 := subf main_v70 main_v75
  let main_v77 : FVec F S201x190x2 .f32 := mulf main_v76 main_v76
  let main_cst_24 : FVec F S_ .f32 := constant S_ .f32 0x00000000#32
  let main_v78 : FVec F S201x190 .f32 := Host.reduceAdd main_v77 main_cst_24 reducesTo_S201x190x2_S201x190_d2 h_S_
  Host.sqrt main_v78

/-- Distances between the 190 pairs of inner-lip landmarks (x, y), per frame. -/
def kD4 (main_v24 : FVec F S201x86x3 .f32) : FVec F S201x190 .f32 :=
  let main_c_7 : IVec S190 32 := fun i => lit4 (S190.rowMajor i)
  let main_c_9 : IVec S190 32 := fun i => lit5 (S190.rowMajor i)
  let main_c_11 : IVec S190 1 := constantI S190 1 0#1
  let main_c_12 : IVec S190 1 := constantI S190 1 0#1
  let main_v80 : FVec F S201x20x2 .f32 := extractStridedSlice S201x20x2 ![0, 66, 0] main_v24 slices_S201x86x3_S201x20x2_0_66_0
  let main_c_25 : IVec S_ 32 := constantI S_ 32 20#32
  let main_v81 : IVec S190 32 := broadcastInDim S190 ![] bcast_S_S190 main_c_25
  let main_v82 : IVec S190 32 := addi main_c_7 main_v81
  let main_v83 : IVec S190 32 := select main_c_11 main_v82 main_c_7
  let main_v84 : IVec S190x1 32 := broadcastInDim S190x1 ![0] bcast_S190_S190x1_0 main_v83
  let main_v85 : FVec F S201x190x2 .f32 := Host.gather gather_S201x20x2_S190x1_S201x190x2_02_1_n_n_1_1_20112 main_v80 main_v84
  let main_c_26 : IVec S_ 32 := constantI S_ 32 20#32
  let main_v86 : IVec S190 32 := broadcastInDim S190 ![] bcast_S_S190 main_c_26
  let main_v87 : IVec S190 32 := addi main_c_9 main_v86
  let main_v88 : IVec S190 32 := select main_c_12 main_v87 main_c_9
  let main_v89 : IVec S190x1 32 := broadcastInDim S190x1 ![0] bcast_S190_S190x1_0 main_v88
  let main_v90 : FVec F S201x190x2 .f32 := Host.gather gather_S201x20x2_S190x1_S201x190x2_02_1_n_n_1_1_20112 main_v80 main_v89
  let main_v91 : FVec F S201x190x2 .f32 := subf main_v85 main_v90
  let main_v92 : FVec F S201x190x2 .f32 := mulf main_v91 main_v91
  let main_cst_27 : FVec F S_ .f32 := constant S_ .f32 0x00000000#32
  let main_v93 : FVec F S201x190 .f32 := Host.reduceAdd main_v92 main_cst_27 reducesTo_S201x190x2_S201x190_d2 h_S_
  Host.sqrt main_v93

/-- The twelve pieces laid side by side, frames 0..199, as one [1, 200, 1198] array. -/
def kAsm (main_v96 : FVec F S200x63 .f32) (main_v98 : FVec F S200x50 .f32) (main_v100 : FVec F S200x40 .f32) (main_v102 : FVec F S200x63 .f32) (main_v104 : FVec F S200x50 .f32) (main_v106 : FVec F S200x40 .f32) (main_v49 : FVec F S201x210 .f32) (main_v64 : FVec F S201x300 .f32) (main_v79 : FVec F S201x190 .f32) (main_v94 : FVec F S201x190 .f32) (main_v29 : FVec F S201 .f32) (main_v31 : FVec F S201 .f32) : FVec F S1x200x1198 .f32 :=
  let main_v107 : FVec F S200x210 .f32 := extractStridedSlice S200x210 ![0, 0] main_v49 slices_S201x210_S200x210_0_0
  let main_v108 : FVec F S200x300 .f32 := extractStridedSlice S200x300 ![0, 0] main_v64 slices_S201x300_S200x300_0_0
  let main_v109 : FVec F S200x190 .f32 := extractStridedSlice S200x190 ![0, 0] main_v79 slices_S201x190_S200x190_0_0
  let main_v110 : FVec F S200x190 .f32 := extractStridedSlice S200x190 ![0, 0] main_v94 slices_S201x190_S200x190_0_0
  let main_v111 : FVec F S200 .f32 := extractStridedSlice S200 ![0] main_v29 slices_S201_S200_0
  let main_v112 : FVec F S200x1 .f32 := broadcastInDim S200x1 ![0] bcast_S200_S200x1_0 main_v111
  let main_v113 : FVec F S200 .f32 := extractStridedSlice S200 ![0] main_v31 slices_S201_S200_0
  let main_v114 : FVec F S200x1 .f32 := broadcastInDim S200x1 ![0] bcast_S200_S200x1_0 main_v113
  let main_v115 : FVec F S200x1198 .f32 := concatenate S200x1198 1 [⟨S200x63, main_v96⟩, ⟨S200x50, main_v98⟩, ⟨S200x40, main_v100⟩, ⟨S200x63, main_v102⟩, ⟨S200x50, main_v104⟩, ⟨S200x40, main_v106⟩, ⟨S200x210, main_v107⟩, ⟨S200x300, main_v108⟩, ⟨S200x190, main_v109⟩, ⟨S200x190, main_v110⟩, ⟨S200x1, main_v112⟩, ⟨S200x1, main_v114⟩] concatenates_S200x63_S200x50_S200x40_S200x63_S200x50_S200x40_S200x210_S200x300_S200x190_S200x190_S200x1_S200x1_S200x1198_d1
  shapeCast S1x200x1198 main_v115 shapeCasts_S200x1198_S1x200x1198

/-- All twelve pieces from the selected landmarks, the hand mask and the token type. -/
def kOut (xf : FVec F S201x86x3 .f32) (hm tk : FVec F S201 .f32) : FVec F S1x200x1198 .f32 :=
  kAsm (kP1 xf) (kP2 xf) (kP3 xf) (kP4 (kDx xf)) (kP5 (kDx xf)) (kP6 (kDx xf)) (kD1 xf) (kD2 xf) (kD3 xf) (kD4 xf) hm tk

/-- The result from the two counts and the argument array. -/
def kTail (cl cr : FVec F S1x1 .f32) (x : FVec F S100000x115x3 .f32) : FVec F S1x200x1198 .f32 :=
  kOut (kFeat (kCond cl cr) (kClean x)) (kHand (kCond cl cr) (kClean x)) (kTok (kHand (kCond cl cr) (kClean x)))

end Cert.KernelIdeal.Tail
-- ==== Proof.KTail.Read.lean ====
/- The host operations after the kernel's region read back chunk by chunk from any contents of the buffers: after
   each chunk the buffers still to be read hold the stage functions of the two counts and the argument array, given
   that the index tables and masks hold the values the program's first stretch gives them. -/
import proofs.«176904_j2095944041143_2_alg».proof.Proof.KTail.Ops
import proofs.«176904_j2095944041143_2_alg».proof.Proof.Tail.KTerm

noncomputable section

namespace Cert.KernelIdeal.HTail

open Cert.KernelIdeal Cert.KernelIdeal.Gen Idealize.ShloMosaic Idealize.ShloMosaic.TcCoe Idealize.SL.Sem Idealize.ShloMosaic.StableHlo

variable {F : FTy → Type} [FloatOps F]

/-- The fold over a concatenation is the fold over its second part from the first part's contents. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The index tables and the masks hold the values the program's first stretch gives them. -/
def Tables (W : Valuation τ sig (Elt F)) : Prop :=
  W (Proc.devRef .tc main_c) = (fun i => lit0 (S210.rowMajor i))
  ∧ W (Proc.devRef .tc main_c_0) = (constantI S210 1 0#1)
  ∧ W (Proc.devRef .tc main_c_1) = (fun i => lit1 (S210.rowMajor i))
  ∧ W (Proc.devRef .tc main_c_2) = (constantI S210 1 0#1)
  ∧ W (Proc.devRef .tc main_c_3) = (fun i => lit2 (S300.rowMajor i))
  ∧ W (Proc.devRef .tc main_c_4) = (constantI S300 1 0#1)
  ∧ W (Proc.devRef .tc main_c_5) = (fun i => lit3 (S300.rowMajor i))
  ∧ W (Proc.devRef .tc main_c_6) = (constantI S300 1 0#1)
  ∧ W (Proc.devRef .tc main_c_7) = (fun i => lit4 (S190.rowMajor i))
  ∧ W (Proc.devRef .tc main_c_8) = (constantI S190 1 0#1)
  ∧ W (Proc.devRef .tc main_c_9) = (fun i => lit5 (S190.rowMajor i))
  ∧ W (Proc.devRef .tc main_c_10) = (constantI S190 1 0#1)
  ∧ W (Proc.devRef .tc main_c_11) = (constantI S190 1 0#1)
  ∧ W (Proc.devRef .tc main_c_12) = (constantI S190 1 0#1)

/-- The buffers' contents before the first chunk. -/
def val0 (W : Valuation τ sig (Elt F)) : Valuation τ sig (Elt F) := W
theorem val0_main_arg0 (W : Valuation τ sig (Elt F)) : val0 W (no_index (Proc.devRef .tc main_arg0)) = (W (Proc.devRef .tc main_arg0)) := rfl
theorem val0_main_v1_0 (W : Valuation τ sig (Elt F)) : val0 W (no_index (Proc.devRef .tc main_v1_0)) = (W (Proc.devRef .tc main_v1_0)) := rfl
theorem val0_main_v1_1 (W : Valuation τ sig (Elt F)) : val0 W (no_index (Proc.devRef .tc main_v1_1)) = (W (Proc.devRef .tc main_v1_1)) := rfl
theorem val0_main_c (W : Valuation τ sig (Elt F)) (h : Tables W) : val0 W (no_index (Proc.devRef .tc main_c)) = (fun i => lit0 (S210.rowMajor i)) := h.1
theorem val0_main_c_0 (W : Valuation τ sig (Elt F)) (h : Tables W) : val0 W (no_index (Proc.devRef .tc main_c_0)) = (constantI S210 1 0#1) := h.2.1
theorem val0_main_c_1 (W : Valuation τ sig (Elt F)) (h : Tables W) : val0 W (no_index (Proc.devRef .tc main_c_1)) = (fun i => lit1 (S210.rowMajor i)) := h.2.2.1
theorem val0_main_c_2 (W : Valuation τ sig (Elt F)) (h : Tables W) : val0 W (no_index (Proc.devRef .tc main_c_2)) = (constantI S210 1 0#1) := h.2.2.2.1
theorem val0_main_c_3 (W : Valuation τ sig (Elt F)) (h : Tables W) : val0 W (no_index (Proc.devRef .tc main_c_3)) = (fun i => lit2 (S300.rowMajor i)) := h.2.2.2.2.1
theorem val0_main_c_4 (W : Valuation τ sig (Elt F)) (h : Tables W) : val0 W (no_index (Proc.devRef .tc main_c_4)) = (constantI S300 1 0#1) := h.2.2.2.2.2.1
theorem val0_main_c_5 (W : Valuation τ sig (Elt F)) (h : Tables W) : val0 W (no_index (Proc.devRef .tc main_c_5)) = (fun i => lit3 (S300.rowMajor i)) := h.2.2.2.2.2.2.1
theorem val0_main_c_6 (W : Valuation τ sig (Elt F)) (h : Tables W) : val0 W (no_index (Proc.devRef .tc main_c_6)) = (constantI S300 1 0#1) := h.2.2.2.2.2.2.2.1
theorem val0_main_c_7 (W : Valuation τ sig (Elt F)) (h : Tables W) : val0 W (no_index (Proc.devRef .tc main_c_7)) = (fun i => lit4 (S190.rowMajor i)) := h.2.2.2.2.2.2.2.2.1
theorem val0_main_c_8 (W : Valuation τ sig (Elt F)) (h : Tables W) : val0 W (no_index (Proc.devRef .tc main_c_8)) = (constantI S190 1 0#1) := h.2.2.2.2.2.2.2.2.2.1
theorem val0_main_c_9 (W : Valuation τ sig (Elt F)) (h : Tables W) : val0 W (no_index (Proc.devRef .tc main_c_9)) = (fun i => lit5 (S190.rowMajor i)) := h.2.2.2.2.2.2.2.2.2.2.1
theorem val0_main_c_10 (W : Valuation τ sig (Elt F)) (h : Tables W) : val0 W (no_index (Proc.devRef .tc main_c_10)) = (constantI S190 1 0#1) := h.2.2.2.2.2.2.2.2.2.2.2.1
theorem val0_main_c_11 (W : Valuation τ sig (Elt F)) (h : Tables W) : val0 W (no_index (Proc.devRef .tc main_c_11)) = (constantI S190 1 0#1) := h.2.2.2.2.2.2.2.2.2.2.2.2.1
theorem val0_main_c_12 (W : Valuation τ sig (Elt F)) (h : Tables W) : val0 W (no_index (Proc.devRef .tc main_c_12)) = (constantI S190 1 0#1) := h.2.2.2.2.2.2.2.2.2.2.2.2.2

/-- The buffers' contents after the first 1 chunk. -/
def val1 (W : Valuation τ sig (Elt F)) : Valuation τ sig (Elt F) := after kops0 (val0 W)
/-- The buffers that chunk 0's operations write. -/
abbrev kops0_W : List (Ref sig .tc) := [main_v2, main_v3, main_v4, main_v5, main_v6, main_cst, main_call0_v0, main_call0_v1, main_v7]
set_option maxRecDepth 8192 in
theorem kops0_writes : (kops0 : List (HloOp τ sig (Elt F))).Forall fun op => op.writes ⊆ (kops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 0 does not write keeps its contents through it. -/
theorem val1_keep (W : Valuation τ sig (Elt F)) (r : Ref sig .tc) (h : r ∉ kops0_W) :
    val1 W (Proc.devRef .tc r) = val0 W (Proc.devRef .tc r) :=
  after_of_writes_sub kops0 _ kops0_writes h
theorem val1_main_c (W : Valuation τ sig (Elt F)) (h : Tables W) : val1 W (no_index (Proc.devRef .tc main_c)) = (fun i => lit0 (S210.rowMajor i)) :=
  (val1_keep W main_c (by decide)).trans (val0_main_c W h)
theorem val1_main_c_0 (W : Valuation τ sig (Elt F)) (h : Tables W) : val1 W (no_index (Proc.devRef .tc main_c_0)) = (constantI S210 1 0#1) :=
  (val1_keep W main_c_0 (by decide)).trans (val0_main_c_0 W h)
theorem val1_main_c_1 (W : Valuation τ sig (Elt F)) (h : Tables W) : val1 W (no_index (Proc.devRef .tc main_c_1)) = (fun i => lit1 (S210.rowMajor i)) :=
  (val1_keep W main_c_1 (by decide)).trans (val0_main_c_1 W h)
theorem val1_main_c_2 (W : Valuation τ sig (Elt F)) (h : Tables W) : val1 W (no_index (Proc.devRef .tc main_c_2)) = (constantI S210 1 0#1) :=
  (val1_keep W main_c_2 (by decide)).trans (val0_main_c_2 W h)
theorem val1_main_c_3 (W : Valuation τ sig (Elt F)) (h : Tables W) : val1 W (no_index (Proc.devRef .tc main_c_3)) = (fun i => lit2 (S300.rowMajor i)) :=
  (val1_keep W main_c_3 (by decide)).trans (val0_main_c_3 W h)
theorem val1_main_c_4 (W : Valuation τ sig (Elt F)) (h : Tables W) : val1 W (no_index (Proc.devRef .tc main_c_4)) = (constantI S300 1 0#1) :=
  (val1_keep W main_c_4 (by decide)).trans (val0_main_c_4 W h)
theorem val1_main_c_5 (W : Valuation τ sig (Elt F)) (h : Tables W) : val1 W (no_index (Proc.devRef .tc main_c_5)) = (fun i => lit3 (S300.rowMajor i)) :=
  (val1_keep W main_c_5 (by decide)).trans (val0_main_c_5 W h)
theorem val1_main_c_6 (W : Valuation τ sig (Elt F)) (h : Tables W) : val1 W (no_index (Proc.devRef .tc main_c_6)) = (constantI S300 1 0#1) :=
  (val1_keep W main_c_6 (by decide)).trans (val0_main_c_6 W h)
theorem val1_main_c_7 (W : Valuation τ sig (Elt F)) (h : Tables W) : val1 W (no_index (Proc.devRef .tc main_c_7)) = (fun i => lit4 (S190.rowMajor i)) :=
  (val1_keep W main_c_7 (by decide)).trans (val0_main_c_7 W h)
theorem val1_main_c_8 (W : Valuation τ sig (Elt F)) (h : Tables W) : val1 W (no_index (Proc.devRef .tc main_c_8)) = (constantI S190 1 0#1) :=
  (val1_keep W main_c_8 (by decide)).trans (val0_main_c_8 W h)
theorem val1_main_c_9 (W : Valuation τ sig (Elt F)) (h : Tables W) : val1 W (no_index (Proc.devRef .tc main_c_9)) = (fun i => lit5 (S190.rowMajor i)) :=
  (val1_keep W main_c_9 (by decide)).trans (val0_main_c_9 W h)
theorem val1_main_c_10 (W : Valuation τ sig (Elt F)) (h : Tables W) : val1 W (no_index (Proc.devRef .tc main_c_10)) = (constantI S190 1 0#1) :=
  (val1_keep W main_c_10 (by decide)).trans (val0_main_c_10 W h)
theorem val1_main_c_11 (W : Valuation τ sig (Elt F)) (h : Tables W) : val1 W (no_index (Proc.devRef .tc main_c_11)) = (constantI S190 1 0#1) :=
  (val1_keep W main_c_11 (by decide)).trans (val0_main_c_11 W h)
theorem val1_main_c_12 (W : Valuation τ sig (Elt F)) (h : Tables W) : val1 W (no_index (Proc.devRef .tc main_c_12)) = (constantI S190 1 0#1) :=
  (val1_keep W main_c_12 (by decide)).trans (val0_main_c_12 W h)
set_option maxRecDepth 8192 in
set_option maxHeartbeats 4000000 in
theorem val1_main_v4 (W : Valuation τ sig (Elt F)) : val1 W (no_index (Proc.devRef .tc main_v4)) = (Tail.kCond (W (Proc.devRef .tc main_v1_0)) (W (Proc.devRef .tc main_v1_1))) := by
  unfold val1
  simp only [kops0]
  after_results_simp
  simp only [val0_main_v1_1 W, val0_main_v1_0 W] <;> (first | rfl | fail "read-back of main_v4 is not closed by rfl")
set_option maxRecDepth 8192 in
set_option maxHeartbeats 4000000 in
theorem val1_main_v7 (W : Valuation τ sig (Elt F)) : val1 W (no_index (Proc.devRef .tc main_v7)) = (Tail.kClean (W (Proc.devRef .tc main_arg0))) := by
  unfold val1
  simp only [kops0]
  after_results_simp
  simp only [val0_main_arg0 W] <;> (first | rfl | fail "read-back of main_v7 is not closed by rfl")

/-- The buffers' contents after the first 2 chunks. -/
def val2 (W : Valuation τ sig (Elt F)) : Valuation τ sig (Elt F) := after kops1 (val1 W)
/-- The buffers that chunk 1's operations write. -/
abbrev kops1_W : List (Ref sig .tc) := [main_v8, main_v9, main_v10, main_v11, main_v12, main_v13, main_v14, main_v15, main_v16, main_v17, main_v18, main_v19, main_v20, main_v21, main_v22, main_v23, main_v24, main_v25, main_cst_13, main_v26, main_cst_14, main_v27, main_v28, main_v29, main_cst_15, main_v30, main_v31]
set_option maxRecDepth 8192 in
theorem kops1_writes : (kops1 : List (HloOp τ sig (Elt F))).Forall fun op => op.writes ⊆ (kops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 1 does not write keeps its contents through it. -/
theorem val2_keep (W : Valuation τ sig (Elt F)) (r : Ref sig .tc) (h : r ∉ kops1_W) :
    val2 W (Proc.devRef .tc r) = val1 W (Proc.devRef .tc r) :=
  after_of_writes_sub kops1 _ kops1_writes h
theorem val2_main_c (W : Valuation τ sig (Elt F)) (h : Tables W) : val2 W (no_index (Proc.devRef .tc main_c)) = (fun i => lit0 (S210.rowMajor i)) :=
  (val2_keep W main_c (by decide)).trans (val1_main_c W h)
theorem val2_main_c_0 (W : Valuation τ sig (Elt F)) (h : Tables W) : val2 W (no_index (Proc.devRef .tc main_c_0)) = (constantI S210 1 0#1) :=
  (val2_keep W main_c_0 (by decide)).trans (val1_main_c_0 W h)
theorem val2_main_c_1 (W : Valuation τ sig (Elt F)) (h : Tables W) : val2 W (no_index (Proc.devRef .tc main_c_1)) = (fun i => lit1 (S210.rowMajor i)) :=
  (val2_keep W main_c_1 (by decide)).trans (val1_main_c_1 W h)
theorem val2_main_c_2 (W : Valuation τ sig (Elt F)) (h : Tables W) : val2 W (no_index (Proc.devRef .tc main_c_2)) = (constantI S210 1 0#1) :=
  (val2_keep W main_c_2 (by decide)).trans (val1_main_c_2 W h)
theorem val2_main_c_3 (W : Valuation τ sig (Elt F)) (h : Tables W) : val2 W (no_index (Proc.devRef .tc main_c_3)) = (fun i => lit2 (S300.rowMajor i)) :=
  (val2_keep W main_c_3 (by decide)).trans (val1_main_c_3 W h)
theorem val2_main_c_4 (W : Valuation τ sig (Elt F)) (h : Tables W) : val2 W (no_index (Proc.devRef .tc main_c_4)) = (constantI S300 1 0#1) :=
  (val2_keep W main_c_4 (by decide)).trans (val1_main_c_4 W h)
theorem val2_main_c_5 (W : Valuation τ sig (Elt F)) (h : Tables W) : val2 W (no_index (Proc.devRef .tc main_c_5)) = (fun i => lit3 (S300.rowMajor i)) :=
  (val2_keep W main_c_5 (by decide)).trans (val1_main_c_5 W h)
theorem val2_main_c_6 (W : Valuation τ sig (Elt F)) (h : Tables W) : val2 W (no_index (Proc.devRef .tc main_c_6)) = (constantI S300 1 0#1) :=
  (val2_keep W main_c_6 (by decide)).trans (val1_main_c_6 W h)
theorem val2_main_c_7 (W : Valuation τ sig (Elt F)) (h : Tables W) : val2 W (no_index (Proc.devRef .tc main_c_7)) = (fun i => lit4 (S190.rowMajor i)) :=
  (val2_keep W main_c_7 (by decide)).trans (val1_main_c_7 W h)
theorem val2_main_c_8 (W : Valuation τ sig (Elt F)) (h : Tables W) : val2 W (no_index (Proc.devRef .tc main_c_8)) = (constantI S190 1 0#1) :=
  (val2_keep W main_c_8 (by decide)).trans (val1_main_c_8 W h)
theorem val2_main_c_9 (W : Valuation τ sig (Elt F)) (h : Tables W) : val2 W (no_index (Proc.devRef .tc main_c_9)) = (fun i => lit5 (S190.rowMajor i)) :=
  (val2_keep W main_c_9 (by decide)).trans (val1_main_c_9 W h)
theorem val2_main_c_10 (W : Valuation τ sig (Elt F)) (h : Tables W) : val2 W (no_index (Proc.devRef .tc main_c_10)) = (constantI S190 1 0#1) :=
  (val2_keep W main_c_10 (by decide)).trans (val1_main_c_10 W h)
theorem val2_main_c_11 (W : Valuation τ sig (Elt F)) (h : Tables W) : val2 W (no_index (Proc.devRef .tc main_c_11)) = (constantI S190 1 0#1) :=
  (val2_keep W main_c_11 (by decide)).trans (val1_main_c_11 W h)
theorem val2_main_c_12 (W : Valuation τ sig (Elt F)) (h : Tables W) : val2 W (no_index (Proc.devRef .tc main_c_12)) = (constantI S190 1 0#1) :=
  (val2_keep W main_c_12 (by decide)).trans (val1_main_c_12 W h)
set_option maxRecDepth 8192 in
set_option maxHeartbeats 4000000 in
theorem val2_main_v24 (W : Valuation τ sig (Elt F)) : val2 W (no_index (Proc.devRef .tc main_v24)) = (Tail.kFeat (Tail.kCond (W (Proc.devRef .tc main_v1_0)) (W (Proc.devRef .tc main_v1_1))) (Tail.kClean (W (Proc.devRef .tc main_arg0)))) := by
  unfold val2
  simp only [kops1]
  after_results_simp
  try dsimp only [Matrix.cons_val]
  try after_results_simp
  simp only [val1_main_v7 W, val1_main_v4 W] <;> (first | rfl | fail "read-back of main_v24 is not closed by rfl")
set_option maxRecDepth 8192 in
set_option maxHeartbeats 4000000 in
theorem val2_main_v29 (W : Valuation τ sig (Elt F)) : val2 W (no_index (Proc.devRef .tc main_v29)) = (Tail.kHand (Tail.kCond (W (Proc.devRef .tc main_v1_0)) (W (Proc.devRef .tc main_v1_1))) (Tail.kClean (W (Proc.devRef .tc main_arg0)))) := by
  unfold val2
  simp only [kops1]
  after_results_simp
  try dsimp only [Matrix.cons_val]
  try after_results_simp
  simp only [val1_main_v7 W, val1_main_v4 W] <;> (first | rfl | fail "read-back of main_v29 is not closed by rfl")
set_option maxRecDepth 8192 in
set_option maxHeartbeats 4000000 in
theorem val2_main_v31 (W : Valuation τ sig (Elt F)) : val2 W (no_index (Proc.devRef .tc main_v31)) = (Tail.kTok (Tail.kHand (Tail.kCond (W (Proc.devRef .tc main_v1_0)) (W (Proc.devRef .tc main_v1_1))) (Tail.kClean (W (Proc.devRef .tc main_arg0))))) := by
  unfold val2
  simp only [kops1]
  after_results_simp
  try dsimp only [Matrix.cons_val]
  try after_results_simp
  simp only [val1_main_v7 W, val1_main_v4 W] <;> (first | rfl | fail "read-back of main_v31 is not closed by rfl")

/-- The buffers' contents after the first 3 chunks. -/
def val3 (W : Valuation τ sig (Elt F)) : Valuation τ sig (Elt F) := after kops2 (val2 W)
/-- The buffers that chunk 2's operations write. -/
abbrev kops2_W : List (Ref sig .tc) := [main_v32, main_v33, main_v34, main_v35, main_c_16, main_v36, main_v37, main_v38, main_v39, main_v40, main_c_17, main_v41, main_v42, main_v43, main_v44, main_v45, main_v46, main_v47, main_cst_18, main_v48, main_v49]
set_option maxRecDepth 8192 in
theorem kops2_writes : (kops2 : List (HloOp τ sig (Elt F))).Forall fun op => op.writes ⊆ (kops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 2 does not write keeps its contents through it. -/
theorem val3_keep (W : Valuation τ sig (Elt F)) (r : Ref sig .tc) (h : r ∉ kops2_W) :
    val3 W (Proc.devRef .tc r) = val2 W (Proc.devRef .tc r) :=
  after_of_writes_sub kops2 _ kops2_writes h
theorem val3_main_c (W : Valuation τ sig (Elt F)) (h : Tables W) : val3 W (no_index (Proc.devRef .tc main_c)) = (fun i => lit0 (S210.rowMajor i)) :=
  (val3_keep W main_c (by decide)).trans (val2_main_c W h)
theorem val3_main_c_0 (W : Valuation τ sig (Elt F)) (h : Tables W) : val3 W (no_index (Proc.devRef .tc main_c_0)) = (constantI S210 1 0#1) :=
  (val3_keep W main_c_0 (by decide)).trans (val2_main_c_0 W h)
theorem val3_main_c_1 (W : Valuation τ sig (Elt F)) (h : Tables W) : val3 W (no_index (Proc.devRef .tc main_c_1)) = (fun i => lit1 (S210.rowMajor i)) :=
  (val3_keep W main_c_1 (by decide)).trans (val2_main_c_1 W h)
theorem val3_main_c_2 (W : Valuation τ sig (Elt F)) (h : Tables W) : val3 W (no_index (Proc.devRef .tc main_c_2)) = (constantI S210 1 0#1) :=
  (val3_keep W main_c_2 (by decide)).trans (val2_main_c_2 W h)
theorem val3_main_c_3 (W : Valuation τ sig (Elt F)) (h : Tables W) : val3 W (no_index (Proc.devRef .tc main_c_3)) = (fun i => lit2 (S300.rowMajor i)) :=
  (val3_keep W main_c_3 (by decide)).trans (val2_main_c_3 W h)
theorem val3_main_c_4 (W : Valuation τ sig (Elt F)) (h : Tables W) : val3 W (no_index (Proc.devRef .tc main_c_4)) = (constantI S300 1 0#1) :=
  (val3_keep W main_c_4 (by decide)).trans (val2_main_c_4 W h)
theorem val3_main_c_5 (W : Valuation τ sig (Elt F)) (h : Tables W) : val3 W (no_index (Proc.devRef .tc main_c_5)) = (fun i => lit3 (S300.rowMajor i)) :=
  (val3_keep W main_c_5 (by decide)).trans (val2_main_c_5 W h)
theorem val3_main_c_6 (W : Valuation τ sig (Elt F)) (h : Tables W) : val3 W (no_index (Proc.devRef .tc main_c_6)) = (constantI S300 1 0#1) :=
  (val3_keep W main_c_6 (by decide)).trans (val2_main_c_6 W h)
theorem val3_main_c_7 (W : Valuation τ sig (Elt F)) (h : Tables W) : val3 W (no_index (Proc.devRef .tc main_c_7)) = (fun i => lit4 (S190.rowMajor i)) :=
  (val3_keep W main_c_7 (by decide)).trans (val2_main_c_7 W h)
theorem val3_main_c_8 (W : Valuation τ sig (Elt F)) (h : Tables W) : val3 W (no_index (Proc.devRef .tc main_c_8)) = (constantI S190 1 0#1) :=
  (val3_keep W main_c_8 (by decide)).trans (val2_main_c_8 W h)
theorem val3_main_c_9 (W : Valuation τ sig (Elt F)) (h : Tables W) : val3 W (no_index (Proc.devRef .tc main_c_9)) = (fun i => lit5 (S190.rowMajor i)) :=
  (val3_keep W main_c_9 (by decide)).trans (val2_main_c_9 W h)
theorem val3_main_c_10 (W : Valuation τ sig (Elt F)) (h : Tables W) : val3 W (no_index (Proc.devRef .tc main_c_10)) = (constantI S190 1 0#1) :=
  (val3_keep W main_c_10 (by decide)).trans (val2_main_c_10 W h)
theorem val3_main_c_11 (W : Valuation τ sig (Elt F)) (h : Tables W) : val3 W (no_index (Proc.devRef .tc main_c_11)) = (constantI S190 1 0#1) :=
  (val3_keep W main_c_11 (by decide)).trans (val2_main_c_11 W h)
theorem val3_main_c_12 (W : Valuation τ sig (Elt F)) (h : Tables W) : val3 W (no_index (Proc.devRef .tc main_c_12)) = (constantI S190 1 0#1) :=
  (val3_keep W main_c_12 (by decide)).trans (val2_main_c_12 W h)
theorem val3_main_v24 (W : Valuation τ sig (Elt F)) : val3 W (no_index (Proc.devRef .tc main_v24)) = (Tail.kFeat (Tail.kCond (W (Proc.devRef .tc main_v1_0)) (W (Proc.devRef .tc main_v1_1))) (Tail.kClean (W (Proc.devRef .tc main_arg0)))) :=
  (val3_keep W main_v24 (by decide)).trans (val2_main_v24 W)
theorem val3_main_v29 (W : Valuation τ sig (Elt F)) : val3 W (no_index (Proc.devRef .tc main_v29)) = (Tail.kHand (Tail.kCond (W (Proc.devRef .tc main_v1_0)) (W (Proc.devRef .tc main_v1_1))) (Tail.kClean (W (Proc.devRef .tc main_arg0)))) :=
  (val3_keep W main_v29 (by decide)).trans (val2_main_v29 W)
theorem val3_main_v31 (W : Valuation τ sig (Elt F)) : val3 W (no_index (Proc.devRef .tc main_v31)) = (Tail.kTok (Tail.kHand (Tail.kCond (W (Proc.devRef .tc main_v1_0)) (W (Proc.devRef .tc main_v1_1))) (Tail.kClean (W (Proc.devRef .tc main_arg0))))) :=
  (val3_keep W main_v31 (by decide)).trans (val2_main_v31 W)
set_option maxRecDepth 8192 in
set_option maxHeartbeats 4000000 in
theorem val3_main_v34 (W : Valuation τ sig (Elt F)) : val3 W (no_index (Proc.devRef .tc main_v34)) = (Tail.kDx (Tail.kFeat (Tail.kCond (W (Proc.devRef .tc main_v1_0)) (W (Proc.devRef .tc main_v1_1))) (Tail.kClean (W (Proc.devRef .tc main_arg0))))) := by
  unfold val3
  simp only [kops2]
  after_results_simp
  simp only [val2_main_v24 W] <;> (first | rfl | fail "read-back of main_v34 is not closed by rfl")
set_option maxRecDepth 8192 in
set_option maxHeartbeats 4000000 in
theorem val3_main_v49 (W : Valuation τ sig (Elt F)) (h : Tables W) : val3 W (no_index (Proc.devRef .tc main_v49)) = (Tail.kD1 (Tail.kFeat (Tail.kCond (W (Proc.devRef .tc main_v1_0)) (W (Proc.devRef .tc main_v1_1))) (Tail.kClean (W (Proc.devRef .tc main_arg0))))) := by
  unfold val3
  simp only [kops2]
  after_results_simp
  simp only [val2_main_c_1 W h, val2_main_c_2 W h, val2_main_v24 W, val2_main_c W h, val2_main_c_0 W h] <;> (first | rfl | fail "read-back of main_v49 is not closed by rfl")

/-- The buffers' contents after the first 4 chunks. -/
def val4 (W : Valuation τ sig (Elt F)) : Valuation τ sig (Elt F) := after kops3 (val3 W)
/-- The buffers that chunk 3's operations write. -/
abbrev kops3_W : List (Ref sig .tc) := [main_v50, main_c_19, main_v51, main_v52, main_v53, main_v54, main_v55, main_c_20, main_v56, main_v57, main_v58, main_v59, main_v60, main_v61, main_v62, main_cst_21, main_v63, main_v64]
set_option maxRecDepth 8192 in
theorem kops3_writes : (kops3 : List (HloOp τ sig (Elt F))).Forall fun op => op.writes ⊆ (kops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 3 does not write keeps its contents through it. -/
theorem val4_keep (W : Valuation τ sig (Elt F)) (r : Ref sig .tc) (h : r ∉ kops3_W) :
    val4 W (Proc.devRef .tc r) = val3 W (Proc.devRef .tc r) :=
  after_of_writes_sub kops3 _ kops3_writes h
theorem val4_main_c (W : Valuation τ sig (Elt F)) (h : Tables W) : val4 W (no_index (Proc.devRef .tc main_c)) = (fun i => lit0 (S210.rowMajor i)) :=
  (val4_keep W main_c (by decide)).trans (val3_main_c W h)
theorem val4_main_c_0 (W : Valuation τ sig (Elt F)) (h : Tables W) : val4 W (no_index (Proc.devRef .tc main_c_0)) = (constantI S210 1 0#1) :=
  (val4_keep W main_c_0 (by decide)).trans (val3_main_c_0 W h)
theorem val4_main_c_1 (W : Valuation τ sig (Elt F)) (h : Tables W) : val4 W (no_index (Proc.devRef .tc main_c_1)) = (fun i => lit1 (S210.rowMajor i)) :=
  (val4_keep W main_c_1 (by decide)).trans (val3_main_c_1 W h)
theorem val4_main_c_2 (W : Valuation τ sig (Elt F)) (h : Tables W) : val4 W (no_index (Proc.devRef .tc main_c_2)) = (constantI S210 1 0#1) :=
  (val4_keep W main_c_2 (by decide)).trans (val3_main_c_2 W h)
theorem val4_main_c_3 (W : Valuation τ sig (Elt F)) (h : Tables W) : val4 W (no_index (Proc.devRef .tc main_c_3)) = (fun i => lit2 (S300.rowMajor i)) :=
  (val4_keep W main_c_3 (by decide)).trans (val3_main_c_3 W h)
theorem val4_main_c_4 (W : Valuation τ sig (Elt F)) (h : Tables W) : val4 W (no_index (Proc.devRef .tc main_c_4)) = (constantI S300 1 0#1) :=
  (val4_keep W main_c_4 (by decide)).trans (val3_main_c_4 W h)
theorem val4_main_c_5 (W : Valuation τ sig (Elt F)) (h : Tables W) : val4 W (no_index (Proc.devRef .tc main_c_5)) = (fun i => lit3 (S300.rowMajor i)) :=
  (val4_keep W main_c_5 (by decide)).trans (val3_main_c_5 W h)
theorem val4_main_c_6 (W : Valuation τ sig (Elt F)) (h : Tables W) : val4 W (no_index (Proc.devRef .tc main_c_6)) = (constantI S300 1 0#1) :=
  (val4_keep W main_c_6 (by decide)).trans (val3_main_c_6 W h)
theorem val4_main_c_7 (W : Valuation τ sig (Elt F)) (h : Tables W) : val4 W (no_index (Proc.devRef .tc main_c_7)) = (fun i => lit4 (S190.rowMajor i)) :=
  (val4_keep W main_c_7 (by decide)).trans (val3_main_c_7 W h)
theorem val4_main_c_8 (W : Valuation τ sig (Elt F)) (h : Tables W) : val4 W (no_index (Proc.devRef .tc main_c_8)) = (constantI S190 1 0#1) :=
  (val4_keep W main_c_8 (by decide)).trans (val3_main_c_8 W h)
theorem val4_main_c_9 (W : Valuation τ sig (Elt F)) (h : Tables W) : val4 W (no_index (Proc.devRef .tc main_c_9)) = (fun i => lit5 (S190.rowMajor i)) :=
  (val4_keep W main_c_9 (by decide)).trans (val3_main_c_9 W h)
theorem val4_main_c_10 (W : Valuation τ sig (Elt F)) (h : Tables W) : val4 W (no_index (Proc.devRef .tc main_c_10)) = (constantI S190 1 0#1) :=
  (val4_keep W main_c_10 (by decide)).trans (val3_main_c_10 W h)
theorem val4_main_c_11 (W : Valuation τ sig (Elt F)) (h : Tables W) : val4 W (no_index (Proc.devRef .tc main_c_11)) = (constantI S190 1 0#1) :=
  (val4_keep W main_c_11 (by decide)).trans (val3_main_c_11 W h)
theorem val4_main_c_12 (W : Valuation τ sig (Elt F)) (h : Tables W) : val4 W (no_index (Proc.devRef .tc main_c_12)) = (constantI S190 1 0#1) :=
  (val4_keep W main_c_12 (by decide)).trans (val3_main_c_12 W h)
theorem val4_main_v24 (W : Valuation τ sig (Elt F)) : val4 W (no_index (Proc.devRef .tc main_v24)) = (Tail.kFeat (Tail.kCond (W (Proc.devRef .tc main_v1_0)) (W (Proc.devRef .tc main_v1_1))) (Tail.kClean (W (Proc.devRef .tc main_arg0)))) :=
  (val4_keep W main_v24 (by decide)).trans (val3_main_v24 W)
theorem val4_main_v29 (W : Valuation τ sig (Elt F)) : val4 W (no_index (Proc.devRef .tc main_v29)) = (Tail.kHand (Tail.kCond (W (Proc.devRef .tc main_v1_0)) (W (Proc.devRef .tc main_v1_1))) (Tail.kClean (W (Proc.devRef .tc main_arg0)))) :=
  (val4_keep W main_v29 (by decide)).trans (val3_main_v29 W)
theorem val4_main_v31 (W : Valuation τ sig (Elt F)) : val4 W (no_index (Proc.devRef .tc main_v31)) = (Tail.kTok (Tail.kHand (Tail.kCond (W (Proc.devRef .tc main_v1_0)) (W (Proc.devRef .tc main_v1_1))) (Tail.kClean (W (Proc.devRef .tc main_arg0))))) :=
  (val4_keep W main_v31 (by decide)).trans (val3_main_v31 W)
theorem val4_main_v34 (W : Valuation τ sig (Elt F)) : val4 W (no_index (Proc.devRef .tc main_v34)) = (Tail.kDx (Tail.kFeat (Tail.kCond (W (Proc.devRef .tc main_v1_0)) (W (Proc.devRef .tc main_v1_1))) (Tail.kClean (W (Proc.devRef .tc main_arg0))))) :=
  (val4_keep W main_v34 (by decide)).trans (val3_main_v34 W)
theorem val4_main_v49 (W : Valuation τ sig (Elt F)) (h : Tables W) : val4 W (no_index (Proc.devRef .tc main_v49)) = (Tail.kD1 (Tail.kFeat (Tail.kCond (W (Proc.devRef .tc main_v1_0)) (W (Proc.devRef .tc main_v1_1))) (Tail.kClean (W (Proc.devRef .tc main_arg0))))) :=
  (val4_keep W main_v49 (by decide)).trans (val3_main_v49 W h)
set_option maxRecDepth 8192 in
set_option maxHeartbeats 4000000 in
theorem val4_main_v64 (W : Valuation τ sig (Elt F)) (h : Tables W) : val4 W (no_index (Proc.devRef .tc main_v64)) = (Tail.kD2 (Tail.kFeat (Tail.kCond (W (Proc.devRef .tc main_v1_0)) (W (Proc.devRef .tc main_v1_1))) (Tail.kClean (W (Proc.devRef .tc main_arg0))))) := by
  unfold val4
  simp only [kops3]
  after_results_simp
  simp only [val3_main_c_5 W h, val3_main_c_6 W h, val3_main_v24 W, val3_main_c_3 W h, val3_main_c_4 W h] <;> (first | rfl | fail "read-back of main_v64 is not closed by rfl")

/-- The buffers' contents after the first 5 chunks. -/
def val5 (W : Valuation τ sig (Elt F)) : Valuation τ sig (Elt F) := after kops4 (val4 W)
/-- The buffers that chunk 4's operations write. -/
abbrev kops4_W : List (Ref sig .tc) := [main_v65, main_c_22, main_v66, main_v67, main_v68, main_v69, main_v70, main_c_23, main_v71, main_v72, main_v73, main_v74, main_v75, main_v76, main_v77, main_cst_24, main_v78, main_v79]
set_option maxRecDepth 8192 in
theorem kops4_writes : (kops4 : List (HloOp τ sig (Elt F))).Forall fun op => op.writes ⊆ (kops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 4 does not write keeps its contents through it. -/
theorem val5_keep (W : Valuation τ sig (Elt F)) (r : Ref sig .tc) (h : r ∉ kops4_W) :
    val5 W (Proc.devRef .tc r) = val4 W (Proc.devRef .tc r) :=
  after_of_writes_sub kops4 _ kops4_writes h
theorem val5_main_c (W : Valuation τ sig (Elt F)) (h : Tables W) : val5 W (no_index (Proc.devRef .tc main_c)) = (fun i => lit0 (S210.rowMajor i)) :=
  (val5_keep W main_c (by decide)).trans (val4_main_c W h)
theorem val5_main_c_0 (W : Valuation τ sig (Elt F)) (h : Tables W) : val5 W (no_index (Proc.devRef .tc main_c_0)) = (constantI S210 1 0#1) :=
  (val5_keep W main_c_0 (by decide)).trans (val4_main_c_0 W h)
theorem val5_main_c_1 (W : Valuation τ sig (Elt F)) (h : Tables W) : val5 W (no_index (Proc.devRef .tc main_c_1)) = (fun i => lit1 (S210.rowMajor i)) :=
  (val5_keep W main_c_1 (by decide)).trans (val4_main_c_1 W h)
theorem val5_main_c_2 (W : Valuation τ sig (Elt F)) (h : Tables W) : val5 W (no_index (Proc.devRef .tc main_c_2)) = (constantI S210 1 0#1) :=
  (val5_keep W main_c_2 (by decide)).trans (val4_main_c_2 W h)
theorem val5_main_c_3 (W : Valuation τ sig (Elt F)) (h : Tables W) : val5 W (no_index (Proc.devRef .tc main_c_3)) = (fun i => lit2 (S300.rowMajor i)) :=
  (val5_keep W main_c_3 (by decide)).trans (val4_main_c_3 W h)
theorem val5_main_c_4 (W : Valuation τ sig (Elt F)) (h : Tables W) : val5 W (no_index (Proc.devRef .tc main_c_4)) = (constantI S300 1 0#1) :=
  (val5_keep W main_c_4 (by decide)).trans (val4_main_c_4 W h)
theorem val5_main_c_5 (W : Valuation τ sig (Elt F)) (h : Tables W) : val5 W (no_index (Proc.devRef .tc main_c_5)) = (fun i => lit3 (S300.rowMajor i)) :=
  (val5_keep W main_c_5 (by decide)).trans (val4_main_c_5 W h)
theorem val5_main_c_6 (W : Valuation τ sig (Elt F)) (h : Tables W) : val5 W (no_index (Proc.devRef .tc main_c_6)) = (constantI S300 1 0#1) :=
  (val5_keep W main_c_6 (by decide)).trans (val4_main_c_6 W h)
theorem val5_main_c_7 (W : Valuation τ sig (Elt F)) (h : Tables W) : val5 W (no_index (Proc.devRef .tc main_c_7)) = (fun i => lit4 (S190.rowMajor i)) :=
  (val5_keep W main_c_7 (by decide)).trans (val4_main_c_7 W h)
theorem val5_main_c_8 (W : Valuation τ sig (Elt F)) (h : Tables W) : val5 W (no_index (Proc.devRef .tc main_c_8)) = (constantI S190 1 0#1) :=
  (val5_keep W main_c_8 (by decide)).trans (val4_main_c_8 W h)
theorem val5_main_c_9 (W : Valuation τ sig (Elt F)) (h : Tables W) : val5 W (no_index (Proc.devRef .tc main_c_9)) = (fun i => lit5 (S190.rowMajor i)) :=
  (val5_keep W main_c_9 (by decide)).trans (val4_main_c_9 W h)
theorem val5_main_c_10 (W : Valuation τ sig (Elt F)) (h : Tables W) : val5 W (no_index (Proc.devRef .tc main_c_10)) = (constantI S190 1 0#1) :=
  (val5_keep W main_c_10 (by decide)).trans (val4_main_c_10 W h)
theorem val5_main_c_11 (W : Valuation τ sig (Elt F)) (h : Tables W) : val5 W (no_index (Proc.devRef .tc main_c_11)) = (constantI S190 1 0#1) :=
  (val5_keep W main_c_11 (by decide)).trans (val4_main_c_11 W h)
theorem val5_main_c_12 (W : Valuation τ sig (Elt F)) (h : Tables W) : val5 W (no_index (Proc.devRef .tc main_c_12)) = (constantI S190 1 0#1) :=
  (val5_keep W main_c_12 (by decide)).trans (val4_main_c_12 W h)
theorem val5_main_v24 (W : Valuation τ sig (Elt F)) : val5 W (no_index (Proc.devRef .tc main_v24)) = (Tail.kFeat (Tail.kCond (W (Proc.devRef .tc main_v1_0)) (W (Proc.devRef .tc main_v1_1))) (Tail.kClean (W (Proc.devRef .tc main_arg0)))) :=
  (val5_keep W main_v24 (by decide)).trans (val4_main_v24 W)
theorem val5_main_v29 (W : Valuation τ sig (Elt F)) : val5 W (no_index (Proc.devRef .tc main_v29)) = (Tail.kHand (Tail.kCond (W (Proc.devRef .tc main_v1_0)) (W (Proc.devRef .tc main_v1_1))) (Tail.kClean (W (Proc.devRef .tc main_arg0)))) :=
  (val5_keep W main_v29 (by decide)).trans (val4_main_v29 W)
theorem val5_main_v31 (W : Valuation τ sig (Elt F)) : val5 W (no_index (Proc.devRef .tc main_v31)) = (Tail.kTok (Tail.kHand (Tail.kCond (W (Proc.devRef .tc main_v1_0)) (W (Proc.devRef .tc main_v1_1))) (Tail.kClean (W (Proc.devRef .tc main_arg0))))) :=
  (val5_keep W main_v31 (by decide)).trans (val4_main_v31 W)
theorem val5_main_v34 (W : Valuation τ sig (Elt F)) : val5 W (no_index (Proc.devRef .tc main_v34)) = (Tail.kDx (Tail.kFeat (Tail.kCond (W (Proc.devRef .tc main_v1_0)) (W (Proc.devRef .tc main_v1_1))) (Tail.kClean (W (Proc.devRef .tc main_arg0))))) :=
  (val5_keep W main_v34 (by decide)).trans (val4_main_v34 W)
theorem val5_main_v49 (W : Valuation τ sig (Elt F)) (h : Tables W) : val5 W (no_index (Proc.devRef .tc main_v49)) = (Tail.kD1 (Tail.kFeat (Tail.kCond (W (Proc.devRef .tc main_v1_0)) (W (Proc.devRef .tc main_v1_1))) (Tail.kClean (W (Proc.devRef .tc main_arg0))))) :=
  (val5_keep W main_v49 (by decide)).trans (val4_main_v49 W h)
theorem val5_main_v64 (W : Valuation τ sig (Elt F)) (h : Tables W) : val5 W (no_index (Proc.devRef .tc main_v64)) = (Tail.kD2 (Tail.kFeat (Tail.kCond (W (Proc.devRef .tc main_v1_0)) (W (Proc.devRef .tc main_v1_1))) (Tail.kClean (W (Proc.devRef .tc main_arg0))))) :=
  (val5_keep W main_v64 (by decide)).trans (val4_main_v64 W h)
set_option maxRecDepth 8192 in
set_option maxHeartbeats 4000000 in
theorem val5_main_v79 (W : Valuation τ sig (Elt F)) (h : Tables W) : val5 W (no_index (Proc.devRef .tc main_v79)) = (Tail.kD3 (Tail.kFeat (Tail.kCond (W (Proc.devRef .tc main_v1_0)) (W (Proc.devRef .tc main_v1_1))) (Tail.kClean (W (Proc.devRef .tc main_arg0))))) := by
  unfold val5
  simp only [kops4]
  after_results_simp
  simp only [val4_main_c_9 W h, val4_main_c_10 W h, val4_main_v24 W, val4_main_c_7 W h, val4_main_c_8 W h] <;> (first | rfl | fail "read-back of main_v79 is not closed by rfl")

/-- The buffers' contents after the first 6 chunks. -/
def val6 (W : Valuation τ sig (Elt F)) : Valuation τ sig (Elt F) := after kops5 (val5 W)
/-- The buffers that chunk 5's operations write. -/
abbrev kops5_W : List (Ref sig .tc) := [main_v80, main_c_25, main_v81, main_v82, main_v83, main_v84, main_v85, main_c_26, main_v86, main_v87, main_v88, main_v89, main_v90, main_v91, main_v92, main_cst_27, main_v93, main_v94]
set_option maxRecDepth 8192 in
theorem kops5_writes : (kops5 : List (HloOp τ sig (Elt F))).Forall fun op => op.writes ⊆ (kops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 5 does not write keeps its contents through it. -/
theorem val6_keep (W : Valuation τ sig (Elt F)) (r : Ref sig .tc) (h : r ∉ kops5_W) :
    val6 W (Proc.devRef .tc r) = val5 W (Proc.devRef .tc r) :=
  after_of_writes_sub kops5 _ kops5_writes h
theorem val6_main_v24 (W : Valuation τ sig (Elt F)) : val6 W (no_index (Proc.devRef .tc main_v24)) = (Tail.kFeat (Tail.kCond (W (Proc.devRef .tc main_v1_0)) (W (Proc.devRef .tc main_v1_1))) (Tail.kClean (W (Proc.devRef .tc main_arg0)))) :=
  (val6_keep W main_v24 (by decide)).trans (val5_main_v24 W)
theorem val6_main_v29 (W : Valuation τ sig (Elt F)) : val6 W (no_index (Proc.devRef .tc main_v29)) = (Tail.kHand (Tail.kCond (W (Proc.devRef .tc main_v1_0)) (W (Proc.devRef .tc main_v1_1))) (Tail.kClean (W (Proc.devRef .tc main_arg0)))) :=
  (val6_keep W main_v29 (by decide)).trans (val5_main_v29 W)
theorem val6_main_v31 (W : Valuation τ sig (Elt F)) : val6 W (no_index (Proc.devRef .tc main_v31)) = (Tail.kTok (Tail.kHand (Tail.kCond (W (Proc.devRef .tc main_v1_0)) (W (Proc.devRef .tc main_v1_1))) (Tail.kClean (W (Proc.devRef .tc main_arg0))))) :=
  (val6_keep W main_v31 (by decide)).trans (val5_main_v31 W)
theorem val6_main_v34 (W : Valuation τ sig (Elt F)) : val6 W (no_index (Proc.devRef .tc main_v34)) = (Tail.kDx (Tail.kFeat (Tail.kCond (W (Proc.devRef .tc main_v1_0)) (W (Proc.devRef .tc main_v1_1))) (Tail.kClean (W (Proc.devRef .tc main_arg0))))) :=
  (val6_keep W main_v34 (by decide)).trans (val5_main_v34 W)
theorem val6_main_v49 (W : Valuation τ sig (Elt F)) (h : Tables W) : val6 W (no_index (Proc.devRef .tc main_v49)) = (Tail.kD1 (Tail.kFeat (Tail.kCond (W (Proc.devRef .tc main_v1_0)) (W (Proc.devRef .tc main_v1_1))) (Tail.kClean (W (Proc.devRef .tc main_arg0))))) :=
  (val6_keep W main_v49 (by decide)).trans (val5_main_v49 W h)
theorem val6_main_v64 (W : Valuation τ sig (Elt F)) (h : Tables W) : val6 W (no_index (Proc.devRef .tc main_v64)) = (Tail.kD2 (Tail.kFeat (Tail.kCond (W (Proc.devRef .tc main_v1_0)) (W (Proc.devRef .tc main_v1_1))) (Tail.kClean (W (Proc.devRef .tc main_arg0))))) :=
  (val6_keep W main_v64 (by decide)).trans (val5_main_v64 W h)
theorem val6_main_v79 (W : Valuation τ sig (Elt F)) (h : Tables W) : val6 W (no_index (Proc.devRef .tc main_v79)) = (Tail.kD3 (Tail.kFeat (Tail.kCond (W (Proc.devRef .tc main_v1_0)) (W (Proc.devRef .tc main_v1_1))) (Tail.kClean (W (Proc.devRef .tc main_arg0))))) :=
  (val6_keep W main_v79 (by decide)).trans (val5_main_v79 W h)
set_option maxRecDepth 8192 in
set_option maxHeartbeats 4000000 in
theorem val6_main_v94 (W : Valuation τ sig (Elt F)) (h : Tables W) : val6 W (no_index (Proc.devRef .tc main_v94)) = (Tail.kD4 (Tail.kFeat (Tail.kCond (W (Proc.devRef .tc main_v1_0)) (W (Proc.devRef .tc main_v1_1))) (Tail.kClean (W (Proc.devRef .tc main_arg0))))) := by
  unfold val6
  simp only [kops5]
  after_results_simp
  simp only [val5_main_c_9 W h, val5_main_c_12 W h, val5_main_v24 W, val5_main_c_7 W h, val5_main_c_11 W h] <;> (first | rfl | fail "read-back of main_v94 is not closed by rfl")

/-- The buffers' contents after the first 7 chunks. -/
def val7 (W : Valuation τ sig (Elt F)) : Valuation τ sig (Elt F) := after kops6 (val6 W)
/-- The buffers that chunk 6's operations write. -/
abbrev kops6_W : List (Ref sig .tc) := [main_v95, main_v96, main_v97, main_v98, main_v99, main_v100, main_v101, main_v102, main_v103, main_v104, main_v105, main_v106, main_v107, main_v108, main_v109, main_v110, main_v111, main_v112, main_v113, main_v114, main_v115, main_v116]
set_option maxRecDepth 8192 in
theorem kops6_writes : (kops6 : List (HloOp τ sig (Elt F))).Forall fun op => op.writes ⊆ (kops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 6 does not write keeps its contents through it. -/
theorem val7_keep (W : Valuation τ sig (Elt F)) (r : Ref sig .tc) (h : r ∉ kops6_W) :
    val7 W (Proc.devRef .tc r) = val6 W (Proc.devRef .tc r) :=
  after_of_writes_sub kops6 _ kops6_writes h
set_option maxRecDepth 8192 in
set_option maxHeartbeats 4000000 in
theorem val7_main_v116 (W : Valuation τ sig (Elt F)) (h : Tables W) : val7 W (no_index (Proc.devRef .tc main_v116)) = (Tail.kOut (Tail.kFeat (Tail.kCond (W (Proc.devRef .tc main_v1_0)) (W (Proc.devRef .tc main_v1_1))) (Tail.kClean (W (Proc.devRef .tc main_arg0)))) (Tail.kHand (Tail.kCond (W (Proc.devRef .tc main_v1_0)) (W (Proc.devRef .tc main_v1_1))) (Tail.kClean (W (Proc.devRef .tc main_arg0)))) (Tail.kTok (Tail.kHand (Tail.kCond (W (Proc.devRef .tc main_v1_0)) (W (Proc.devRef .tc main_v1_1))) (Tail.kClean (W (Proc.devRef .tc main_arg0)))))) := by
  unfold val7
  simp only [kops6]
  after_results_simp
  try dsimp only [Matrix.cons_val]
  try after_results_simp
  simp only [val6_main_v31 W, val6_main_v29 W, val6_main_v94 W h, val6_main_v79 W h, val6_main_v64 W h, val6_main_v49 W h, val6_main_v34 W, val6_main_v24 W] <;> (first | rfl | fail "read-back of main_v116 is not closed by rfl")

theorem after_kops (W : Valuation τ sig (Elt F)) : after kops W = val7 W := by
  simp only [kops, after_append']
  rfl

/-- From any contents of the buffers at which the index tables and masks hold their values, the operations after the
    region leave in the result buffer the composed stage functions of the two counts and the argument array. -/
theorem tail_read (W : Valuation τ sig (Elt F))
    (hc : W (Proc.devRef .tc main_c) = (fun i => lit0 (S210.rowMajor i)))
    (hc_0 : W (Proc.devRef .tc main_c_0) = (constantI S210 1 0#1))
    (hc_1 : W (Proc.devRef .tc main_c_1) = (fun i => lit1 (S210.rowMajor i)))
    (hc_2 : W (Proc.devRef .tc main_c_2) = (constantI S210 1 0#1))
    (hc_3 : W (Proc.devRef .tc main_c_3) = (fun i => lit2 (S300.rowMajor i)))
    (hc_4 : W (Proc.devRef .tc main_c_4) = (constantI S300 1 0#1))
    (hc_5 : W (Proc.devRef .tc main_c_5) = (fun i => lit3 (S300.rowMajor i)))
    (hc_6 : W (Proc.devRef .tc main_c_6) = (constantI S300 1 0#1))
    (hc_7 : W (Proc.devRef .tc main_c_7) = (fun i => lit4 (S190.rowMajor i)))
    (hc_8 : W (Proc.devRef .tc main_c_8) = (constantI S190 1 0#1))
    (hc_9 : W (Proc.devRef .tc main_c_9) = (fun i => lit5 (S190.rowMajor i)))
    (hc_10 : W (Proc.devRef .tc main_c_10) = (constantI S190 1 0#1))
    (hc_11 : W (Proc.devRef .tc main_c_11) = (constantI S190 1 0#1))
    (hc_12 : W (Proc.devRef .tc main_c_12) = (constantI S190 1 0#1)) :
    StableHlo.after (List.flatten [hostOps1, hostOps1_1, hostOps1_2, hostOps1_3, hostOps1_4, hostOps1_5, hostOps1_6, hostOps1_7, hostOps1_8]) W (Proc.devRef .tc main_v116)
      = Tail.kTail (W (Proc.devRef .tc main_v1_0)) (W (Proc.devRef .tc main_v1_1)) (W (Proc.devRef .tc main_arg0)) := by
  rw [flatten_eq, after_kops]
  exact val7_main_v116 W ⟨hc, hc_0, hc_1, hc_2, hc_3, hc_4, hc_5, hc_6, hc_7, hc_8, hc_9, hc_10, hc_11, hc_12⟩

end Cert.KernelIdeal.HTail

end
-- ==== Proof.KI.Run.lean ====
import proofs.«176904_j2095944041143_2_alg».proof.Proof.KI.Value
import proofs.«176904_j2095944041143_2_alg».proof.Proof.KTail.Read

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program's run, read at its result as a function of the two counts and the argument -/

/-- The lines after the region compute the result from the region's exit contents: the two counts the last point
    left in the result arrays, and the argument as the program found it. -/
theorem tail_at_exit (c : Dev nD) :
    StableHlo.after (List.flatten [hostOps1, hostOps1_1, hostOps1_2, hostOps1_3, hostOps1_4, hostOps1_5, hostOps1_6, hostOps1_7, hostOps1_8]) (Wx m c) (Proc.devRef .tc main_v116)
      = Cert.KernelIdeal.Tail.kTail (outsAt0 m c 19 lt19).1 (outsAt0 m c 19 lt19).2.1 (m ((c : Thread nD τ).loc main_arg0)) := by
  rw [Cert.KernelIdeal.HTail.tail_read (Wx m c) (Wx_main_c m c) (Wx_main_c_0 m c) (Wx_main_c_1 m c) (Wx_main_c_2 m c) (Wx_main_c_3 m c) (Wx_main_c_4 m c) (Wx_main_c_5 m c) (Wx_main_c_6 m c) (Wx_main_c_7 m c) (Wx_main_c_8 m c) (Wx_main_c_9 m c) (Wx_main_c_10 m c) (Wx_main_c_11 m c) (Wx_main_c_12 m c),
    Wx_v1_0 m c lt19, Wx_v1_1 m c lt19, Wx_arg0 m c]

/-- From any memory with zero counters every weakly fair execution of the program terminates without a fault; its result
    buffer ends at the host tail's function of the two counts after the last grid point and of the argument, and the
    argument ends as the program found it. -/
theorem KRun : θ_run defs (onTc (τ := τ) (main (F := F))) ⟨m, fun _ => 0, ρ⟩ (fun r => ∀ c : Dev nD,
      r.2.mem ((c.tc : Thread nD τ).loc main_v116)
        = Cert.KernelIdeal.Tail.kTail (outsAt0 m c 19 lt19).1 (outsAt0 m c 19 lt19).2.1 (m ((c.tc : Thread nD τ).loc main_arg0))
      ∧ r.2.mem ((c.tc : Thread nD τ).loc main_arg0) = m ((c.tc : Thread nD τ).loc main_arg0)) :=
  (θ_run defs _ _).mono (fun _ h c => ⟨((h c).1).trans (tail_at_exit m c), (h c).2⟩) (KRun_gen m ρ)

end Cert.KernelIdeal.Fr

end
-- ==== Proof.Tail.RTerm.lean ====
/-
  The reference program as pure functions of arrays: every frame cleaned, the global condition, the 86 selected
  landmarks per frame, the hand mask, and the twelve feature pieces laid side by side with frames 0..199 kept.
  One `let` per operation of the program, in its order.
-/
import proofs.«176904_j2095944041143_2_alg».proof.Proof.Gen.ReferenceIdeal

noncomputable section
namespace Cert.ReferenceIdeal.Tail
open Idealize.ShloMosaic Cert.ReferenceIdeal Cert.ReferenceIdeal.Gen

variable {F : FTy → Type} [FloatOps F]

/-- Every frame with each not-a-number entry replaced by zero. -/
def rClean (main_arg0 : FVec F S100000x115x3 .f32) : FVec F S100000x115x3 .f32 :=
  let main_v0 : IVec S100000x115x3 1 := cmpf .une main_arg0 main_arg0
  let main_cst : FVec F S_ .f32 := constant S_ .f32 0x00000000#32
  let main_call0_v0 : FVec F S100000x115x3 .f32 := broadcastInDim S100000x115x3 ![] bcast_S_S100000x115x3 main_cst
  select main_v0 main_call0_v0 main_arg0

/-- The global condition: more nonzero left-hand coordinates than right-hand ones, over all frames. -/
def rCond (main_v1 : FVec F S100000x115x3 .f32) : IVec S_ 1 :=
  let main_v2 : FVec F S100000x21x3 .f32 := extractStridedSlice S100000x21x3 ![0, 40, 0] main_v1 slices_S100000x115x3_S100000x21x3_0_40_0
  let main_v3 : FVec F S100000x21x3 .f32 := extractStridedSlice S100000x21x3 ![0, 94, 0] main_v1 slices_S100000x115x3_S100000x21x3_0_94_0
  let main_cst_13 : FVec F S_ .f32 := constant S_ .f32 0x00000000#32
  let main_v6 : FVec F S100000x21x3 .f32 := broadcastInDim S100000x21x3 ![] bcast_S_S100000x21x3 main_cst_13
  let main_v7 : IVec S100000x21x3 1 := cmpf .une main_v2 main_v6
  let main_v8 : FVec F S100000x21x3 .f32 := uitofp .f32 main_v7
  let main_cst_14 : FVec F S_ .f32 := constant S_ .f32 0x00000000#32
  let main_v9 : FVec F S_ .f32 := Host.reduceAdd main_v8 main_cst_14 reducesTo_S100000x21x3_S_d0_1_2 h_S_
  let main_cst_15 : FVec F S_ .f32 := constant S_ .f32 0x00000000#32
  let main_v10 : FVec F S100000x21x3 .f32 := broadcastInDim S100000x21x3 ![] bcast_S_S100000x21x3 main_cst_15
  let main_v11 : IVec S100000x21x3 1 := cmpf .une main_v3 main_v10
  let main_v12 : FVec F S100000x21x3 .f32 := uitofp .f32 main_v11
  let main_cst_16 : FVec F S_ .f32 := constant S_ .f32 0x00000000#32
  let main_v13 : FVec F S_ .f32 := Host.reduceAdd main_v12 main_cst_16 reducesTo_S100000x21x3_S_d0_1_2 h_S_
  cmpf .ogt main_v9 main_v13

/-- The 86 selected landmarks per frame (dominant hand, pose, lips), the x coordinate mirrored when the left hand is dominant. -/
def rFeat (main_v14 : IVec S_ 1) (main_v1 : FVec F S100000x115x3 .f32) : FVec F S100000x86x3 .f32 :=
  let main_v2 : FVec F S100000x21x3 .f32 := extractStridedSlice S100000x21x3 ![0, 40, 0] main_v1 slices_S100000x115x3_S100000x21x3_0_40_0
  let main_v3 : FVec F S100000x21x3 .f32 := extractStridedSlice S100000x21x3 ![0, 94, 0] main_v1 slices_S100000x115x3_S100000x21x3_0_94_0
  let main_v4 : FVec F S100000x25x3 .f32 := extractStridedSlice S100000x25x3 ![0, 61, 0] main_v1 slices_S100000x115x3_S100000x25x3_0_61_0
  let main_v5 : FVec F S100000x40x3 .f32 := extractStridedSlice S100000x40x3 ![0, 0, 0] main_v1 slices_S100000x115x3_S100000x40x3_0_0_0
  let main_v16 : FVec F S100000x86x3 .f32 := concatenate S100000x86x3 1 [⟨S100000x21x3, main_v2⟩, ⟨S100000x25x3, main_v4⟩, ⟨S100000x40x3, main_v5⟩] concatenates_S100000x21x3_S100000x25x3_S100000x40x3_S100000x86x3_d1
  let main_v17 : FVec F S100000x86x3 .f32 := concatenate S100000x86x3 1 [⟨S100000x21x3, main_v3⟩, ⟨S100000x25x3, main_v4⟩, ⟨S100000x40x3, main_v5⟩] concatenates_S100000x21x3_S100000x25x3_S100000x40x3_S100000x86x3_d1
  let main_v18 : FVec F S100000x86x3 .f32 := select (broadcastInDim S100000x86x3 ![] bcast_S_S100000x86x3 main_v14) main_v16 main_v17
  let main_v19 : FVec F S100000x86x1 .f32 := extractStridedSlice S100000x86x1 ![0, 0, 0] main_v18 slices_S100000x86x3_S100000x86x1_0_0_0
  let main_v20 : FVec F S100000x86 .f32 := shapeCast S100000x86 main_v19 shapeCasts_S100000x86x1_S100000x86
  let main_v21 : FVec F S100000x86 .f32 := Host.negf main_v20
  let main_v22 : FVec F S100000x86x1 .f32 := extractStridedSlice S100000x86x1 ![0, 0, 0] main_v18 slices_S100000x86x3_S100000x86x1_0_0_0
  let main_v23 : FVec F S100000x86 .f32 := shapeCast S100000x86 main_v22 shapeCasts_S100000x86x1_S100000x86
  let main_v24 : FVec F S100000x86 .f32 := select (broadcastInDim S100000x86 ![] bcast_S_S100000x86 main_v14) main_v21 main_v23
  let main_v25 : FVec F S100000x86x1 .f32 := broadcastInDim S100000x86x1 ![0, 1] bcast_S100000x86_S100000x86x1_0_1 main_v24
  let main_v26 : FVec F S100000x86x2 .f32 := extractStridedSlice S100000x86x2 ![0, 0, 1] main_v18 slices_S100000x86x3_S100000x86x2_0_0_1
  concatenate S100000x86x3 2 [⟨S100000x86x1, main_v25⟩, ⟨S100000x86x2, main_v26⟩] concatenates_S100000x86x1_S100000x86x2_S100000x86x3_d2

/-- Per frame: 1 if the dominant hand's 63 coordinates do not sum to zero, else 0. -/
def rHand (main_v14 : IVec S_ 1) (main_v1 : FVec F S100000x115x3 .f32) : FVec F S100000 .f32 :=
  let main_v2 : FVec F S100000x21x3 .f32 := extractStridedSlice S100000x21x3 ![0, 40, 0] main_v1 slices_S100000x115x3_S100000x21x3_0_40_0
  let main_v3 : FVec F S100000x21x3 .f32 := extractStridedSlice S100000x21x3 ![0, 94, 0] main_v1 slices_S100000x115x3_S100000x21x3_0_94_0
  let main_v15 : FVec F S100000x21x3 .f32 := select (broadcastInDim S100000x21x3 ![] bcast_S_S100000x21x3 main_v14) main_v2 main_v3
  let main_v28 : FVec F S100000x63 .f32 := shapeCast S100000x63 main_v15 shapeCasts_S100000x21x3_S100000x63
  let main_cst_17 : FVec F S_ .f32 := constant S_ .f32 0x00000000#32
  let main_v29 : FVec F S100000 .f32 := Host.reduceAdd main_v28 main_cst_17 reducesTo_S100000x63_S100000_d1 h_S_
  let main_cst_18 : FVec F S_ .f32 := constant S_ .f32 0x00000000#32
  let main_v30 : FVec F S100000 .f32 := broadcastInDim S100000 ![] bcast_S_S100000 main_cst_18
  let main_v31 : IVec S100000 1 := cmpf .une main_v29 main_v30
  uitofp .f32 main_v31

/-- The hand mask plus one. -/
def rTok (main_v32 : FVec F S100000 .f32) : FVec F S100000 .f32 :=
  let main_cst_19 : FVec F S_ .f32 := constant S_ .f32 0x3F800000#32
  let main_v33 : FVec F S100000 .f32 := broadcastInDim S100000 ![] bcast_S_S100000 main_cst_19
  addf main_v32 main_v33

/-- Hand coordinates per frame, three per landmark, flattened. -/
def rP1 (main_v27 : FVec F S100000x86x3 .f32) : FVec F S100000x63 .f32 :=
  let main_v100 : FVec F S100000x21x3 .f32 := extractStridedSlice S100000x21x3 ![0, 0, 0] main_v27 slices_S100000x86x3_S100000x21x3_0_0_0
  shapeCast S100000x63 main_v100 shapeCasts_S100000x21x3_S100000x63

/-- Pose x, y per frame, flattened. -/
def rP2 (main_v27 : FVec F S100000x86x3 .f32) : FVec F S100000x50 .f32 :=
  let main_v102 : FVec F S100000x25x2 .f32 := extractStridedSlice S100000x25x2 ![0, 21, 0] main_v27 slices_S100000x86x3_S100000x25x2_0_21_0
  shapeCast S100000x50 main_v102 shapeCasts_S100000x25x2_S100000x50

/-- Outer-lip x, y per frame, flattened. -/
def rP3 (main_v27 : FVec F S100000x86x3 .f32) : FVec F S100000x40 .f32 :=
  let main_v104 : FVec F S100000x20x2 .f32 := extractStridedSlice S100000x20x2 ![0, 46, 0] main_v27 slices_S100000x86x3_S100000x20x2_0_46_0
  shapeCast S100000x40 main_v104 shapeCasts_S100000x20x2_S100000x40

/-- Frame t minus frame t+1, a zero frame after the last. -/
def rDx (main_v27 : FVec F S100000x86x3 .f32) : FVec F S100000x86x3 .f32 :=
  let main_v35 : FVec F S99999x86x3 .f32 := extractStridedSlice S99999x86x3 ![0, 0, 0] main_v27 slices_S100000x86x3_S99999x86x3_0_0_0
  let main_v36 : FVec F S99999x86x3 .f32 := extractStridedSlice S99999x86x3 ![1, 0, 0] main_v27 slices_S100000x86x3_S99999x86x3_1_0_0
  let main_v37 : FVec F S99999x86x3 .f32 := subf main_v35 main_v36
  let main_cst_20 : FVec F S_ .f32 := constant S_ .f32 0x00000000#32
  let main_v38 : FVec F S1x86x3 .f32 := broadcastInDim S1x86x3 ![] bcast_S_S1x86x3 main_cst_20
  concatenate S100000x86x3 0 [⟨S99999x86x3, main_v37⟩, ⟨S1x86x3, main_v38⟩] concatenates_S99999x86x3_S1x86x3_S100000x86x3_d0

/-- Hand part of the frame differences, flattened. -/
def rP4 (main_v39 : FVec F S100000x86x3 .f32) : FVec F S100000x63 .f32 :=
  let main_v106 : FVec F S100000x21x3 .f32 := extractStridedSlice S100000x21x3 ![0, 0, 0] main_v39 slices_S100000x86x3_S100000x21x3_0_0_0
  shapeCast S100000x63 main_v106 shapeCasts_S100000x21x3_S100000x63

/-- Pose part of the frame differences, flattened. -/
def rP5 (main_v39 : FVec F S100000x86x3 .f32) : FVec F S100000x50 .f32 :=
  let main_v108 : FVec F S100000x25x2 .f32 := extractStridedSlice S100000x25x2 ![0, 21, 0] main_v39 slices_S100000x86x3_S100000x25x2_0_21_0
  shapeCast S100000x50 main_v108 shapeCasts_S100000x25x2_S100000x50

/-- Outer-lip part of the frame differences, flattened. -/
def rP6 (main_v39 : FVec F S100000x86x3 .f32) : FVec F S100000x40 .f32 :=
  let main_v110 : FVec F S100000x20x2 .f32 := extractStridedSlice S100000x20x2 ![0, 46, 0] main_v39 slices_S100000x86x3_S100000x20x2_0_46_0
  shapeCast S100000x40 main_v110 shapeCasts_S100000x20x2_S100000x40

/-- Distances between the 210 pairs of hand landmarks, per frame. -/
def rD1 (main_v27 : FVec F S100000x86x3 .f32) : FVec F S100000x210 .f32 :=
  let main_c : IVec S210 32 := fun i => lit0 (S210.rowMajor i)
  let main_c_0 : IVec S210 1 := constantI S210 1 0#1
  let main_c_1 : IVec S210 32 := fun i => lit1 (S210.rowMajor i)
  let main_c_2 : IVec S210 1 := constantI S210 1 0#1
  let main_v40 : FVec F S100000x21x3 .f32 := extractStridedSlice S100000x21x3 ![0, 0, 0] main_v27 slices_S100000x86x3_S100000x21x3_0_0_0
  let main_c_21 : IVec S_ 32 := constantI S_ 32 21#32
  let main_v41 : IVec S210 32 := broadcastInDim S210 ![] bcast_S_S210 main_c_21
  let main_v42 : IVec S210 32 := addi main_c main_v41
  let main_v43 : IVec S210 32 := select main_c_0 main_v42 main_c
  let main_v44 : IVec S210x1 32 := broadcastInDim S210x1 ![0] bcast_S210_S210x1_0 main_v43
  let main_v45 : FVec F S100000x210x3 .f32 := Host.gather gather_S100000x21x3_S210x1_S100000x210x3_02_1_n_n_1_1_10000013 main_v40 main_v44
  let main_c_22 : IVec S_ 32 := constantI S_ 32 21#32
  let main_v46 : IVec S210 32 := broadcastInDim S210 ![] bcast_S_S210 main_c_22
  let main_v47 : IVec S210 32 := addi main_c_1 main_v46
  let main_v48 : IVec S210 32 := select main_c_2 main_v47 main_c_1
  let main_v49 : IVec S210x1 32 := broadcastInDim S210x1 ![0] bcast_S210_S210x1_0 main_v48
  let main_v50 : FVec F S100000x210x3 .f32 := Host.gather gather_S100000x21x3_S210x1_S100000x210x3_02_1_n_n_1_1_10000013 main_v40 main_v49
  let main_v51 : FVec F S100000x210x3 .f32 := subf main_v45 main_v50
  let main_v52 : FVec F S100000x210x3 .f32 := mulf main_v51 main_v51
  let main_cst_23 : FVec F S_ .f32 := constant S_ .f32 0x00000000#32
  let main_v53 : FVec F S100000x210 .f32 := Host.reduceAdd main_v52 main_cst_23 reducesTo_S100000x210x3_S100000x210_d2 h_S_
  Host.sqrt main_v53

/-- Distances between the 300 pairs of pose landmarks (x, y), per frame. -/
def rD2 (main_v27 : FVec F S100000x86x3 .f32) : FVec F S100000x300 .f32 :=
  let main_c_3 : IVec S300 32 := fun i => lit2 (S300.rowMajor i)
  let main_c_4 : IVec S300 1 := constantI S300 1 0#1
  let main_c_5 : IVec S300 32 := fun i => lit3 (S300.rowMajor i)
  let main_c_6 : IVec S300 1 := constantI S300 1 0#1
  let main_v55 : FVec F S100000x25x2 .f32 := extractStridedSlice S100000x25x2 ![0, 21, 0] main_v27 slices_S100000x86x3_S100000x25x2_0_21_0
  let main_c_24 : IVec S_ 32 := constantI S_ 32 25#32
  let main_v56 : IVec S300 32 := broadcastInDim S300 ![] bcast_S_S300 main_c_24
  let main_v57 : IVec S300 32 := addi main_c_3 main_v56
  let main_v58 : IVec S300 32 := select main_c_4 main_v57 main_c_3
  let main_v59 : IVec S300x1 32 := broadcastInDim S300x1 ![0] bcast_S300_S300x1_0 main_v58
  let main_v60 : FVec F S100000x300x2 .f32 := Host.gather gather_S100000x25x2_S300x1_S100000x300x2_02_1_n_n_1_1_10000012 main_v55 main_v59
  let main_c_25 : IVec S_ 32 := constantI S_ 32 25#32
  let main_v61 : IVec S300 32 := broadcastInDim S300 ![] bcast_S_S300 main_c_25
  let main_v62 : IVec S300 32 := addi main_c_5 main_v61
  let main_v63 : IVec S300 32 := select main_c_6 main_v62 main_c_5
  let main_v64 : IVec S300x1 32 := broadcastInDim S300x1 ![0] bcast_S300_S300x1_0 main_v63
  let main_v65 : FVec F S100000x300x2 .f32 := Host.gather gather_S100000x25x2_S300x1_S100000x300x2_02_1_n_n_1_1_10000012 main_v55 main_v64
  let main_v66 : FVec F S100000x300x2 .f32 := subf main_v60 main_v65
  let main_v67 : FVec F S100000x300x2 .f32 := mulf main_v66 main_v66
  let main_cst_26 : FVec F S_ .f32 := constant S_ .f32 0x00000000#32
  let main_v68 : FVec F S100000x300 .f32 := Host.reduceAdd main_v67 main_cst_26 reducesTo_S100000x300x2_S100000x300_d2 h_S_
  Host.sqrt main_v68

/-- Distances between the 190 pairs of outer-lip landmarks (x, y), per frame. -/
def rD3 (main_v27 : FVec F S100000x86x3 .f32) : FVec F S100000x190 .f32 :=
  let main_c_7 : IVec S190 32 := fun i => lit4 (S190.rowMajor i)
  let main_c_8 : IVec S190 1 := constantI S190 1 0#1
  let main_c_9 : IVec S190 32 := fun i => lit5 (S190.rowMajor i)
  let main_c_10 : IVec S190 1 := constantI S190 1 0#1
  let main_v70 : FVec F S100000x20x2 .f32 := extractStridedSlice S100000x20x2 ![0, 46, 0] main_v27 slices_S100000x86x3_S100000x20x2_0_46_0
  let main_c_27 : IVec S_ 32 := constantI S_ 32 20#32
  let main_v71 : IVec S190 32 := broadcastInDim S190 ![] bcast_S_S190 main_c_27
  let main_v72 : IVec S190 32 := addi main_c_7 main_v71
  let main_v73 : IVec S190 32 := select main_c_8 main_v72 main_c_7
  let main_v74 : IVec S190x1 32 := broadcastInDim S190x1 ![0] bcast_S190_S190x1_0 main_v73
  let main_v75 : FVec F S100000x190x2 .f32 := Host.gather gather_S100000x20x2_S190x1_S100000x190x2_02_1_n_n_1_1_10000012 main_v70 main_v74
  let main_c_28 : IVec S_ 32 := constantI S_ 32 20#32
  let main_v76 : IVec S190 32 := broadcastInDim S190 ![] bcast_S_S190 main_c_28
  let main_v77 : IVec S190 32 := addi main_c_9 main_v76
  let main_v78 : IVec S190 32 := select main_c_10 main_v77 main_c_9
  let main_v79 : IVec S190x1 32 := broadcastInDim S190x1 ![0] bcast_S190_S190x1_0 main_v78
  let main_v80 : FVec F S100000x190x2 .f32 := Host.gather gather_S100000x20x2_S190x1_S100000x190x2_02_1_n_n_1_1_10000012 main_v70 main_v79
  let main_v81 : FVec F S100000x190x2 .f32 := subf main_v75 main_v80
  let main_v82 : FVec F S100000x190x2 .f32 := mulf main_v81 main_v81
  let main_cst_29 : FVec F S_ .f32 := constant S_ .f32 0x00000000#32
  let main_v83 : FVec F S100000x190 .f32 := Host.reduceAdd main_v82 main_cst_29 reducesTo_S100000x190x2_S100000x190_d2 h_S_
  Host.sqrt main_v83

/-- Distances between the 190 pairs of inner-lip landmarks (x, y), per frame. -/
def rD4 (main_v27 : FVec F S100000x86x3 .f32) : FVec F S100000x190 .f32 :=
  let main_c_7 : IVec S190 32 := fun i => lit4 (S190.rowMajor i)
  let main_c_9 : IVec S190 32 := fun i => lit5 (S190.rowMajor i)
  let main_c_11 : IVec S190 1 := constantI S190 1 0#1
  let main_c_12 : IVec S190 1 := constantI S190 1 0#1
  let main_v85 : FVec F S100000x20x2 .f32 := extractStridedSlice S100000x20x2 ![0, 66, 0] main_v27 slices_S100000x86x3_S100000x20x2_0_66_0
  let main_c_30 : IVec S_ 32 := constantI S_ 32 20#32
  let main_v86 : IVec S190 32 := broadcastInDim S190 ![] bcast_S_S190 main_c_30
  let main_v87 : IVec S190 32 := addi main_c_7 main_v86
  let main_v88 : IVec S190 32 := select main_c_11 main_v87 main_c_7
  let main_v89 : IVec S190x1 32 := broadcastInDim S190x1 ![0] bcast_S190_S190x1_0 main_v88
  let main_v90 : FVec F S100000x190x2 .f32 := Host.gather gather_S100000x20x2_S190x1_S100000x190x2_02_1_n_n_1_1_10000012 main_v85 main_v89
  let main_c_31 : IVec S_ 32 := constantI S_ 32 20#32
  let main_v91 : IVec S190 32 := broadcastInDim S190 ![] bcast_S_S190 main_c_31
  let main_v92 : IVec S190 32 := addi main_c_9 main_v91
  let main_v93 : IVec S190 32 := select main_c_12 main_v92 main_c_9
  let main_v94 : IVec S190x1 32 := broadcastInDim S190x1 ![0] bcast_S190_S190x1_0 main_v93
  let main_v95 : FVec F S100000x190x2 .f32 := Host.gather gather_S100000x20x2_S190x1_S100000x190x2_02_1_n_n_1_1_10000012 main_v85 main_v94
  let main_v96 : FVec F S100000x190x2 .f32 := subf main_v90 main_v95
  let main_v97 : FVec F S100000x190x2 .f32 := mulf main_v96 main_v96
  let main_cst_32 : FVec F S_ .f32 := constant S_ .f32 0x00000000#32
  let main_v98 : FVec F S100000x190 .f32 := Host.reduceAdd main_v97 main_cst_32 reducesTo_S100000x190x2_S100000x190_d2 h_S_
  Host.sqrt main_v98

/-- The twelve pieces laid side by side, frames 0..199 kept, as one [1, 200, 1198] array. -/
def rAsm (main_v101 : FVec F S100000x63 .f32) (main_v103 : FVec F S100000x50 .f32) (main_v105 : FVec F S100000x40 .f32) (main_v107 : FVec F S100000x63 .f32) (main_v109 : FVec F S100000x50 .f32) (main_v111 : FVec F S100000x40 .f32) (main_v54 : FVec F S100000x210 .f32) (main_v69 : FVec F S100000x300 .f32) (main_v84 : FVec F S100000x190 .f32) (main_v99 : FVec F S100000x190 .f32) (main_v32 : FVec F S100000 .f32) (main_v34 : FVec F S100000 .f32) : FVec F S1x200x1198 .f32 :=
  let main_v112 : FVec F S100000x1 .f32 := broadcastInDim S100000x1 ![0] bcast_S100000_S100000x1_0 main_v32
  let main_v113 : FVec F S100000x1 .f32 := broadcastInDim S100000x1 ![0] bcast_S100000_S100000x1_0 main_v34
  let main_v114 : FVec F S100000x1198 .f32 := concatenate S100000x1198 1 [⟨S100000x63, main_v101⟩, ⟨S100000x50, main_v103⟩, ⟨S100000x40, main_v105⟩, ⟨S100000x63, main_v107⟩, ⟨S100000x50, main_v109⟩, ⟨S100000x40, main_v111⟩, ⟨S100000x210, main_v54⟩, ⟨S100000x300, main_v69⟩, ⟨S100000x190, main_v84⟩, ⟨S100000x190, main_v99⟩, ⟨S100000x1, main_v112⟩, ⟨S100000x1, main_v113⟩] concatenates_S100000x63_S100000x50_S100000x40_S100000x63_S100000x50_S100000x40_S100000x210_S100000x300_S100000x190_S100000x190_S100000x1_S100000x1_S100000x1198_d1
  let main_v115 : FVec F S200x1198 .f32 := extractStridedSlice S200x1198 ![0, 0] main_v114 slices_S100000x1198_S200x1198_0_0
  shapeCast S1x200x1198 main_v115 shapeCasts_S200x1198_S1x200x1198

/-- All twelve pieces from the selected landmarks, the hand mask and the token type. -/
def rOut (xf : FVec F S100000x86x3 .f32) (hm tk : FVec F S100000 .f32) : FVec F S1x200x1198 .f32 :=
  rAsm (rP1 xf) (rP2 xf) (rP3 xf) (rP4 (rDx xf)) (rP5 (rDx xf)) (rP6 (rDx xf)) (rD1 xf) (rD2 xf) (rD3 xf) (rD4 xf) hm tk

/-- The result from the argument array. -/
def rTail (x : FVec F S100000x115x3 .f32) : FVec F S1x200x1198 .f32 :=
  rOut (rFeat (rCond (rClean x)) (rClean x)) (rHand (rCond (rClean x)) (rClean x)) (rTok (rHand (rCond (rClean x)) (rClean x)))

end Cert.ReferenceIdeal.Tail
-- ==== Proof.LibBlockedSum.lean ====
/-
  Sums cut into consecutive blocks, over any additive commutative monoid (so also over the extended reals, where
  addition is associative and commutative although it is not cancellative).

  * `sum_blocks`: a sum over `Fin n` with `n = a * b` is the sum over the `a` blocks of the sums over the `b`
    positions inside a block; position `j` of block `s` is the index `b * s + j`.
  * `add_sum_pair`: a start value to which each block adds two terms, one after the other, is the start value
    plus the whole first sum plus the whole second sum.
-/
import Mathlib.Algebra.BigOperators.Fin
import Mathlib.Algebra.BigOperators.Group.Finset.Basic
import Mathlib.Logic.Equiv.Fin.Basic

open scoped BigOperators

namespace BlockedSum

variable {M : Type*} [AddCommMonoid M]

/-- A sum over `a * b` consecutive naturals, taken block by block: `a` blocks of `b` positions each, position `j` of
    block `s` being `b * s + j`. The summand is a function of the natural number, so no bound proof travels. -/
theorem sum_blocks (a b n : ℕ) (h : a * b = n) (g : ℕ → M) :
    ∑ s ∈ Finset.range a, ∑ j : Fin b, g (b * s + j.val) = ∑ k : Fin n, g k.val := by
  subst h
  rw [Finset.sum_range (fun s => ∑ j : Fin b, g (b * s + j.val))]
  rw [← Equiv.sum_comp finProdFinEquiv (fun k : Fin (a * b) => g k.val), Fintype.sum_prod_type]
  refine Finset.sum_congr rfl fun s _ => Finset.sum_congr rfl fun j _ => ?_
  show g (b * s.val + j.val) = g (j.val + b * s.val)
  rw [Nat.add_comm]

/-- Adding, block after block, first the block's `A` term and then its `B` term to a start value `z` gives `z` plus
    all the `A` terms plus all the `B` terms: only associativity and commutativity of the addition are used. -/
theorem add_sum_pair (z : M) (A B : ℕ → M) (a : ℕ) :
    z + ∑ s ∈ Finset.range a, (A s + B s) = (z + ∑ s ∈ Finset.range a, A s) + ∑ s ∈ Finset.range a, B s := by
  rw [Finset.sum_add_distrib, add_assoc]

end BlockedSum
-- ==== Proof.LibBlockedSumFin.lean ====
/-
  A sum over `Fin n` taken block by block, through any indexing of the blocks.

  `sum_blocks_fin`: over any additive commutative monoid (so also over the extended reals), if `n = a * b` and
  `idx s j : Fin n` has value `b * s + j` for every block `s : Fin a` and position `j : Fin b`, then the sum over the
  `a` blocks of the sums over the `b` positions of `f (idx s j)` is the sum of `f` over all of `Fin n`.  It is the
  `Fin`-indexed form of `BlockedSum.sum_blocks`: the summand is a function of the bounded index, and the indexing
  function is the caller's own (only its value is asked), so a kernel's per-block index constructor can be used as it is.
  Only associativity and commutativity of the addition are used.
-/
import proofs.«176904_j2095944041143_2_alg».proof.Proof.LibBlockedSum

open scoped BigOperators

namespace BlockedSum

/-- A sum over `Fin n`, `n = a * b`, taken block by block through any indexing `idx s j` of value `b * s + j`. -/
theorem sum_blocks_fin {M : Type*} [AddCommMonoid M] (a b n : ℕ) (h : a * b = n) (f : Fin n → M)
    (idx : Fin a → Fin b → Fin n) (hidx : ∀ s j, (idx s j).val = b * s.val + j.val) :
    ∑ s : Fin a, ∑ j : Fin b, f (idx s j) = ∑ k : Fin n, f k := by
  classical
  let g : ℕ → M := fun v => if hv : v < n then f ⟨v, hv⟩ else 0
  have hg : ∀ k : Fin n, g k.val = f k := fun k => by simp only [g, dif_pos k.isLt, Fin.eta]
  calc ∑ s : Fin a, ∑ j : Fin b, f (idx s j)
      = ∑ s : Fin a, ∑ j : Fin b, g (b * s.val + j.val) := by
          refine Finset.sum_congr rfl fun s _ => Finset.sum_congr rfl fun j _ => ?_
          rw [← hidx s j, hg]
    _ = ∑ s ∈ Finset.range a, ∑ j : Fin b, g (b * s + j.val) :=
          (Finset.sum_range (fun s => ∑ j : Fin b, g (b * s + j.val))).symm
    _ = ∑ k : Fin n, g k.val := BlockedSum.sum_blocks a b n h g
    _ = ∑ k : Fin n, f k := Finset.sum_congr rfl fun k _ => hg k

end BlockedSum
-- ==== Proof.CondSpec.lean ====
/-
  The count behind the global condition, and the regroupings of its sum.

  The array has 100000 rows, 115 landmarks and 3 coordinates. For a range of 21 consecutive landmarks starting at
  landmark `o`, the count is the number of entries of the array, over all rows, those landmarks and all coordinates,
  that are not zero: the sum of the indicator `ind` (one where the entry is not zero, zero where it is) over the index
  set rows × 21 landmarks × 3 coordinates. All sums are in the extended reals, where addition is commutative and
  associative; nothing else about the addition is used, so no entry has to be finite.

  * `sum_idx3`: a sum over a rank-3 index set is the triple sum over its coordinates.
  * `blocks_count`: the same count taken from 20 blocks of 5000 rows of the flat [5000, 345] view of the array,
    column `3 l + d` of the flat view being landmark `l`, coordinate `d`: row `5000 t + r` is row `r` of block `t`
    (100000 = 20 · 5000), and flat column `3 o + j` with `j = 3 l' + d` is landmark `o + l'`, coordinate `d`
    (63 = 21 · 3, and 3 o + (3 l' + d) = 3 (o + l') + d).
  * `run_sum`: a running value that starts as the first term and to which each later step adds the next term is,
    after the last step, the sum of all terms.
-/
import Idealize.ShloMosaic.Lib.ValueIdx
import proofs.«176904_j2095944041143_2_alg».proof.Proof.LibBlockedSumFin

open scoped BigOperators

namespace Cert.CondBridge

open Idealize.ShloMosaic Idealize.ShloMosaic.ValueIdx

/-- The indicator of "not zero" as an extended real. -/
noncomputable def ind (y : EReal) : EReal := if y ≠ 0 then 1 else 0

/-- The number of entries that are not zero among landmarks `o … o + 20`, all rows and all coordinates. -/
noncomputable def count (o : ℕ) (ho : o + 21 ≤ 115) (A : (⟨3, ![100000, 115, 3]⟩ : Shape).Idx → EReal) : EReal :=
  ∑ T : Fin 100000, ∑ l : Fin 21, ∑ d : Fin 3, ind (A (ix3 T ⟨o + l.val, by omega⟩ d))

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The count from the blocks of the flat view: block `t`, row `r`, flat column `c + j` with `c = 3 o`. -/
theorem blocks_count (c o : ℕ) (hc : c = 3 * o) (ho : o + 21 ≤ 115)
    (A : (⟨3, ![100000, 115, 3]⟩ : Shape).Idx → EReal)
    (B : Fin 20 → (⟨2, ![5000, 345]⟩ : Shape).Idx → EReal)
    (hB : ∀ (t : Fin 20) (r : Fin 5000) (l : Fin 115) (d : Fin 3),
      B t (ix2 r ⟨3 * l.val + d.val, by omega⟩) = A (ix3 ⟨5000 * t.val + r.val, by omega⟩ l d)) :
    ∑ t : Fin 20, ∑ r : Fin 5000, ∑ j : Fin 63, ind (B t (ix2 r ⟨c + j.val, by omega⟩)) = count o ho A := by
  unfold count
  -- rows: 100000 = 20 · 5000
  rw [← BlockedSum.sum_blocks_fin 20 5000 100000 rfl
    (fun T : Fin 100000 => ∑ l : Fin 21, ∑ d : Fin 3, ind (A (ix3 T ⟨o + l.val, by omega⟩ d)))
    (fun t r => ⟨5000 * t.val + r.val, by omega⟩) (fun _ _ => rfl)]
  refine Finset.sum_congr rfl fun t _ => Finset.sum_congr rfl fun r _ => ?_
  -- columns: 63 = 21 · 3
  rw [← BlockedSum.sum_blocks_fin 21 3 63 rfl
    (fun j : Fin 63 => ind (B t (ix2 r ⟨c + j.val, by omega⟩)))
    (fun l d => ⟨3 * l.val + d.val, by omega⟩) (fun _ _ => rfl)]
  refine Finset.sum_congr rfl fun l _ => Finset.sum_congr rfl fun d _ => ?_
  -- flat column 3 o + (3 l + d) is landmark o + l, coordinate d
  have hcol : (⟨c + (3 * l.val + d.val), by omega⟩ : Fin 345)
      = ⟨3 * (⟨o + l.val, by omega⟩ : Fin 115).val + d.val, by omega⟩ := Fin.ext (by show c + (3 * l.val + d.val) = 3 * (o + l.val) + d.val; omega)
  show ind (B t (ix2 r ⟨c + (3 * l.val + d.val), _⟩)) = _
  rw [hcol, hB t r ⟨o + l.val, by omega⟩ d]

/-- A running value that starts as the first term and to which step `n + 1` adds term `n + 1` is, at step `n`, the
    sum of the terms up to `n`; at the last step the sum of all of them. -/
theorem run_sum {M : Type*} [AddCommMonoid M] (N : ℕ) (g : Fin N → M) (s : ℕ → M)
    (h0 : ∀ h : 0 < N, s 0 = g ⟨0, h⟩)
    (hs : ∀ n (h : n + 1 < N), s (n + 1) = s n + g ⟨n + 1, h⟩)
    (n : ℕ) (hn : n + 1 = N) : s n = ∑ t : Fin N, g t := by
  classical
  let g' : ℕ → M := fun t => if h : t < N then g ⟨t, h⟩ else 0
  have hg' : ∀ t : Fin N, g' t.val = g t := fun t => by simp only [g', dif_pos t.isLt, Fin.eta]
  have key : ∀ m, m < N → s m = ∑ t ∈ Finset.range (m + 1), g' t := by
    intro m
    induction m with
    | zero =>
      intro h
      rw [Finset.sum_range_one, h0 h]
      exact (hg' ⟨0, h⟩).symm
    | succ m ih =>
      intro h
      rw [Finset.sum_range_succ, ← ih (by omega), hs m h]
      exact congrArg (s m + ·) (hg' ⟨m + 1, h⟩).symm
  rw [key n (by omega), hn, Finset.sum_range]
  exact Finset.sum_congr rfl fun t _ => hg' t

end Cert.CondBridge
-- ==== Proof.LibKeepdims.lean ====
/-
  A kept reduced axis, read at an index.

  A row reduction that keeps its axis as a unit axis is spelt as a cast of the reduced vector [a] to a column [a, 1]
  followed by a spread of that column over b columns, [a, 1] → [a, b]. At (p, c) the spread reads the column at row p,
  and the column at (p, 0) reads the vector at p: both pairs of indices have the same row-major position, and a
  broadcast keeps every coordinate of an axis whose extent it does not change. Stated at any extents and any element type.
-/
import Idealize.ShloMosaic.Lib.Pipeline.Value
import Idealize.ShloMosaic.Lib.ValueIdx
import Idealize.ShloMosaic.Lib.ValueLayout

namespace Cert.Keepdims

open Idealize.ShloMosaic Idealize.ShloMosaic.ValueIdx

variable {α : Type}

/-- An `[a]` array cast to `[a, 1]` reads, at `(i, u)`, the operand at `i`, whatever the unit coordinate `u`: both
    indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.CondKernel.lean ====
/-
  One block's step of the kernel's two counts, read at the accumulator's one index.

  The body slices 63 columns out of its [5000, 345] block (from column 120 for the left count, from column 282 for the
  right one), replaces an entry by zero where the entry differs from itself, marks the entries that differ from zero,
  turns the marks into the numbers zero and one, sums them along the columns, then along the rows, and adds the result to
  the [1, 1] accumulator. Over the extended reals no value differs from itself, so the replacement is the identity, and the
  mark read as a number is the indicator `ind` of "not zero". Hence the new accumulator's one entry is the old one plus
  the sum of `ind` over the 5000 rows and the 63 columns of the slice; and the start values are zero.
-/
import proofs.«176904_j2095944041143_2_alg».proof.Proof.Gen.KernelIdeal.Skeleton
import proofs.«176904_j2095944041143_2_alg».proof.Proof.LibKeepdims
import proofs.«176904_j2095944041143_2_alg».proof.Proof.CondSpec
import Idealize.ShloMosaic.PureOps.Ideal.Laws
import Idealize.ShloMosaic.Lib.ValueIdx
import Idealize.ShloMosaic.Lib.ValueLayout

open scoped BigOperators

namespace Cert.CondBridge

open Idealize.ShloMosaic Idealize.ShloMosaic.ValueIdx

/-- No extended real differs from itself. -/
theorem cmp_one_self (y : EReal) : Ideal.cmp .one y y = 0#1 := by
  simp [Ideal.cmp]

/-- A one-bit mark widened to 32 bits and read as a signed integer is one where the mark is set and zero where not. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h <;> subst h <;> simp

/-- The ordered "differs from zero" mark is set exactly where the value is not zero. -/
theorem cmp_one_zero (y : EReal) : Ideal.cmp .one y 0 = 1#1 ↔ y ≠ 0 := by
  unfold Ideal.cmp
  by_cases h : y = 0 <;> simp [h]

/-- One element of the body's chain: the entry with "differs from itself" replaced by zero, marked where it differs from
    zero, the mark read as a number: the indicator of "not zero". -/
theorem elt_kernel (y : Ideal .f32) :
    FloatOps.sitofp (F := Ideal) .f32
      ((FloatOps.cmpf .one (Scalar.select (FloatOps.cmpf .one y y) (FloatOps.ofBits (F := Ideal) .f32 0x00000000#32) y)
          (FloatOps.ofBits (F := Ideal) .f32 0x00000000#32)).setWidth 32) = ind y := by
  have hs : FloatOps.ofBits (F := Ideal) .f32 0x00000000#32 = (0 : EReal) := Ideal.ofBits_zero_f32
  rw [hs, Ideal.cmpf_def, Ideal.cmpf_def, cmp_one_self, select_zero, sitofp_bit]
  unfold ind
  by_cases h : y = 0
  · rw [if_neg (fun hh => ((cmp_one_zero y).mp hh) h), if_neg (not_not.mpr h)]
  · rw [if_pos ((cmp_one_zero y).mpr h), if_pos h]

/-- The index the row reduction of a [5000, 1] column inserts at row `k` is `(k, 0)`. -/
theorem lift_col (h : (⟨2, ![5000, 1]⟩ : Shape).Reduces [0] ⟨1, ![1]⟩) (k : Fin 5000) :
    h.lift (ix1 (0 : Fin 1)) k = ix2 k (0 : Fin 1) := by
  funext c
  match c with
  | ⟨0, _⟩ => rfl
  | ⟨1, _⟩ => rfl

/-- The index the column reduction of a [5000, 63] array inserts at row `r`, column `j` is `(r, j)`. -/
theorem lift_row (h : (⟨2, ![5000, 63]⟩ : Shape).Reduces [1] ⟨1, ![5000]⟩) (r : Fin 5000) (j : Fin 63) :
    h.lift (ix1 r) j = ix2 r j := by
  funext c
  match c with
  | ⟨0, _⟩ => rfl
  | ⟨1, _⟩ => rfl

/-- The left accumulator after a block: the old value plus the number of nonzero entries among the block's columns
    120 … 182. -/
theorem step_left (v3 : Vec Ideal Cert.KernelIdeal.S5000x345 .f32) (acc : Vec Ideal Cert.KernelIdeal.S1x1 .f32) :
    Cert.KernelIdeal.Gen.k0_pay5 (F := Ideal) v3 acc (ix2 (0 : Fin 1) (0 : Fin 1))
      = acc (ix2 0 0) + ∑ r : Fin 5000, ∑ j : Fin 63, ind (v3 (ix2 r ⟨120 + j.val, by omega⟩)) := by
  unfold Cert.KernelIdeal.Gen.k0_pay5 Cert.KernelIdeal.Gen.k0_pay4
  dsimp only
  rw [shapeCast_self, shapeCast_self, addf_apply]
  refine congrArg (fun z => acc (ix2 0 0) + z) ?_
  refine (Cert.Keepdims.shapeCast_a_a1_apply _ _ 0 0).trans ?_
  refine (Ideal.multiReduction_add_single _ _ _ _ _ _).trans ?_
  show ∑ k : Fin 5000, _ = _
  refine Finset.sum_congr rfl fun r _ => ?_
  rw [lift_col]
  refine (Cert.Keepdims.shapeCast_a_a1_apply _ _ r 0).trans ?_
  refine (Ideal.multiReduction_add_single _ _ _ _ _ _).trans ?_
  show ∑ j : Fin 63, _ = _
  refine Finset.sum_congr rfl fun j _ => ?_
  rw [lift_row, sitofp_apply, extui_apply, cmpf_apply, select_apply, cmpf_apply, slice2_axis1_eq]
  exact elt_kernel _

/-- The right accumulator after a block: the old value plus the number of nonzero entries among the block's columns
    282 … 344. -/
theorem step_right (v3 : Vec Ideal Cert.KernelIdeal.S5000x345 .f32) (acc : Vec Ideal Cert.KernelIdeal.S1x1 .f32) :
    Cert.KernelIdeal.Gen.k0_pay1 (F := Ideal) (Cert.KernelIdeal.Gen.k0_pay6 (F := Ideal) v3 acc) (ix2 (0 : Fin 1) (0 : Fin 1))
      = acc (ix2 0 0) + ∑ r : Fin 5000, ∑ j : Fin 63, ind (v3 (ix2 r ⟨282 + j.val, by omega⟩)) := by
  unfold Cert.KernelIdeal.Gen.k0_pay1 Cert.KernelIdeal.Gen.k0_pay6 Cert.KernelIdeal.Gen.k0_pay4
  dsimp only
  rw [shapeCast_self, shapeCast_self, addf_apply]
  refine congrArg (fun z => acc (ix2 0 0) + z) ?_
  refine (Cert.Keepdims.shapeCast_a_a1_apply _ _ 0 0).trans ?_
  refine (Ideal.multiReduction_add_single _ _ _ _ _ _).trans ?_
  show ∑ k : Fin 5000, _ = _
  refine Finset.sum_congr rfl fun r _ => ?_
  rw [lift_col]
  refine (Cert.Keepdims.shapeCast_a_a1_apply _ _ r 0).trans ?_
  refine (Ideal.multiReduction_add_single _ _ _ _ _ _).trans ?_
  show ∑ j : Fin 63, _ = _
  refine Finset.sum_congr rfl fun j _ => ?_
  rw [lift_row, sitofp_apply, extui_apply, cmpf_apply, select_apply, cmpf_apply, slice2_axis1_eq]
  exact elt_kernel _

/-- The left accumulator's start value is zero. -/
theorem start_left : Cert.KernelIdeal.Gen.k0_pay2 (F := Ideal) (ix2 (0 : Fin 1) (0 : Fin 1)) = 0 := by
  unfold Cert.KernelIdeal.Gen.k0_pay2
  rw [shapeCast_self]
  exact Ideal.ofBits_zero_f32

/-- The right accumulator's start value is zero. -/
theorem start_right : Cert.KernelIdeal.Gen.k0_pay3 (F := Ideal) (ix2 (0 : Fin 1) (0 : Fin 1)) = 0 := by
  unfold Cert.KernelIdeal.Gen.k0_pay3
  rw [shapeCast_self]
  exact Ideal.ofBits_zero_f32

end Cert.CondBridge
-- ==== Proof.CondRef.lean ====
/-
  The reference's count, read at the scalar's one index.

  The reference slices 21 landmarks out of the [100000, 115, 3] array, marks the entries that differ from zero (an
  unordered comparison, which over the extended reals is plain "not equal"), reads the marks as the numbers zero and
  one, and sums them over all three axes in one reduction from the start value zero. A reduction over every axis into
  the rank-0 shape is the start value plus the sum over every index of the operand; over the index set written by
  coordinates this is the triple sum `count`.
-/
import proofs.«176904_j2095944041143_2_alg».proof.Proof.Gen.ReferenceIdeal
import proofs.«176904_j2095944041143_2_alg».proof.Proof.CondSpec
import Idealize.ShloMosaic.PureOps.Ideal.Laws
import Idealize.ShloMosaic.Lib.ValueIdx
import Idealize.ShloMosaic.Lib.ValueLayout
import Idealize.ShloMosaic.Lib.IdealHost

open scoped BigOperators

namespace Cert.CondBridge

open Idealize.ShloMosaic Idealize.ShloMosaic.ValueIdx

/-- A one-bit mark read as an unsigned integer is one where the mark is set and zero where not. -/
theorem uitofp_bit (b : BitVec 1) : FloatOps.uitofp (F := Ideal) .f32 b = if b = 1#1 then (1 : EReal) else 0 := by
  show (((b.toNat : ℝ)) : EReal) = _
  rcases BitVec.eq_zero_or_eq_one b with h | h <;> subst h <;> simp

/-- The unordered "differs from zero" mark is set exactly where the value is not zero. -/
theorem cmp_une_zero (y : EReal) : Ideal.cmp .une y 0 = 1#1 ↔ y ≠ 0 := by
  unfold Ideal.cmp
  by_cases h : y = 0 <;> simp [h]

/-- One element of the reference's chain: the mark "differs from zero" read as a number is the indicator. -/
theorem elt_ref (y : Ideal .f32) :
    FloatOps.uitofp (F := Ideal) .f32 (FloatOps.cmpf .une y (Ideal.ofBits .f32 0x00000000#32)) = ind y := by
  rw [Ideal.ofBits_zero_f32, Ideal.cmpf_def, uitofp_bit]
  unfold ind
  by_cases h : y = 0
  · rw [if_neg (fun hh => ((cmp_une_zero y).mp hh) h), if_neg (not_not.mpr h)]
  · rw [if_pos ((cmp_une_zero y).mpr h), if_pos h]

/-- The reference's sum over all axes of the marks of landmarks `o … o + 20` is `count o`. -/
theorem ref_count (o : ℕ) (ho : o + 21 ≤ 115) (A : FVec Ideal Cert.ReferenceIdeal.S100000x115x3 .f32)
    (hs : Cert.ReferenceIdeal.S100000x115x3.Slices ![0, o, 0] Cert.ReferenceIdeal.S100000x21x3)
    (hb : Cert.ReferenceIdeal.S_.BroadcastsInDim Cert.ReferenceIdeal.S100000x21x3
      (![] : Fin 0 → Fin Cert.ReferenceIdeal.S100000x21x3.rank))
    (hr : Cert.ReferenceIdeal.S100000x21x3.ReducesTo [0, 1, 2] Cert.ReferenceIdeal.S_)
    (hu : 0 < Cert.ReferenceIdeal.S_.numel) :
    Host.reduceAdd (F := Ideal)
        (uitofp .f32 (cmpf .une (extractStridedSlice Cert.ReferenceIdeal.S100000x21x3 ![0, o, 0] A hs)
          (broadcastInDim Cert.ReferenceIdeal.S100000x21x3 ![] hb
            (constant (F := Ideal) Cert.ReferenceIdeal.S_ .f32 0x00000000#32))))
        (constant (F := Ideal) Cert.ReferenceIdeal.S_ .f32 0x00000000#32) hr hu ix0
      = count o ho A := by
  rw [hostReduceAdd_apply, Ideal.hostReduceAdd_total hr (fun b => b.elim0), constant_apply, Ideal.ofBits_zero_f32,
    zero_add, sum_idx3]
  unfold count
  refine Finset.sum_congr rfl fun T _ => Finset.sum_congr rfl fun l _ => Finset.sum_congr rfl fun d _ => ?_
  show FloatOps.uitofp (F := Ideal) .f32 (FloatOps.cmpf .une
      (extractStridedSlice Cert.ReferenceIdeal.S100000x21x3 ![0, o, 0] A hs (ix3 T l d))
      (broadcastInDim Cert.ReferenceIdeal.S100000x21x3 ![] hb
        (constant (F := Ideal) Cert.ReferenceIdeal.S_ .f32 0x00000000#32) (ix3 T l d))) = _
  rw [slice3_axis1_eq, broadcastInDim_scalar_apply, constant_apply]
  exact elt_ref _

end Cert.CondBridge
-- ==== Proof.Cond.lean ====
/-
  The global condition: the kernel's comparison of its two accumulated counts is the reference's comparison of its two
  sums.

  The kernel goes through the 100000 rows in 20 blocks of 5000. Each of its two [1, 1] accumulators starts at zero and
  receives, block after block, the number of entries of the block that are not zero among 63 columns of the flat
  [5000, 345] view (columns 120 … 182, that is landmarks 40 … 60 with their 3 coordinates, for the left one; columns
  282 … 344, landmarks 94 … 114, for the right one). After the last block each accumulator holds the sum of the 20
  block counts, which regrouped (100000 = 20 · 5000, 63 = 21 · 3) is the count over all rows, the 21 landmarks and the
  3 coordinates. The reference obtains the same two counts by one sum over all three axes each. Both comparisons are
  therefore the comparison of the same two extended reals, at the one index of the rank-0 shape.
-/
import proofs.«176904_j2095944041143_2_alg».proof.Proof.Gen.KernelIdeal.Skeleton
import proofs.«176904_j2095944041143_2_alg».proof.Proof.Gen.ReferenceIdeal
import proofs.«176904_j2095944041143_2_alg».proof.Proof.CondSpec
import proofs.«176904_j2095944041143_2_alg».proof.Proof.CondKernel
import proofs.«176904_j2095944041143_2_alg».proof.Proof.CondRef
import Idealize.ShloMosaic.Lib.ValueIdx

open scoped BigOperators

namespace Cert.CondBridge

open Idealize.ShloMosaic Idealize.ShloMosaic.ValueIdx

/-- The [1, 1] shape has one index. -/
theorem idx11_eq (k : (⟨2, ![1, 1]⟩ : Shape).Idx) : k = ix2 (0 : Fin 1) (0 : Fin 1) := by
  funext a
  match a with
  | ⟨0, _⟩ => exact Fin.ext (by have := idx2_lt0 k; show (k 0).val = 0; omega)
  | ⟨1, _⟩ => exact Fin.ext (by have := idx2_lt1 k; show (k 1).val = 0; omega)

/-- A [1, 1] array cast to the rank-0 shape reads its one entry. -/
theorem shapeCast_11_scalar {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) := by
  unfold shapeCast
  exact congrArg x (idx11_eq _)

/-- The kernel's comparison of its two accumulated counts is the reference's comparison of its two sums: each count is
    the number of nonzero entries of the same 21 landmarks, over all rows and coordinates. -/
theorem cond_eq
    (A : FVec Ideal Cert.ReferenceIdeal.S100000x115x3 .f32)
    (B : Fin 20 → Vec Ideal Cert.KernelIdeal.S5000x345 .f32)
    (hB : ∀ (t : Fin 20) (r : Fin 5000) (l : Fin 115) (d : Fin 3),
      B t (ValueIdx.ix2 r ⟨3 * l.val + d.val, by omega⟩) = A (ValueIdx.ix3 ⟨5000 * t.val + r.val, by omega⟩ l d))
    (sL sR : ℕ → FVec Ideal Cert.KernelIdeal.S1x1 .f32)
    (hL0 : sL 0 = Cert.KernelIdeal.Gen.k0_pay5 (F := Ideal) (B 0) (Cert.KernelIdeal.Gen.k0_pay2 (F := Ideal)))
    (hLs : ∀ n (h : n + 1 < 20), sL (n + 1) = Cert.KernelIdeal.Gen.k0_pay5 (F := Ideal) (B ⟨n + 1, h⟩) (sL n))
    (hR0 : sR 0 = Cert.KernelIdeal.Gen.k0_pay1 (F := Ideal)
      (Cert.KernelIdeal.Gen.k0_pay6 (F := Ideal) (B 0) (Cert.KernelIdeal.Gen.k0_pay3 (F := Ideal))))
    (hRs : ∀ n (h : n + 1 < 20), sR (n + 1) = Cert.KernelIdeal.Gen.k0_pay1 (F := Ideal)
      (Cert.KernelIdeal.Gen.k0_pay6 (F := Ideal) (B ⟨n + 1, h⟩) (sR n))) :
    cmpf (F := Ideal) .ogt
        (shapeCast Cert.KernelIdeal.S_ (sL 19) Cert.KernelIdeal.Facts₀.shapeCasts_S1x1_S_)
        (shapeCast Cert.KernelIdeal.S_ (sR 19) Cert.KernelIdeal.Facts₀.shapeCasts_S1x1_S_)
      = cmpf (F := Ideal) .ogt
        (Host.reduceAdd (F := Ideal)
          (uitofp .f32 (cmpf .une
            (extractStridedSlice Cert.ReferenceIdeal.S100000x21x3 ![0, 40, 0] A
              Cert.ReferenceIdeal.Facts₀.slices_S100000x115x3_S100000x21x3_0_40_0)
            (broadcastInDim Cert.ReferenceIdeal.S100000x21x3 ![] Cert.ReferenceIdeal.Facts₀.bcast_S_S100000x21x3
              (constant (F := Ideal) Cert.ReferenceIdeal.S_ .f32 0x00000000#32))))
          (constant (F := Ideal) Cert.ReferenceIdeal.S_ .f32 0x00000000#32)
          Cert.ReferenceIdeal.Facts₀.reducesTo_S100000x21x3_S_d0_1_2 Cert.ReferenceIdeal.Facts₀.h_S_)
        (Host.reduceAdd (F := Ideal)
          (uitofp .f32 (cmpf .une
            (extractStridedSlice Cert.ReferenceIdeal.S100000x21x3 ![0, 94, 0] A
              Cert.ReferenceIdeal.Facts₀.slices_S100000x115x3_S100000x21x3_0_94_0)
            (broadcastInDim Cert.ReferenceIdeal.S100000x21x3 ![] Cert.ReferenceIdeal.Facts₀.bcast_S_S100000x21x3
              (constant (F := Ideal) Cert.ReferenceIdeal.S_ .f32 0x00000000#32))))
          (constant (F := Ideal) Cert.ReferenceIdeal.S_ .f32 0x00000000#32)
          Cert.ReferenceIdeal.Facts₀.reducesTo_S100000x21x3_S_d0_1_2 Cert.ReferenceIdeal.Facts₀.h_S_) := by
  -- the left count, block after block
  have hL : sL 19 (ix2 (0 : Fin 1) (0 : Fin 1)) = count 40 (by omega) A := by
    rw [← blocks_count 120 40 rfl (by omega) A B hB]
    refine run_sum 20 (fun t => ∑ r : Fin 5000, ∑ j : Fin 63, ind (B t (ix2 r ⟨120 + j.val, by omega⟩)))
      (fun n => sL n (ix2 (0 : Fin 1) (0 : Fin 1))) (fun h => ?_) (fun n h => ?_) 19 rfl
    · show sL 0 (ix2 (0 : Fin 1) (0 : Fin 1)) = ∑ r : Fin 5000, ∑ j : Fin 63, ind (B ⟨0, h⟩ (ix2 r ⟨120 + j.val, _⟩))
      rw [hL0, step_left, start_left, zero_add]
      rfl
    · show sL (n + 1) (ix2 (0 : Fin 1) (0 : Fin 1)) = sL n (ix2 (0 : Fin 1) (0 : Fin 1)) + _
      rw [hLs n h, step_left]
  -- the right count likewise
  have hR : sR 19 (ix2 (0 : Fin 1) (0 : Fin 1)) = count 94 (by omega) A := by
    rw [← blocks_count 282 94 rfl (by omega) A B hB]
    refine run_sum 20 (fun t => ∑ r : Fin 5000, ∑ j : Fin 63, ind (B t (ix2 r ⟨282 + j.val, by omega⟩)))
      (fun n => sR n (ix2 (0 : Fin 1) (0 : Fin 1))) (fun h => ?_) (fun n h => ?_) 19 rfl
    · show sR 0 (ix2 (0 : Fin 1) (0 : Fin 1)) = ∑ r : Fin 5000, ∑ j : Fin 63, ind (B ⟨0, h⟩ (ix2 r ⟨282 + j.val, _⟩))
      rw [hR0, step_right, start_right, zero_add]
      rfl
    · show sR (n + 1) (ix2 (0 : Fin 1) (0 : Fin 1)) = sR n (ix2 (0 : Fin 1) (0 : Fin 1)) + _
      rw [hRs n h, step_right]
  funext i
  obtain rfl : i = ix0 := eq_ix0 i
  rw [cmpf_apply, cmpf_apply, shapeCast_11_scalar, shapeCast_11_scalar, hL, hR,
    ref_count 40 (by omega) A, ref_count 94 (by omega) A]

end Cert.CondBridge
-- ==== Proof.KCond.lean ====
/-
  The kernel's condition, from its frame data, is the reference's.

  Window 0 hands point `t` of the 20 points rows `5000 t … 5000 t + 4999` of the flat [100000, 345] view of the
  argument, and the flat view is the reshape of the [100000, 115, 3] argument: entry (r, 3 l + d) of block `t` is entry
  (5000 t + r, l, d) of the argument, both having the same row-major position. The two accumulators after point `n`
  follow the body's step from what point `n − 1` left, starting from the reset's zero at the first point, and the last
  point copies them to the two result buffers. Over the extended reals no entry differs from itself, so the reference's
  replacement of such entries by zero changes nothing. With these, the comparison of the two result buffers is the
  reference's comparison of its two sums.
-/
import proofs.«176904_j2095944041143_2_alg».proof.Proof.KI.Acc
import proofs.«176904_j2095944041143_2_alg».proof.Proof.Tail.KTerm
import proofs.«176904_j2095944041143_2_alg».proof.Proof.Tail.RTerm
import proofs.«176904_j2095944041143_2_alg».proof.Proof.Cond
import Idealize.ShloMosaic.Lib.Pipeline.Value
import Idealize.ShloMosaic.Lib.ValueIdx
import Idealize.ShloMosaic.Lib.ValueLayout

set_option maxRecDepth 16384

noncomputable section

namespace Cert.KCond

open Idealize.ShloMosaic Idealize.ShloMosaic.ValueIdx Idealize.ShloMosaic.TcCoe Idealize.ShloMosaic.Tactic
open Cert.KernelIdeal Cert.KernelIdeal.Gen Cert.KernelIdeal.Fr

variable (m : (ℓ : Loc nD τ sig) → Buf (Elt Ideal) ℓ)

/-- The flat view the region finds is the reshape of the argument. -/
theorem V_main_v0 (c : Dev nD) :
    (V m c main_v0 : S100000x345.Idx → EReal)
      = shapeCast S100000x345 (m ((c : Thread nD τ).loc main_arg0) : S100000x115x3.Idx → EReal)
          shapeCasts_S100000x115x3_S100000x345 := by
  show StableHlo.after (List.flatten [hostOps0]) (fun b => m (c, b)) (Proc.devRef .tc main_v0) = _
  simp only [List.flatten_cons, List.flatten_nil, List.append_nil]
  after_results
  rfl

/-- Window 0's block index at point `t`: the point itself on the rows, zero on the columns. -/
theorem idx_fact : ∀ t : Fin cfg0.N, win0_0.index t (0 : Fin 2) = t.val ∧ win0_0.index t (1 : Fin 2) = 0 :=
  (by decide +kernel : ∀ t : Fin grid0.N, _)

/-- Entry (r, 3 l + d) of window 0's block at point `t` is entry (5000 t + r, l, d) of the argument: the block's row
    `r` is row `5000 t + r` of the flat view, and ((5000 t + r) · 115 + l) · 3 + d = (5000 t + r) · 345 + (3 l + d). -/
theorem iblk_apply (c : Dev nD) (t : Fin cfg0.N) (r : Fin 5000) (l : Fin 115) (d : Fin 3) :
    iblk m c 0 t (ix2 r ⟨3 * l.val + d.val, by omega⟩)
      = (m ((c : Thread nD τ).loc main_arg0) : S100000x115x3.Idx → EReal)
          (ix3 ⟨5000 * t.val + r.val, by have h1 := t.isLt; have h2 : cfg0.N = 20 := N_0; omega⟩ l d) := by
  show (V m c main_v0 : S100000x345.Idx → EReal) (((cfg0.win 0).blk t).view.emb (ix2 r ⟨3 * l.val + d.val, _⟩)) = _
  rw [V_main_v0]
  refine shapeCast_apply _ _ _ _ ?_
  show (S100000x115x3.rowMajor (ix3 (⟨5000 * t.val + r.val, _⟩ : Fin 100000) l d)).val = _
  rw [Shape.rowMajor_val_three, Shape.rowMajor_val_two]
  obtain ⟨e0, e1⟩ := idx_fact t
  show ((5000 * t.val + r.val) * 115 + l.val) * 3 + d.val
    = (win0_0.index t (0 : Fin 2) * 5000 + 1 * r.val) * 345 + (win0_0.index t (1 : Fin 2) * 345 + 1 * (3 * l.val + d.val))
  rw [e0, e1]
  omega

/-- Over the extended reals no entry differs from itself: replacing the entries that do by anything changes nothing. -/
theorem clean_id {s : Shape} (X Z : FVec Ideal s .f32) : select (cmpf .une X X) Z X = X := by
  funext i
  rw [select_apply, cmpf_apply, Ideal.cmpf_def]
  have h : Ideal.cmp .une (X i) (X i) = 0#1 := by simp [Ideal.cmp]
  rw [h, select_zero]

/-- The kernel's comparison of its two result buffers after the last point is the reference's comparison of its two
    sums over the argument. -/
theorem kcond_eq (c : Dev nD) (h19 : 19 < cfg0.N) :
    Cert.KernelIdeal.Tail.kCond (F := Ideal) (outsAt0 (F := Ideal) m c 19 h19).1 (outsAt0 (F := Ideal) m c 19 h19).2.1
      = Cert.ReferenceIdeal.Tail.rCond (F := Ideal)
          (Cert.ReferenceIdeal.Tail.rClean (F := Ideal) (m ((c.tc : Thread nD τ).loc main_arg0))) := by
  have hN : cfg0.N = 20 := N_0
  -- the cleaned argument is the argument
  have hx : Cert.ReferenceIdeal.Tail.rClean (F := Ideal) (m ((c.tc : Thread nD τ).loc main_arg0))
      = (m ((c.tc : Thread nD τ).loc main_arg0) : Cert.ReferenceIdeal.S100000x115x3.Idx → EReal) := by
    unfold Cert.ReferenceIdeal.Tail.rClean
    exact clean_id _ _
  rw [hx, (Cert.KernelIdeal.Fr.out_last (F := Ideal) m c h19).1, (Cert.KernelIdeal.Fr.out_last (F := Ideal) m c h19).2]
  -- the accumulators as total functions of the point
  let sL : ℕ → FVec Ideal S1x1 .f32 := fun n =>
    if h : n < cfg0.N then (outsAt0 (F := Ideal) m c n h).2.2.1 else k0_pay2 (F := Ideal)
  let sR : ℕ → FVec Ideal S1x1 .f32 := fun n =>
    if h : n < cfg0.N then (outsAt0 (F := Ideal) m c n h).2.2.2 else k0_pay3 (F := Ideal)
  have eL : ∀ n (h : n < cfg0.N), sL n = (outsAt0 (F := Ideal) m c n h).2.2.1 := fun n h => dif_pos h
  have eR : ∀ n (h : n < cfg0.N), sR n = (outsAt0 (F := Ideal) m c n h).2.2.2 := fun n h => dif_pos h
  have key := Cert.CondBridge.cond_eq
    (m ((c.tc : Thread nD τ).loc main_arg0) : Cert.ReferenceIdeal.S100000x115x3.Idx → EReal)
    (fun t : Fin 20 => iblk m c 0 (t.cast hN.symm))
    (fun t r l d => iblk_apply m c (t.cast hN.symm) r l d)
    sL sR
    (by rw [eL 0 (by omega)]; exact (Cert.KernelIdeal.Fr.acc_first (F := Ideal) m c (by omega)).1)
    (fun n h => by rw [eL (n + 1) (by omega), eL n (by omega)]; exact (Cert.KernelIdeal.Fr.acc_step (F := Ideal) m c n (by omega)).1)
    (by rw [eR 0 (by omega)]; exact (Cert.KernelIdeal.Fr.acc_first (F := Ideal) m c (by omega)).2)
    (fun n h => by rw [eR (n + 1) (by omega), eR n (by omega)]; exact (Cert.KernelIdeal.Fr.acc_step (F := Ideal) m c n (by omega)).2)
  rw [eL 19 h19, eR 19 h19] at key
  exact key

end Cert.KCond
-- ==== Proof.Ref.Ops.lean ====
/- The reference's @main as a list of its host operations, in order, in ten consecutive chunks; an outlined
   `where` is listed inline at its call over the call's buffers, and a concatenation is spelt through a named function
   of plain arguments. `main_eq`: @main is the straight line of that list. -/
import proofs.«176904_j2095944041143_2_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- The operands laid side by side along one axis, as a function of plain arguments. -/
def cat_main_v16 (xa : FVec F S100000x21x3 .f32) (xb : FVec F S100000x25x3 .f32) (xc : FVec F S100000x40x3 .f32) : FVec F S100000x86x3 .f32 :=
  concatenate S100000x86x3 1 [⟨S100000x21x3, xa⟩, ⟨S100000x25x3, xb⟩, ⟨S100000x40x3, xc⟩] concatenates_S100000x21x3_S100000x25x3_S100000x40x3_S100000x86x3_d1

/-- The operands laid side by side along one axis, as a function of plain arguments. -/
def cat_main_v27 (xa : FVec F S100000x86x1 .f32) (xb : FVec F S100000x86x2 .f32) : FVec F S100000x86x3 .f32 :=
  concatenate S100000x86x3 2 [⟨S100000x86x1, xa⟩, ⟨S100000x86x2, xb⟩] concatenates_S100000x86x1_S100000x86x2_S100000x86x3_d2

/-- The operands laid side by side along one axis, as a function of plain arguments. -/
def cat_main_v39 (xa : FVec F S99999x86x3 .f32) (xb : FVec F S1x86x3 .f32) : FVec F S100000x86x3 .f32 :=
  concatenate S100000x86x3 0 [⟨S99999x86x3, xa⟩, ⟨S1x86x3, xb⟩] concatenates_S99999x86x3_S1x86x3_S100000x86x3_d0

/-- The operands laid side by side along one axis, as a function of plain arguments. -/
def cat_main_v114 (xa : FVec F S100000x63 .f32) (xb : FVec F S100000x50 .f32) (xc : FVec F S100000x40 .f32) (xd : FVec F S100000x63 .f32) (xe : FVec F S100000x50 .f32) (xf : FVec F S100000x40 .f32) (xg : FVec F S100000x210 .f32) (xh : FVec F S100000x300 .f32) (xi : FVec F S100000x190 .f32) (xj : FVec F S100000x190 .f32) (xk : FVec F S100000x1 .f32) (xl : FVec F S100000x1 .f32) : FVec F S100000x1198 .f32 :=
  concatenate S100000x1198 1 [⟨S100000x63, xa⟩, ⟨S100000x50, xb⟩, ⟨S100000x40, xc⟩, ⟨S100000x63, xd⟩, ⟨S100000x50, xe⟩, ⟨S100000x40, xf⟩, ⟨S100000x210, xg⟩, ⟨S100000x300, xh⟩, ⟨S100000x190, xi⟩, ⟨S100000x190, xj⟩, ⟨S100000x1, xk⟩, ⟨S100000x1, xl⟩] concatenates_S100000x63_S100000x50_S100000x40_S100000x63_S100000x50_S100000x40_S100000x210_S100000x300_S100000x190_S100000x190_S100000x1_S100000x1_S100000x1198_d1

/-- Operations 1 … 18 of 153. -/
abbrev ops0 : List (HloOp τ sig (Elt F)) :=
  [ StableHlo.nullary main_c (fun i => lit0 (S210.rowMajor i)),
    StableHlo.nullary main_c_0 (constantI S210 1 0#1),
    StableHlo.nullary main_c_1 (fun i => lit1 (S210.rowMajor i)),
    StableHlo.nullary main_c_2 (constantI S210 1 0#1),
    StableHlo.nullary main_c_3 (fun i => lit2 (S300.rowMajor i)),
    StableHlo.nullary main_c_4 (constantI S300 1 0#1),
    StableHlo.nullary main_c_5 (fun i => lit3 (S300.rowMajor i)),
    StableHlo.nullary main_c_6 (constantI S300 1 0#1),
    StableHlo.nullary main_c_7 (fun i => lit4 (S190.rowMajor i)),
    StableHlo.nullary main_c_8 (constantI S190 1 0#1),
    StableHlo.nullary main_c_9 (fun i => lit5 (S190.rowMajor i)),
    StableHlo.nullary main_c_10 (constantI S190 1 0#1),
    StableHlo.nullary main_c_11 (constantI S190 1 0#1),
    StableHlo.nullary main_c_12 (constantI S190 1 0#1),
    StableHlo.binary main_arg0 main_arg0 main_v0 (cmpf .une : (⟨S100000x115x3, .f32⟩ : BufTy).Contents (Elt F) → (⟨S100000x115x3, .f32⟩ : BufTy).Contents (Elt F) → (⟨S100000x115x3, .i1⟩ : BufTy).Contents (Elt F)),
    StableHlo.nullary main_cst (constant S_ .f32 0x00000000#32),
    StableHlo.TRef.unary (.of main_cst : StableHlo.TRef sig ⟨S_, .f32⟩) (.of main_call0_v0 : StableHlo.TRef sig ⟨S100000x115x3, .f32⟩) (broadcastInDim S100000x115x3 ![] bcast_S_S100000x115x3),
    StableHlo.TRef.ternary (.of main_v0 : StableHlo.TRef sig ⟨S100000x115x3, .i1⟩) (.of main_call0_v0 : StableHlo.TRef sig ⟨S100000x115x3, .f32⟩) (.of main_arg0 : StableHlo.TRef sig ⟨S100000x115x3, .f32⟩) (.of main_v1 : StableHlo.TRef sig ⟨S100000x115x3, .f32⟩) select ]
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., binary_bufs_sub .., nullary_bufs_sub .., unary_bufs_sub .., ternary_bufs_sub ..⟩

/-- Operations 19 … 35 of 153. -/
abbrev ops1 : List (HloOp τ sig (Elt F)) :=
  [ StableHlo.unary main_v1 main_v2 ((extractStridedSlice S100000x21x3 ![0, 40, 0] · slices_S100000x115x3_S100000x21x3_0_40_0) : (⟨S100000x115x3, .f32⟩ : BufTy).Contents (Elt F) → (⟨S100000x21x3, .f32⟩ : BufTy).Contents (Elt F)),
    StableHlo.unary main_v1 main_v3 ((extractStridedSlice S100000x21x3 ![0, 94, 0] · slices_S100000x115x3_S100000x21x3_0_94_0) : (⟨S100000x115x3, .f32⟩ : BufTy).Contents (Elt F) → (⟨S100000x21x3, .f32⟩ : BufTy).Contents (Elt F)),
    StableHlo.unary main_v1 main_v4 ((extractStridedSlice S100000x25x3 ![0, 61, 0] · slices_S100000x115x3_S100000x25x3_0_61_0) : (⟨S100000x115x3, .f32⟩ : BufTy).Contents (Elt F) → (⟨S100000x25x3, .f32⟩ : BufTy).Contents (Elt F)),
    StableHlo.unary main_v1 main_v5 ((extractStridedSlice S100000x40x3 ![0, 0, 0] · slices_S100000x115x3_S100000x40x3_0_0_0) : (⟨S100000x115x3, .f32⟩ : BufTy).Contents (Elt F) → (⟨S100000x40x3, .f32⟩ : BufTy).Contents (Elt F)),
    StableHlo.nullary main_cst_13 (constant S_ .f32 0x00000000#32),
    StableHlo.unary main_cst_13 main_v6 (broadcastInDim S100000x21x3 ![] bcast_S_S100000x21x3 : (⟨S_, .f32⟩ : BufTy).Contents (Elt F) → (⟨S100000x21x3, .f32⟩ : BufTy).Contents (Elt F)),
    StableHlo.binary main_v2 main_v6 main_v7 (cmpf .une : (⟨S100000x21x3, .f32⟩ : BufTy).Contents (Elt F) → (⟨S100000x21x3, .f32⟩ : BufTy).Contents (Elt F) → (⟨S100000x21x3, .i1⟩ : BufTy).Contents (Elt F)),
    StableHlo.unary main_v7 main_v8 (uitofp .f32 : (⟨S100000x21x3, .i1⟩ : BufTy).Contents (Elt F) → (⟨S100000x21x3, .f32⟩ : BufTy).Contents (Elt F)),
    StableHlo.nullary main_cst_14 (constant S_ .f32 0x00000000#32),
    StableHlo.binary main_v8 main_cst_14 main_v9 ((fun x v => Host.reduceAdd x v reducesTo_S100000x21x3_S_d0_1_2 h_S_) : (⟨S100000x21x3, .f32⟩ : BufTy).Contents (Elt F) → (⟨S_, .f32⟩ : BufTy).Contents (Elt F) → (⟨S_, .f32⟩ : BufTy).Contents (Elt F)),
    StableHlo.nullary main_cst_15 (constant S_ .f32 0x00000000#32),
    StableHlo.unary main_cst_15 main_v10 (broadcastInDim S100000x21x3 ![] bcast_S_S100000x21x3 : (⟨S_, .f32⟩ : BufTy).Contents (Elt F) → (⟨S100000x21x3, .f32⟩ : BufTy).Contents (Elt F)),
    StableHlo.binary main_v3 main_v10 main_v11 (cmpf .une : (⟨S100000x21x3, .f32⟩ : BufTy).Contents (Elt F) → (⟨S100000x21x3, .f32⟩ : BufTy).Contents (Elt F) → (⟨S100000x21x3, .i1⟩ : BufTy).Contents (Elt F)),
    StableHlo.unary main_v11 main_v12 (uitofp .f32 : (⟨S100000x21x3, .i1⟩ : BufTy).Contents (Elt F) → (⟨S100000x21x3, .f32⟩ : BufTy).Contents (Elt F)),
    StableHlo.nullary main_cst_16 (constant S_ .f32 0x00000000#32),
    StableHlo.binary main_v12 main_cst_16 main_v13 ((fun x v => Host.reduceAdd x v reducesTo_S100000x21x3_S_d0_1_2 h_S_) : (⟨S100000x21x3, .f32⟩ : BufTy).Contents (Elt F) → (⟨S_, .f32⟩ : BufTy).Contents (Elt F) → (⟨S_, .f32⟩ : BufTy).Contents (Elt F)),
    StableHlo.binary main_v9 main_v13 main_v14 (cmpf .ogt : (⟨S_, .f32⟩ : BufTy).Contents (Elt F) → (⟨S_, .f32⟩ : BufTy).Contents (Elt F) → (⟨S_, .i1⟩ : BufTy).Contents (Elt F)) ]
theorem ops1_sub : (ops1 : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., binary_bufs_sub ..⟩

/-- Operations 36 … 58 of 153. -/
abbrev ops2 : List (HloOp τ sig (Elt F)) :=
  [ StableHlo.TRef.ternary (.of main_v14 : StableHlo.TRef sig ⟨S_, .i1⟩) (.of main_v2 : StableHlo.TRef sig ⟨S100000x21x3, .f32⟩) (.of main_v3 : StableHlo.TRef sig ⟨S100000x21x3, .f32⟩) (.of main_v15 : StableHlo.TRef sig ⟨S100000x21x3, .f32⟩) (fun p a b => select (broadcastInDim S100000x21x3 ![] bcast_S_S100000x21x3 p) a b),
    StableHlo.nary ![main_v2, main_v4, main_v5] main_v16 (fun u => cat_main_v16 (u 0) (u 1) (u 2)),
    StableHlo.nary ![main_v3, main_v4, main_v5] main_v17 (fun u => cat_main_v16 (u 0) (u 1) (u 2)),
    StableHlo.TRef.ternary (.of main_v14 : StableHlo.TRef sig ⟨S_, .i1⟩) (.of main_v16 : StableHlo.TRef sig ⟨S100000x86x3, .f32⟩) (.of main_v17 : StableHlo.TRef sig ⟨S100000x86x3, .f32⟩) (.of main_v18 : StableHlo.TRef sig ⟨S100000x86x3, .f32⟩) (fun p a b => select (broadcastInDim S100000x86x3 ![] bcast_S_S100000x86x3 p) a b),
    StableHlo.unary main_v18 main_v19 ((extractStridedSlice S100000x86x1 ![0, 0, 0] · slices_S100000x86x3_S100000x86x1_0_0_0) : (⟨S100000x86x3, .f32⟩ : BufTy).Contents (Elt F) → (⟨S100000x86x1, .f32⟩ : BufTy).Contents (Elt F)),
    StableHlo.reshape main_v19 main_v20 rfl shapeCasts_S100000x86x1_S100000x86,
    StableHlo.unary main_v20 main_v21 (Host.negf : (⟨S100000x86, .f32⟩ : BufTy).Contents (Elt F) → (⟨S100000x86, .f32⟩ : BufTy).Contents (Elt F)),
    StableHlo.unary main_v18 main_v22 ((extractStridedSlice S100000x86x1 ![0, 0, 0] · slices_S100000x86x3_S100000x86x1_0_0_0) : (⟨S100000x86x3, .f32⟩ : BufTy).Contents (Elt F) → (⟨S100000x86x1, .f32⟩ : BufTy).Contents (Elt F)),
    StableHlo.reshape main_v22 main_v23 rfl shapeCasts_S100000x86x1_S100000x86,
    StableHlo.TRef.ternary (.of main_v14 : StableHlo.TRef sig ⟨S_, .i1⟩) (.of main_v21 : StableHlo.TRef sig ⟨S100000x86, .f32⟩) (.of main_v23 : StableHlo.TRef sig ⟨S100000x86, .f32⟩) (.of main_v24 : StableHlo.TRef sig ⟨S100000x86, .f32⟩) (fun p a b => select (broadcastInDim S100000x86 ![] bcast_S_S100000x86 p) a b),
    StableHlo.unary main_v24 main_v25 (broadcastInDim S100000x86x1 ![0, 1] bcast_S100000x86_S100000x86x1_0_1 : (⟨S100000x86, .f32⟩ : BufTy).Contents (Elt F) → (⟨S100000x86x1, .f32⟩ : BufTy).Contents (Elt F)),
    StableHlo.unary main_v18 main_v26 ((extractStridedSlice S100000x86x2 ![0, 0, 1] · slices_S100000x86x3_S100000x86x2_0_0_1) : (⟨S100000x86x3, .f32⟩ : BufTy).Contents (Elt F) → (⟨S100000x86x2, .f32⟩ : BufTy).Contents (Elt F)),
    StableHlo.binary main_v25 main_v26 main_v27 (cat_main_v27 : (⟨S100000x86x1, .f32⟩ : BufTy).Contents (Elt F) → (⟨S100000x86x2, .f32⟩ : BufTy).Contents (Elt F) → (⟨S100000x86x3, .f32⟩ : BufTy).Contents (Elt F)),
    StableHlo.reshape main_v15 main_v28 rfl shapeCasts_S100000x21x3_S100000x63,
    StableHlo.nullary main_cst_17 (constant S_ .f32 0x00000000#32),
    StableHlo.binary main_v28 main_cst_17 main_v29 ((fun x v => Host.reduceAdd x v reducesTo_S100000x63_S100000_d1 h_S_) : (⟨S100000x63, .f32⟩ : BufTy).Contents (Elt F) → (⟨S_, .f32⟩ : BufTy).Contents (Elt F) → (⟨S100000, .f32⟩ : BufTy).Contents (Elt F)),
    StableHlo.nullary main_cst_18 (constant S_ .f32 0x00000000#32),
    StableHlo.unary main_cst_18 main_v30 (broadcastInDim S100000 ![] bcast_S_S100000 : (⟨S_, .f32⟩ : BufTy).Contents (Elt F) → (⟨S100000, .f32⟩ : BufTy).Contents (Elt F)),
    StableHlo.binary main_v29 main_v30 main_v31 (cmpf .une : (⟨S100000, .f32⟩ : BufTy).Contents (Elt F) → (⟨S100000, .f32⟩ : BufTy).Contents (Elt F) → (⟨S100000, .i1⟩ : BufTy).Contents (Elt F)),
    StableHlo.unary main_v31 main_v32 (uitofp .f32 : (⟨S100000, .i1⟩ : BufTy).Contents (Elt F) → (⟨S100000, .f32⟩ : BufTy).Contents (Elt F)),
    StableHlo.nullary main_cst_19 (constant S_ .f32 0x3F800000#32),
    StableHlo.unary main_cst_19 main_v33 (broadcastInDim S100000 ![] bcast_S_S100000 : (⟨S_, .f32⟩ : BufTy).Contents (Elt F) → (⟨S100000, .f32⟩ : BufTy).Contents (Elt F)),
    StableHlo.binary main_v32 main_v33 main_v34 (addf : (⟨S100000, .f32⟩ : BufTy).Contents (Elt F) → (⟨S100000, .f32⟩ : BufTy).Contents (Elt F) → (⟨S100000, .f32⟩ : BufTy).Contents (Elt F)) ]
theorem ops2_sub : (ops2 : List (HloOp τ sig (Elt F))).Forall fun op => op.bufs ⊆ tcRefs τ sig :=
  ⟨ternary_bufs_sub .., nary_bufs_sub .., nary_bufs_sub .., ternary_bufs_sub .., unary_bufs_sub .., reshape_bufs_sub .., unary_bufs_sub .., unary_bufs_sub .., reshape_bufs_sub .., ternary_bufs_sub .., unary_bufs_sub .., unary_bufs_sub .., binary_bufs_sub .., reshape_bufs_sub .., nullary_bufs_sub .., binary_bufs_sub .., nullary_bufs_sub .., unary_bufs_sub .., binary_bufs_sub .., unary_bufs_sub .., nullary_bufs_sub .., unary_bufs_sub .., binary_bufs_sub ..⟩

/-- Operations 59 … 61 of 153. -/
abbrev ops3 : List (HloOp τ sig (Elt F)) :=
  [ StableHlo.unary main_v27 main_v35 ((extractStridedSlice S99999x86x3 ![0, 0, 0] · slices_S100000x86x3_S99999x86x3_0_0_0) : (⟨S100000x86x3, .f32⟩ : BufTy).Contents (Elt F) → (⟨S99999x86x3, .f32⟩ : BufTy).Contents (Elt F)),
    StableHlo.unary main_v27 main_v36 ((extractStridedSlice S99999x86x3 ![1, 0, 0] · slices_S100000x86x3_S99999x86x3_1_0_0) : (⟨S100000x86x3, .f32⟩ : BufTy).Contents (Elt F) → (⟨S99999x86x3, .f32⟩ : BufTy).Contents (Elt F)),
    StableHlo.binary main_v35 main_v36 main_v37 (subf : (⟨S99999x86x3, .f32⟩ : BufTy).Contents (Elt F) → (⟨S99999x86x3, .f32⟩ : BufTy).Contents (Elt F) → (⟨S99999x86x3, .f32⟩ : BufTy).Contents (Elt F)) ]
theorem ops3_sub : (ops3 : List (HloOp τ sig (Elt F))).Forall fun op => op.bufs ⊆ tcRefs τ sig :=
  ⟨unary_bufs_sub .., unary_bufs_sub .., binary_bufs_sub ..⟩

/-- Operations 62 … 82 of 153. -/
abbrev ops4 : List (HloOp τ sig (Elt F)) :=
  [ StableHlo.nullary main_cst_20 (constant S_ .f32 0x00000000#32),
    StableHlo.unary main_cst_20 main_v38 (broadcastInDim S1x86x3 ![] bcast_S_S1x86x3 : (⟨S_, .f32⟩ : BufTy).Contents (Elt F) → (⟨S1x86x3, .f32⟩ : BufTy).Contents (Elt F)),
    StableHlo.binary main_v37 main_v38 main_v39 (cat_main_v39 : (⟨S99999x86x3, .f32⟩ : BufTy).Contents (Elt F) → (⟨S1x86x3, .f32⟩ : BufTy).Contents (Elt F) → (⟨S100000x86x3, .f32⟩ : BufTy).Contents (Elt F)),
    StableHlo.unary main_v27 main_v40 ((extractStridedSlice S100000x21x3 ![0, 0, 0] · slices_S100000x86x3_S100000x21x3_0_0_0) : (⟨S100000x86x3, .f32⟩ : BufTy).Contents (Elt F) → (⟨S100000x21x3, .f32⟩ : BufTy).Contents (Elt F)),
    StableHlo.nullary main_c_21 (constantI S_ 32 21#32),
    StableHlo.unary main_c_21 main_v41 (broadcastInDim S210 ![] bcast_S_S210 : (⟨S_, .i32⟩ : BufTy).Contents (Elt F) → (⟨S210, .i32⟩ : BufTy).Contents (Elt F)),
    StableHlo.binary main_c main_v41 main_v42 (addi : (⟨S210, .i32⟩ : BufTy).Contents (Elt F) → (⟨S210, .i32⟩ : BufTy).Contents (Elt F) → (⟨S210, .i32⟩ : BufTy).Contents (Elt F)),
    StableHlo.ternary main_c_0 main_v42 main_c main_v43 (select : (⟨S210, .i1⟩ : BufTy).Contents (Elt F) → (⟨S210, .i32⟩ : BufTy).Contents (Elt F) → (⟨S210, .i32⟩ : BufTy).Contents (Elt F) → (⟨S210, .i32⟩ : BufTy).Contents (Elt F)),
    StableHlo.unary main_v43 main_v44 (broadcastInDim S210x1 ![0] bcast_S210_S210x1_0 : (⟨S210, .i32⟩ : BufTy).Contents (Elt F) → (⟨S210x1, .i32⟩ : BufTy).Contents (Elt F)),
    StableHlo.binary main_v40 main_v44 main_v45 ((fun x i => Host.gather gather_S100000x21x3_S210x1_S100000x210x3_02_1_n_n_1_1_10000013 x i) : (⟨S100000x21x3, .f32⟩ : BufTy).Contents (Elt F) → (⟨S210x1, .i32⟩ : BufTy).Contents (Elt F) → (⟨S100000x210x3, .f32⟩ : BufTy).Contents (Elt F)),
    StableHlo.nullary main_c_22 (constantI S_ 32 21#32),
    StableHlo.unary main_c_22 main_v46 (broadcastInDim S210 ![] bcast_S_S210 : (⟨S_, .i32⟩ : BufTy).Contents (Elt F) → (⟨S210, .i32⟩ : BufTy).Contents (Elt F)),
    StableHlo.binary main_c_1 main_v46 main_v47 (addi : (⟨S210, .i32⟩ : BufTy).Contents (Elt F) → (⟨S210, .i32⟩ : BufTy).Contents (Elt F) → (⟨S210, .i32⟩ : BufTy).Contents (Elt F)),
    StableHlo.ternary main_c_2 main_v47 main_c_1 main_v48 (select : (⟨S210, .i1⟩ : BufTy).Contents (Elt F) → (⟨S210, .i32⟩ : BufTy).Contents (Elt F) → (⟨S210, .i32⟩ : BufTy).Contents (Elt F) → (⟨S210, .i32⟩ : BufTy).Contents (Elt F)),
    StableHlo.unary main_v48 main_v49 (broadcastInDim S210x1 ![0] bcast_S210_S210x1_0 : (⟨S210, .i32⟩ : BufTy).Contents (Elt F) → (⟨S210x1, .i32⟩ : BufTy).Contents (Elt F)),
    StableHlo.binary main_v40 main_v49 main_v50 ((fun x i => Host.gather gather_S100000x21x3_S210x1_S100000x210x3_02_1_n_n_1_1_10000013 x i) : (⟨S100000x21x3, .f32⟩ : BufTy).Contents (Elt F) → (⟨S210x1, .i32⟩ : BufTy).Contents (Elt F) → (⟨S100000x210x3, .f32⟩ : BufTy).Contents (Elt F)),
    StableHlo.binary main_v45 main_v50 main_v51 (subf : (⟨S100000x210x3, .f32⟩ : BufTy).Contents (Elt F) → (⟨S100000x210x3, .f32⟩ : BufTy).Contents (Elt F) → (⟨S100000x210x3, .f32⟩ : BufTy).Contents (Elt F)),
    StableHlo.binary main_v51 main_v51 main_v52 (mulf : (⟨S100000x210x3, .f32⟩ : BufTy).Contents (Elt F) → (⟨S100000x210x3, .f32⟩ : BufTy).Contents (Elt F) → (⟨S100000x210x3, .f32⟩ : BufTy).Contents (Elt F)),
    StableHlo.nullary main_cst_23 (constant S_ .f32 0x00000000#32),
    StableHlo.binary main_v52 main_cst_23 main_v53 ((fun x v => Host.reduceAdd x v reducesTo_S100000x210x3_S100000x210_d2 h_S_) : (⟨S100000x210x3, .f32⟩ : BufTy).Contents (Elt F) → (⟨S_, .f32⟩ : BufTy).Contents (Elt F) → (⟨S100000x210, .f32⟩ : BufTy).Contents (Elt F)),
    StableHlo.unary main_v53 main_v54 (Host.sqrt : (⟨S100000x210, .f32⟩ : BufTy).Contents (Elt F) → (⟨S100000x210, .f32⟩ : BufTy).Contents (Elt F)) ]
theorem ops4_sub : (ops4 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩

/-- Operations 83 … 100 of 153. -/
abbrev ops5 : List (HloOp τ sig (Elt F)) :=
  [ StableHlo.unary main_v27 main_v55 ((extractStridedSlice S100000x25x2 ![0, 21, 0] · slices_S100000x86x3_S100000x25x2_0_21_0) : (⟨S100000x86x3, .f32⟩ : BufTy).Contents (Elt F) → (⟨S100000x25x2, .f32⟩ : BufTy).Contents (Elt F)),
    StableHlo.nullary main_c_24 (constantI S_ 32 25#32),
    StableHlo.unary main_c_24 main_v56 (broadcastInDim S300 ![] bcast_S_S300 : (⟨S_, .i32⟩ : BufTy).Contents (Elt F) → (⟨S300, .i32⟩ : BufTy).Contents (Elt F)),
    StableHlo.binary main_c_3 main_v56 main_v57 (addi : (⟨S300, .i32⟩ : BufTy).Contents (Elt F) → (⟨S300, .i32⟩ : BufTy).Contents (Elt F) → (⟨S300, .i32⟩ : BufTy).Contents (Elt F)),
    StableHlo.ternary main_c_4 main_v57 main_c_3 main_v58 (select : (⟨S300, .i1⟩ : BufTy).Contents (Elt F) → (⟨S300, .i32⟩ : BufTy).Contents (Elt F) → (⟨S300, .i32⟩ : BufTy).Contents (Elt F) → (⟨S300, .i32⟩ : BufTy).Contents (Elt F)),
    StableHlo.unary main_v58 main_v59 (broadcastInDim S300x1 ![0] bcast_S300_S300x1_0 : (⟨S300, .i32⟩ : BufTy).Contents (Elt F) → (⟨S300x1, .i32⟩ : BufTy).Contents (Elt F)),
    StableHlo.binary main_v55 main_v59 main_v60 ((fun x i => Host.gather gather_S100000x25x2_S300x1_S100000x300x2_02_1_n_n_1_1_10000012 x i) : (⟨S100000x25x2, .f32⟩ : BufTy).Contents (Elt F) → (⟨S300x1, .i32⟩ : BufTy).Contents (Elt F) → (⟨S100000x300x2, .f32⟩ : BufTy).Contents (Elt F)),
    StableHlo.nullary main_c_25 (constantI S_ 32 25#32),
    StableHlo.unary main_c_25 main_v61 (broadcastInDim S300 ![] bcast_S_S300 : (⟨S_, .i32⟩ : BufTy).Contents (Elt F) → (⟨S300, .i32⟩ : BufTy).Contents (Elt F)),
    StableHlo.binary main_c_5 main_v61 main_v62 (addi : (⟨S300, .i32⟩ : BufTy).Contents (Elt F) → (⟨S300, .i32⟩ : BufTy).Contents (Elt F) → (⟨S300, .i32⟩ : BufTy).Contents (Elt F)),
    StableHlo.ternary main_c_6 main_v62 main_c_5 main_v63 (select : (⟨S300, .i1⟩ : BufTy).Contents (Elt F) → (⟨S300, .i32⟩ : BufTy).Contents (Elt F) → (⟨S300, .i32⟩ : BufTy).Contents (Elt F) → (⟨S300, .i32⟩ : BufTy).Contents (Elt F)),
    StableHlo.unary main_v63 main_v64 (broadcastInDim S300x1 ![0] bcast_S300_S300x1_0 : (⟨S300, .i32⟩ : BufTy).Contents (Elt F) → (⟨S300x1, .i32⟩ : BufTy).Contents (Elt F)),
    StableHlo.binary main_v55 main_v64 main_v65 ((fun x i => Host.gather gather_S100000x25x2_S300x1_S100000x300x2_02_1_n_n_1_1_10000012 x i) : (⟨S100000x25x2, .f32⟩ : BufTy).Contents (Elt F) → (⟨S300x1, .i32⟩ : BufTy).Contents (Elt F) → (⟨S100000x300x2, .f32⟩ : BufTy).Contents (Elt F)),
    StableHlo.binary main_v60 main_v65 main_v66 (subf : (⟨S100000x300x2, .f32⟩ : BufTy).Contents (Elt F) → (⟨S100000x300x2, .f32⟩ : BufTy).Contents (Elt F) → (⟨S100000x300x2, .f32⟩ : BufTy).Contents (Elt F)),
    StableHlo.binary main_v66 main_v66 main_v67 (mulf : (⟨S100000x300x2, .f32⟩ : BufTy).Contents (Elt F) → (⟨S100000x300x2, .f32⟩ : BufTy).Contents (Elt F) → (⟨S100000x300x2, .f32⟩ : BufTy).Contents (Elt F)),
    StableHlo.nullary main_cst_26 (constant S_ .f32 0x00000000#32),
    StableHlo.binary main_v67 main_cst_26 main_v68 ((fun x v => Host.reduceAdd x v reducesTo_S100000x300x2_S100000x300_d2 h_S_) : (⟨S100000x300x2, .f32⟩ : BufTy).Contents (Elt F) → (⟨S_, .f32⟩ : BufTy).Contents (Elt F) → (⟨S100000x300, .f32⟩ : BufTy).Contents (Elt F)),
    StableHlo.unary main_v68 main_v69 (Host.sqrt : (⟨S100000x300, .f32⟩ : BufTy).Contents (Elt F) → (⟨S100000x300, .f32⟩ : BufTy).Contents (Elt F)) ]
theorem ops5_sub : (ops5 : List (HloOp τ sig (Elt F))).Forall fun op => op.bufs ⊆ tcRefs τ sig :=
  ⟨unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩

/-- Operations 101 … 118 of 153. -/
abbrev ops6 : List (HloOp τ sig (Elt F)) :=
  [ StableHlo.unary main_v27 main_v70 ((extractStridedSlice S100000x20x2 ![0, 46, 0] · slices_S100000x86x3_S100000x20x2_0_46_0) : (⟨S100000x86x3, .f32⟩ : BufTy).Contents (Elt F) → (⟨S100000x20x2, .f32⟩ : BufTy).Contents (Elt F)),
    StableHlo.nullary main_c_27 (constantI S_ 32 20#32),
    StableHlo.unary main_c_27 main_v71 (broadcastInDim S190 ![] bcast_S_S190 : (⟨S_, .i32⟩ : BufTy).Contents (Elt F) → (⟨S190, .i32⟩ : BufTy).Contents (Elt F)),
    StableHlo.binary main_c_7 main_v71 main_v72 (addi : (⟨S190, .i32⟩ : BufTy).Contents (Elt F) → (⟨S190, .i32⟩ : BufTy).Contents (Elt F) → (⟨S190, .i32⟩ : BufTy).Contents (Elt F)),
    StableHlo.ternary main_c_8 main_v72 main_c_7 main_v73 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v73 main_v74 (broadcastInDim S190x1 ![0] bcast_S190_S190x1_0 : (⟨S190, .i32⟩ : BufTy).Contents (Elt F) → (⟨S190x1, .i32⟩ : BufTy).Contents (Elt F)),
    StableHlo.binary main_v70 main_v74 main_v75 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)),
    StableHlo.nullary main_c_28 (constantI S_ 32 20#32),
    StableHlo.unary main_c_28 main_v76 (broadcastInDim S190 ![] bcast_S_S190 : (⟨S_, .i32⟩ : BufTy).Contents (Elt F) → (⟨S190, .i32⟩ : BufTy).Contents (Elt F)),
    StableHlo.binary main_c_9 main_v76 main_v77 (addi : (⟨S190, .i32⟩ : BufTy).Contents (Elt F) → (⟨S190, .i32⟩ : BufTy).Contents (Elt F) → (⟨S190, .i32⟩ : BufTy).Contents (Elt F)),
    StableHlo.ternary main_c_10 main_v77 main_c_9 main_v78 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v78 main_v79 (broadcastInDim S190x1 ![0] bcast_S190_S190x1_0 : (⟨S190, .i32⟩ : BufTy).Contents (Elt F) → (⟨S190x1, .i32⟩ : BufTy).Contents (Elt F)),
    StableHlo.binary main_v70 main_v79 main_v80 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)),
    StableHlo.binary main_v75 main_v80 main_v81 (subf : (⟨S100000x190x2, .f32⟩ : BufTy).Contents (Elt F) → (⟨S100000x190x2, .f32⟩ : BufTy).Contents (Elt F) → (⟨S100000x190x2, .f32⟩ : BufTy).Contents (Elt F)),
    StableHlo.binary main_v81 main_v81 main_v82 (mulf : (⟨S100000x190x2, .f32⟩ : BufTy).Contents (Elt F) → (⟨S100000x190x2, .f32⟩ : BufTy).Contents (Elt F) → (⟨S100000x190x2, .f32⟩ : BufTy).Contents (Elt F)),
    StableHlo.nullary main_cst_29 (constant S_ .f32 0x00000000#32),
    StableHlo.binary main_v82 main_cst_29 main_v83 ((fun x v => Host.reduceAdd x v reducesTo_S100000x190x2_S100000x190_d2 h_S_) : (⟨S100000x190x2, .f32⟩ : BufTy).Contents (Elt F) → (⟨S_, .f32⟩ : BufTy).Contents (Elt F) → (⟨S100000x190, .f32⟩ : BufTy).Contents (Elt F)),
    StableHlo.unary main_v83 main_v84 (Host.sqrt : (⟨S100000x190, .f32⟩ : BufTy).Contents (Elt F) → (⟨S100000x190, .f32⟩ : BufTy).Contents (Elt F)) ]
theorem ops6_sub : (ops6 : List (HloOp τ sig (Elt F))).Forall fun op => op.bufs ⊆ tcRefs τ sig :=
  ⟨unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩

/-- Operations 119 … 121 of 153. -/
abbrev ops7 : List (HloOp τ sig (Elt F)) :=
  [ StableHlo.unary main_v27 main_v85 ((extractStridedSlice S100000x20x2 ![0, 66, 0] · slices_S100000x86x3_S100000x20x2_0_66_0) : (⟨S100000x86x3, .f32⟩ : BufTy).Contents (Elt F) → (⟨S100000x20x2, .f32⟩ : BufTy).Contents (Elt F)),
    StableHlo.nullary main_c_30 (constantI S_ 32 20#32),
    StableHlo.unary main_c_30 main_v86 (broadcastInDim S190 ![] bcast_S_S190 : (⟨S_, .i32⟩ : BufTy).Contents (Elt F) → (⟨S190, .i32⟩ : BufTy).Contents (Elt F)) ]
theorem ops7_sub : (ops7 : List (HloOp τ sig (Elt F))).Forall fun op => op.bufs ⊆ tcRefs τ sig :=
  ⟨unary_bufs_sub .., nullary_bufs_sub .., unary_bufs_sub ..⟩

/-- Operations 122 … 136 of 153. -/
abbrev ops8 : List (HloOp τ sig (Elt F)) :=
  [ StableHlo.binary main_c_7 main_v86 main_v87 (addi : (⟨S190, .i32⟩ : BufTy).Contents (Elt F) → (⟨S190, .i32⟩ : BufTy).Contents (Elt F) → (⟨S190, .i32⟩ : BufTy).Contents (Elt F)),
    StableHlo.ternary main_c_11 main_v87 main_c_7 main_v88 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v88 main_v89 (broadcastInDim S190x1 ![0] bcast_S190_S190x1_0 : (⟨S190, .i32⟩ : BufTy).Contents (Elt F) → (⟨S190x1, .i32⟩ : BufTy).Contents (Elt F)),
    StableHlo.binary main_v85 main_v89 main_v90 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)),
    StableHlo.nullary main_c_31 (constantI S_ 32 20#32),
    StableHlo.unary main_c_31 main_v91 (broadcastInDim S190 ![] bcast_S_S190 : (⟨S_, .i32⟩ : BufTy).Contents (Elt F) → (⟨S190, .i32⟩ : BufTy).Contents (Elt F)),
    StableHlo.binary main_c_9 main_v91 main_v92 (addi : (⟨S190, .i32⟩ : BufTy).Contents (Elt F) → (⟨S190, .i32⟩ : BufTy).Contents (Elt F) → (⟨S190, .i32⟩ : BufTy).Contents (Elt F)),
    StableHlo.ternary main_c_12 main_v92 main_c_9 main_v93 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    StableHlo.unary main_v93 main_v94 (broadcastInDim S190x1 ![0] bcast_S190_S190x1_0 : (⟨S190, .i32⟩ : BufTy).Contents (Elt F) → (⟨S190x1, .i32⟩ : BufTy).Contents (Elt F)),
    StableHlo.binary main_v85 main_v94 main_v95 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)),
    StableHlo.binary main_v90 main_v95 main_v96 (subf : (⟨S100000x190x2, .f32⟩ : BufTy).Contents (Elt F) → (⟨S100000x190x2, .f32⟩ : BufTy).Contents (Elt F) → (⟨S100000x190x2, .f32⟩ : BufTy).Contents (Elt F)),
    StableHlo.binary main_v96 main_v96 main_v97 (mulf : (⟨S100000x190x2, .f32⟩ : BufTy).Contents (Elt F) → (⟨S100000x190x2, .f32⟩ : BufTy).Contents (Elt F) → (⟨S100000x190x2, .f32⟩ : BufTy).Contents (Elt F)),
    StableHlo.nullary main_cst_32 (constant S_ .f32 0x00000000#32),
    StableHlo.binary main_v97 main_cst_32 main_v98 ((fun x v => Host.reduceAdd x v reducesTo_S100000x190x2_S100000x190_d2 h_S_) : (⟨S100000x190x2, .f32⟩ : BufTy).Contents (Elt F) → (⟨S_, .f32⟩ : BufTy).Contents (Elt F) → (⟨S100000x190, .f32⟩ : BufTy).Contents (Elt F)),
    StableHlo.unary main_v98 main_v99 (Host.sqrt : (⟨S100000x190, .f32⟩ : BufTy).Contents (Elt F) → (⟨S100000x190, .f32⟩ : BufTy).Contents (Elt F)) ]
theorem ops8_sub : (ops8 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub ..⟩

/-- Operations 137 … 153 of 153. -/
abbrev ops9 : List (HloOp τ sig (Elt F)) :=
  [ StableHlo.unary main_v27 main_v100 ((extractStridedSlice S100000x21x3 ![0, 0, 0] · slices_S100000x86x3_S100000x21x3_0_0_0) : (⟨S100000x86x3, .f32⟩ : BufTy).Contents (Elt F) → (⟨S100000x21x3, .f32⟩ : BufTy).Contents (Elt F)),
    StableHlo.reshape main_v100 main_v101 rfl shapeCasts_S100000x21x3_S100000x63,
    StableHlo.unary main_v27 main_v102 ((extractStridedSlice S100000x25x2 ![0, 21, 0] · slices_S100000x86x3_S100000x25x2_0_21_0) : (⟨S100000x86x3, .f32⟩ : BufTy).Contents (Elt F) → (⟨S100000x25x2, .f32⟩ : BufTy).Contents (Elt F)),
    StableHlo.reshape main_v102 main_v103 rfl shapeCasts_S100000x25x2_S100000x50,
    StableHlo.unary main_v27 main_v104 ((extractStridedSlice S100000x20x2 ![0, 46, 0] · slices_S100000x86x3_S100000x20x2_0_46_0) : (⟨S100000x86x3, .f32⟩ : BufTy).Contents (Elt F) → (⟨S100000x20x2, .f32⟩ : BufTy).Contents (Elt F)),
    StableHlo.reshape main_v104 main_v105 rfl shapeCasts_S100000x20x2_S100000x40,
    StableHlo.unary main_v39 main_v106 ((extractStridedSlice S100000x21x3 ![0, 0, 0] · slices_S100000x86x3_S100000x21x3_0_0_0) : (⟨S100000x86x3, .f32⟩ : BufTy).Contents (Elt F) → (⟨S100000x21x3, .f32⟩ : BufTy).Contents (Elt F)),
    StableHlo.reshape main_v106 main_v107 rfl shapeCasts_S100000x21x3_S100000x63,
    StableHlo.unary main_v39 main_v108 ((extractStridedSlice S100000x25x2 ![0, 21, 0] · slices_S100000x86x3_S100000x25x2_0_21_0) : (⟨S100000x86x3, .f32⟩ : BufTy).Contents (Elt F) → (⟨S100000x25x2, .f32⟩ : BufTy).Contents (Elt F)),
    StableHlo.reshape main_v108 main_v109 rfl shapeCasts_S100000x25x2_S100000x50,
    StableHlo.unary main_v39 main_v110 ((extractStridedSlice S100000x20x2 ![0, 46, 0] · slices_S100000x86x3_S100000x20x2_0_46_0) : (⟨S100000x86x3, .f32⟩ : BufTy).Contents (Elt F) → (⟨S100000x20x2, .f32⟩ : BufTy).Contents (Elt F)),
    StableHlo.reshape main_v110 main_v111 rfl shapeCasts_S100000x20x2_S100000x40,
    StableHlo.unary main_v32 main_v112 (broadcastInDim S100000x1 ![0] bcast_S100000_S100000x1_0 : (⟨S100000, .f32⟩ : BufTy).Contents (Elt F) → (⟨S100000x1, .f32⟩ : BufTy).Contents (Elt F)),
    StableHlo.unary main_v34 main_v113 (broadcastInDim S100000x1 ![0] bcast_S100000_S100000x1_0 : (⟨S100000, .f32⟩ : BufTy).Contents (Elt F) → (⟨S100000x1, .f32⟩ : BufTy).Contents (Elt F)),
    StableHlo.nary ![main_v101, main_v103, main_v105, main_v107, main_v109, main_v111, main_v54, main_v69, main_v84, main_v99, main_v112, main_v113] main_v114 (fun u => cat_main_v114 (u 0) (u 1) (u 2) (u 3) (u 4) (u 5) (u 6) (u 7) (u 8) (u 9) (u 10) (u 11)),
    StableHlo.unary main_v114 main_v115 ((extractStridedSlice S200x1198 ![0, 0] · slices_S100000x1198_S200x1198_0_0) : (⟨S100000x1198, .f32⟩ : BufTy).Contents (Elt F) → (⟨S200x1198, .f32⟩ : BufTy).Contents (Elt F)),
    StableHlo.reshape main_v115 main_v116 rfl shapeCasts_S200x1198_S1x200x1198 ]
theorem ops9_sub : (ops9 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., nary_bufs_sub .., unary_bufs_sub .., reshape_bufs_sub ..⟩

/-- @main's 153 operations, in order. -/
abbrev ops : List (HloOp τ sig (Elt F)) :=
  ops0 ++ (ops1 ++ (ops2 ++ (ops3 ++ (ops4 ++ (ops5 ++ (ops6 ++ (ops7 ++ (ops8 ++ (ops9)))))))))

set_option maxRecDepth 8192 in
set_option maxHeartbeats 4000000 in
/-- A window of @main is the straight line of its chunks: the outlined functions unfolded at their calls, sequencing reassociated. -/
theorem main_part0_eq (c : Dev nD) : main_part0 (F := F) c = seq (ops0 ++ (ops1 ++ (ops2 ++ (ops3)))) := by
  simp only [main_part0, ops0, ops1, ops2, ops3, fn_where.body, fn_where_0.body, fn_where_1.body, fn_where_2.body, List.cons_append, List.nil_append, seq, bind_assoc, pure_bind] <;> rfl

set_option maxRecDepth 8192 in
set_option maxHeartbeats 4000000 in
/-- A window of @main is the straight line of its chunks: the outlined functions unfolded at their calls, sequencing reassociated. -/
theorem main_part1_eq (c : Dev nD) : main_part1 (F := F) c = seq (ops4 ++ (ops5 ++ (ops6 ++ (ops7)))) := by
  simp only [main_part1, ops4, ops5, ops6, ops7, fn_where.body, fn_where_0.body, fn_where_1.body, fn_where_2.body, List.cons_append, List.nil_append, seq, bind_assoc, pure_bind] <;> rfl

set_option maxRecDepth 8192 in
set_option maxHeartbeats 4000000 in
/-- A window of @main is the straight line of its chunks: the outlined functions unfolded at their calls, sequencing reassociated. -/
theorem main_part2_eq (c : Dev nD) : main_part2 (F := F) c = seq (ops8 ++ (ops9)) := by
  simp only [main_part2, ops8, ops9, fn_where.body, fn_where_0.body, fn_where_1.body, fn_where_2.body, List.cons_append, List.nil_append, seq, bind_assoc, pure_bind] <;> rfl

set_option maxRecDepth 8192 in
theorem main_eq (c : Dev nD) : main (F := F) c = seq ops := by
  have e : (ops : List (HloOp τ sig (Elt F))) = (ops0 ++ (ops1 ++ (ops2 ++ (ops3)))) ++ ((ops4 ++ (ops5 ++ (ops6 ++ (ops7)))) ++ (ops8 ++ (ops9))) := by
    simp only [ops, List.append_assoc]
  rw [e, seq_append (ops0 ++ (ops1 ++ (ops2 ++ (ops3)))) ((ops4 ++ (ops5 ++ (ops6 ++ (ops7)))) ++ (ops8 ++ (ops9))), seq_append (ops4 ++ (ops5 ++ (ops6 ++ (ops7)))) (ops8 ++ (ops9)), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h]

end Cert.ReferenceIdeal.HRun

end
-- ==== Proof.Ref.Run.lean ====
/- The run of the reference's @main: the straight line of its operations read back chunk by chunk. After each chunk
   the buffers still to be read hold the stage functions of the argument array; at the end the result buffer holds
   the whole composition and the argument is unchanged. -/
import proofs.«176904_j2095944041143_2_alg».proof.Proof.Ref.Ops
import proofs.«176904_j2095944041143_2_alg».proof.Proof.Tail.RTerm

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over its second part from the first part's contents. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- The device's buffer contents before the first chunk. -/
def val0 (V0 : Valuation τ sig (Elt F)) : Valuation τ sig (Elt F) := V0
theorem val0_main_arg0 (V0 : Valuation τ sig (Elt F)) : val0 V0 (no_index (Proc.devRef .tc main_arg0)) = (V0 (Proc.devRef .tc main_arg0)) := rfl

/-- The device's buffer contents after the first 1 chunk. -/
def val1 (V0 : Valuation τ sig (Elt F)) : Valuation τ sig (Elt F) := after ops0 (val0 V0)
/-- The buffers that chunk 0's operations write. -/
abbrev ops0_W : List (Ref sig .tc) := [main_c, main_c_0, main_c_1, main_c_2, main_c_3, main_c_4, main_c_5, main_c_6, main_c_7, main_c_8, main_c_9, main_c_10, main_c_11, main_c_12, main_v0, main_cst, main_call0_v0, main_v1]
set_option maxRecDepth 8192 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 0 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h
theorem val1_main_arg0 (V0 : Valuation τ sig (Elt F)) : val1 V0 (no_index (Proc.devRef .tc main_arg0)) = (V0 (Proc.devRef .tc main_arg0)) :=
  (val1_keep V0 main_arg0 (by decide)).trans (val0_main_arg0 V0)
set_option maxRecDepth 8192 in
set_option maxHeartbeats 4000000 in
theorem val1_main_c (V0 : Valuation τ sig (Elt F)) : val1 V0 (no_index (Proc.devRef .tc main_c)) = (fun i => lit0 (S210.rowMajor i)) := by
  unfold val1
  simp only [ops0]
  after_results_simp
  all_goals (first | rfl | fail "read-back of main_c is not closed by rfl")
set_option maxRecDepth 8192 in
set_option maxHeartbeats 4000000 in
theorem val1_main_c_0 (V0 : Valuation τ sig (Elt F)) : val1 V0 (no_index (Proc.devRef .tc main_c_0)) = (constantI S210 1 0#1) := by
  unfold val1
  simp only [ops0]
  after_results_simp
  all_goals (first | rfl | fail "read-back of main_c_0 is not closed by rfl")
set_option maxRecDepth 8192 in
set_option maxHeartbeats 4000000 in
theorem val1_main_c_1 (V0 : Valuation τ sig (Elt F)) : val1 V0 (no_index (Proc.devRef .tc main_c_1)) = (fun i => lit1 (S210.rowMajor i)) := by
  unfold val1
  simp only [ops0]
  after_results_simp
  all_goals (first | rfl | fail "read-back of main_c_1 is not closed by rfl")
set_option maxRecDepth 8192 in
set_option maxHeartbeats 4000000 in
theorem val1_main_c_2 (V0 : Valuation τ sig (Elt F)) : val1 V0 (no_index (Proc.devRef .tc main_c_2)) = (constantI S210 1 0#1) := by
  unfold val1
  simp only [ops0]
  after_results_simp
  all_goals (first | rfl | fail "read-back of main_c_2 is not closed by rfl")
set_option maxRecDepth 8192 in
set_option maxHeartbeats 4000000 in
theorem val1_main_c_3 (V0 : Valuation τ sig (Elt F)) : val1 V0 (no_index (Proc.devRef .tc main_c_3)) = (fun i => lit2 (S300.rowMajor i)) := by
  unfold val1
  simp only [ops0]
  after_results_simp
  all_goals (first | rfl | fail "read-back of main_c_3 is not closed by rfl")
set_option maxRecDepth 8192 in
set_option maxHeartbeats 4000000 in
theorem val1_main_c_4 (V0 : Valuation τ sig (Elt F)) : val1 V0 (no_index (Proc.devRef .tc main_c_4)) = (constantI S300 1 0#1) := by
  unfold val1
  simp only [ops0]
  after_results_simp
  all_goals (first | rfl | fail "read-back of main_c_4 is not closed by rfl")
set_option maxRecDepth 8192 in
set_option maxHeartbeats 4000000 in
theorem val1_main_c_5 (V0 : Valuation τ sig (Elt F)) : val1 V0 (no_index (Proc.devRef .tc main_c_5)) = (fun i => lit3 (S300.rowMajor i)) := by
  unfold val1
  simp only [ops0]
  after_results_simp
  all_goals (first | rfl | fail "read-back of main_c_5 is not closed by rfl")
set_option maxRecDepth 8192 in
set_option maxHeartbeats 4000000 in
theorem val1_main_c_6 (V0 : Valuation τ sig (Elt F)) : val1 V0 (no_index (Proc.devRef .tc main_c_6)) = (constantI S300 1 0#1) := by
  unfold val1
  simp only [ops0]
  after_results_simp
  all_goals (first | rfl | fail "read-back of main_c_6 is not closed by rfl")
set_option maxRecDepth 8192 in
set_option maxHeartbeats 4000000 in
theorem val1_main_c_7 (V0 : Valuation τ sig (Elt F)) : val1 V0 (no_index (Proc.devRef .tc main_c_7)) = (fun i => lit4 (S190.rowMajor i)) := by
  unfold val1
  simp only [ops0]
  after_results_simp
  all_goals (first | rfl | fail "read-back of main_c_7 is not closed by rfl")
set_option maxRecDepth 8192 in
set_option maxHeartbeats 4000000 in
theorem val1_main_c_8 (V0 : Valuation τ sig (Elt F)) : val1 V0 (no_index (Proc.devRef .tc main_c_8)) = (constantI S190 1 0#1) := by
  unfold val1
  simp only [ops0]
  after_results_simp
  all_goals (first | rfl | fail "read-back of main_c_8 is not closed by rfl")
set_option maxRecDepth 8192 in
set_option maxHeartbeats 4000000 in
theorem val1_main_c_9 (V0 : Valuation τ sig (Elt F)) : val1 V0 (no_index (Proc.devRef .tc main_c_9)) = (fun i => lit5 (S190.rowMajor i)) := by
  unfold val1
  simp only [ops0]
  after_results_simp
  all_goals (first | rfl | fail "read-back of main_c_9 is not closed by rfl")
set_option maxRecDepth 8192 in
set_option maxHeartbeats 4000000 in
theorem val1_main_c_10 (V0 : Valuation τ sig (Elt F)) : val1 V0 (no_index (Proc.devRef .tc main_c_10)) = (constantI S190 1 0#1) := by
  unfold val1
  simp only [ops0]
  after_results_simp
  all_goals (first | rfl | fail "read-back of main_c_10 is not closed by rfl")
set_option maxRecDepth 8192 in
set_option maxHeartbeats 4000000 in
theorem val1_main_c_11 (V0 : Valuation τ sig (Elt F)) : val1 V0 (no_index (Proc.devRef .tc main_c_11)) = (constantI S190 1 0#1) := by
  unfold val1
  simp only [ops0]
  after_results_simp
  all_goals (first | rfl | fail "read-back of main_c_11 is not closed by rfl")
set_option maxRecDepth 8192 in
set_option maxHeartbeats 4000000 in
theorem val1_main_c_12 (V0 : Valuation τ sig (Elt F)) : val1 V0 (no_index (Proc.devRef .tc main_c_12)) = (constantI S190 1 0#1) := by
  unfold val1
  simp only [ops0]
  after_results_simp
  all_goals (first | rfl | fail "read-back of main_c_12 is not closed by rfl")
set_option maxRecDepth 8192 in
set_option maxHeartbeats 4000000 in
theorem val1_main_v1 (V0 : Valuation τ sig (Elt F)) : val1 V0 (no_index (Proc.devRef .tc main_v1)) = (Tail.rClean (V0 (Proc.devRef .tc main_arg0))) := by
  unfold val1
  simp only [ops0]
  after_results_simp
  simp only [val0_main_arg0] <;> (first | rfl | fail "read-back of main_v1 is not closed by rfl")

/-- The device's buffer contents after the first 2 chunks. -/
def val2 (V0 : Valuation τ sig (Elt F)) : Valuation τ sig (Elt F) := after ops1 (val1 V0)
/-- The buffers that chunk 1's operations write. -/
abbrev ops1_W : List (Ref sig .tc) := [main_v2, main_v3, main_v4, main_v5, main_cst_13, main_v6, main_v7, main_v8, main_cst_14, main_v9, main_cst_15, main_v10, main_v11, main_v12, main_cst_16, main_v13, main_v14]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_c (V0 : Valuation τ sig (Elt F)) : val2 V0 (no_index (Proc.devRef .tc main_c)) = (fun i => lit0 (S210.rowMajor i)) :=
  (val2_keep V0 main_c (by decide)).trans (val1_main_c V0)
theorem val2_main_c_0 (V0 : Valuation τ sig (Elt F)) : val2 V0 (no_index (Proc.devRef .tc main_c_0)) = (constantI S210 1 0#1) :=
  (val2_keep V0 main_c_0 (by decide)).trans (val1_main_c_0 V0)
theorem val2_main_c_1 (V0 : Valuation τ sig (Elt F)) : val2 V0 (no_index (Proc.devRef .tc main_c_1)) = (fun i => lit1 (S210.rowMajor i)) :=
  (val2_keep V0 main_c_1 (by decide)).trans (val1_main_c_1 V0)
theorem val2_main_c_2 (V0 : Valuation τ sig (Elt F)) : val2 V0 (no_index (Proc.devRef .tc main_c_2)) = (constantI S210 1 0#1) :=
  (val2_keep V0 main_c_2 (by decide)).trans (val1_main_c_2 V0)
theorem val2_main_c_3 (V0 : Valuation τ sig (Elt F)) : val2 V0 (no_index (Proc.devRef .tc main_c_3)) = (fun i => lit2 (S300.rowMajor i)) :=
  (val2_keep V0 main_c_3 (by decide)).trans (val1_main_c_3 V0)
theorem val2_main_c_4 (V0 : Valuation τ sig (Elt F)) : val2 V0 (no_index (Proc.devRef .tc main_c_4)) = (constantI S300 1 0#1) :=
  (val2_keep V0 main_c_4 (by decide)).trans (val1_main_c_4 V0)
theorem val2_main_c_5 (V0 : Valuation τ sig (Elt F)) : val2 V0 (no_index (Proc.devRef .tc main_c_5)) = (fun i => lit3 (S300.rowMajor i)) :=
  (val2_keep V0 main_c_5 (by decide)).trans (val1_main_c_5 V0)
theorem val2_main_c_6 (V0 : Valuation τ sig (Elt F)) : val2 V0 (no_index (Proc.devRef .tc main_c_6)) = (constantI S300 1 0#1) :=
  (val2_keep V0 main_c_6 (by decide)).trans (val1_main_c_6 V0)
theorem val2_main_c_7 (V0 : Valuation τ sig (Elt F)) : val2 V0 (no_index (Proc.devRef .tc main_c_7)) = (fun i => lit4 (S190.rowMajor i)) :=
  (val2_keep V0 main_c_7 (by decide)).trans (val1_main_c_7 V0)
theorem val2_main_c_8 (V0 : Valuation τ sig (Elt F)) : val2 V0 (no_index (Proc.devRef .tc main_c_8)) = (constantI S190 1 0#1) :=
  (val2_keep V0 main_c_8 (by decide)).trans (val1_main_c_8 V0)
theorem val2_main_c_9 (V0 : Valuation τ sig (Elt F)) : val2 V0 (no_index (Proc.devRef .tc main_c_9)) = (fun i => lit5 (S190.rowMajor i)) :=
  (val2_keep V0 main_c_9 (by decide)).trans (val1_main_c_9 V0)
theorem val2_main_c_10 (V0 : Valuation τ sig (Elt F)) : val2 V0 (no_index (Proc.devRef .tc main_c_10)) = (constantI S190 1 0#1) :=
  (val2_keep V0 main_c_10 (by decide)).trans (val1_main_c_10 V0)
theorem val2_main_c_11 (V0 : Valuation τ sig (Elt F)) : val2 V0 (no_index (Proc.devRef .tc main_c_11)) = (constantI S190 1 0#1) :=
  (val2_keep V0 main_c_11 (by decide)).trans (val1_main_c_11 V0)
theorem val2_main_c_12 (V0 : Valuation τ sig (Elt F)) : val2 V0 (no_index (Proc.devRef .tc main_c_12)) = (constantI S190 1 0#1) :=
  (val2_keep V0 main_c_12 (by decide)).trans (val1_main_c_12 V0)
set_option maxRecDepth 8192 in
set_option maxHeartbeats 4000000 in
theorem val2_main_v2 (V0 : Valuation τ sig (Elt F)) : val2 V0 (no_index (Proc.devRef .tc main_v2)) = (extractStridedSlice S100000x21x3 ![0, 40, 0] (Tail.rClean (V0 (Proc.devRef .tc main_arg0))) slices_S100000x115x3_S100000x21x3_0_40_0) := by
  unfold val2
  simp only [ops1]
  after_results_simp
  simp only [val1_main_v1] <;> (first | rfl | fail "read-back of main_v2 is not closed by rfl")
set_option maxRecDepth 8192 in
set_option maxHeartbeats 4000000 in
theorem val2_main_v3 (V0 : Valuation τ sig (Elt F)) : val2 V0 (no_index (Proc.devRef .tc main_v3)) = (extractStridedSlice S100000x21x3 ![0, 94, 0] (Tail.rClean (V0 (Proc.devRef .tc main_arg0))) slices_S100000x115x3_S100000x21x3_0_94_0) := by
  unfold val2
  simp only [ops1]
  after_results_simp
  simp only [val1_main_v1] <;> (first | rfl | fail "read-back of main_v3 is not closed by rfl")
set_option maxRecDepth 8192 in
set_option maxHeartbeats 4000000 in
theorem val2_main_v4 (V0 : Valuation τ sig (Elt F)) : val2 V0 (no_index (Proc.devRef .tc main_v4)) = (extractStridedSlice S100000x25x3 ![0, 61, 0] (Tail.rClean (V0 (Proc.devRef .tc main_arg0))) slices_S100000x115x3_S100000x25x3_0_61_0) := by
  unfold val2
  simp only [ops1]
  after_results_simp
  simp only [val1_main_v1] <;> (first | rfl | fail "read-back of main_v4 is not closed by rfl")
set_option maxRecDepth 8192 in
set_option maxHeartbeats 4000000 in
theorem val2_main_v5 (V0 : Valuation τ sig (Elt F)) : val2 V0 (no_index (Proc.devRef .tc main_v5)) = (extractStridedSlice S100000x40x3 ![0, 0, 0] (Tail.rClean (V0 (Proc.devRef .tc main_arg0))) slices_S100000x115x3_S100000x40x3_0_0_0) := by
  unfold val2
  simp only [ops1]
  after_results_simp
  simp only [val1_main_v1] <;> (first | rfl | fail "read-back of main_v5 is not closed by rfl")
set_option maxRecDepth 8192 in
set_option maxHeartbeats 4000000 in
theorem val2_main_v14 (V0 : Valuation τ sig (Elt F)) : val2 V0 (no_index (Proc.devRef .tc main_v14)) = (Tail.rCond (Tail.rClean (V0 (Proc.devRef .tc main_arg0)))) := by
  unfold val2
  simp only [ops1]
  after_results_simp
  simp only [val1_main_v1] <;> (first | rfl | fail "read-back of main_v14 is not closed by rfl")

/-- The device's buffer contents after the first 3 chunks. -/
def val3 (V0 : Valuation τ sig (Elt F)) : Valuation τ sig (Elt F) := after ops2 (val2 V0)
/-- The buffers that chunk 2's operations write. -/
abbrev ops2_W : List (Ref sig .tc) := [main_v15, main_v16, main_v17, main_v18, main_v19, main_v20, main_v21, main_v22, main_v23, main_v24, main_v25, main_v26, main_v27, main_v28, main_cst_17, main_v29, main_cst_18, main_v30, main_v31, main_v32, main_cst_19, main_v33, main_v34]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_c (V0 : Valuation τ sig (Elt F)) : val3 V0 (no_index (Proc.devRef .tc main_c)) = (fun i => lit0 (S210.rowMajor i)) :=
  (val3_keep V0 main_c (by decide)).trans (val2_main_c V0)
theorem val3_main_c_0 (V0 : Valuation τ sig (Elt F)) : val3 V0 (no_index (Proc.devRef .tc main_c_0)) = (constantI S210 1 0#1) :=
  (val3_keep V0 main_c_0 (by decide)).trans (val2_main_c_0 V0)
theorem val3_main_c_1 (V0 : Valuation τ sig (Elt F)) : val3 V0 (no_index (Proc.devRef .tc main_c_1)) = (fun i => lit1 (S210.rowMajor i)) :=
  (val3_keep V0 main_c_1 (by decide)).trans (val2_main_c_1 V0)
theorem val3_main_c_2 (V0 : Valuation τ sig (Elt F)) : val3 V0 (no_index (Proc.devRef .tc main_c_2)) = (constantI S210 1 0#1) :=
  (val3_keep V0 main_c_2 (by decide)).trans (val2_main_c_2 V0)
theorem val3_main_c_3 (V0 : Valuation τ sig (Elt F)) : val3 V0 (no_index (Proc.devRef .tc main_c_3)) = (fun i => lit2 (S300.rowMajor i)) :=
  (val3_keep V0 main_c_3 (by decide)).trans (val2_main_c_3 V0)
theorem val3_main_c_4 (V0 : Valuation τ sig (Elt F)) : val3 V0 (no_index (Proc.devRef .tc main_c_4)) = (constantI S300 1 0#1) :=
  (val3_keep V0 main_c_4 (by decide)).trans (val2_main_c_4 V0)
theorem val3_main_c_5 (V0 : Valuation τ sig (Elt F)) : val3 V0 (no_index (Proc.devRef .tc main_c_5)) = (fun i => lit3 (S300.rowMajor i)) :=
  (val3_keep V0 main_c_5 (by decide)).trans (val2_main_c_5 V0)
theorem val3_main_c_6 (V0 : Valuation τ sig (Elt F)) : val3 V0 (no_index (Proc.devRef .tc main_c_6)) = (constantI S300 1 0#1) :=
  (val3_keep V0 main_c_6 (by decide)).trans (val2_main_c_6 V0)
theorem val3_main_c_7 (V0 : Valuation τ sig (Elt F)) : val3 V0 (no_index (Proc.devRef .tc main_c_7)) = (fun i => lit4 (S190.rowMajor i)) :=
  (val3_keep V0 main_c_7 (by decide)).trans (val2_main_c_7 V0)
theorem val3_main_c_8 (V0 : Valuation τ sig (Elt F)) : val3 V0 (no_index (Proc.devRef .tc main_c_8)) = (constantI S190 1 0#1) :=
  (val3_keep V0 main_c_8 (by decide)).trans (val2_main_c_8 V0)
theorem val3_main_c_9 (V0 : Valuation τ sig (Elt F)) : val3 V0 (no_index (Proc.devRef .tc main_c_9)) = (fun i => lit5 (S190.rowMajor i)) :=
  (val3_keep V0 main_c_9 (by decide)).trans (val2_main_c_9 V0)
theorem val3_main_c_10 (V0 : Valuation τ sig (Elt F)) : val3 V0 (no_index (Proc.devRef .tc main_c_10)) = (constantI S190 1 0#1) :=
  (val3_keep V0 main_c_10 (by decide)).trans (val2_main_c_10 V0)
theorem val3_main_c_11 (V0 : Valuation τ sig (Elt F)) : val3 V0 (no_index (Proc.devRef .tc main_c_11)) = (constantI S190 1 0#1) :=
  (val3_keep V0 main_c_11 (by decide)).trans (val2_main_c_11 V0)
theorem val3_main_c_12 (V0 : Valuation τ sig (Elt F)) : val3 V0 (no_index (Proc.devRef .tc main_c_12)) = (constantI S190 1 0#1) :=
  (val3_keep V0 main_c_12 (by decide)).trans (val2_main_c_12 V0)
set_option maxRecDepth 8192 in
set_option maxHeartbeats 4000000 in
theorem val3_main_v27 (V0 : Valuation τ sig (Elt F)) : val3 V0 (no_index (Proc.devRef .tc main_v27)) = (Tail.rFeat (Tail.rCond (Tail.rClean (V0 (Proc.devRef .tc main_arg0)))) (Tail.rClean (V0 (Proc.devRef .tc main_arg0)))) := by
  unfold val3
  simp only [ops2]
  after_results_simp
  try dsimp only [Matrix.cons_val]
  try after_results_simp
  simp only [val2_main_v5, val2_main_v4, val2_main_v3, val2_main_v2, val2_main_v14] <;> (first | rfl | fail "read-back of main_v27 is not closed by rfl")
set_option maxRecDepth 8192 in
set_option maxHeartbeats 4000000 in
theorem val3_main_v32 (V0 : Valuation τ sig (Elt F)) : val3 V0 (no_index (Proc.devRef .tc main_v32)) = (Tail.rHand (Tail.rCond (Tail.rClean (V0 (Proc.devRef .tc main_arg0)))) (Tail.rClean (V0 (Proc.devRef .tc main_arg0)))) := by
  unfold val3
  simp only [ops2]
  after_results_simp
  try dsimp only [Matrix.cons_val]
  try after_results_simp
  simp only [val2_main_v3, val2_main_v2, val2_main_v14] <;> (first | rfl | fail "read-back of main_v32 is not closed by rfl")
set_option maxRecDepth 8192 in
set_option maxHeartbeats 4000000 in
theorem val3_main_v34 (V0 : Valuation τ sig (Elt F)) : val3 V0 (no_index (Proc.devRef .tc main_v34)) = (Tail.rTok (Tail.rHand (Tail.rCond (Tail.rClean (V0 (Proc.devRef .tc main_arg0)))) (Tail.rClean (V0 (Proc.devRef .tc main_arg0))))) := by
  unfold val3
  simp only [ops2]
  after_results_simp
  try dsimp only [Matrix.cons_val]
  try after_results_simp
  simp only [val2_main_v3, val2_main_v2, val2_main_v14] <;> (first | rfl | fail "read-back of main_v34 is not closed by rfl")

/-- The device's buffer contents after the first 4 chunks. -/
def val4 (V0 : Valuation τ sig (Elt F)) : Valuation τ sig (Elt F) := after ops3 (val3 V0)
/-- The buffers that chunk 3's operations write. -/
abbrev ops3_W : List (Ref sig .tc) := [main_v35, main_v36, main_v37]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_c (V0 : Valuation τ sig (Elt F)) : val4 V0 (no_index (Proc.devRef .tc main_c)) = (fun i => lit0 (S210.rowMajor i)) :=
  (val4_keep V0 main_c (by decide)).trans (val3_main_c V0)
theorem val4_main_c_0 (V0 : Valuation τ sig (Elt F)) : val4 V0 (no_index (Proc.devRef .tc main_c_0)) = (constantI S210 1 0#1) :=
  (val4_keep V0 main_c_0 (by decide)).trans (val3_main_c_0 V0)
theorem val4_main_c_1 (V0 : Valuation τ sig (Elt F)) : val4 V0 (no_index (Proc.devRef .tc main_c_1)) = (fun i => lit1 (S210.rowMajor i)) :=
  (val4_keep V0 main_c_1 (by decide)).trans (val3_main_c_1 V0)
theorem val4_main_c_2 (V0 : Valuation τ sig (Elt F)) : val4 V0 (no_index (Proc.devRef .tc main_c_2)) = (constantI S210 1 0#1) :=
  (val4_keep V0 main_c_2 (by decide)).trans (val3_main_c_2 V0)
theorem val4_main_c_3 (V0 : Valuation τ sig (Elt F)) : val4 V0 (no_index (Proc.devRef .tc main_c_3)) = (fun i => lit2 (S300.rowMajor i)) :=
  (val4_keep V0 main_c_3 (by decide)).trans (val3_main_c_3 V0)
theorem val4_main_c_4 (V0 : Valuation τ sig (Elt F)) : val4 V0 (no_index (Proc.devRef .tc main_c_4)) = (constantI S300 1 0#1) :=
  (val4_keep V0 main_c_4 (by decide)).trans (val3_main_c_4 V0)
theorem val4_main_c_5 (V0 : Valuation τ sig (Elt F)) : val4 V0 (no_index (Proc.devRef .tc main_c_5)) = (fun i => lit3 (S300.rowMajor i)) :=
  (val4_keep V0 main_c_5 (by decide)).trans (val3_main_c_5 V0)
theorem val4_main_c_6 (V0 : Valuation τ sig (Elt F)) : val4 V0 (no_index (Proc.devRef .tc main_c_6)) = (constantI S300 1 0#1) :=
  (val4_keep V0 main_c_6 (by decide)).trans (val3_main_c_6 V0)
theorem val4_main_c_7 (V0 : Valuation τ sig (Elt F)) : val4 V0 (no_index (Proc.devRef .tc main_c_7)) = (fun i => lit4 (S190.rowMajor i)) :=
  (val4_keep V0 main_c_7 (by decide)).trans (val3_main_c_7 V0)
theorem val4_main_c_8 (V0 : Valuation τ sig (Elt F)) : val4 V0 (no_index (Proc.devRef .tc main_c_8)) = (constantI S190 1 0#1) :=
  (val4_keep V0 main_c_8 (by decide)).trans (val3_main_c_8 V0)
theorem val4_main_c_9 (V0 : Valuation τ sig (Elt F)) : val4 V0 (no_index (Proc.devRef .tc main_c_9)) = (fun i => lit5 (S190.rowMajor i)) :=
  (val4_keep V0 main_c_9 (by decide)).trans (val3_main_c_9 V0)
theorem val4_main_c_10 (V0 : Valuation τ sig (Elt F)) : val4 V0 (no_index (Proc.devRef .tc main_c_10)) = (constantI S190 1 0#1) :=
  (val4_keep V0 main_c_10 (by decide)).trans (val3_main_c_10 V0)
theorem val4_main_c_11 (V0 : Valuation τ sig (Elt F)) : val4 V0 (no_index (Proc.devRef .tc main_c_11)) = (constantI S190 1 0#1) :=
  (val4_keep V0 main_c_11 (by decide)).trans (val3_main_c_11 V0)
theorem val4_main_c_12 (V0 : Valuation τ sig (Elt F)) : val4 V0 (no_index (Proc.devRef .tc main_c_12)) = (constantI S190 1 0#1) :=
  (val4_keep V0 main_c_12 (by decide)).trans (val3_main_c_12 V0)
theorem val4_main_v27 (V0 : Valuation τ sig (Elt F)) : val4 V0 (no_index (Proc.devRef .tc main_v27)) = (Tail.rFeat (Tail.rCond (Tail.rClean (V0 (Proc.devRef .tc main_arg0)))) (Tail.rClean (V0 (Proc.devRef .tc main_arg0)))) :=
  (val4_keep V0 main_v27 (by decide)).trans (val3_main_v27 V0)
theorem val4_main_v32 (V0 : Valuation τ sig (Elt F)) : val4 V0 (no_index (Proc.devRef .tc main_v32)) = (Tail.rHand (Tail.rCond (Tail.rClean (V0 (Proc.devRef .tc main_arg0)))) (Tail.rClean (V0 (Proc.devRef .tc main_arg0)))) :=
  (val4_keep V0 main_v32 (by decide)).trans (val3_main_v32 V0)
theorem val4_main_v34 (V0 : Valuation τ sig (Elt F)) : val4 V0 (no_index (Proc.devRef .tc main_v34)) = (Tail.rTok (Tail.rHand (Tail.rCond (Tail.rClean (V0 (Proc.devRef .tc main_arg0)))) (Tail.rClean (V0 (Proc.devRef .tc main_arg0))))) :=
  (val4_keep V0 main_v34 (by decide)).trans (val3_main_v34 V0)
set_option maxRecDepth 8192 in
set_option maxHeartbeats 4000000 in
theorem val4_main_v37 (V0 : Valuation τ sig (Elt F)) : val4 V0 (no_index (Proc.devRef .tc main_v37)) = (subf (extractStridedSlice S99999x86x3 ![0, 0, 0] (Tail.rFeat (Tail.rCond (Tail.rClean (V0 (Proc.devRef .tc main_arg0)))) (Tail.rClean (V0 (Proc.devRef .tc main_arg0)))) slices_S100000x86x3_S99999x86x3_0_0_0) (extractStridedSlice S99999x86x3 ![1, 0, 0] (Tail.rFeat (Tail.rCond (Tail.rClean (V0 (Proc.devRef .tc main_arg0)))) (Tail.rClean (V0 (Proc.devRef .tc main_arg0)))) slices_S100000x86x3_S99999x86x3_1_0_0)) := by
  unfold val4
  simp only [ops3]
  after_results_simp
  simp only [val3_main_v27] <;> (first | rfl | fail "read-back of main_v37 is not closed by rfl")

/-- The device's buffer contents after the first 5 chunks. -/
def val5 (V0 : Valuation τ sig (Elt F)) : Valuation τ sig (Elt F) := after ops4 (val4 V0)
/-- The buffers that chunk 4's operations write. -/
abbrev ops4_W : List (Ref sig .tc) := [main_cst_20, main_v38, main_v39, main_v40, main_c_21, main_v41, main_v42, main_v43, main_v44, main_v45, main_c_22, main_v46, main_v47, main_v48, main_v49, main_v50, main_v51, main_v52, main_cst_23, main_v53, main_v54]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 4 does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_c (V0 : Valuation τ sig (Elt F)) : val5 V0 (no_index (Proc.devRef .tc main_c)) = (fun i => lit0 (S210.rowMajor i)) :=
  (val5_keep V0 main_c (by decide)).trans (val4_main_c V0)
theorem val5_main_c_0 (V0 : Valuation τ sig (Elt F)) : val5 V0 (no_index (Proc.devRef .tc main_c_0)) = (constantI S210 1 0#1) :=
  (val5_keep V0 main_c_0 (by decide)).trans (val4_main_c_0 V0)
theorem val5_main_c_1 (V0 : Valuation τ sig (Elt F)) : val5 V0 (no_index (Proc.devRef .tc main_c_1)) = (fun i => lit1 (S210.rowMajor i)) :=
  (val5_keep V0 main_c_1 (by decide)).trans (val4_main_c_1 V0)
theorem val5_main_c_2 (V0 : Valuation τ sig (Elt F)) : val5 V0 (no_index (Proc.devRef .tc main_c_2)) = (constantI S210 1 0#1) :=
  (val5_keep V0 main_c_2 (by decide)).trans (val4_main_c_2 V0)
theorem val5_main_c_3 (V0 : Valuation τ sig (Elt F)) : val5 V0 (no_index (Proc.devRef .tc main_c_3)) = (fun i => lit2 (S300.rowMajor i)) :=
  (val5_keep V0 main_c_3 (by decide)).trans (val4_main_c_3 V0)
theorem val5_main_c_4 (V0 : Valuation τ sig (Elt F)) : val5 V0 (no_index (Proc.devRef .tc main_c_4)) = (constantI S300 1 0#1) :=
  (val5_keep V0 main_c_4 (by decide)).trans (val4_main_c_4 V0)
theorem val5_main_c_5 (V0 : Valuation τ sig (Elt F)) : val5 V0 (no_index (Proc.devRef .tc main_c_5)) = (fun i => lit3 (S300.rowMajor i)) :=
  (val5_keep V0 main_c_5 (by decide)).trans (val4_main_c_5 V0)
theorem val5_main_c_6 (V0 : Valuation τ sig (Elt F)) : val5 V0 (no_index (Proc.devRef .tc main_c_6)) = (constantI S300 1 0#1) :=
  (val5_keep V0 main_c_6 (by decide)).trans (val4_main_c_6 V0)
theorem val5_main_c_7 (V0 : Valuation τ sig (Elt F)) : val5 V0 (no_index (Proc.devRef .tc main_c_7)) = (fun i => lit4 (S190.rowMajor i)) :=
  (val5_keep V0 main_c_7 (by decide)).trans (val4_main_c_7 V0)
theorem val5_main_c_8 (V0 : Valuation τ sig (Elt F)) : val5 V0 (no_index (Proc.devRef .tc main_c_8)) = (constantI S190 1 0#1) :=
  (val5_keep V0 main_c_8 (by decide)).trans (val4_main_c_8 V0)
theorem val5_main_c_9 (V0 : Valuation τ sig (Elt F)) : val5 V0 (no_index (Proc.devRef .tc main_c_9)) = (fun i => lit5 (S190.rowMajor i)) :=
  (val5_keep V0 main_c_9 (by decide)).trans (val4_main_c_9 V0)
theorem val5_main_c_10 (V0 : Valuation τ sig (Elt F)) : val5 V0 (no_index (Proc.devRef .tc main_c_10)) = (constantI S190 1 0#1) :=
  (val5_keep V0 main_c_10 (by decide)).trans (val4_main_c_10 V0)
theorem val5_main_c_11 (V0 : Valuation τ sig (Elt F)) : val5 V0 (no_index (Proc.devRef .tc main_c_11)) = (constantI S190 1 0#1) :=
  (val5_keep V0 main_c_11 (by decide)).trans (val4_main_c_11 V0)
theorem val5_main_c_12 (V0 : Valuation τ sig (Elt F)) : val5 V0 (no_index (Proc.devRef .tc main_c_12)) = (constantI S190 1 0#1) :=
  (val5_keep V0 main_c_12 (by decide)).trans (val4_main_c_12 V0)
theorem val5_main_v27 (V0 : Valuation τ sig (Elt F)) : val5 V0 (no_index (Proc.devRef .tc main_v27)) = (Tail.rFeat (Tail.rCond (Tail.rClean (V0 (Proc.devRef .tc main_arg0)))) (Tail.rClean (V0 (Proc.devRef .tc main_arg0)))) :=
  (val5_keep V0 main_v27 (by decide)).trans (val4_main_v27 V0)
theorem val5_main_v32 (V0 : Valuation τ sig (Elt F)) : val5 V0 (no_index (Proc.devRef .tc main_v32)) = (Tail.rHand (Tail.rCond (Tail.rClean (V0 (Proc.devRef .tc main_arg0)))) (Tail.rClean (V0 (Proc.devRef .tc main_arg0)))) :=
  (val5_keep V0 main_v32 (by decide)).trans (val4_main_v32 V0)
theorem val5_main_v34 (V0 : Valuation τ sig (Elt F)) : val5 V0 (no_index (Proc.devRef .tc main_v34)) = (Tail.rTok (Tail.rHand (Tail.rCond (Tail.rClean (V0 (Proc.devRef .tc main_arg0)))) (Tail.rClean (V0 (Proc.devRef .tc main_arg0))))) :=
  (val5_keep V0 main_v34 (by decide)).trans (val4_main_v34 V0)
set_option maxRecDepth 8192 in
set_option maxHeartbeats 4000000 in
theorem val5_main_v39 (V0 : Valuation τ sig (Elt F)) : val5 V0 (no_index (Proc.devRef .tc main_v39)) = (Tail.rDx (Tail.rFeat (Tail.rCond (Tail.rClean (V0 (Proc.devRef .tc main_arg0)))) (Tail.rClean (V0 (Proc.devRef .tc main_arg0))))) := by
  unfold val5
  simp only [ops4]
  after_results_simp
  simp only [val4_main_v37] <;> (first | rfl | fail "read-back of main_v39 is not closed by rfl")
set_option maxRecDepth 8192 in
set_option maxHeartbeats 4000000 in
theorem val5_main_v54 (V0 : Valuation τ sig (Elt F)) : val5 V0 (no_index (Proc.devRef .tc main_v54)) = (Tail.rD1 (Tail.rFeat (Tail.rCond (Tail.rClean (V0 (Proc.devRef .tc main_arg0)))) (Tail.rClean (V0 (Proc.devRef .tc main_arg0))))) := by
  unfold val5
  simp only [ops4]
  after_results_simp
  simp only [val4_main_c_1, val4_main_c_2, val4_main_v27, val4_main_c, val4_main_c_0] <;> (first | rfl | fail "read-back of main_v54 is not closed by rfl")

/-- The device's buffer contents after the first 6 chunks. -/
def val6 (V0 : Valuation τ sig (Elt F)) : Valuation τ sig (Elt F) := after ops5 (val5 V0)
/-- The buffers that chunk 5's operations write. -/
abbrev ops5_W : List (Ref sig .tc) := [main_v55, main_c_24, main_v56, main_v57, main_v58, main_v59, main_v60, main_c_25, main_v61, main_v62, main_v63, main_v64, main_v65, main_v66, main_v67, main_cst_26, main_v68, main_v69]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 5 does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h
theorem val6_main_arg0 (V0 : Valuation τ sig (Elt F)) : val6 V0 (no_index (Proc.devRef .tc main_arg0)) = (V0 (Proc.devRef .tc main_arg0)) :=
  (val6_keep V0 main_arg0 (by decide)).trans (val5_main_arg0 V0)
theorem val6_main_c (V0 : Valuation τ sig (Elt F)) : val6 V0 (no_index (Proc.devRef .tc main_c)) = (fun i => lit0 (S210.rowMajor i)) :=
  (val6_keep V0 main_c (by decide)).trans (val5_main_c V0)
theorem val6_main_c_0 (V0 : Valuation τ sig (Elt F)) : val6 V0 (no_index (Proc.devRef .tc main_c_0)) = (constantI S210 1 0#1) :=
  (val6_keep V0 main_c_0 (by decide)).trans (val5_main_c_0 V0)
theorem val6_main_c_1 (V0 : Valuation τ sig (Elt F)) : val6 V0 (no_index (Proc.devRef .tc main_c_1)) = (fun i => lit1 (S210.rowMajor i)) :=
  (val6_keep V0 main_c_1 (by decide)).trans (val5_main_c_1 V0)
theorem val6_main_c_2 (V0 : Valuation τ sig (Elt F)) : val6 V0 (no_index (Proc.devRef .tc main_c_2)) = (constantI S210 1 0#1) :=
  (val6_keep V0 main_c_2 (by decide)).trans (val5_main_c_2 V0)
theorem val6_main_c_3 (V0 : Valuation τ sig (Elt F)) : val6 V0 (no_index (Proc.devRef .tc main_c_3)) = (fun i => lit2 (S300.rowMajor i)) :=
  (val6_keep V0 main_c_3 (by decide)).trans (val5_main_c_3 V0)
theorem val6_main_c_4 (V0 : Valuation τ sig (Elt F)) : val6 V0 (no_index (Proc.devRef .tc main_c_4)) = (constantI S300 1 0#1) :=
  (val6_keep V0 main_c_4 (by decide)).trans (val5_main_c_4 V0)
theorem val6_main_c_5 (V0 : Valuation τ sig (Elt F)) : val6 V0 (no_index (Proc.devRef .tc main_c_5)) = (fun i => lit3 (S300.rowMajor i)) :=
  (val6_keep V0 main_c_5 (by decide)).trans (val5_main_c_5 V0)
theorem val6_main_c_6 (V0 : Valuation τ sig (Elt F)) : val6 V0 (no_index (Proc.devRef .tc main_c_6)) = (constantI S300 1 0#1) :=
  (val6_keep V0 main_c_6 (by decide)).trans (val5_main_c_6 V0)
theorem val6_main_c_7 (V0 : Valuation τ sig (Elt F)) : val6 V0 (no_index (Proc.devRef .tc main_c_7)) = (fun i => lit4 (S190.rowMajor i)) :=
  (val6_keep V0 main_c_7 (by decide)).trans (val5_main_c_7 V0)
theorem val6_main_c_8 (V0 : Valuation τ sig (Elt F)) : val6 V0 (no_index (Proc.devRef .tc main_c_8)) = (constantI S190 1 0#1) :=
  (val6_keep V0 main_c_8 (by decide)).trans (val5_main_c_8 V0)
theorem val6_main_c_9 (V0 : Valuation τ sig (Elt F)) : val6 V0 (no_index (Proc.devRef .tc main_c_9)) = (fun i => lit5 (S190.rowMajor i)) :=
  (val6_keep V0 main_c_9 (by decide)).trans (val5_main_c_9 V0)
theorem val6_main_c_10 (V0 : Valuation τ sig (Elt F)) : val6 V0 (no_index (Proc.devRef .tc main_c_10)) = (constantI S190 1 0#1) :=
  (val6_keep V0 main_c_10 (by decide)).trans (val5_main_c_10 V0)
theorem val6_main_c_11 (V0 : Valuation τ sig (Elt F)) : val6 V0 (no_index (Proc.devRef .tc main_c_11)) = (constantI S190 1 0#1) :=
  (val6_keep V0 main_c_11 (by decide)).trans (val5_main_c_11 V0)
theorem val6_main_c_12 (V0 : Valuation τ sig (Elt F)) : val6 V0 (no_index (Proc.devRef .tc main_c_12)) = (constantI S190 1 0#1) :=
  (val6_keep V0 main_c_12 (by decide)).trans (val5_main_c_12 V0)
theorem val6_main_v27 (V0 : Valuation τ sig (Elt F)) : val6 V0 (no_index (Proc.devRef .tc main_v27)) = (Tail.rFeat (Tail.rCond (Tail.rClean (V0 (Proc.devRef .tc main_arg0)))) (Tail.rClean (V0 (Proc.devRef .tc main_arg0)))) :=
  (val6_keep V0 main_v27 (by decide)).trans (val5_main_v27 V0)
theorem val6_main_v32 (V0 : Valuation τ sig (Elt F)) : val6 V0 (no_index (Proc.devRef .tc main_v32)) = (Tail.rHand (Tail.rCond (Tail.rClean (V0 (Proc.devRef .tc main_arg0)))) (Tail.rClean (V0 (Proc.devRef .tc main_arg0)))) :=
  (val6_keep V0 main_v32 (by decide)).trans (val5_main_v32 V0)
theorem val6_main_v34 (V0 : Valuation τ sig (Elt F)) : val6 V0 (no_index (Proc.devRef .tc main_v34)) = (Tail.rTok (Tail.rHand (Tail.rCond (Tail.rClean (V0 (Proc.devRef .tc main_arg0)))) (Tail.rClean (V0 (Proc.devRef .tc main_arg0))))) :=
  (val6_keep V0 main_v34 (by decide)).trans (val5_main_v34 V0)
theorem val6_main_v39 (V0 : Valuation τ sig (Elt F)) : val6 V0 (no_index (Proc.devRef .tc main_v39)) = (Tail.rDx (Tail.rFeat (Tail.rCond (Tail.rClean (V0 (Proc.devRef .tc main_arg0)))) (Tail.rClean (V0 (Proc.devRef .tc main_arg0))))) :=
  (val6_keep V0 main_v39 (by decide)).trans (val5_main_v39 V0)
theorem val6_main_v54 (V0 : Valuation τ sig (Elt F)) : val6 V0 (no_index (Proc.devRef .tc main_v54)) = (Tail.rD1 (Tail.rFeat (Tail.rCond (Tail.rClean (V0 (Proc.devRef .tc main_arg0)))) (Tail.rClean (V0 (Proc.devRef .tc main_arg0))))) :=
  (val6_keep V0 main_v54 (by decide)).trans (val5_main_v54 V0)
set_option maxRecDepth 8192 in
set_option maxHeartbeats 4000000 in
theorem val6_main_v69 (V0 : Valuation τ sig (Elt F)) : val6 V0 (no_index (Proc.devRef .tc main_v69)) = (Tail.rD2 (Tail.rFeat (Tail.rCond (Tail.rClean (V0 (Proc.devRef .tc main_arg0)))) (Tail.rClean (V0 (Proc.devRef .tc main_arg0))))) := by
  unfold val6
  simp only [ops5]
  after_results_simp
  simp only [val5_main_c_5, val5_main_c_6, val5_main_v27, val5_main_c_3, val5_main_c_4] <;> (first | rfl | fail "read-back of main_v69 is not closed by rfl")

/-- The device's buffer contents after the first 7 chunks. -/
def val7 (V0 : Valuation τ sig (Elt F)) : Valuation τ sig (Elt F) := after ops6 (val6 V0)
/-- The buffers that chunk 6's operations write. -/
abbrev ops6_W : List (Ref sig .tc) := [main_v70, main_c_27, main_v71, main_v72, main_v73, main_v74, main_v75, main_c_28, main_v76, main_v77, main_v78, main_v79, main_v80, main_v81, main_v82, main_cst_29, main_v83, main_v84]
set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 6 does not write keeps its contents through it. -/
theorem val7_keep (V0 : Valuation τ sig (Elt F)) (r : Ref sig .tc) (h : r ∉ ops6_W) :
    val7 V0 (Proc.devRef .tc r) = val6 V0 (Proc.devRef .tc r) :=
  after_of_writes_sub ops6 _ ops6_writes h
theorem val7_main_arg0 (V0 : Valuation τ sig (Elt F)) : val7 V0 (no_index (Proc.devRef .tc main_arg0)) = (V0 (Proc.devRef .tc main_arg0)) :=
  (val7_keep V0 main_arg0 (by decide)).trans (val6_main_arg0 V0)
theorem val7_main_c (V0 : Valuation τ sig (Elt F)) : val7 V0 (no_index (Proc.devRef .tc main_c)) = (fun i => lit0 (S210.rowMajor i)) :=
  (val7_keep V0 main_c (by decide)).trans (val6_main_c V0)
theorem val7_main_c_0 (V0 : Valuation τ sig (Elt F)) : val7 V0 (no_index (Proc.devRef .tc main_c_0)) = (constantI S210 1 0#1) :=
  (val7_keep V0 main_c_0 (by decide)).trans (val6_main_c_0 V0)
theorem val7_main_c_1 (V0 : Valuation τ sig (Elt F)) : val7 V0 (no_index (Proc.devRef .tc main_c_1)) = (fun i => lit1 (S210.rowMajor i)) :=
  (val7_keep V0 main_c_1 (by decide)).trans (val6_main_c_1 V0)
theorem val7_main_c_2 (V0 : Valuation τ sig (Elt F)) : val7 V0 (no_index (Proc.devRef .tc main_c_2)) = (constantI S210 1 0#1) :=
  (val7_keep V0 main_c_2 (by decide)).trans (val6_main_c_2 V0)
theorem val7_main_c_3 (V0 : Valuation τ sig (Elt F)) : val7 V0 (no_index (Proc.devRef .tc main_c_3)) = (fun i => lit2 (S300.rowMajor i)) :=
  (val7_keep V0 main_c_3 (by decide)).trans (val6_main_c_3 V0)
theorem val7_main_c_4 (V0 : Valuation τ sig (Elt F)) : val7 V0 (no_index (Proc.devRef .tc main_c_4)) = (constantI S300 1 0#1) :=
  (val7_keep V0 main_c_4 (by decide)).trans (val6_main_c_4 V0)
theorem val7_main_c_5 (V0 : Valuation τ sig (Elt F)) : val7 V0 (no_index (Proc.devRef .tc main_c_5)) = (fun i => lit3 (S300.rowMajor i)) :=
  (val7_keep V0 main_c_5 (by decide)).trans (val6_main_c_5 V0)
theorem val7_main_c_6 (V0 : Valuation τ sig (Elt F)) : val7 V0 (no_index (Proc.devRef .tc main_c_6)) = (constantI S300 1 0#1) :=
  (val7_keep V0 main_c_6 (by decide)).trans (val6_main_c_6 V0)
theorem val7_main_c_7 (V0 : Valuation τ sig (Elt F)) : val7 V0 (no_index (Proc.devRef .tc main_c_7)) = (fun i => lit4 (S190.rowMajor i)) :=
  (val7_keep V0 main_c_7 (by decide)).trans (val6_main_c_7 V0)
theorem val7_main_c_8 (V0 : Valuation τ sig (Elt F)) : val7 V0 (no_index (Proc.devRef .tc main_c_8)) = (constantI S190 1 0#1) :=
  (val7_keep V0 main_c_8 (by decide)).trans (val6_main_c_8 V0)
theorem val7_main_c_9 (V0 : Valuation τ sig (Elt F)) : val7 V0 (no_index (Proc.devRef .tc main_c_9)) = (fun i => lit5 (S190.rowMajor i)) :=
  (val7_keep V0 main_c_9 (by decide)).trans (val6_main_c_9 V0)
theorem val7_main_c_10 (V0 : Valuation τ sig (Elt F)) : val7 V0 (no_index (Proc.devRef .tc main_c_10)) = (constantI S190 1 0#1) :=
  (val7_keep V0 main_c_10 (by decide)).trans (val6_main_c_10 V0)
theorem val7_main_c_11 (V0 : Valuation τ sig (Elt F)) : val7 V0 (no_index (Proc.devRef .tc main_c_11)) = (constantI S190 1 0#1) :=
  (val7_keep V0 main_c_11 (by decide)).trans (val6_main_c_11 V0)
theorem val7_main_c_12 (V0 : Valuation τ sig (Elt F)) : val7 V0 (no_index (Proc.devRef .tc main_c_12)) = (constantI S190 1 0#1) :=
  (val7_keep V0 main_c_12 (by decide)).trans (val6_main_c_12 V0)
theorem val7_main_v27 (V0 : Valuation τ sig (Elt F)) : val7 V0 (no_index (Proc.devRef .tc main_v27)) = (Tail.rFeat (Tail.rCond (Tail.rClean (V0 (Proc.devRef .tc main_arg0)))) (Tail.rClean (V0 (Proc.devRef .tc main_arg0)))) :=
  (val7_keep V0 main_v27 (by decide)).trans (val6_main_v27 V0)
theorem val7_main_v32 (V0 : Valuation τ sig (Elt F)) : val7 V0 (no_index (Proc.devRef .tc main_v32)) = (Tail.rHand (Tail.rCond (Tail.rClean (V0 (Proc.devRef .tc main_arg0)))) (Tail.rClean (V0 (Proc.devRef .tc main_arg0)))) :=
  (val7_keep V0 main_v32 (by decide)).trans (val6_main_v32 V0)
theorem val7_main_v34 (V0 : Valuation τ sig (Elt F)) : val7 V0 (no_index (Proc.devRef .tc main_v34)) = (Tail.rTok (Tail.rHand (Tail.rCond (Tail.rClean (V0 (Proc.devRef .tc main_arg0)))) (Tail.rClean (V0 (Proc.devRef .tc main_arg0))))) :=
  (val7_keep V0 main_v34 (by decide)).trans (val6_main_v34 V0)
theorem val7_main_v39 (V0 : Valuation τ sig (Elt F)) : val7 V0 (no_index (Proc.devRef .tc main_v39)) = (Tail.rDx (Tail.rFeat (Tail.rCond (Tail.rClean (V0 (Proc.devRef .tc main_arg0)))) (Tail.rClean (V0 (Proc.devRef .tc main_arg0))))) :=
  (val7_keep V0 main_v39 (by decide)).trans (val6_main_v39 V0)
theorem val7_main_v54 (V0 : Valuation τ sig (Elt F)) : val7 V0 (no_index (Proc.devRef .tc main_v54)) = (Tail.rD1 (Tail.rFeat (Tail.rCond (Tail.rClean (V0 (Proc.devRef .tc main_arg0)))) (Tail.rClean (V0 (Proc.devRef .tc main_arg0))))) :=
  (val7_keep V0 main_v54 (by decide)).trans (val6_main_v54 V0)
theorem val7_main_v69 (V0 : Valuation τ sig (Elt F)) : val7 V0 (no_index (Proc.devRef .tc main_v69)) = (Tail.rD2 (Tail.rFeat (Tail.rCond (Tail.rClean (V0 (Proc.devRef .tc main_arg0)))) (Tail.rClean (V0 (Proc.devRef .tc main_arg0))))) :=
  (val7_keep V0 main_v69 (by decide)).trans (val6_main_v69 V0)
set_option maxRecDepth 8192 in
set_option maxHeartbeats 4000000 in
theorem val7_main_v84 (V0 : Valuation τ sig (Elt F)) : val7 V0 (no_index (Proc.devRef .tc main_v84)) = (Tail.rD3 (Tail.rFeat (Tail.rCond (Tail.rClean (V0 (Proc.devRef .tc main_arg0)))) (Tail.rClean (V0 (Proc.devRef .tc main_arg0))))) := by
  unfold val7
  simp only [ops6]
  after_results_simp
  simp only [val6_main_c_9, val6_main_c_10, val6_main_v27, val6_main_c_7, val6_main_c_8] <;> (first | rfl | fail "read-back of main_v84 is not closed by rfl")

/-- The device's buffer contents after the first 8 chunks. -/
def val8 (V0 : Valuation τ sig (Elt F)) : Valuation τ sig (Elt F) := after ops7 (val7 V0)
/-- The buffers that chunk 7's operations write. -/
abbrev ops7_W : List (Ref sig .tc) := [main_v85, main_c_30, main_v86]
set_option maxRecDepth 8192 in
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 7 does not write keeps its contents through it. -/
theorem val8_keep (V0 : Valuation τ sig (Elt F)) (r : Ref sig .tc) (h : r ∉ ops7_W) :
    val8 V0 (Proc.devRef .tc r) = val7 V0 (Proc.devRef .tc r) :=
  after_of_writes_sub ops7 _ ops7_writes h
theorem val8_main_arg0 (V0 : Valuation τ sig (Elt F)) : val8 V0 (no_index (Proc.devRef .tc main_arg0)) = (V0 (Proc.devRef .tc main_arg0)) :=
  (val8_keep V0 main_arg0 (by decide)).trans (val7_main_arg0 V0)
theorem val8_main_c (V0 : Valuation τ sig (Elt F)) : val8 V0 (no_index (Proc.devRef .tc main_c)) = (fun i => lit0 (S210.rowMajor i)) :=
  (val8_keep V0 main_c (by decide)).trans (val7_main_c V0)
theorem val8_main_c_0 (V0 : Valuation τ sig (Elt F)) : val8 V0 (no_index (Proc.devRef .tc main_c_0)) = (constantI S210 1 0#1) :=
  (val8_keep V0 main_c_0 (by decide)).trans (val7_main_c_0 V0)
theorem val8_main_c_1 (V0 : Valuation τ sig (Elt F)) : val8 V0 (no_index (Proc.devRef .tc main_c_1)) = (fun i => lit1 (S210.rowMajor i)) :=
  (val8_keep V0 main_c_1 (by decide)).trans (val7_main_c_1 V0)
theorem val8_main_c_2 (V0 : Valuation τ sig (Elt F)) : val8 V0 (no_index (Proc.devRef .tc main_c_2)) = (constantI S210 1 0#1) :=
  (val8_keep V0 main_c_2 (by decide)).trans (val7_main_c_2 V0)
theorem val8_main_c_3 (V0 : Valuation τ sig (Elt F)) : val8 V0 (no_index (Proc.devRef .tc main_c_3)) = (fun i => lit2 (S300.rowMajor i)) :=
  (val8_keep V0 main_c_3 (by decide)).trans (val7_main_c_3 V0)
theorem val8_main_c_4 (V0 : Valuation τ sig (Elt F)) : val8 V0 (no_index (Proc.devRef .tc main_c_4)) = (constantI S300 1 0#1) :=
  (val8_keep V0 main_c_4 (by decide)).trans (val7_main_c_4 V0)
theorem val8_main_c_5 (V0 : Valuation τ sig (Elt F)) : val8 V0 (no_index (Proc.devRef .tc main_c_5)) = (fun i => lit3 (S300.rowMajor i)) :=
  (val8_keep V0 main_c_5 (by decide)).trans (val7_main_c_5 V0)
theorem val8_main_c_6 (V0 : Valuation τ sig (Elt F)) : val8 V0 (no_index (Proc.devRef .tc main_c_6)) = (constantI S300 1 0#1) :=
  (val8_keep V0 main_c_6 (by decide)).trans (val7_main_c_6 V0)
theorem val8_main_c_7 (V0 : Valuation τ sig (Elt F)) : val8 V0 (no_index (Proc.devRef .tc main_c_7)) = (fun i => lit4 (S190.rowMajor i)) :=
  (val8_keep V0 main_c_7 (by decide)).trans (val7_main_c_7 V0)
theorem val8_main_c_8 (V0 : Valuation τ sig (Elt F)) : val8 V0 (no_index (Proc.devRef .tc main_c_8)) = (constantI S190 1 0#1) :=
  (val8_keep V0 main_c_8 (by decide)).trans (val7_main_c_8 V0)
theorem val8_main_c_9 (V0 : Valuation τ sig (Elt F)) : val8 V0 (no_index (Proc.devRef .tc main_c_9)) = (fun i => lit5 (S190.rowMajor i)) :=
  (val8_keep V0 main_c_9 (by decide)).trans (val7_main_c_9 V0)
theorem val8_main_c_10 (V0 : Valuation τ sig (Elt F)) : val8 V0 (no_index (Proc.devRef .tc main_c_10)) = (constantI S190 1 0#1) :=
  (val8_keep V0 main_c_10 (by decide)).trans (val7_main_c_10 V0)
theorem val8_main_c_11 (V0 : Valuation τ sig (Elt F)) : val8 V0 (no_index (Proc.devRef .tc main_c_11)) = (constantI S190 1 0#1) :=
  (val8_keep V0 main_c_11 (by decide)).trans (val7_main_c_11 V0)
theorem val8_main_c_12 (V0 : Valuation τ sig (Elt F)) : val8 V0 (no_index (Proc.devRef .tc main_c_12)) = (constantI S190 1 0#1) :=
  (val8_keep V0 main_c_12 (by decide)).trans (val7_main_c_12 V0)
theorem val8_main_v27 (V0 : Valuation τ sig (Elt F)) : val8 V0 (no_index (Proc.devRef .tc main_v27)) = (Tail.rFeat (Tail.rCond (Tail.rClean (V0 (Proc.devRef .tc main_arg0)))) (Tail.rClean (V0 (Proc.devRef .tc main_arg0)))) :=
  (val8_keep V0 main_v27 (by decide)).trans (val7_main_v27 V0)
theorem val8_main_v32 (V0 : Valuation τ sig (Elt F)) : val8 V0 (no_index (Proc.devRef .tc main_v32)) = (Tail.rHand (Tail.rCond (Tail.rClean (V0 (Proc.devRef .tc main_arg0)))) (Tail.rClean (V0 (Proc.devRef .tc main_arg0)))) :=
  (val8_keep V0 main_v32 (by decide)).trans (val7_main_v32 V0)
theorem val8_main_v34 (V0 : Valuation τ sig (Elt F)) : val8 V0 (no_index (Proc.devRef .tc main_v34)) = (Tail.rTok (Tail.rHand (Tail.rCond (Tail.rClean (V0 (Proc.devRef .tc main_arg0)))) (Tail.rClean (V0 (Proc.devRef .tc main_arg0))))) :=
  (val8_keep V0 main_v34 (by decide)).trans (val7_main_v34 V0)
theorem val8_main_v39 (V0 : Valuation τ sig (Elt F)) : val8 V0 (no_index (Proc.devRef .tc main_v39)) = (Tail.rDx (Tail.rFeat (Tail.rCond (Tail.rClean (V0 (Proc.devRef .tc main_arg0)))) (Tail.rClean (V0 (Proc.devRef .tc main_arg0))))) :=
  (val8_keep V0 main_v39 (by decide)).trans (val7_main_v39 V0)
theorem val8_main_v54 (V0 : Valuation τ sig (Elt F)) : val8 V0 (no_index (Proc.devRef .tc main_v54)) = (Tail.rD1 (Tail.rFeat (Tail.rCond (Tail.rClean (V0 (Proc.devRef .tc main_arg0)))) (Tail.rClean (V0 (Proc.devRef .tc main_arg0))))) :=
  (val8_keep V0 main_v54 (by decide)).trans (val7_main_v54 V0)
theorem val8_main_v69 (V0 : Valuation τ sig (Elt F)) : val8 V0 (no_index (Proc.devRef .tc main_v69)) = (Tail.rD2 (Tail.rFeat (Tail.rCond (Tail.rClean (V0 (Proc.devRef .tc main_arg0)))) (Tail.rClean (V0 (Proc.devRef .tc main_arg0))))) :=
  (val8_keep V0 main_v69 (by decide)).trans (val7_main_v69 V0)
theorem val8_main_v84 (V0 : Valuation τ sig (Elt F)) : val8 V0 (no_index (Proc.devRef .tc main_v84)) = (Tail.rD3 (Tail.rFeat (Tail.rCond (Tail.rClean (V0 (Proc.devRef .tc main_arg0)))) (Tail.rClean (V0 (Proc.devRef .tc main_arg0))))) :=
  (val8_keep V0 main_v84 (by decide)).trans (val7_main_v84 V0)
set_option maxRecDepth 8192 in
set_option maxHeartbeats 4000000 in
theorem val8_main_v85 (V0 : Valuation τ sig (Elt F)) : val8 V0 (no_index (Proc.devRef .tc main_v85)) = (extractStridedSlice S100000x20x2 ![0, 66, 0] (Tail.rFeat (Tail.rCond (Tail.rClean (V0 (Proc.devRef .tc main_arg0)))) (Tail.rClean (V0 (Proc.devRef .tc main_arg0)))) slices_S100000x86x3_S100000x20x2_0_66_0) := by
  unfold val8
  simp only [ops7]
  after_results_simp
  simp only [val7_main_v27] <;> (first | rfl | fail "read-back of main_v85 is not closed by rfl")
set_option maxRecDepth 8192 in
set_option maxHeartbeats 4000000 in
theorem val8_main_v86 (V0 : Valuation τ sig (Elt F)) : val8 V0 (no_index (Proc.devRef .tc main_v86)) = (broadcastInDim S190 ![] bcast_S_S190 (constantI S_ 32 20#32)) := by
  unfold val8
  simp only [ops7]
  after_results_simp
  all_goals (first | rfl | fail "read-back of main_v86 is not closed by rfl")

/-- The device's buffer contents after the first 9 chunks. -/
def val9 (V0 : Valuation τ sig (Elt F)) : Valuation τ sig (Elt F) := after ops8 (val8 V0)
/-- The buffers that chunk 8's operations write. -/
abbrev ops8_W : List (Ref sig .tc) := [main_v87, main_v88, main_v89, main_v90, main_c_31, main_v91, main_v92, main_v93, main_v94, main_v95, main_v96, main_v97, main_cst_32, main_v98, main_v99]
set_option maxRecDepth 8192 in
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 8 does not write keeps its contents through it. -/
theorem val9_keep (V0 : Valuation τ sig (Elt F)) (r : Ref sig .tc) (h : r ∉ ops8_W) :
    val9 V0 (Proc.devRef .tc r) = val8 V0 (Proc.devRef .tc r) :=
  after_of_writes_sub ops8 _ ops8_writes h
theorem val9_main_arg0 (V0 : Valuation τ sig (Elt F)) : val9 V0 (no_index (Proc.devRef .tc main_arg0)) = (V0 (Proc.devRef .tc main_arg0)) :=
  (val9_keep V0 main_arg0 (by decide)).trans (val8_main_arg0 V0)
theorem val9_main_v27 (V0 : Valuation τ sig (Elt F)) : val9 V0 (no_index (Proc.devRef .tc main_v27)) = (Tail.rFeat (Tail.rCond (Tail.rClean (V0 (Proc.devRef .tc main_arg0)))) (Tail.rClean (V0 (Proc.devRef .tc main_arg0)))) :=
  (val9_keep V0 main_v27 (by decide)).trans (val8_main_v27 V0)
theorem val9_main_v32 (V0 : Valuation τ sig (Elt F)) : val9 V0 (no_index (Proc.devRef .tc main_v32)) = (Tail.rHand (Tail.rCond (Tail.rClean (V0 (Proc.devRef .tc main_arg0)))) (Tail.rClean (V0 (Proc.devRef .tc main_arg0)))) :=
  (val9_keep V0 main_v32 (by decide)).trans (val8_main_v32 V0)
theorem val9_main_v34 (V0 : Valuation τ sig (Elt F)) : val9 V0 (no_index (Proc.devRef .tc main_v34)) = (Tail.rTok (Tail.rHand (Tail.rCond (Tail.rClean (V0 (Proc.devRef .tc main_arg0)))) (Tail.rClean (V0 (Proc.devRef .tc main_arg0))))) :=
  (val9_keep V0 main_v34 (by decide)).trans (val8_main_v34 V0)
theorem val9_main_v39 (V0 : Valuation τ sig (Elt F)) : val9 V0 (no_index (Proc.devRef .tc main_v39)) = (Tail.rDx (Tail.rFeat (Tail.rCond (Tail.rClean (V0 (Proc.devRef .tc main_arg0)))) (Tail.rClean (V0 (Proc.devRef .tc main_arg0))))) :=
  (val9_keep V0 main_v39 (by decide)).trans (val8_main_v39 V0)
theorem val9_main_v54 (V0 : Valuation τ sig (Elt F)) : val9 V0 (no_index (Proc.devRef .tc main_v54)) = (Tail.rD1 (Tail.rFeat (Tail.rCond (Tail.rClean (V0 (Proc.devRef .tc main_arg0)))) (Tail.rClean (V0 (Proc.devRef .tc main_arg0))))) :=
  (val9_keep V0 main_v54 (by decide)).trans (val8_main_v54 V0)
theorem val9_main_v69 (V0 : Valuation τ sig (Elt F)) : val9 V0 (no_index (Proc.devRef .tc main_v69)) = (Tail.rD2 (Tail.rFeat (Tail.rCond (Tail.rClean (V0 (Proc.devRef .tc main_arg0)))) (Tail.rClean (V0 (Proc.devRef .tc main_arg0))))) :=
  (val9_keep V0 main_v69 (by decide)).trans (val8_main_v69 V0)
theorem val9_main_v84 (V0 : Valuation τ sig (Elt F)) : val9 V0 (no_index (Proc.devRef .tc main_v84)) = (Tail.rD3 (Tail.rFeat (Tail.rCond (Tail.rClean (V0 (Proc.devRef .tc main_arg0)))) (Tail.rClean (V0 (Proc.devRef .tc main_arg0))))) :=
  (val9_keep V0 main_v84 (by decide)).trans (val8_main_v84 V0)
set_option maxRecDepth 8192 in
set_option maxHeartbeats 4000000 in
theorem val9_main_v99 (V0 : Valuation τ sig (Elt F)) : val9 V0 (no_index (Proc.devRef .tc main_v99)) = (Tail.rD4 (Tail.rFeat (Tail.rCond (Tail.rClean (V0 (Proc.devRef .tc main_arg0)))) (Tail.rClean (V0 (Proc.devRef .tc main_arg0))))) := by
  unfold val9
  simp only [ops8]
  after_results_simp
  simp only [val8_main_c_9, val8_main_c_12, val8_main_v85, val8_main_c_7, val8_main_v86, val8_main_c_11] <;> (first | rfl | fail "read-back of main_v99 is not closed by rfl")

/-- The device's buffer contents after the first 10 chunks. -/
def val10 (V0 : Valuation τ sig (Elt F)) : Valuation τ sig (Elt F) := after ops9 (val9 V0)
/-- The buffers that chunk 9's operations write. -/
abbrev ops9_W : List (Ref sig .tc) := [main_v100, main_v101, main_v102, main_v103, main_v104, main_v105, main_v106, main_v107, main_v108, main_v109, main_v110, main_v111, main_v112, main_v113, main_v114, main_v115, main_v116]
set_option maxRecDepth 8192 in
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that chunk 9 does not write keeps its contents through it. -/
theorem val10_keep (V0 : Valuation τ sig (Elt F)) (r : Ref sig .tc) (h : r ∉ ops9_W) :
    val10 V0 (Proc.devRef .tc r) = val9 V0 (Proc.devRef .tc r) :=
  after_of_writes_sub ops9 _ ops9_writes h
theorem val10_main_arg0 (V0 : Valuation τ sig (Elt F)) : val10 V0 (no_index (Proc.devRef .tc main_arg0)) = (V0 (Proc.devRef .tc main_arg0)) :=
  (val10_keep V0 main_arg0 (by decide)).trans (val9_main_arg0 V0)
set_option maxRecDepth 8192 in
set_option maxHeartbeats 4000000 in
theorem val10_main_v116 (V0 : Valuation τ sig (Elt F)) : val10 V0 (no_index (Proc.devRef .tc main_v116)) = (Tail.rOut (Tail.rFeat (Tail.rCond (Tail.rClean (V0 (Proc.devRef .tc main_arg0)))) (Tail.rClean (V0 (Proc.devRef .tc main_arg0)))) (Tail.rHand (Tail.rCond (Tail.rClean (V0 (Proc.devRef .tc main_arg0)))) (Tail.rClean (V0 (Proc.devRef .tc main_arg0)))) (Tail.rTok (Tail.rHand (Tail.rCond (Tail.rClean (V0 (Proc.devRef .tc main_arg0)))) (Tail.rClean (V0 (Proc.devRef .tc main_arg0)))))) := by
  unfold val10
  simp only [ops9]
  after_results_simp
  try dsimp only [Matrix.cons_val]
  try after_results_simp
  simp only [val9_main_v34, val9_main_v32, val9_main_v99, val9_main_v84, val9_main_v69, val9_main_v54, val9_main_v39, val9_main_v27] <;> (first | rfl | fail "read-back of main_v116 is not closed by rfl")

theorem after_ops (V0 : Valuation τ sig (Elt F)) : after ops V0 = val10 V0 := by
  simp only [ops, after_append']
  rfl

/-- On every device, for any float values, from any memory with zero counters: every weakly fair execution of the
    reference's @main terminates with the result buffer at the composed stage functions of the argument array and
    the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116) = Tail.rTail (m ((c.tc : Thread nD τ).loc main_arg0))
      ∧ r.2.mem ((c.tc : Thread nD τ).loc main_arg0) = m ((c.tc : Thread nD τ).loc main_arg0) :=
  (θ_run defs _ _).mono (fun _ h c => ⟨(h c main_v116).trans (by simp only [after_ops]; exact val10_main_v116 (launchContents m c)),
      (h c main_arg0).trans (by simp only [after_ops]; exact val10_main_arg0 (launchContents m c))⟩)
    (run_seq scopedRefs_eq scopedSems_eq defs main (fun _ => ops) main_eq (fun _ => ops_sub) m ρ)

end Cert.ReferenceIdeal.HRun

end
-- ==== Proof.Ref.Frame.lean ====
/- The reference's frame: from any memory with zero counters its @main runs to the end without a fault and leaves its
   argument array as it found it — the second half of the run's statement, at the exact instance. -/
import proofs.«176904_j2095944041143_2_alg».proof.Defs
import proofs.«176904_j2095944041143_2_alg».proof.Proof.Gen.Pre_finite_inputs
import proofs.«176904_j2095944041143_2_alg».proof.Proof.Ref.Run

noncomputable section

namespace Cert.ReferenceIdeal.HRun

open Cert.ReferenceIdeal Cert.ReferenceIdeal.Gen Idealize.ShloMosaic Idealize.ShloMosaic.TcCoe Idealize.SL.Sem Idealize.ShloMosaic.StableHlo

/-- The reference terminates, does not fault, and its argument ends unchanged (the precondition is not needed). -/
theorem frame : Cert.frame_ReferenceIdeal (hReferenceIdeal := Cert.ReferenceIdeal.Gen.facts)
    (hPre_finite_inputs := Cert.Pre_finite_inputs.Gen.facts) :=
  fun m g _ => (θ_run defs _ _).mono (fun _ h c => (h c).2) (run (F := Ideal) m g)

end Cert.ReferenceIdeal.HRun

end
-- ==== Proof.LibIndexReads.lean ====
/-
  Layout operations and host sums read at an index, over arrays of literal rank written with `ix1`, `ix2`, `ix3`.

  A slice at `(a, b, c)` is the operand at the offsets plus `(a, b, c)`; a reshape `[a, b, c] → [a, b·c]` at `(i, j)` is the
  operand at `(i, p, q)` with `p·c + q = j`; dropping or adding a trailing unit axis changes nothing; a broadcast that adds
  a trailing unit axis reads the operand at the leading coordinates; a host sum over the last axis is the initial value
  plus the sum over that axis's coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section
namespace Cert.Lib.IndexReads
open Idealize.ShloMosaic Idealize.ShloMosaic.ValueIdx

variable {α : Type}

/-- A slice of a rank-3 array at `(a, b, c)`: the operand at `(k0, k1, k2)`, each the offset plus the coordinate. -/
theorem slice3_apply {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (k0 : Fin n0) (k1 : Fin n1) (k2 : Fin n2)
    (e0 : k0.val = o0 + a.val) (e1 : k1.val = o1 + b.val) (e2 : k2.val = o2 + c.val) :
    extractStridedSlice ⟨3, ![m0, m1, m2]⟩ ![o0, o1, o2] X h (ix3 a b c) = X (ix3 k0 k1 k2) :=
  extractStridedSlice_apply _ X h _ _ (fun x => match x with | ⟨0, _⟩ => e0 | ⟨1, _⟩ => e1 | ⟨2, _⟩ => e2)

/-- A slice of a rank-2 array at `(a, b)`. -/
theorem slice2_apply {n0 n1 m0 m1 : Nat} (o0 o1 : Nat) (X : (⟨2, ![n0, n1]⟩ : Shape).Idx → α)
    (h : (⟨2, ![n0, n1]⟩ : Shape).Slices ![o0, o1] ⟨2, ![m0, m1]⟩)
    (a : Fin m0) (b : Fin m1) (k0 : Fin n0) (k1 : Fin n1)
    (e0 : k0.val = o0 + a.val) (e1 : k1.val = o1 + b.val) :
    extractStridedSlice ⟨2, ![m0, m1]⟩ ![o0, o1] X h (ix2 a b) = X (ix2 k0 k1) :=
  extractStridedSlice_apply _ X h _ _ (fun x => match x with | ⟨0, _⟩ => e0 | ⟨1, _⟩ => e1)

/-- A slice of a vector at `a`. -/
theorem slice1_apply {n0 m0 : Nat} (o0 : Nat) (X : (⟨1, ![n0]⟩ : Shape).Idx → α)
    (h : (⟨1, ![n0]⟩ : Shape).Slices ![o0] ⟨1, ![m0]⟩) (a : Fin m0) (k0 : Fin n0) (e0 : k0.val = o0 + a.val) :
    extractStridedSlice ⟨1, ![m0]⟩ ![o0] X h (ix1 a) = X (ix1 k0) :=
  extractStridedSlice_apply _ X h _ _ (fun x => match x with | ⟨0, _⟩ => e0)

/-- Merging the last two axes: `[a, b, c] → [a, m]` with `m = b·c`, at `(i, j)`, is the operand at `(i, p, q)` when
    `p·c + q = j`. -/
theorem reshape32_apply {a b c m : Nat} (X : (⟨3, ![a, b, c]⟩ : Shape).Idx → α)
    (h : (⟨3, ![a, b, c]⟩ : Shape).ShapeCasts ⟨2, ![a, m]⟩) (hm : m = b * c)
    (i : Fin a) (j : Fin m) (p : Fin b) (q : Fin c) (e : p.val * c + q.val = j.val) :
    shapeCast ⟨2, ![a, m]⟩ X h (ix2 i j) = X (ix3 i p q) := by
  refine shapeCast_apply X h _ _ ?_
  rw [Shape.rowMajor_val_three, Shape.rowMajor_val_two]
  show (i.val * b + p.val) * c + q.val = i.val * m + j.val
  subst hm; rw [← e]; ring

/-- Dropping a trailing unit axis: `[a, b, 1] → [a, b]` at `(i, j)` is the operand at `(i, j, 0)`. -/
theorem reshape_ab1_ab_apply {a b : Nat} (X : (⟨3, ![a, b, 1]⟩ : Shape).Idx → α)
    (h : (⟨3, ![a, b, 1]⟩ : Shape).ShapeCasts ⟨2, ![a, b]⟩) (i : Fin a) (j : Fin b) :
    shapeCast ⟨2, ![a, b]⟩ X h (ix2 i j) = X (ix3 i j 0) := by
  refine shapeCast_apply X h _ _ ?_
  rw [Shape.rowMajor_val_three, Shape.rowMajor_val_two]
  show (i.val * b + j.val) * 1 + 0 = i.val * b + j.val
  omega

/-- The one entry of a `[1, 1]` array as a rank-0 array. -/
theorem reshape_11_scalar_apply (X : (⟨2, ![1, 1]⟩ : Shape).Idx → α)
    (h : (⟨2, ![1, 1]⟩ : Shape).ShapeCasts ⟨0, ![]⟩) (j : (⟨0, ![]⟩ : Shape).Idx) :
    shapeCast ⟨0, ![]⟩ X h j = X (ix2 0 0) := by
  refine shapeCast_apply X h _ _ ?_
  rw [Shape.rowMajor_val_two]
  have h1 := ((⟨0, ![]⟩ : Shape).rowMajor j).isLt
  have h2 : (⟨0, ![]⟩ : Shape).numel = 1 := by decide
  show 0 * 1 + 0 = _
  omega

/-- A broadcast adding a trailing unit axis, `[a, b] → [a, b, 1]` on dimensions `[0, 1]`, at `(i, j, u)`: the operand at `(i, j)`. -/
theorem bcast_ab_ab1_apply {a b : Nat} (X : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h X (ix3 i j u) = X (ix2 i j) :=
  broadcastInDim_apply _ h X _ _ (fun x => match x with
    | ⟨0, _⟩ => by show i.val = if a = 1 then 0 else i.val; split <;> omega
    | ⟨1, _⟩ => by show j.val = if b = 1 then 0 else j.val; split <;> omega)

/-- A broadcast of a vector to a column, `[a] → [a, 1]` on dimension `[0]`, at `(i, u)`: the operand at `i`. -/
theorem bcast_a_a1_apply {a : Nat} (X : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h X (ix2 i u) = X (ix1 i) :=
  broadcastInDim_apply _ h X _ _ (fun x => match x with
    | ⟨0, _⟩ => by show i.val = if a = 1 then 0 else i.val; split <;> omega)

/-- The host's sum over the LAST axis of a rank-3 array at `(i, j)`: the initial value plus the sum over that axis. -/
theorem hostReduceAdd_last3 {a b c : Nat} {φ : FTy} (X : FVec Ideal ⟨3, ![a, b, c]⟩ φ) (init : FVec Ideal ⟨0, ![]⟩ φ)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduceAdd X init h' hu (ix2 i j) = init ix0 + ∑ k : Fin c, X (ix3 i j k) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

/-- The host's sum over the last axis of a matrix at row `i`. -/
theorem hostReduceAdd_last2 {a b : Nat} {φ : FTy} (X : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd X init h' hu (ix1 i) = init ix0 + ∑ k : Fin b, X (ix2 i k) := by
  rw [hostReduceAdd_apply, Ideal.hostReduceAdd_single h' h, eq_ix0 (Shape.Idx.first hu)]
  congr 1
  refine Finset.sum_congr rfl fun k _ => congrArg X ?_
  funext x; apply Fin.ext
  fin_cases x <;> rfl

end Cert.Lib.IndexReads
-- ==== Proof.LibGatherRows.lean ====
/-
  Row gathers read at an index.

  A row gather reads, for edge `e` of an `[E, 1]` array of start indices, row `idx e` of an `[N, C]` operand
  (the index read as a signed integer and clamped into `[0, N − 1]`, as a gather clamps every start index so that
  its slice fits), column by column: the result at `(e, c)` is the operand at `(clampRow (idx e), c)`. The same for a
  one-dimensional operand: the result at `e` is the operand at `clampRow (idx e)`.
-/
import Idealize.ShloMosaic.PureOps.Ideal
import Idealize.ShloMosaic.Lib.ValueIdx

noncomputable section
namespace Cert.Lib.GatherRows
open Idealize.ShloMosaic Idealize.ShloMosaic.ValueIdx

variable {N E C w : Nat}

/-- The row a gather reads for a start index: the index as a signed integer, clamped into `[0, N − 1]`. -/
def clampRow (N : Nat) (hN : 0 < N) (v : BitVec w) : Fin N := ⟨min v.toInt.toNat (N - 1), by omega⟩

/-- A start index that already is a row number, read signed, is its own clamped row. -/
theorem clampRow_of_toInt (hN : 0 < N) (v : BitVec w) (r : Fin N) (h : v.toInt = (r.val : Int)) :
    clampRow N hN v = r := by
  apply Fin.ext
  show min v.toInt.toNat (N - 1) = r.val
  have := r.isLt
  rw [h]; simp; omega

/-- A row gather at `(e, c)`: the operand at the clamped row of edge `e`'s start index, column `c`. -/
theorem gather_rows_apply (hN : 0 < N)
    (d : GatherDims (⟨2, ![N, C]⟩ : Shape) (⟨2, ![E, 1]⟩ : Shape) (⟨2, ![E, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    {α : Type} (x : (⟨2, ![N, C]⟩ : Shape).Idx → α) (idx : IVec (⟨2, ![E, 1]⟩ : Shape) w) (e : Fin E) (c : Fin C) :
    Host.gather d x idx (ix2 e c) = x (ix2 (clampRow N hN (idx (ix2 e 0))) c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨2, ![N, C]⟩ : Shape) (⟨2, ![E, 1]⟩ : Shape) (⟨2, ![E, C]⟩ : Shape) := ⟨[1], [0], [], [], [0], 1, ![1, C], wf⟩
  show d.start (ix2 e c) idx a + d.batchCoord (ix2 e c) a + d.offCoord (ix2 e c) a = _
  rw [d.batchCoord_eq_zero _ _ List.not_mem_nil]
  match a with
  | ⟨0, h0⟩ =>
    rw [d.offCoord_eq_zero (ix2 e c) ⟨0, h0⟩ (fun h => ((d.mem_sKept _).mp h).1 (List.mem_singleton.mpr rfl))]
    simp only [Nat.add_zero]
    unfold GatherDims.start
    rw [dif_pos (show (⟨0, h0⟩ : Fin 2) ∈ d.startIndexMap from List.mem_singleton.mpr rfl)]
    have hsi : d.siIdx (ix2 e c) ⟨List.idxOf (⟨0, h0⟩ : Fin 2) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1'⟩ =>
    have hs : d.start (ix2 e c) idx ⟨1, h1'⟩ = 0 := by
      unfold GatherDims.start
      rw [dif_neg (show (⟨1, h1'⟩ : Fin 2) ∉ d.startIndexMap from
        fun h => absurd (congrArg Fin.val (List.mem_singleton.mp h)) Nat.one_ne_zero)]
    rw [hs]
    show 0 + 0 + d.offCoord (ix2 e c) ⟨1, h1'⟩ = c.val
    unfold GatherDims.offCoord
    rw [dif_pos (show (⟨1, h1'⟩ : Fin 2) ∈ d.sKept from (d.mem_sKept _).mpr
      ⟨fun h => absurd (congrArg Fin.val (List.mem_singleton.mp h)) Nat.one_ne_zero, List.not_mem_nil⟩)]
    simp only [Nat.zero_add]
    rfl

/-- A gather from a vector at `e`: the operand at the clamped row of edge `e`'s start index. -/
theorem gather_vec_apply (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    {α : Type} (x : (⟨1, ![N]⟩ : Shape).Idx → α) (idx : IVec (⟨2, ![E, 1]⟩ : Shape) w) (e : Fin E) :
    Host.gather d x idx (ix1 e) = x (ix1 (clampRow N hN (idx (ix2 e 0)))) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨1, ![N]⟩ : Shape) (⟨2, ![E, 1]⟩ : Shape) (⟨1, ![E]⟩ : Shape) := ⟨[], [0], [], [], [0], 1, ![1], wf⟩
  show d.start (ix1 e) idx a + d.batchCoord (ix1 e) a + d.offCoord (ix1 e) a = _
  rw [d.batchCoord_eq_zero _ _ List.not_mem_nil]
  match a with
  | ⟨0, h0⟩ =>
    rw [d.offCoord_eq_zero (ix1 e) ⟨0, h0⟩ (fun h => ((d.mem_sKept _).mp h).1 (List.mem_singleton.mpr rfl))]
    simp only [Nat.add_zero]
    unfold GatherDims.start
    rw [dif_pos (show (⟨0, h0⟩ : Fin 1) ∈ d.startIndexMap from List.mem_singleton.mpr rfl)]
    have hsi : d.siIdx (ix1 e) ⟨List.idxOf (⟨0, h0⟩ : Fin 1) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.Lib.GatherRows
-- ==== Proof.LibGatherMid.lean ====
/-
  A gather along the middle axis read at an index.

  The operand is an `[T, N, D]` array, the start indices an `[E, 1]` array: for every `t` and `c` the result at
  `(t, e, c)` is the operand at `(t, clampRow (idx e), c)` — entry `e` picks ONE position of the middle axis (its index
  read signed and clamped into `[0, N − 1]`), the first and the last axis are carried along whole.
-/
import proofs.«176904_j2095944041143_2_alg».proof.Proof.LibGatherRows

noncomputable section
namespace Cert.Lib.GatherMid
open Idealize.ShloMosaic Idealize.ShloMosaic.ValueIdx Cert.Lib.GatherRows

variable {T N D E w : Nat}

/-- A middle-axis gather at `(t, e, c)`: the operand at `(t, clampRow (idx e), c)`. -/
theorem gather_mid_apply (hN : 0 < N)
    (d : GatherDims (⟨3, ![T, N, D]⟩ : Shape) (⟨2, ![E, 1]⟩ : Shape) (⟨3, ![T, E, D]⟩ : Shape))
    (h1 : d.offsetDims = [0, 2]) (h2 : d.collapsedSliceDims = [1]) (h3 : d.operandBatchingDims = [])
    (h4 : d.startIndicesBatchingDims = []) (h5 : d.startIndexMap = [1]) (h6 : d.indexVectorDim = 1)
    (h7 : d.sliceSizes = ![T, 1, D])
    {α : Type} (x : (⟨3, ![T, N, D]⟩ : Shape).Idx → α) (idx : IVec (⟨2, ![E, 1]⟩ : Shape) w)
    (t : Fin T) (e : Fin E) (c : Fin D) :
    Host.gather d x idx (ix3 t e c) = x (ix3 t (clampRow N hN (idx (ix2 e 0))) c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  let d : GatherDims (⟨3, ![T, N, D]⟩ : Shape) (⟨2, ![E, 1]⟩ : Shape) (⟨3, ![T, E, D]⟩ : Shape) :=
    ⟨[0, 2], [1], [], [], [1], 1, ![T, 1, D], wf⟩
  show d.start (ix3 t e c) idx a + d.batchCoord (ix3 t e c) a + d.offCoord (ix3 t e c) a = _
  rw [d.batchCoord_eq_zero _ _ List.not_mem_nil]
  match a with
  | ⟨0, h0⟩ =>
    have hs : d.start (ix3 t e c) idx ⟨0, h0⟩ = 0 := by
      unfold GatherDims.start
      rw [dif_neg (show (⟨0, h0⟩ : Fin 3) ∉ d.startIndexMap from
        fun h => absurd (congrArg Fin.val (List.mem_singleton.mp h)) Nat.zero_ne_one)]
    rw [hs]
    show 0 + 0 + d.offCoord (ix3 t e c) ⟨0, h0⟩ = t.val
    unfold GatherDims.offCoord
    rw [dif_pos (show (⟨0, h0⟩ : Fin 3) ∈ d.sKept from (d.mem_sKept _).mpr
      ⟨fun h => absurd (congrArg Fin.val (List.mem_singleton.mp h)) Nat.zero_ne_one, List.not_mem_nil⟩)]
    simp only [Nat.zero_add]
    rfl
  | ⟨1, h1'⟩ =>
    rw [d.offCoord_eq_zero (ix3 t e c) ⟨1, h1'⟩ (fun h => ((d.mem_sKept _).mp h).1 (List.mem_singleton.mpr rfl))]
    simp only [Nat.add_zero]
    unfold GatherDims.start
    rw [dif_pos (show (⟨1, h1'⟩ : Fin 3) ∈ d.startIndexMap from List.mem_singleton.mpr rfl)]
    have hsi : d.siIdx (ix3 t e c) ⟨List.idxOf (⟨1, h1'⟩ : Fin 3) d.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨2, h2'⟩ =>
    have hs : d.start (ix3 t e c) idx ⟨2, h2'⟩ = 0 := by
      unfold GatherDims.start
      rw [dif_neg (show (⟨2, h2'⟩ : Fin 3) ∉ d.startIndexMap from
        fun h => absurd (congrArg Fin.val (List.mem_singleton.mp h)) (by omega : (2 : Nat) ≠ 1))]
    rw [hs]
    show 0 + 0 + d.offCoord (ix3 t e c) ⟨2, h2'⟩ = c.val
    unfold GatherDims.offCoord
    rw [dif_pos (show (⟨2, h2'⟩ : Fin 3) ∈ d.sKept from (d.mem_sKept _).mpr
      ⟨fun h => absurd (congrArg Fin.val (List.mem_singleton.mp h)) (by omega : (2 : Nat) ≠ 1), List.not_mem_nil⟩)]
    simp only [Nat.zero_add]
    rfl

end Cert.Lib.GatherMid
-- ==== Proof.Tail.Reads.lean ====
/-
  The feature computations read at an index, for any number of frames.

  An array of frames `[n, 115, 3]` is cleaned, its landmarks selected (dominant hand, pose, lips; the x coordinate
  mirrored when the left hand is dominant), and features are cut out of the selection: flattened coordinate blocks and
  distances between pairs of landmarks named by index tables. Each lemma says what one of these stages holds at an
  index, in terms of ONE frame of its operand, so that it applies alike to a program working on 201 frames and to one
  working on all of them.
-/
import proofs.«176904_j2095944041143_2_alg».proof.Proof.LibIndexReads
import proofs.«176904_j2095944041143_2_alg».proof.Proof.LibGatherMid

noncomputable section
namespace Cert.Tail.Reads
open Idealize.ShloMosaic Idealize.ShloMosaic.ValueIdx Cert.Lib.IndexReads Cert.Lib.GatherRows Cert.Lib.GatherMid

variable {α : Type}

/-! ## Flattened slices -/

/-- A block `[o0 : o0 + n', o1 : o1 + b, 0 : c]` of a rank-3 array, its last two axes merged into one of length
    `m = b·c`: at `(t, k)` it is the array at `(o0 + t, o1 + k / c, k % c)`. -/
theorem flatSlice_apply {n n' L D b c m : Nat} (o0 o1 : Nat) (X : (⟨3, ![n, L, D]⟩ : Shape).Idx → α)
    (hs : (⟨3, ![n, L, D]⟩ : Shape).Slices ![o0, o1, 0] ⟨3, ![n', b, c]⟩)
    (hc : (⟨3, ![n', b, c]⟩ : Shape).ShapeCasts ⟨2, ![n', m]⟩) (hm : m = b * c) (hcpos : 0 < c)
    (t : Fin n') (k : Fin m) (T : Fin n) (l : Fin L) (d : Fin D)
    (eT : T.val = o0 + t.val) (el : l.val = o1 + k.val / c) (ed : d.val = k.val % c) :
    shapeCast ⟨2, ![n', m]⟩ (extractStridedSlice ⟨3, ![n', b, c]⟩ ![o0, o1, 0] X hs) hc (ix2 t k) = X (ix3 T l d) := by
  have hk : k.val / c < b :=
    Nat.div_lt_of_lt_mul (lt_of_lt_of_eq k.isLt (by rw [hm, Nat.mul_comm]))
  have hk2 : k.val % c < c := Nat.mod_lt _ hcpos
  refine (reshape32_apply _ hc hm t k ⟨k.val / c, hk⟩ ⟨k.val % c, hk2⟩
    (by show k.val / c * c + k.val % c = k.val; rw [Nat.mul_comm]; exact Nat.div_add_mod _ _)).trans ?_
  exact slice3_apply o0 o1 0 X hs t _ _ T l d eT el (by show d.val = 0 + k.val % c; omega)

/-! ## Distances between pairs of landmarks -/

/-- The distance feature of pair `k` in frame `t`: landmarks `I0 k` and `I1 k` (clamped into the block of `N` landmarks that
    starts at `o1`) over the first `D` coordinates — the square root of the sum of the squared coordinate differences,
    the sum started from `z`. -/
def pairDist {L D' N D E : Nat} (hN : 0 < N) (o1 : Nat) (hL : o1 + N ≤ L) (hD : D ≤ D')
    (r : Fin L → Fin D' → EReal) (z : EReal) (I0 I1 : IVec (⟨2, ![E, 1]⟩ : Shape) 32) (k : Fin E) : EReal :=
  FloatOps.hostUnary (F := Ideal) .sqrt (φ := .f32)
    (z + ∑ d : Fin D,
      (r ⟨o1 + (clampRow N hN (I0 (ix2 k 0))).val, by have := (clampRow N hN (I0 (ix2 k 0))).isLt; omega⟩ ⟨d.val, by have := d.isLt; omega⟩
        - r ⟨o1 + (clampRow N hN (I1 (ix2 k 0))).val, by have := (clampRow N hN (I1 (ix2 k 0))).isLt; omega⟩ ⟨d.val, by have := d.isLt; omega⟩)
      * (r ⟨o1 + (clampRow N hN (I0 (ix2 k 0))).val, by have := (clampRow N hN (I0 (ix2 k 0))).isLt; omega⟩ ⟨d.val, by have := d.isLt; omega⟩
        - r ⟨o1 + (clampRow N hN (I1 (ix2 k 0))).val, by have := (clampRow N hN (I1 (ix2 k 0))).isLt; omega⟩ ⟨d.val, by have := d.isLt; omega⟩))

/-- The printed distance stage at `(t, k)` is `pairDist` of frame `t`. -/
theorem pairDist_apply {n L D' N D E : Nat} (hN : 0 < N) (o1 : Nat) (hL : o1 + N ≤ L) (hD : D ≤ D')
    (X : FVec Ideal ⟨3, ![n, L, D']⟩ .f32)
    (hs : (⟨3, ![n, L, D']⟩ : Shape).Slices ![0, o1, 0] ⟨3, ![n, N, D]⟩)
    (g : GatherDims (⟨3, ![n, N, D]⟩ : Shape) (⟨2, ![E, 1]⟩ : Shape) (⟨3, ![n, E, D]⟩ : Shape))
    (h1 : g.offsetDims = [0, 2]) (h2 : g.collapsedSliceDims = [1]) (h3 : g.operandBatchingDims = [])
    (h4 : g.startIndicesBatchingDims = []) (h5 : g.startIndexMap = [1]) (h6 : g.indexVectorDim = 1)
    (h7 : g.sliceSizes = ![n, 1, D])
    (init : FVec Ideal ⟨0, ![]⟩ .f32)
    (hr' : (⟨3, ![n, E, D]⟩ : Shape).ReducesTo [2] ⟨2, ![n, E]⟩) (hr : (⟨3, ![n, E, D]⟩ : Shape).Reduces [2] ⟨2, ![n, E]⟩)
    (hu : 0 < (⟨0, ![]⟩ : Shape).numel)
    (I0 I1 : IVec (⟨2, ![E, 1]⟩ : Shape) 32) (t : Fin n) (k : Fin E) :
    Host.sqrt (Host.reduceAdd
        (mulf (subf (Host.gather g (extractStridedSlice ⟨3, ![n, N, D]⟩ ![0, o1, 0] X hs) I0)
                    (Host.gather g (extractStridedSlice ⟨3, ![n, N, D]⟩ ![0, o1, 0] X hs) I1))
              (subf (Host.gather g (extractStridedSlice ⟨3, ![n, N, D]⟩ ![0, o1, 0] X hs) I0)
                    (Host.gather g (extractStridedSlice ⟨3, ![n, N, D]⟩ ![0, o1, 0] X hs) I1)))
        init hr' hu) (ix2 t k)
      = pairDist hN o1 hL hD (fun l d => X (ix3 t l d)) (init ix0) I0 I1 k := by
  show FloatOps.hostUnary (F := Ideal) .sqrt (φ := .f32) (Host.reduceAdd _ init hr' hu (ix2 t k)) = _
  unfold pairDist
  congr 1
  rw [hostReduceAdd_last3 _ init hr' hr hu t k]
  congr 1
  refine Finset.sum_congr rfl fun d _ => ?_
  have e0 : Host.gather g (extractStridedSlice ⟨3, ![n, N, D]⟩ ![0, o1, 0] X hs) I0 (ix3 t k d)
      = X (ix3 t ⟨o1 + (clampRow N hN (I0 (ix2 k 0))).val, by have := (clampRow N hN (I0 (ix2 k 0))).isLt; omega⟩ ⟨d.val, by have := d.isLt; omega⟩) := by
    rw [gather_mid_apply hN g h1 h2 h3 h4 h5 h6 h7]
    exact slice3_apply 0 o1 0 X hs t _ d t _ _ (Nat.zero_add _).symm rfl (Nat.zero_add _).symm
  have e1 : Host.gather g (extractStridedSlice ⟨3, ![n, N, D]⟩ ![0, o1, 0] X hs) I1 (ix3 t k d)
      = X (ix3 t ⟨o1 + (clampRow N hN (I1 (ix2 k 0))).val, by have := (clampRow N hN (I1 (ix2 k 0))).isLt; omega⟩ ⟨d.val, by have := d.isLt; omega⟩) := by
    rw [gather_mid_apply hN g h1 h2 h3 h4 h5 h6 h7]
    exact slice3_apply 0 o1 0 X hs t _ d t _ _ (Nat.zero_add _).symm rfl (Nat.zero_add _).symm
  show (Host.gather g _ I0 (ix3 t k d) - Host.gather g _ I1 (ix3 t k d)) * (Host.gather g _ I0 (ix3 t k d) - Host.gather g _ I1 (ix3 t k d)) = _
  rw [e0, e1]

/-! ## The selected landmarks -/

/-- Where selected landmark `l` comes from when the block of the dominant hand starts at landmark `c0`: the hand's 21
    landmarks, then the 25 pose landmarks from 61 on, then the 40 lip landmarks from 0 on. -/
def src (c0 : Nat) (hc0 : c0 + 21 ≤ 115) (l : Fin 86) : Fin 115 :=
  if h : l.val < 21 then ⟨c0 + l.val, by omega⟩
  else if h2 : l.val < 46 then ⟨61 + (l.val - 21), by omega⟩ else ⟨l.val - 46, by omega⟩

/-- The three blocks of landmarks laid end to end, at `(t, l, d)`: frame `t`'s landmark `src c0 l`. -/
theorem cat3_apply {n : Nat} (c0 : Nat) (hc0 : c0 + 21 ≤ 115) (A : (⟨3, ![n, 115, 3]⟩ : Shape).Idx → α)
    (s8 : (⟨3, ![n, 115, 3]⟩ : Shape).Slices ![0, c0, 0] ⟨3, ![n, 21, 3]⟩)
    (s10 : (⟨3, ![n, 115, 3]⟩ : Shape).Slices ![0, 61, 0] ⟨3, ![n, 25, 3]⟩)
    (s11 : (⟨3, ![n, 115, 3]⟩ : Shape).Slices ![0, 0, 0] ⟨3, ![n, 40, 3]⟩)
    (hcat : Shape.Concatenates [(⟨3, ![n, 21, 3]⟩ : Shape), ⟨3, ![n, 25, 3]⟩, ⟨3, ![n, 40, 3]⟩] ⟨3, ![n, 86, 3]⟩ 1)
    (t : Fin n) (l : Fin 86) (d : Fin 3) :
    concatenate ⟨3, ![n, 86, 3]⟩ 1 [⟨⟨3, ![n, 21, 3]⟩, extractStridedSlice ⟨3, ![n, 21, 3]⟩ ![0, c0, 0] A s8⟩,
        ⟨⟨3, ![n, 25, 3]⟩, extractStridedSlice ⟨3, ![n, 25, 3]⟩ ![0, 61, 0] A s10⟩,
        ⟨⟨3, ![n, 40, 3]⟩, extractStridedSlice ⟨3, ![n, 40, 3]⟩ ![0, 0, 0] A s11⟩] hcat (ix3 t l d)
      = A (ix3 t (src c0 hc0 l) d) := by
  let xs : List ((s : Shape) × (s.Idx → α)) :=
    [⟨⟨3, ![n, 21, 3]⟩, extractStridedSlice ⟨3, ![n, 21, 3]⟩ ![0, c0, 0] A s8⟩,
     ⟨⟨3, ![n, 25, 3]⟩, extractStridedSlice ⟨3, ![n, 25, 3]⟩ ![0, 61, 0] A s10⟩,
     ⟨⟨3, ![n, 40, 3]⟩, extractStridedSlice ⟨3, ![n, 40, 3]⟩ ![0, 0, 0] A s11⟩]
  show concatenate ⟨3, ![n, 86, 3]⟩ 1 xs hcat (ix3 t l d) = _
  by_cases h1 : l.val < 21
  · refine (concatenate_apply_piece (t := ⟨3, ![n, 86, 3]⟩) (1 : Fin 3) xs hcat (ix3 t l d) 0 (by show 0 < 3; omega) ⟨3, ![n, 21, 3]⟩
      (extractStridedSlice ⟨3, ![n, 21, 3]⟩ ![0, c0, 0] A s8) rfl rfl 0 rfl
      (ix3 t (⟨l.val, h1⟩ : Fin 21) d) (fun b hb => ?_) ?_).trans ?_
    · match b with
      | ⟨0, _⟩ => rfl
      | ⟨1, _⟩ => exact absurd rfl hb
      | ⟨2, _⟩ => rfl
    · show 0 + l.val = l.val; omega
    · exact slice3_apply 0 c0 0 A s8 t (⟨l.val, h1⟩ : Fin 21) d t (src c0 hc0 l) d (Nat.zero_add _).symm
        (by unfold src; rw [dif_pos h1]) (Nat.zero_add _).symm
  · by_cases h2 : l.val < 46
    · refine (concatenate_apply_piece (t := ⟨3, ![n, 86, 3]⟩) (1 : Fin 3) xs hcat (ix3 t l d) 1 (by show 1 < 3; omega) ⟨3, ![n, 25, 3]⟩
        (extractStridedSlice ⟨3, ![n, 25, 3]⟩ ![0, 61, 0] A s10) rfl rfl 21 rfl
        (ix3 t (⟨l.val - 21, by omega⟩ : Fin 25) d) (fun b hb => ?_) ?_).trans ?_
      · match b with
        | ⟨0, _⟩ => rfl
        | ⟨1, _⟩ => exact absurd rfl hb
        | ⟨2, _⟩ => rfl
      · show 21 + (l.val - 21) = l.val; omega
      · exact slice3_apply 0 61 0 A s10 t (⟨l.val - 21, by omega⟩ : Fin 25) d t (src c0 hc0 l) d (Nat.zero_add _).symm
          (by unfold src; rw [dif_neg h1, dif_pos h2]) (Nat.zero_add _).symm
    · refine (concatenate_apply_piece (t := ⟨3, ![n, 86, 3]⟩) (1 : Fin 3) xs hcat (ix3 t l d) 2 (by show 2 < 3; omega) ⟨3, ![n, 40, 3]⟩
        (extractStridedSlice ⟨3, ![n, 40, 3]⟩ ![0, 0, 0] A s11) rfl rfl 46 rfl
        (ix3 t (⟨l.val - 46, by have := l.isLt; omega⟩ : Fin 40) d) (fun b hb => ?_) ?_).trans ?_
      · match b with
        | ⟨0, _⟩ => rfl
        | ⟨1, _⟩ => exact absurd rfl hb
        | ⟨2, _⟩ => rfl
      · show 46 + (l.val - 46) = l.val; omega
      · exact slice3_apply 0 0 0 A s11 t (⟨l.val - 46, by have := l.isLt; omega⟩ : Fin 40) d t (src c0 hc0 l) d (Nat.zero_add _).symm
          (by unfold src; rw [dif_neg h1, dif_neg h2]; show l.val - 46 = 0 + (l.val - 46); omega) (Nat.zero_add _).symm

/-- The x coordinate mirrored under the condition, the other coordinates kept: at `(t, l, d)`. -/
theorem mirror_apply {n L : Nat} (p : IVec (⟨0, ![]⟩ : Shape) 1) (V : FVec Ideal ⟨3, ![n, L, 3]⟩ .f32)
    (s16 : (⟨3, ![n, L, 3]⟩ : Shape).Slices ![0, 0, 0] ⟨3, ![n, L, 1]⟩)
    (hc : (⟨3, ![n, L, 1]⟩ : Shape).ShapeCasts ⟨2, ![n, L]⟩)
    (hb : (⟨0, ![]⟩ : Shape).BroadcastsInDim ⟨2, ![n, L]⟩ ![])
    (hb2 : (⟨2, ![n, L]⟩ : Shape).BroadcastsInDim ⟨3, ![n, L, 1]⟩ ![0, 1])
    (s23 : (⟨3, ![n, L, 3]⟩ : Shape).Slices ![0, 0, 1] ⟨3, ![n, L, 2]⟩)
    (hcat : Shape.Concatenates [(⟨3, ![n, L, 1]⟩ : Shape), ⟨3, ![n, L, 2]⟩] ⟨3, ![n, L, 3]⟩ 2)
    (t : Fin n) (l : Fin L) (d : Fin 3) :
    concatenate ⟨3, ![n, L, 3]⟩ 2
        [⟨⟨3, ![n, L, 1]⟩, broadcastInDim ⟨3, ![n, L, 1]⟩ ![0, 1] hb2
            (select (broadcastInDim ⟨2, ![n, L]⟩ ![] hb p)
              (Host.negf (shapeCast ⟨2, ![n, L]⟩ (extractStridedSlice ⟨3, ![n, L, 1]⟩ ![0, 0, 0] V s16) hc))
              (shapeCast ⟨2, ![n, L]⟩ (extractStridedSlice ⟨3, ![n, L, 1]⟩ ![0, 0, 0] V s16) hc))⟩,
         ⟨⟨3, ![n, L, 2]⟩, extractStridedSlice ⟨3, ![n, L, 2]⟩ ![0, 0, 1] V s23⟩] hcat (ix3 t l d)
      = if d.val = 0 then Scalar.select (p ix0) (FloatOps.hostNegf (V (ix3 t l 0))) (V (ix3 t l 0)) else V (ix3 t l d) := by
  have hV0 : shapeCast ⟨2, ![n, L]⟩ (extractStridedSlice ⟨3, ![n, L, 1]⟩ ![0, 0, 0] V s16) hc (ix2 t l) = V (ix3 t l 0) := by
    rw [reshape_ab1_ab_apply]
    exact slice3_apply 0 0 0 V s16 t l 0 t l 0 (Nat.zero_add _).symm (Nat.zero_add _).symm (Nat.zero_add _).symm
  by_cases hd : d.val = 0
  · rw [if_pos hd]
    refine (concatenate_pair_apply_left (s₁ := ⟨3, ![n, L, 1]⟩) (s₂ := ⟨3, ![n, L, 2]⟩) (2 : Fin 3) _ _ hcat (ix3 t l d) rfl (ix3 t l (0 : Fin 1)) (fun b => ?_)).trans ?_
    · match b with
      | ⟨0, _⟩ => rfl
      | ⟨1, _⟩ => rfl
      | ⟨2, _⟩ => exact hd.symm
    · rw [bcast_ab_ab1_apply]
      show Scalar.select (broadcastInDim ⟨2, ![n, L]⟩ ![] hb p (ix2 t l))
        (FloatOps.hostNegf (shapeCast ⟨2, ![n, L]⟩ (extractStridedSlice ⟨3, ![n, L, 1]⟩ ![0, 0, 0] V s16) hc (ix2 t l)))
        (shapeCast ⟨2, ![n, L]⟩ (extractStridedSlice ⟨3, ![n, L, 1]⟩ ![0, 0, 0] V s16) hc (ix2 t l)) = _
      rw [broadcastInDim_scalar_apply, hV0]
  · rw [if_neg hd]
    refine (concatenate_pair_apply_right (s₁ := ⟨3, ![n, L, 1]⟩) (s₂ := ⟨3, ![n, L, 2]⟩) (2 : Fin 3) _ _ hcat (ix3 t l d) rfl rfl
      (ix3 t l (⟨d.val - 1, by have := d.isLt; omega⟩ : Fin 2)) (fun b hb => ?_) ?_).trans ?_
    · match b with
      | ⟨0, _⟩ => rfl
      | ⟨1, _⟩ => rfl
      | ⟨2, _⟩ => exact absurd rfl hb
    · show d.val - 1 + 1 = d.val; omega
    · exact slice3_apply 0 0 1 V s23 t l _ t l d (Nat.zero_add _).symm (Nat.zero_add _).symm (by show d.val = 1 + (d.val - 1); omega)

/-- Selected landmark `l`, coordinate `d`, of frame `r` before mirroring: from the left hand's block (landmarks from 40) when
    the bit is set, else from the right hand's (from 94); pose and lips are the same either way. -/
def pickOf (b : BitVec 1) (r : Fin 115 → Fin 3 → EReal) (l : Fin 86) (d : Fin 3) : EReal :=
  Scalar.select b (r (src 40 (by decide) l) d) (r (src 94 (by decide) l) d)

/-- The same with the x coordinate negated when the bit is set. -/
def featOf (b : BitVec 1) (r : Fin 115 → Fin 3 → EReal) (l : Fin 86) (d : Fin 3) : EReal :=
  if d.val = 0 then Scalar.select b (FloatOps.hostNegf (F := Ideal) (φ := .f32) (pickOf b r l 0)) (pickOf b r l 0) else pickOf b r l d

/-- The printed selection stage at `(t, l, d)` is `featOf` of frame `t`. -/
theorem feat_apply {n : Nat} (p : IVec (⟨0, ![]⟩ : Shape) 1) (A : FVec Ideal ⟨3, ![n, 115, 3]⟩ .f32)
    (s8 : (⟨3, ![n, 115, 3]⟩ : Shape).Slices ![0, 40, 0] ⟨3, ![n, 21, 3]⟩)
    (s9 : (⟨3, ![n, 115, 3]⟩ : Shape).Slices ![0, 94, 0] ⟨3, ![n, 21, 3]⟩)
    (s10 : (⟨3, ![n, 115, 3]⟩ : Shape).Slices ![0, 61, 0] ⟨3, ![n, 25, 3]⟩)
    (s11 : (⟨3, ![n, 115, 3]⟩ : Shape).Slices ![0, 0, 0] ⟨3, ![n, 40, 3]⟩)
    (hcat : Shape.Concatenates [(⟨3, ![n, 21, 3]⟩ : Shape), ⟨3, ![n, 25, 3]⟩, ⟨3, ![n, 40, 3]⟩] ⟨3, ![n, 86, 3]⟩ 1)
    (hb3 : (⟨0, ![]⟩ : Shape).BroadcastsInDim ⟨3, ![n, 86, 3]⟩ ![])
    (V : FVec Ideal ⟨3, ![n, 86, 3]⟩ .f32)
    (hV : V = select (broadcastInDim ⟨3, ![n, 86, 3]⟩ ![] hb3 p)
      (concatenate ⟨3, ![n, 86, 3]⟩ 1 [⟨⟨3, ![n, 21, 3]⟩, extractStridedSlice ⟨3, ![n, 21, 3]⟩ ![0, 40, 0] A s8⟩,
        ⟨⟨3, ![n, 25, 3]⟩, extractStridedSlice ⟨3, ![n, 25, 3]⟩ ![0, 61, 0] A s10⟩,
        ⟨⟨3, ![n, 40, 3]⟩, extractStridedSlice ⟨3, ![n, 40, 3]⟩ ![0, 0, 0] A s11⟩] hcat)
      (concatenate ⟨3, ![n, 86, 3]⟩ 1 [⟨⟨3, ![n, 21, 3]⟩, extractStridedSlice ⟨3, ![n, 21, 3]⟩ ![0, 94, 0] A s9⟩,
        ⟨⟨3, ![n, 25, 3]⟩, extractStridedSlice ⟨3, ![n, 25, 3]⟩ ![0, 61, 0] A s10⟩,
        ⟨⟨3, ![n, 40, 3]⟩, extractStridedSlice ⟨3, ![n, 40, 3]⟩ ![0, 0, 0] A s11⟩] hcat))
    (s16 : (⟨3, ![n, 86, 3]⟩ : Shape).Slices ![0, 0, 0] ⟨3, ![n, 86, 1]⟩)
    (hc : (⟨3, ![n, 86, 1]⟩ : Shape).ShapeCasts ⟨2, ![n, 86]⟩)
    (hb : (⟨0, ![]⟩ : Shape).BroadcastsInDim ⟨2, ![n, 86]⟩ ![])
    (hb2 : (⟨2, ![n, 86]⟩ : Shape).BroadcastsInDim ⟨3, ![n, 86, 1]⟩ ![0, 1])
    (s23 : (⟨3, ![n, 86, 3]⟩ : Shape).Slices ![0, 0, 1] ⟨3, ![n, 86, 2]⟩)
    (hcat2 : Shape.Concatenates [(⟨3, ![n, 86, 1]⟩ : Shape), ⟨3, ![n, 86, 2]⟩] ⟨3, ![n, 86, 3]⟩ 2)
    (t : Fin n) (l : Fin 86) (d : Fin 3) :
    concatenate ⟨3, ![n, 86, 3]⟩ 2
        [⟨⟨3, ![n, 86, 1]⟩, broadcastInDim ⟨3, ![n, 86, 1]⟩ ![0, 1] hb2
            (select (broadcastInDim ⟨2, ![n, 86]⟩ ![] hb p)
              (Host.negf (shapeCast ⟨2, ![n, 86]⟩ (extractStridedSlice ⟨3, ![n, 86, 1]⟩ ![0, 0, 0] V s16) hc))
              (shapeCast ⟨2, ![n, 86]⟩ (extractStridedSlice ⟨3, ![n, 86, 1]⟩ ![0, 0, 0] V s16) hc))⟩,
         ⟨⟨3, ![n, 86, 2]⟩, extractStridedSlice ⟨3, ![n, 86, 2]⟩ ![0, 0, 1] V s23⟩] hcat2 (ix3 t l d)
      = featOf (p ix0) (fun l d => A (ix3 t l d)) l d := by
  have hp : ∀ (l : Fin 86) (d : Fin 3), V (ix3 t l d) = pickOf (p ix0) (fun l d => A (ix3 t l d)) l d := by
    intro l d
    rw [hV, select_apply, broadcastInDim_scalar_apply, cat3_apply 40 (by decide) A s8 s10 s11 hcat,
      cat3_apply 94 (by decide) A s9 s10 s11 hcat]
    rfl
  rw [mirror_apply p V s16 hc hb hb2 s23 hcat2 t l d]
  unfold featOf
  rw [hp, hp]

/-! ## Differences of consecutive frames -/

/-- Frames `[0 : n']` minus frames `[1 : n' + 1]`, at `(t, l, d)`: frame `t` minus frame `t + 1`. -/
theorem diff_apply {n n' L D : Nat} (X : FVec Ideal ⟨3, ![n, L, D]⟩ .f32)
    (s0 : (⟨3, ![n, L, D]⟩ : Shape).Slices ![0, 0, 0] ⟨3, ![n', L, D]⟩)
    (s1 : (⟨3, ![n, L, D]⟩ : Shape).Slices ![1, 0, 0] ⟨3, ![n', L, D]⟩)
    (t : Fin n') (l : Fin L) (d : Fin D) (T0 T1 : Fin n) (e0 : T0.val = t.val) (e1 : T1.val = t.val + 1) :
    subf (extractStridedSlice ⟨3, ![n', L, D]⟩ ![0, 0, 0] X s0) (extractStridedSlice ⟨3, ![n', L, D]⟩ ![1, 0, 0] X s1) (ix3 t l d)
      = X (ix3 T0 l d) - X (ix3 T1 l d) := by
  show extractStridedSlice ⟨3, ![n', L, D]⟩ ![0, 0, 0] X s0 (ix3 t l d) - extractStridedSlice ⟨3, ![n', L, D]⟩ ![1, 0, 0] X s1 (ix3 t l d) = _
  rw [slice3_apply 0 0 0 X s0 t l d T0 l d (by omega) (Nat.zero_add _).symm (Nat.zero_add _).symm,
    slice3_apply 1 0 0 X s1 t l d T1 l d (by omega) (Nat.zero_add _).symm (Nat.zero_add _).symm]

/-- The same differences with one more frame appended: before the appended frame nothing changes. -/
theorem diff_pad_apply {n n' L D : Nat} (X : FVec Ideal ⟨3, ![n, L, D]⟩ .f32)
    (s0 : (⟨3, ![n, L, D]⟩ : Shape).Slices ![0, 0, 0] ⟨3, ![n', L, D]⟩)
    (s1 : (⟨3, ![n, L, D]⟩ : Shape).Slices ![1, 0, 0] ⟨3, ![n', L, D]⟩)
    (Z : FVec Ideal ⟨3, ![1, L, D]⟩ .f32)
    (hcat : Shape.Concatenates [(⟨3, ![n', L, D]⟩ : Shape), ⟨3, ![1, L, D]⟩] ⟨3, ![n, L, D]⟩ 0)
    (T : Fin n) (hT : T.val < n') (l : Fin L) (d : Fin D) (T1 : Fin n) (e1 : T1.val = T.val + 1) :
    concatenate ⟨3, ![n, L, D]⟩ 0 [⟨⟨3, ![n', L, D]⟩, subf (extractStridedSlice ⟨3, ![n', L, D]⟩ ![0, 0, 0] X s0)
        (extractStridedSlice ⟨3, ![n', L, D]⟩ ![1, 0, 0] X s1)⟩, ⟨⟨3, ![1, L, D]⟩, Z⟩] hcat (ix3 T l d)
      = X (ix3 T l d) - X (ix3 T1 l d) := by
  refine (concatenate_pair_apply_left (s₁ := ⟨3, ![n', L, D]⟩) (s₂ := ⟨3, ![1, L, D]⟩) (0 : Fin 3) _ _ hcat (ix3 T l d) rfl
    (ix3 (⟨T.val, hT⟩ : Fin n') l d) (fun b => ?_)).trans ?_
  · match b with
    | ⟨0, _⟩ => rfl
    | ⟨1, _⟩ => rfl
    | ⟨2, _⟩ => rfl
  · exact diff_apply X s0 s1 ⟨T.val, hT⟩ l d T T1 rfl e1

/-! ## The hand mask and the token type -/

/-- Frame `r`'s hand mask under condition bit `b`: 1 when the 63 coordinates of the dominant hand (landmarks from 40
    if the bit is set, from 94 if not) do not add up to `z1` starting from `z0`, else 0. -/
def handOf (b : BitVec 1) (r : Fin 115 → Fin 3 → EReal) (z0 z1 : EReal) : EReal :=
  FloatOps.uitofp (F := Ideal) .f32 (FloatOps.cmpf (F := Ideal) (φ := .f32) .une
    (z0 + ∑ k : Fin 63, Scalar.select b (r ⟨40 + k.val / 3, by have := k.isLt; omega⟩ ⟨k.val % 3, Nat.mod_lt _ (by decide)⟩)
      (r ⟨94 + k.val / 3, by have := k.isLt; omega⟩ ⟨k.val % 3, Nat.mod_lt _ (by decide)⟩)) z1)

/-- The printed hand-mask stage at frame `t`. -/
theorem hand_apply {n : Nat} (p : IVec (⟨0, ![]⟩ : Shape) 1) (A : FVec Ideal ⟨3, ![n, 115, 3]⟩ .f32)
    (s8 : (⟨3, ![n, 115, 3]⟩ : Shape).Slices ![0, 40, 0] ⟨3, ![n, 21, 3]⟩)
    (s9 : (⟨3, ![n, 115, 3]⟩ : Shape).Slices ![0, 94, 0] ⟨3, ![n, 21, 3]⟩)
    (hb : (⟨0, ![]⟩ : Shape).BroadcastsInDim ⟨3, ![n, 21, 3]⟩ ![])
    (hc : (⟨3, ![n, 21, 3]⟩ : Shape).ShapeCasts ⟨2, ![n, 63]⟩)
    (c13 c14 : FVec Ideal ⟨0, ![]⟩ .f32)
    (hr' : (⟨2, ![n, 63]⟩ : Shape).ReducesTo [1] ⟨1, ![n]⟩) (hr : (⟨2, ![n, 63]⟩ : Shape).Reduces [1] ⟨1, ![n]⟩)
    (hu : 0 < (⟨0, ![]⟩ : Shape).numel)
    (hb1 : (⟨0, ![]⟩ : Shape).BroadcastsInDim ⟨1, ![n]⟩ ![]) (t : Fin n) :
    uitofp (F := Ideal) .f32 (cmpf .une
        (Host.reduceAdd (shapeCast ⟨2, ![n, 63]⟩
          (select (broadcastInDim ⟨3, ![n, 21, 3]⟩ ![] hb p) (extractStridedSlice ⟨3, ![n, 21, 3]⟩ ![0, 40, 0] A s8)
            (extractStridedSlice ⟨3, ![n, 21, 3]⟩ ![0, 94, 0] A s9)) hc) c13 hr' hu)
        (broadcastInDim ⟨1, ![n]⟩ ![] hb1 c14)) (ix1 t)
      = handOf (p ix0) (fun l d => A (ix3 t l d)) (c13 ix0) (c14 ix0) := by
  show FloatOps.uitofp (F := Ideal) .f32 (FloatOps.cmpf (F := Ideal) (φ := .f32) .une
    (Host.reduceAdd _ c13 hr' hu (ix1 t)) (broadcastInDim ⟨1, ![n]⟩ ![] hb1 c14 (ix1 t))) = _
  unfold handOf
  rw [hostReduceAdd_last2 _ c13 hr' hr hu t, broadcastInDim_scalar_apply]
  congr 3
  refine Finset.sum_congr rfl fun k _ => ?_
  rw [reshape32_apply _ hc rfl t k ⟨k.val / 3, by have := k.isLt; omega⟩ ⟨k.val % 3, Nat.mod_lt _ (by decide)⟩
    (by show k.val / 3 * 3 + k.val % 3 = k.val; omega)]
  show Scalar.select (broadcastInDim ⟨3, ![n, 21, 3]⟩ ![] hb p _) (extractStridedSlice ⟨3, ![n, 21, 3]⟩ ![0, 40, 0] A s8 _)
    (extractStridedSlice ⟨3, ![n, 21, 3]⟩ ![0, 94, 0] A s9 _) = _
  rw [broadcastInDim_scalar_apply,
    slice3_apply 0 40 0 A s8 t _ _ t ⟨40 + k.val / 3, by have := k.isLt; omega⟩ ⟨k.val % 3, Nat.mod_lt _ (by decide)⟩ (Nat.zero_add _).symm rfl (Nat.zero_add _).symm,
    slice3_apply 0 94 0 A s9 t _ _ t ⟨94 + k.val / 3, by have := k.isLt; omega⟩ ⟨k.val % 3, Nat.mod_lt _ (by decide)⟩ (Nat.zero_add _).symm rfl (Nat.zero_add _).symm]

/-- The token type at frame `t`: the hand mask there plus the broadcast constant. -/
theorem tok_apply {n : Nat} (hm : FVec Ideal ⟨1, ![n]⟩ .f32) (c15 : FVec Ideal ⟨0, ![]⟩ .f32)
    (hb1 : (⟨0, ![]⟩ : Shape).BroadcastsInDim ⟨1, ![n]⟩ ![]) (t : Fin n) :
    addf hm (broadcastInDim ⟨1, ![n]⟩ ![] hb1 c15) (ix1 t) = hm (ix1 t) + c15 ix0 := by
  show hm (ix1 t) + broadcastInDim ⟨1, ![n]⟩ ![] hb1 c15 (ix1 t) = _
  rw [broadcastInDim_scalar_apply]

/-! ## Cleaning -/

/-- On the extended reals no entry differs from itself, so replacing the entries that do by another value changes nothing. -/
theorem clean_eq {s : Shape} (X Z : FVec Ideal s .f32) : select (cmpf .une X X) Z X = X := by
  funext i
  show Scalar.select (FloatOps.cmpf (F := Ideal) (φ := .f32) .une (X i) (X i)) (Z i) (X i) = X i
  have h : FloatOps.cmpf (F := Ideal) (φ := .f32) .une (X i) (X i) = 0#1 := by
    show Ideal.cmp .une (X i) (X i) = 0#1
    simp [Ideal.cmp]
  rw [h]; exact select_zero _ _

/-! ## The twelve pieces side by side -/

set_option maxHeartbeats 4000000 in
/-- The concatenation of the twelve feature pieces along the feature axis, at `(t, c)`: the piece whose span holds `c`,
    at `c` less the extents before it. -/
theorem asm_apply {n : Nat} (P1 : (⟨2, ![n, 63]⟩ : Shape).Idx → α) (P2 : (⟨2, ![n, 50]⟩ : Shape).Idx → α) (P3 : (⟨2, ![n, 40]⟩ : Shape).Idx → α) (P4 : (⟨2, ![n, 63]⟩ : Shape).Idx → α) (P5 : (⟨2, ![n, 50]⟩ : Shape).Idx → α) (P6 : (⟨2, ![n, 40]⟩ : Shape).Idx → α) (D1 : (⟨2, ![n, 210]⟩ : Shape).Idx → α) (D2 : (⟨2, ![n, 300]⟩ : Shape).Idx → α) (D3 : (⟨2, ![n, 190]⟩ : Shape).Idx → α) (D4 : (⟨2, ![n, 190]⟩ : Shape).Idx → α) (H : (⟨2, ![n, 1]⟩ : Shape).Idx → α) (T : (⟨2, ![n, 1]⟩ : Shape).Idx → α)
    (hcat : Shape.Concatenates [(⟨2, ![n, 63]⟩ : Shape), (⟨2, ![n, 50]⟩ : Shape), (⟨2, ![n, 40]⟩ : Shape), (⟨2, ![n, 63]⟩ : Shape), (⟨2, ![n, 50]⟩ : Shape), (⟨2, ![n, 40]⟩ : Shape), (⟨2, ![n, 210]⟩ : Shape), (⟨2, ![n, 300]⟩ : Shape), (⟨2, ![n, 190]⟩ : Shape), (⟨2, ![n, 190]⟩ : Shape), (⟨2, ![n, 1]⟩ : Shape), (⟨2, ![n, 1]⟩ : Shape)] ⟨2, ![n, 1198]⟩ 1) (t : Fin n) (c : Fin 1198) :
    concatenate ⟨2, ![n, 1198]⟩ 1 [⟨⟨2, ![n, 63]⟩, P1⟩, ⟨⟨2, ![n, 50]⟩, P2⟩, ⟨⟨2, ![n, 40]⟩, P3⟩, ⟨⟨2, ![n, 63]⟩, P4⟩, ⟨⟨2, ![n, 50]⟩, P5⟩, ⟨⟨2, ![n, 40]⟩, P6⟩, ⟨⟨2, ![n, 210]⟩, D1⟩, ⟨⟨2, ![n, 300]⟩, D2⟩, ⟨⟨2, ![n, 190]⟩, D3⟩, ⟨⟨2, ![n, 190]⟩, D4⟩, ⟨⟨2, ![n, 1]⟩, H⟩, ⟨⟨2, ![n, 1]⟩, T⟩] hcat (ix2 t c) =
    if h : c.val < 63 then P1 (ix2 t ⟨c.val - 0, by have := c.isLt; omega⟩)
      else if h : c.val < 113 then P2 (ix2 t ⟨c.val - 63, by have := c.isLt; omega⟩)
        else if h : c.val < 153 then P3 (ix2 t ⟨c.val - 113, by have := c.isLt; omega⟩)
          else if h : c.val < 216 then P4 (ix2 t ⟨c.val - 153, by have := c.isLt; omega⟩)
            else if h : c.val < 266 then P5 (ix2 t ⟨c.val - 216, by have := c.isLt; omega⟩)
              else if h : c.val < 306 then P6 (ix2 t ⟨c.val - 266, by have := c.isLt; omega⟩)
                else if h : c.val < 516 then D1 (ix2 t ⟨c.val - 306, by have := c.isLt; omega⟩)
                  else if h : c.val < 816 then D2 (ix2 t ⟨c.val - 516, by have := c.isLt; omega⟩)
                    else if h : c.val < 1006 then D3 (ix2 t ⟨c.val - 816, by have := c.isLt; omega⟩)
                      else if h : c.val < 1196 then D4 (ix2 t ⟨c.val - 1006, by have := c.isLt; omega⟩)
                        else if h : c.val < 1197 then H (ix2 t ⟨c.val - 1196, by have := c.isLt; omega⟩)
                          else T (ix2 t ⟨c.val - 1197, by have := c.isLt; omega⟩) := by
  let xs : List ((s : Shape) × (s.Idx → α)) := [⟨⟨2, ![n, 63]⟩, P1⟩, ⟨⟨2, ![n, 50]⟩, P2⟩, ⟨⟨2, ![n, 40]⟩, P3⟩, ⟨⟨2, ![n, 63]⟩, P4⟩, ⟨⟨2, ![n, 50]⟩, P5⟩, ⟨⟨2, ![n, 40]⟩, P6⟩, ⟨⟨2, ![n, 210]⟩, D1⟩, ⟨⟨2, ![n, 300]⟩, D2⟩, ⟨⟨2, ![n, 190]⟩, D3⟩, ⟨⟨2, ![n, 190]⟩, D4⟩, ⟨⟨2, ![n, 1]⟩, H⟩, ⟨⟨2, ![n, 1]⟩, T⟩]
  show concatenate ⟨2, ![n, 1198]⟩ 1 xs hcat (ix2 t c) = _
  by_cases h0 : c.val < 63
  · rw [dif_pos h0]
    refine (concatenate_apply_piece (t := ⟨2, ![n, 1198]⟩) (1 : Fin 2) xs hcat (ix2 t c) 0 (by show 0 < 12; omega) ⟨2, ![n, 63]⟩ P1 rfl rfl 0 rfl
      (ix2 t (⟨c.val - 0, by have := c.isLt; omega⟩ : Fin 63)) (fun b hb => ?_) ?_)
    · match b with
      | ⟨0, _⟩ => rfl
      | ⟨1, _⟩ => exact absurd rfl hb
    · show 0 + (c.val - 0) = c.val; omega
  · rw [dif_neg h0]
    by_cases h1 : c.val < 113
    · rw [dif_pos h1]
      refine (concatenate_apply_piece (t := ⟨2, ![n, 1198]⟩) (1 : Fin 2) xs hcat (ix2 t c) 1 (by show 1 < 12; omega) ⟨2, ![n, 50]⟩ P2 rfl rfl 63 rfl
        (ix2 t (⟨c.val - 63, by have := c.isLt; omega⟩ : Fin 50)) (fun b hb => ?_) ?_)
      · match b with
        | ⟨0, _⟩ => rfl
        | ⟨1, _⟩ => exact absurd rfl hb
      · show 63 + (c.val - 63) = c.val; omega
    · rw [dif_neg h1]
      by_cases h2 : c.val < 153
      · rw [dif_pos h2]
        refine (concatenate_apply_piece (t := ⟨2, ![n, 1198]⟩) (1 : Fin 2) xs hcat (ix2 t c) 2 (by show 2 < 12; omega) ⟨2, ![n, 40]⟩ P3 rfl rfl 113 rfl
          (ix2 t (⟨c.val - 113, by have := c.isLt; omega⟩ : Fin 40)) (fun b hb => ?_) ?_)
        · match b with
          | ⟨0, _⟩ => rfl
          | ⟨1, _⟩ => exact absurd rfl hb
        · show 113 + (c.val - 113) = c.val; omega
      · rw [dif_neg h2]
        by_cases h3 : c.val < 216
        · rw [dif_pos h3]
          refine (concatenate_apply_piece (t := ⟨2, ![n, 1198]⟩) (1 : Fin 2) xs hcat (ix2 t c) 3 (by show 3 < 12; omega) ⟨2, ![n, 63]⟩ P4 rfl rfl 153 rfl
            (ix2 t (⟨c.val - 153, by have := c.isLt; omega⟩ : Fin 63)) (fun b hb => ?_) ?_)
          · match b with
            | ⟨0, _⟩ => rfl
            | ⟨1, _⟩ => exact absurd rfl hb
          · show 153 + (c.val - 153) = c.val; omega
        · rw [dif_neg h3]
          by_cases h4 : c.val < 266
          · rw [dif_pos h4]
            refine (concatenate_apply_piece (t := ⟨2, ![n, 1198]⟩) (1 : Fin 2) xs hcat (ix2 t c) 4 (by show 4 < 12; omega) ⟨2, ![n, 50]⟩ P5 rfl rfl 216 rfl
              (ix2 t (⟨c.val - 216, by have := c.isLt; omega⟩ : Fin 50)) (fun b hb => ?_) ?_)
            · match b with
              | ⟨0, _⟩ => rfl
              | ⟨1, _⟩ => exact absurd rfl hb
            · show 216 + (c.val - 216) = c.val; omega
          · rw [dif_neg h4]
            by_cases h5 : c.val < 306
            · rw [dif_pos h5]
              refine (concatenate_apply_piece (t := ⟨2, ![n, 1198]⟩) (1 : Fin 2) xs hcat (ix2 t c) 5 (by show 5 < 12; omega) ⟨2, ![n, 40]⟩ P6 rfl rfl 266 rfl
                (ix2 t (⟨c.val - 266, by have := c.isLt; omega⟩ : Fin 40)) (fun b hb => ?_) ?_)
              · match b with
                | ⟨0, _⟩ => rfl
                | ⟨1, _⟩ => exact absurd rfl hb
              · show 266 + (c.val - 266) = c.val; omega
            · rw [dif_neg h5]
              by_cases h6 : c.val < 516
              · rw [dif_pos h6]
                refine (concatenate_apply_piece (t := ⟨2, ![n, 1198]⟩) (1 : Fin 2) xs hcat (ix2 t c) 6 (by show 6 < 12; omega) ⟨2, ![n, 210]⟩ D1 rfl rfl 306 rfl
                  (ix2 t (⟨c.val - 306, by have := c.isLt; omega⟩ : Fin 210)) (fun b hb => ?_) ?_)
                · match b with
                  | ⟨0, _⟩ => rfl
                  | ⟨1, _⟩ => exact absurd rfl hb
                · show 306 + (c.val - 306) = c.val; omega
              · rw [dif_neg h6]
                by_cases h7 : c.val < 816
                · rw [dif_pos h7]
                  refine (concatenate_apply_piece (t := ⟨2, ![n, 1198]⟩) (1 : Fin 2) xs hcat (ix2 t c) 7 (by show 7 < 12; omega) ⟨2, ![n, 300]⟩ D2 rfl rfl 516 rfl
                    (ix2 t (⟨c.val - 516, by have := c.isLt; omega⟩ : Fin 300)) (fun b hb => ?_) ?_)
                  · match b with
                    | ⟨0, _⟩ => rfl
                    | ⟨1, _⟩ => exact absurd rfl hb
                  · show 516 + (c.val - 516) = c.val; omega
                · rw [dif_neg h7]
                  by_cases h8 : c.val < 1006
                  · rw [dif_pos h8]
                    refine (concatenate_apply_piece (t := ⟨2, ![n, 1198]⟩) (1 : Fin 2) xs hcat (ix2 t c) 8 (by show 8 < 12; omega) ⟨2, ![n, 190]⟩ D3 rfl rfl 816 rfl
                      (ix2 t (⟨c.val - 816, by have := c.isLt; omega⟩ : Fin 190)) (fun b hb => ?_) ?_)
                    · match b with
                      | ⟨0, _⟩ => rfl
                      | ⟨1, _⟩ => exact absurd rfl hb
                    · show 816 + (c.val - 816) = c.val; omega
                  · rw [dif_neg h8]
                    by_cases h9 : c.val < 1196
                    · rw [dif_pos h9]
                      refine (concatenate_apply_piece (t := ⟨2, ![n, 1198]⟩) (1 : Fin 2) xs hcat (ix2 t c) 9 (by show 9 < 12; omega) ⟨2, ![n, 190]⟩ D4 rfl rfl 1006 rfl
                        (ix2 t (⟨c.val - 1006, by have := c.isLt; omega⟩ : Fin 190)) (fun b hb => ?_) ?_)
                      · match b with
                        | ⟨0, _⟩ => rfl
                        | ⟨1, _⟩ => exact absurd rfl hb
                      · show 1006 + (c.val - 1006) = c.val; omega
                    · rw [dif_neg h9]
                      by_cases h10 : c.val < 1197
                      · rw [dif_pos h10]
                        refine (concatenate_apply_piece (t := ⟨2, ![n, 1198]⟩) (1 : Fin 2) xs hcat (ix2 t c) 10 (by show 10 < 12; omega) ⟨2, ![n, 1]⟩ H rfl rfl 1196 rfl
                          (ix2 t (⟨c.val - 1196, by have := c.isLt; omega⟩ : Fin 1)) (fun b hb => ?_) ?_)
                        · match b with
                          | ⟨0, _⟩ => rfl
                          | ⟨1, _⟩ => exact absurd rfl hb
                        · show 1196 + (c.val - 1196) = c.val; omega
                      · rw [dif_neg h10]
                        refine (concatenate_apply_piece (t := ⟨2, ![n, 1198]⟩) (1 : Fin 2) xs hcat (ix2 t c) 11 (by show 11 < 12; omega) ⟨2, ![n, 1]⟩ T rfl rfl 1197 rfl
                          (ix2 t (⟨c.val - 1197, by have := c.isLt; omega⟩ : Fin 1)) (fun b hb => ?_) ?_)
                        · match b with
                          | ⟨0, _⟩ => rfl
                          | ⟨1, _⟩ => exact absurd rfl hb
                        · show 1197 + (c.val - 1197) = c.val; omega

end Cert.Tail.Reads
-- ==== Proof.Tail.KSide.lean ====
/-
  The stages of the kernel program's host part read at an index: each is the corresponding frame-wise feature
  computation (Tail/Reads.lean) applied to one frame of its operand.
-/
import proofs.«176904_j2095944041143_2_alg».proof.Proof.Tail.KTerm
import proofs.«176904_j2095944041143_2_alg».proof.Proof.Tail.Reads

noncomputable section
namespace Cert.KernelIdeal.Tail
open Idealize.ShloMosaic Idealize.ShloMosaic.ValueIdx Cert.KernelIdeal Cert.KernelIdeal.Gen Cert.Tail.Reads Cert.Lib.IndexReads

/-- Start indices of one side of the landmark pairs, as a column. -/
def kI1a  : IVec S210x1 32 :=
  let main_c : IVec S210 32 := fun i => lit0 (S210.rowMajor i)
  let main_c_0 : IVec S210 1 := constantI S210 1 0#1
  let main_c_16 : IVec S_ 32 := constantI S_ 32 21#32
  let main_v36 : IVec S210 32 := broadcastInDim S210 ![] bcast_S_S210 main_c_16
  let main_v37 : IVec S210 32 := addi main_c main_v36
  let main_v38 : IVec S210 32 := select main_c_0 main_v37 main_c
  broadcastInDim S210x1 ![0] bcast_S210_S210x1_0 main_v38

/-- Start indices of one side of the landmark pairs, as a column. -/
def kI1b  : IVec S210x1 32 :=
  let main_c_1 : IVec S210 32 := fun i => lit1 (S210.rowMajor i)
  let main_c_2 : IVec S210 1 := constantI S210 1 0#1
  let main_c_17 : IVec S_ 32 := constantI S_ 32 21#32
  let main_v41 : IVec S210 32 := broadcastInDim S210 ![] bcast_S_S210 main_c_17
  let main_v42 : IVec S210 32 := addi main_c_1 main_v41
  let main_v43 : IVec S210 32 := select main_c_2 main_v42 main_c_1
  broadcastInDim S210x1 ![0] bcast_S210_S210x1_0 main_v43

/-- Start indices of one side of the landmark pairs, as a column. -/
def kI2a  : IVec S300x1 32 :=
  let main_c_3 : IVec S300 32 := fun i => lit2 (S300.rowMajor i)
  let main_c_4 : IVec S300 1 := constantI S300 1 0#1
  let main_c_19 : IVec S_ 32 := constantI S_ 32 25#32
  let main_v51 : IVec S300 32 := broadcastInDim S300 ![] bcast_S_S300 main_c_19
  let main_v52 : IVec S300 32 := addi main_c_3 main_v51
  let main_v53 : IVec S300 32 := select main_c_4 main_v52 main_c_3
  broadcastInDim S300x1 ![0] bcast_S300_S300x1_0 main_v53

/-- Start indices of one side of the landmark pairs, as a column. -/
def kI2b  : IVec S300x1 32 :=
  let main_c_5 : IVec S300 32 := fun i => lit3 (S300.rowMajor i)
  let main_c_6 : IVec S300 1 := constantI S300 1 0#1
  let main_c_20 : IVec S_ 32 := constantI S_ 32 25#32
  let main_v56 : IVec S300 32 := broadcastInDim S300 ![] bcast_S_S300 main_c_20
  let main_v57 : IVec S300 32 := addi main_c_5 main_v56
  let main_v58 : IVec S300 32 := select main_c_6 main_v57 main_c_5
  broadcastInDim S300x1 ![0] bcast_S300_S300x1_0 main_v58

/-- Start indices of one side of the landmark pairs, as a column. -/
def kI3a  : IVec S190x1 32 :=
  let main_c_7 : IVec S190 32 := fun i => lit4 (S190.rowMajor i)
  let main_c_8 : IVec S190 1 := constantI S190 1 0#1
  let main_c_22 : IVec S_ 32 := constantI S_ 32 20#32
  let main_v66 : IVec S190 32 := broadcastInDim S190 ![] bcast_S_S190 main_c_22
  let main_v67 : IVec S190 32 := addi main_c_7 main_v66
  let main_v68 : IVec S190 32 := select main_c_8 main_v67 main_c_7
  broadcastInDim S190x1 ![0] bcast_S190_S190x1_0 main_v68

/-- Start indices of one side of the landmark pairs, as a column. -/
def kI3b  : IVec S190x1 32 :=
  let main_c_9 : IVec S190 32 := fun i => lit5 (S190.rowMajor i)
  let main_c_10 : IVec S190 1 := constantI S190 1 0#1
  let main_c_23 : IVec S_ 32 := constantI S_ 32 20#32
  let main_v71 : IVec S190 32 := broadcastInDim S190 ![] bcast_S_S190 main_c_23
  let main_v72 : IVec S190 32 := addi main_c_9 main_v71
  let main_v73 : IVec S190 32 := select main_c_10 main_v72 main_c_9
  broadcastInDim S190x1 ![0] bcast_S190_S190x1_0 main_v73

/-- Start indices of one side of the landmark pairs, as a column. -/
def kI4a  : IVec S190x1 32 :=
  let main_c_7 : IVec S190 32 := fun i => lit4 (S190.rowMajor i)
  let main_c_11 : IVec S190 1 := constantI S190 1 0#1
  let main_c_25 : IVec S_ 32 := constantI S_ 32 20#32
  let main_v81 : IVec S190 32 := broadcastInDim S190 ![] bcast_S_S190 main_c_25
  let main_v82 : IVec S190 32 := addi main_c_7 main_v81
  let main_v83 : IVec S190 32 := select main_c_11 main_v82 main_c_7
  broadcastInDim S190x1 ![0] bcast_S190_S190x1_0 main_v83

/-- Start indices of one side of the landmark pairs, as a column. -/
def kI4b  : IVec S190x1 32 :=
  let main_c_9 : IVec S190 32 := fun i => lit5 (S190.rowMajor i)
  let main_c_12 : IVec S190 1 := constantI S190 1 0#1
  let main_c_26 : IVec S_ 32 := constantI S_ 32 20#32
  let main_v86 : IVec S190 32 := broadcastInDim S190 ![] bcast_S_S190 main_c_26
  let main_v87 : IVec S190 32 := addi main_c_9 main_v86
  let main_v88 : IVec S190 32 := select main_c_12 main_v87 main_c_9
  broadcastInDim S190x1 ![0] bcast_S190_S190x1_0 main_v88

/-- The cleaned frames are the argument's first 201 frames. -/
theorem kClean_apply (x : FVec Ideal S100000x115x3 .f32) (t : Fin 201) (l : Fin 115) (d : Fin 3) :
    kClean x (ix3 t l d) = x (ix3 ⟨t.val, by have := t.isLt; omega⟩ l d) := by
  unfold kClean
  dsimp only
  rw [clean_eq]
  exact slice3_apply 0 0 0 x slices_S100000x115x3_S201x115x3_0_0_0 t l d _ l d (Nat.zero_add _).symm (Nat.zero_add _).symm (Nat.zero_add _).symm

/-- The selected landmarks at `(t, l, d)`. -/
theorem kFeat_apply (p : IVec S_ 1) (a : FVec Ideal S201x115x3 .f32) (t : Fin 201) (l : Fin 86) (d : Fin 3) :
    kFeat p a (ix3 t l d) = featOf (p ix0) (fun l d => a (ix3 t l d)) l d := by
  unfold kFeat
  exact feat_apply p a slices_S201x115x3_S201x21x3_0_40_0 slices_S201x115x3_S201x21x3_0_94_0
    slices_S201x115x3_S201x25x3_0_61_0 slices_S201x115x3_S201x40x3_0_0_0
    concatenates_S201x21x3_S201x25x3_S201x40x3_S201x86x3_d1 bcast_S_S201x86x3 _ rfl
    slices_S201x86x3_S201x86x1_0_0_0 shapeCasts_S201x86x1_S201x86 bcast_S_S201x86 bcast_S201x86_S201x86x1_0_1
    slices_S201x86x3_S201x86x2_0_0_1 concatenates_S201x86x1_S201x86x2_S201x86x3_d2 t l d

/-- The hand mask at frame `t`. -/
theorem kHand_apply (p : IVec S_ 1) (a : FVec Ideal S201x115x3 .f32) (t : Fin 201) :
    kHand p a (ix1 t) = handOf (p ix0) (fun l d => a (ix3 t l d)) ((constant (F := Ideal) S_ .f32 0x00000000#32) ix0) ((constant (F := Ideal) S_ .f32 0x00000000#32) ix0) := by
  unfold kHand
  exact hand_apply p a slices_S201x115x3_S201x21x3_0_40_0 slices_S201x115x3_S201x21x3_0_94_0 bcast_S_S201x21x3
    shapeCasts_S201x21x3_S201x63 (constant S_ .f32 0x00000000#32) (constant S_ .f32 0x00000000#32)
    reducesTo_S201x63_S201_d1 (by decide) h_S_ bcast_S_S201 t

/-- The token type at frame `t`. -/
theorem kTok_apply (hm : FVec Ideal S201 .f32) (t : Fin 201) :
    kTok hm (ix1 t) = hm (ix1 t) + ((constant (F := Ideal) S_ .f32 0x3F800000#32) ix0) := by
  unfold kTok
  exact tok_apply hm (constant S_ .f32 0x3F800000#32) bcast_S_S201 t

/-- Piece `kP1` at `(t, k)`: landmark `0 + k / 3`, coordinate `k % 3`, of frame `t`. -/
theorem kP1_apply (X : FVec Ideal S201x86x3 .f32) (t : Fin 200) (k : Fin 63) :
    kP1 X (ix2 t k) = X (ix3 ⟨t.val, by have := t.isLt; omega⟩ ⟨0 + k.val / 3, by have := k.isLt; omega⟩ ⟨k.val % 3, by have := Nat.mod_lt k.val (show 0 < 3 by decide); omega⟩) := by
  unfold kP1
  exact flatSlice_apply 0 0 X slices_S201x86x3_S200x21x3_0_0_0 shapeCasts_S200x21x3_S200x63 rfl (by decide) t k _ _ _
    (Nat.zero_add _).symm rfl rfl

/-- Piece `kP2` at `(t, k)`: landmark `21 + k / 2`, coordinate `k % 2`, of frame `t`. -/
theorem kP2_apply (X : FVec Ideal S201x86x3 .f32) (t : Fin 200) (k : Fin 50) :
    kP2 X (ix2 t k) = X (ix3 ⟨t.val, by have := t.isLt; omega⟩ ⟨21 + k.val / 2, by have := k.isLt; omega⟩ ⟨k.val % 2, by have := Nat.mod_lt k.val (show 0 < 2 by decide); omega⟩) := by
  unfold kP2
  exact flatSlice_apply 0 21 X slices_S201x86x3_S200x25x2_0_21_0 shapeCasts_S200x25x2_S200x50 rfl (by decide) t k _ _ _
    (Nat.zero_add _).symm rfl rfl

/-- Piece `kP3` at `(t, k)`: landmark `46 + k / 2`, coordinate `k % 2`, of frame `t`. -/
theorem kP3_apply (X : FVec Ideal S201x86x3 .f32) (t : Fin 200) (k : Fin 40) :
    kP3 X (ix2 t k) = X (ix3 ⟨t.val, by have := t.isLt; omega⟩ ⟨46 + k.val / 2, by have := k.isLt; omega⟩ ⟨k.val % 2, by have := Nat.mod_lt k.val (show 0 < 2 by decide); omega⟩) := by
  unfold kP3
  exact flatSlice_apply 0 46 X slices_S201x86x3_S200x20x2_0_46_0 shapeCasts_S200x20x2_S200x40 rfl (by decide) t k _ _ _
    (Nat.zero_add _).symm rfl rfl

/-- The frame differences at `(t, l, d)`: frame `t` minus frame `t + 1`. -/
theorem kDx_apply (X : FVec Ideal S201x86x3 .f32) (t : Fin 200) (l : Fin 86) (d : Fin 3) :
    kDx X (ix3 t l d) = X (ix3 ⟨t.val, by have := t.isLt; omega⟩ l d) - X (ix3 ⟨t.val + 1, by have := t.isLt; omega⟩ l d) := by
  unfold kDx
  exact diff_apply X slices_S201x86x3_S200x86x3_0_0_0 slices_S201x86x3_S200x86x3_1_0_0 t l d _ _ rfl rfl

/-- Piece `kP4` at `(t, k)`: landmark `0 + k / 3`, coordinate `k % 3`, of frame `t`. -/
theorem kP4_apply (X : FVec Ideal S200x86x3 .f32) (t : Fin 200) (k : Fin 63) :
    kP4 X (ix2 t k) = X (ix3 ⟨t.val, by have := t.isLt; omega⟩ ⟨0 + k.val / 3, by have := k.isLt; omega⟩ ⟨k.val % 3, by have := Nat.mod_lt k.val (show 0 < 3 by decide); omega⟩) := by
  unfold kP4
  exact flatSlice_apply 0 0 X slices_S200x86x3_S200x21x3_0_0_0 shapeCasts_S200x21x3_S200x63 rfl (by decide) t k _ _ _
    (Nat.zero_add _).symm rfl rfl

/-- Piece `kP5` at `(t, k)`: landmark `21 + k / 2`, coordinate `k % 2`, of frame `t`. -/
theorem kP5_apply (X : FVec Ideal S200x86x3 .f32) (t : Fin 200) (k : Fin 50) :
    kP5 X (ix2 t k) = X (ix3 ⟨t.val, by have := t.isLt; omega⟩ ⟨21 + k.val / 2, by have := k.isLt; omega⟩ ⟨k.val % 2, by have := Nat.mod_lt k.val (show 0 < 2 by decide); omega⟩) := by
  unfold kP5
  exact flatSlice_apply 0 21 X slices_S200x86x3_S200x25x2_0_21_0 shapeCasts_S200x25x2_S200x50 rfl (by decide) t k _ _ _
    (Nat.zero_add _).symm rfl rfl

/-- Piece `kP6` at `(t, k)`: landmark `46 + k / 2`, coordinate `k % 2`, of frame `t`. -/
theorem kP6_apply (X : FVec Ideal S200x86x3 .f32) (t : Fin 200) (k : Fin 40) :
    kP6 X (ix2 t k) = X (ix3 ⟨t.val, by have := t.isLt; omega⟩ ⟨46 + k.val / 2, by have := k.isLt; omega⟩ ⟨k.val % 2, by have := Nat.mod_lt k.val (show 0 < 2 by decide); omega⟩) := by
  unfold kP6
  exact flatSlice_apply 0 46 X slices_S200x86x3_S200x20x2_0_46_0 shapeCasts_S200x20x2_S200x40 rfl (by decide) t k _ _ _
    (Nat.zero_add _).symm rfl rfl

/-- Distance piece `kD1` at `(t, k)`. -/
theorem kD1_apply (X : FVec Ideal S201x86x3 .f32) (t : Fin 201) (k : Fin 210) :
    kD1 X (ix2 t k) = pairDist (N := 21) (D := 3) (by decide) 0 (by decide) (by decide) (fun l d => X (ix3 t l d)) ((constant (F := Ideal) S_ .f32 0x00000000#32) ix0) kI1a kI1b k := by
  unfold kD1 kI1a kI1b
  exact pairDist_apply (N := 21) (D := 3) (by decide) 0 (by decide) (by decide) X slices_S201x86x3_S201x21x3_0_0_0
    gather_S201x21x3_S210x1_S201x210x3_02_1_n_n_1_1_20113 rfl rfl rfl rfl rfl rfl rfl (constant S_ .f32 0x00000000#32) reducesTo_S201x210x3_S201x210_d2 (by decide) h_S_ _ _ t k

/-- Distance piece `kD2` at `(t, k)`. -/
theorem kD2_apply (X : FVec Ideal S201x86x3 .f32) (t : Fin 201) (k : Fin 300) :
    kD2 X (ix2 t k) = pairDist (N := 25) (D := 2) (by decide) 21 (by decide) (by decide) (fun l d => X (ix3 t l d)) ((constant (F := Ideal) S_ .f32 0x00000000#32) ix0) kI2a kI2b k := by
  unfold kD2 kI2a kI2b
  exact pairDist_apply (N := 25) (D := 2) (by decide) 21 (by decide) (by decide) X slices_S201x86x3_S201x25x2_0_21_0
    gather_S201x25x2_S300x1_S201x300x2_02_1_n_n_1_1_20112 rfl rfl rfl rfl rfl rfl rfl (constant S_ .f32 0x00000000#32) reducesTo_S201x300x2_S201x300_d2 (by decide) h_S_ _ _ t k

/-- Distance piece `kD3` at `(t, k)`. -/
theorem kD3_apply (X : FVec Ideal S201x86x3 .f32) (t : Fin 201) (k : Fin 190) :
    kD3 X (ix2 t k) = pairDist (N := 20) (D := 2) (by decide) 46 (by decide) (by decide) (fun l d => X (ix3 t l d)) ((constant (F := Ideal) S_ .f32 0x00000000#32) ix0) kI3a kI3b k := by
  unfold kD3 kI3a kI3b
  exact pairDist_apply (N := 20) (D := 2) (by decide) 46 (by decide) (by decide) X slices_S201x86x3_S201x20x2_0_46_0
    gather_S201x20x2_S190x1_S201x190x2_02_1_n_n_1_1_20112 rfl rfl rfl rfl rfl rfl rfl (constant S_ .f32 0x00000000#32) reducesTo_S201x190x2_S201x190_d2 (by decide) h_S_ _ _ t k

/-- Distance piece `kD4` at `(t, k)`. -/
theorem kD4_apply (X : FVec Ideal S201x86x3 .f32) (t : Fin 201) (k : Fin 190) :
    kD4 X (ix2 t k) = pairDist (N := 20) (D := 2) (by decide) 66 (by decide) (by decide) (fun l d => X (ix3 t l d)) ((constant (F := Ideal) S_ .f32 0x00000000#32) ix0) kI4a kI4b k := by
  unfold kD4 kI4a kI4b
  exact pairDist_apply (N := 20) (D := 2) (by decide) 66 (by decide) (by decide) X slices_S201x86x3_S201x20x2_0_66_0
    gather_S201x20x2_S190x1_S201x190x2_02_1_n_n_1_1_20112 rfl rfl rfl rfl rfl rfl rfl (constant S_ .f32 0x00000000#32) reducesTo_S201x190x2_S201x190_d2 (by decide) h_S_ _ _ t k

end Cert.KernelIdeal.Tail
-- ==== Proof.Tail.RSide.lean ====
/-
  The stages of the reference program read at an index: each is the corresponding frame-wise feature
  computation (Tail/Reads.lean) applied to one frame of its operand.
-/
import proofs.«176904_j2095944041143_2_alg».proof.Proof.Tail.RTerm
import proofs.«176904_j2095944041143_2_alg».proof.Proof.Tail.Reads

noncomputable section
namespace Cert.ReferenceIdeal.Tail
open Idealize.ShloMosaic Idealize.ShloMosaic.ValueIdx Cert.ReferenceIdeal Cert.ReferenceIdeal.Gen Cert.Tail.Reads Cert.Lib.IndexReads

/-- Start indices of one side of the landmark pairs, as a column. -/
def rI1a  : IVec S210x1 32 :=
  let main_c : IVec S210 32 := fun i => lit0 (S210.rowMajor i)
  let main_c_0 : IVec S210 1 := constantI S210 1 0#1
  let main_c_21 : IVec S_ 32 := constantI S_ 32 21#32
  let main_v41 : IVec S210 32 := broadcastInDim S210 ![] bcast_S_S210 main_c_21
  let main_v42 : IVec S210 32 := addi main_c main_v41
  let main_v43 : IVec S210 32 := select main_c_0 main_v42 main_c
  broadcastInDim S210x1 ![0] bcast_S210_S210x1_0 main_v43

/-- Start indices of one side of the landmark pairs, as a column. -/
def rI1b  : IVec S210x1 32 :=
  let main_c_1 : IVec S210 32 := fun i => lit1 (S210.rowMajor i)
  let main_c_2 : IVec S210 1 := constantI S210 1 0#1
  let main_c_22 : IVec S_ 32 := constantI S_ 32 21#32
  let main_v46 : IVec S210 32 := broadcastInDim S210 ![] bcast_S_S210 main_c_22
  let main_v47 : IVec S210 32 := addi main_c_1 main_v46
  let main_v48 : IVec S210 32 := select main_c_2 main_v47 main_c_1
  broadcastInDim S210x1 ![0] bcast_S210_S210x1_0 main_v48

/-- Start indices of one side of the landmark pairs, as a column. -/
def rI2a  : IVec S300x1 32 :=
  let main_c_3 : IVec S300 32 := fun i => lit2 (S300.rowMajor i)
  let main_c_4 : IVec S300 1 := constantI S300 1 0#1
  let main_c_24 : IVec S_ 32 := constantI S_ 32 25#32
  let main_v56 : IVec S300 32 := broadcastInDim S300 ![] bcast_S_S300 main_c_24
  let main_v57 : IVec S300 32 := addi main_c_3 main_v56
  let main_v58 : IVec S300 32 := select main_c_4 main_v57 main_c_3
  broadcastInDim S300x1 ![0] bcast_S300_S300x1_0 main_v58

/-- Start indices of one side of the landmark pairs, as a column. -/
def rI2b  : IVec S300x1 32 :=
  let main_c_5 : IVec S300 32 := fun i => lit3 (S300.rowMajor i)
  let main_c_6 : IVec S300 1 := constantI S300 1 0#1
  let main_c_25 : IVec S_ 32 := constantI S_ 32 25#32
  let main_v61 : IVec S300 32 := broadcastInDim S300 ![] bcast_S_S300 main_c_25
  let main_v62 : IVec S300 32 := addi main_c_5 main_v61
  let main_v63 : IVec S300 32 := select main_c_6 main_v62 main_c_5
  broadcastInDim S300x1 ![0] bcast_S300_S300x1_0 main_v63

/-- Start indices of one side of the landmark pairs, as a column. -/
def rI3a  : IVec S190x1 32 :=
  let main_c_7 : IVec S190 32 := fun i => lit4 (S190.rowMajor i)
  let main_c_8 : IVec S190 1 := constantI S190 1 0#1
  let main_c_27 : IVec S_ 32 := constantI S_ 32 20#32
  let main_v71 : IVec S190 32 := broadcastInDim S190 ![] bcast_S_S190 main_c_27
  let main_v72 : IVec S190 32 := addi main_c_7 main_v71
  let main_v73 : IVec S190 32 := select main_c_8 main_v72 main_c_7
  broadcastInDim S190x1 ![0] bcast_S190_S190x1_0 main_v73

/-- Start indices of one side of the landmark pairs, as a column. -/
def rI3b  : IVec S190x1 32 :=
  let main_c_9 : IVec S190 32 := fun i => lit5 (S190.rowMajor i)
  let main_c_10 : IVec S190 1 := constantI S190 1 0#1
  let main_c_28 : IVec S_ 32 := constantI S_ 32 20#32
  let main_v76 : IVec S190 32 := broadcastInDim S190 ![] bcast_S_S190 main_c_28
  let main_v77 : IVec S190 32 := addi main_c_9 main_v76
  let main_v78 : IVec S190 32 := select main_c_10 main_v77 main_c_9
  broadcastInDim S190x1 ![0] bcast_S190_S190x1_0 main_v78

/-- Start indices of one side of the landmark pairs, as a column. -/
def rI4a  : IVec S190x1 32 :=
  let main_c_7 : IVec S190 32 := fun i => lit4 (S190.rowMajor i)
  let main_c_11 : IVec S190 1 := constantI S190 1 0#1
  let main_c_30 : IVec S_ 32 := constantI S_ 32 20#32
  let main_v86 : IVec S190 32 := broadcastInDim S190 ![] bcast_S_S190 main_c_30
  let main_v87 : IVec S190 32 := addi main_c_7 main_v86
  let main_v88 : IVec S190 32 := select main_c_11 main_v87 main_c_7
  broadcastInDim S190x1 ![0] bcast_S190_S190x1_0 main_v88

/-- Start indices of one side of the landmark pairs, as a column. -/
def rI4b  : IVec S190x1 32 :=
  let main_c_9 : IVec S190 32 := fun i => lit5 (S190.rowMajor i)
  let main_c_12 : IVec S190 1 := constantI S190 1 0#1
  let main_c_31 : IVec S_ 32 := constantI S_ 32 20#32
  let main_v91 : IVec S190 32 := broadcastInDim S190 ![] bcast_S_S190 main_c_31
  let main_v92 : IVec S190 32 := addi main_c_9 main_v91
  let main_v93 : IVec S190 32 := select main_c_12 main_v92 main_c_9
  broadcastInDim S190x1 ![0] bcast_S190_S190x1_0 main_v93

/-- The cleaned frames are the argument's frames. -/
theorem rClean_eq (x : FVec Ideal S100000x115x3 .f32) : rClean x = x := by
  unfold rClean
  dsimp only
  exact clean_eq _ _

/-- The selected landmarks at `(t, l, d)`. -/
theorem rFeat_apply (p : IVec S_ 1) (a : FVec Ideal S100000x115x3 .f32) (t : Fin 100000) (l : Fin 86) (d : Fin 3) :
    rFeat p a (ix3 t l d) = featOf (p ix0) (fun l d => a (ix3 t l d)) l d := by
  unfold rFeat
  exact feat_apply p a slices_S100000x115x3_S100000x21x3_0_40_0 slices_S100000x115x3_S100000x21x3_0_94_0
    slices_S100000x115x3_S100000x25x3_0_61_0 slices_S100000x115x3_S100000x40x3_0_0_0
    concatenates_S100000x21x3_S100000x25x3_S100000x40x3_S100000x86x3_d1 bcast_S_S100000x86x3 _ rfl
    slices_S100000x86x3_S100000x86x1_0_0_0 shapeCasts_S100000x86x1_S100000x86 bcast_S_S100000x86 bcast_S100000x86_S100000x86x1_0_1
    slices_S100000x86x3_S100000x86x2_0_0_1 concatenates_S100000x86x1_S100000x86x2_S100000x86x3_d2 t l d

/-- The hand mask at frame `t`. -/
theorem rHand_apply (p : IVec S_ 1) (a : FVec Ideal S100000x115x3 .f32) (t : Fin 100000) :
    rHand p a (ix1 t) = handOf (p ix0) (fun l d => a (ix3 t l d)) ((constant (F := Ideal) S_ .f32 0x00000000#32) ix0) ((constant (F := Ideal) S_ .f32 0x00000000#32) ix0) := by
  unfold rHand
  exact hand_apply p a slices_S100000x115x3_S100000x21x3_0_40_0 slices_S100000x115x3_S100000x21x3_0_94_0 bcast_S_S100000x21x3
    shapeCasts_S100000x21x3_S100000x63 (constant S_ .f32 0x00000000#32) (constant S_ .f32 0x00000000#32)
    reducesTo_S100000x63_S100000_d1 (by decide) h_S_ bcast_S_S100000 t

/-- The token type at frame `t`. -/
theorem rTok_apply (hm : FVec Ideal S100000 .f32) (t : Fin 100000) :
    rTok hm (ix1 t) = hm (ix1 t) + ((constant (F := Ideal) S_ .f32 0x3F800000#32) ix0) := by
  unfold rTok
  exact tok_apply hm (constant S_ .f32 0x3F800000#32) bcast_S_S100000 t

/-- Piece `rP1` at `(t, k)`: landmark `0 + k / 3`, coordinate `k % 3`, of frame `t`. -/
theorem rP1_apply (X : FVec Ideal S100000x86x3 .f32) (t : Fin 100000) (k : Fin 63) :
    rP1 X (ix2 t k) = X (ix3 ⟨t.val, by have := t.isLt; omega⟩ ⟨0 + k.val / 3, by have := k.isLt; omega⟩ ⟨k.val % 3, by have := Nat.mod_lt k.val (show 0 < 3 by decide); omega⟩) := by
  unfold rP1
  exact flatSlice_apply 0 0 X slices_S100000x86x3_S100000x21x3_0_0_0 shapeCasts_S100000x21x3_S100000x63 rfl (by decide) t k _ _ _
    (Nat.zero_add _).symm rfl rfl

/-- Piece `rP2` at `(t, k)`: landmark `21 + k / 2`, coordinate `k % 2`, of frame `t`. -/
theorem rP2_apply (X : FVec Ideal S100000x86x3 .f32) (t : Fin 100000) (k : Fin 50) :
    rP2 X (ix2 t k) = X (ix3 ⟨t.val, by have := t.isLt; omega⟩ ⟨21 + k.val / 2, by have := k.isLt; omega⟩ ⟨k.val % 2, by have := Nat.mod_lt k.val (show 0 < 2 by decide); omega⟩) := by
  unfold rP2
  exact flatSlice_apply 0 21 X slices_S100000x86x3_S100000x25x2_0_21_0 shapeCasts_S100000x25x2_S100000x50 rfl (by decide) t k _ _ _
    (Nat.zero_add _).symm rfl rfl

/-- Piece `rP3` at `(t, k)`: landmark `46 + k / 2`, coordinate `k % 2`, of frame `t`. -/
theorem rP3_apply (X : FVec Ideal S100000x86x3 .f32) (t : Fin 100000) (k : Fin 40) :
    rP3 X (ix2 t k) = X (ix3 ⟨t.val, by have := t.isLt; omega⟩ ⟨46 + k.val / 2, by have := k.isLt; omega⟩ ⟨k.val % 2, by have := Nat.mod_lt k.val (show 0 < 2 by decide); omega⟩) := by
  unfold rP3
  exact flatSlice_apply 0 46 X slices_S100000x86x3_S100000x20x2_0_46_0 shapeCasts_S100000x20x2_S100000x40 rfl (by decide) t k _ _ _
    (Nat.zero_add _).symm rfl rfl

/-- The frame differences at `(T, l, d)` before the appended zero frame: frame `T` minus frame `T + 1`. -/
theorem rDx_apply (X : FVec Ideal S100000x86x3 .f32) (T : Fin 100000) (hT : T.val < 99999) (l : Fin 86) (d : Fin 3) :
    rDx X (ix3 T l d) = X (ix3 T l d) - X (ix3 ⟨T.val + 1, by omega⟩ l d) := by
  unfold rDx
  exact diff_pad_apply X slices_S100000x86x3_S99999x86x3_0_0_0 slices_S100000x86x3_S99999x86x3_1_0_0 _
    concatenates_S99999x86x3_S1x86x3_S100000x86x3_d0 T hT l d _ rfl

/-- Piece `rP4` at `(t, k)`: landmark `0 + k / 3`, coordinate `k % 3`, of frame `t`. -/
theorem rP4_apply (X : FVec Ideal S100000x86x3 .f32) (t : Fin 100000) (k : Fin 63) :
    rP4 X (ix2 t k) = X (ix3 ⟨t.val, by have := t.isLt; omega⟩ ⟨0 + k.val / 3, by have := k.isLt; omega⟩ ⟨k.val % 3, by have := Nat.mod_lt k.val (show 0 < 3 by decide); omega⟩) := by
  unfold rP4
  exact flatSlice_apply 0 0 X slices_S100000x86x3_S100000x21x3_0_0_0 shapeCasts_S100000x21x3_S100000x63 rfl (by decide) t k _ _ _
    (Nat.zero_add _).symm rfl rfl

/-- Piece `rP5` at `(t, k)`: landmark `21 + k / 2`, coordinate `k % 2`, of frame `t`. -/
theorem rP5_apply (X : FVec Ideal S100000x86x3 .f32) (t : Fin 100000) (k : Fin 50) :
    rP5 X (ix2 t k) = X (ix3 ⟨t.val, by have := t.isLt; omega⟩ ⟨21 + k.val / 2, by have := k.isLt; omega⟩ ⟨k.val % 2, by have := Nat.mod_lt k.val (show 0 < 2 by decide); omega⟩) := by
  unfold rP5
  exact flatSlice_apply 0 21 X slices_S100000x86x3_S100000x25x2_0_21_0 shapeCasts_S100000x25x2_S100000x50 rfl (by decide) t k _ _ _
    (Nat.zero_add _).symm rfl rfl

/-- Piece `rP6` at `(t, k)`: landmark `46 + k / 2`, coordinate `k % 2`, of frame `t`. -/
theorem rP6_apply (X : FVec Ideal S100000x86x3 .f32) (t : Fin 100000) (k : Fin 40) :
    rP6 X (ix2 t k) = X (ix3 ⟨t.val, by have := t.isLt; omega⟩ ⟨46 + k.val / 2, by have := k.isLt; omega⟩ ⟨k.val % 2, by have := Nat.mod_lt k.val (show 0 < 2 by decide); omega⟩) := by
  unfold rP6
  exact flatSlice_apply 0 46 X slices_S100000x86x3_S100000x20x2_0_46_0 shapeCasts_S100000x20x2_S100000x40 rfl (by decide) t k _ _ _
    (Nat.zero_add _).symm rfl rfl

/-- Distance piece `rD1` at `(t, k)`. -/
theorem rD1_apply (X : FVec Ideal S100000x86x3 .f32) (t : Fin 100000) (k : Fin 210) :
    rD1 X (ix2 t k) = pairDist (N := 21) (D := 3) (by decide) 0 (by decide) (by decide) (fun l d => X (ix3 t l d)) ((constant (F := Ideal) S_ .f32 0x00000000#32) ix0) rI1a rI1b k := by
  unfold rD1 rI1a rI1b
  exact pairDist_apply (N := 21) (D := 3) (by decide) 0 (by decide) (by decide) X slices_S100000x86x3_S100000x21x3_0_0_0
    gather_S100000x21x3_S210x1_S100000x210x3_02_1_n_n_1_1_10000013 rfl rfl rfl rfl rfl rfl rfl (constant S_ .f32 0x00000000#32) reducesTo_S100000x210x3_S100000x210_d2 (by decide) h_S_ _ _ t k

/-- Distance piece `rD2` at `(t, k)`. -/
theorem rD2_apply (X : FVec Ideal S100000x86x3 .f32) (t : Fin 100000) (k : Fin 300) :
    rD2 X (ix2 t k) = pairDist (N := 25) (D := 2) (by decide) 21 (by decide) (by decide) (fun l d => X (ix3 t l d)) ((constant (F := Ideal) S_ .f32 0x00000000#32) ix0) rI2a rI2b k := by
  unfold rD2 rI2a rI2b
  exact pairDist_apply (N := 25) (D := 2) (by decide) 21 (by decide) (by decide) X slices_S100000x86x3_S100000x25x2_0_21_0
    gather_S100000x25x2_S300x1_S100000x300x2_02_1_n_n_1_1_10000012 rfl rfl rfl rfl rfl rfl rfl (constant S_ .f32 0x00000000#32) reducesTo_S100000x300x2_S100000x300_d2 (by decide) h_S_ _ _ t k

/-- Distance piece `rD3` at `(t, k)`. -/
theorem rD3_apply (X : FVec Ideal S100000x86x3 .f32) (t : Fin 100000) (k : Fin 190) :
    rD3 X (ix2 t k) = pairDist (N := 20) (D := 2) (by decide) 46 (by decide) (by decide) (fun l d => X (ix3 t l d)) ((constant (F := Ideal) S_ .f32 0x00000000#32) ix0) rI3a rI3b k := by
  unfold rD3 rI3a rI3b
  exact pairDist_apply (N := 20) (D := 2) (by decide) 46 (by decide) (by decide) X slices_S100000x86x3_S100000x20x2_0_46_0
    gather_S100000x20x2_S190x1_S100000x190x2_02_1_n_n_1_1_10000012 rfl rfl rfl rfl rfl rfl rfl (constant S_ .f32 0x00000000#32) reducesTo_S100000x190x2_S100000x190_d2 (by decide) h_S_ _ _ t k

/-- Distance piece `rD4` at `(t, k)`. -/
theorem rD4_apply (X : FVec Ideal S100000x86x3 .f32) (t : Fin 100000) (k : Fin 190) :
    rD4 X (ix2 t k) = pairDist (N := 20) (D := 2) (by decide) 66 (by decide) (by decide) (fun l d => X (ix3 t l d)) ((constant (F := Ideal) S_ .f32 0x00000000#32) ix0) rI4a rI4b k := by
  unfold rD4 rI4a rI4b
  exact pairDist_apply (N := 20) (D := 2) (by decide) 66 (by decide) (by decide) X slices_S100000x86x3_S100000x20x2_0_66_0
    gather_S100000x20x2_S190x1_S100000x190x2_02_1_n_n_1_1_10000012 rfl rfl rfl rfl rfl rfl rfl (constant S_ .f32 0x00000000#32) reducesTo_S100000x190x2_S100000x190_d2 (by decide) h_S_ _ _ t k

end Cert.ReferenceIdeal.Tail
-- ==== Proof.Tail.Bridge.lean ====
/-
  The two programs' host parts agree: the kernel program's result from 201 frames and the reference's result from all
  frames cut to its first 200 are the same array, given the same condition bit — frame by frame both compute the same
  features, and the index tables that name the landmark pairs are the same tables.
-/
import proofs.«176904_j2095944041143_2_alg».proof.Proof.Tail.KSide
import proofs.«176904_j2095944041143_2_alg».proof.Proof.Tail.RSide

noncomputable section
namespace Cert.Tail.Bridge
open Idealize.ShloMosaic Idealize.ShloMosaic.ValueIdx Cert.Tail.Reads Cert.Lib.IndexReads
open Cert.KernelIdeal.Tail Cert.ReferenceIdeal.Tail

/-! ## The index tables are the same -/

theorem lit0_eq : Cert.KernelIdeal.lit0 = Cert.ReferenceIdeal.lit0 := funext (by decide +kernel)
theorem lit1_eq : Cert.KernelIdeal.lit1 = Cert.ReferenceIdeal.lit1 := funext (by decide +kernel)
theorem lit2_eq : Cert.KernelIdeal.lit2 = Cert.ReferenceIdeal.lit2 := funext (by decide +kernel)
theorem lit3_eq : Cert.KernelIdeal.lit3 = Cert.ReferenceIdeal.lit3 := funext (by decide +kernel)
theorem lit4_eq : Cert.KernelIdeal.lit4 = Cert.ReferenceIdeal.lit4 := funext (by decide +kernel)
theorem lit5_eq : Cert.KernelIdeal.lit5 = Cert.ReferenceIdeal.lit5 := funext (by decide +kernel)

theorem I1a_eq : kI1a = rI1a := by
  unfold kI1a rI1a
  rw [lit0_eq]
theorem I1b_eq : kI1b = rI1b := by
  unfold kI1b rI1b
  rw [lit1_eq]
theorem I2a_eq : kI2a = rI2a := by
  unfold kI2a rI2a
  rw [lit2_eq]
theorem I2b_eq : kI2b = rI2b := by
  unfold kI2b rI2b
  rw [lit3_eq]
theorem I3a_eq : kI3a = rI3a := by
  unfold kI3a rI3a
  rw [lit4_eq]
theorem I3b_eq : kI3b = rI3b := by
  unfold kI3b rI3b
  rw [lit5_eq]
theorem I4a_eq : kI4a = rI4a := by
  unfold kI4a rI4a
  rw [lit4_eq]
theorem I4b_eq : kI4b = rI4b := by
  unfold kI4b rI4b
  rw [lit5_eq]

/-! ## The twelve pieces agree -/

set_option maxHeartbeats 4000000 in
/-- When the selected landmarks, the hand mask and the token type of the two programs agree on frames 0..200, their
    outputs are equal. -/
theorem out_eq (xfK : FVec Ideal Cert.KernelIdeal.S201x86x3 .f32) (hmK tkK : FVec Ideal Cert.KernelIdeal.S201 .f32)
    (xfR : FVec Ideal Cert.ReferenceIdeal.S100000x86x3 .f32) (hmR tkR : FVec Ideal Cert.ReferenceIdeal.S100000 .f32)
    (hx : ∀ (t : Fin 201) (l : Fin 86) (d : Fin 3), xfK (ix3 t l d) = xfR (ix3 ⟨t.val, by have := t.isLt; omega⟩ l d))
    (hh : ∀ t : Fin 201, hmK (ix1 t) = hmR (ix1 ⟨t.val, by have := t.isLt; omega⟩))
    (ht : ∀ t : Fin 201, tkK (ix1 t) = tkR (ix1 ⟨t.val, by have := t.isLt; omega⟩)) :
    kOut xfK hmK tkK = rOut xfR hmR tkR := by
  funext j
  obtain ⟨z, t, c, rfl⟩ : ∃ (z : Fin 1) (t : Fin 200) (c : Fin 1198), j = ix3 z t c := ⟨j 0, j 1, j 2, eq_ix3 j⟩
  have hT : t.val < 100000 := by have := t.isLt; omega
  have hT1 : t.val < 201 := by have := t.isLt; omega
  unfold kOut rOut kAsm rAsm
  dsimp only
  rw [shapeCast_ab_1ab_apply, shapeCast_ab_1ab_apply,
    slice2_apply 0 0 _ _ t c (⟨t.val, hT⟩ : Fin 100000) c (Nat.zero_add _).symm (Nat.zero_add _).symm,
    asm_apply, asm_apply]
  by_cases h0 : c.val < 63
  · rw [dif_pos h0, dif_pos h0]
    rw [kP1_apply, rP1_apply, hx]
  · rw [dif_neg h0, dif_neg h0]
    by_cases h1 : c.val < 113
    · rw [dif_pos h1, dif_pos h1]
      rw [kP2_apply, rP2_apply, hx]
    · rw [dif_neg h1, dif_neg h1]
      by_cases h2 : c.val < 153
      · rw [dif_pos h2, dif_pos h2]
        rw [kP3_apply, rP3_apply, hx]
      · rw [dif_neg h2, dif_neg h2]
        by_cases h3 : c.val < 216
        · rw [dif_pos h3, dif_pos h3]
          rw [kP4_apply, rP4_apply, kDx_apply, rDx_apply _ _ (by show t.val < 99999; omega), hx, hx]
        · rw [dif_neg h3, dif_neg h3]
          by_cases h4 : c.val < 266
          · rw [dif_pos h4, dif_pos h4]
            rw [kP5_apply, rP5_apply, kDx_apply, rDx_apply _ _ (by show t.val < 99999; omega), hx, hx]
          · rw [dif_neg h4, dif_neg h4]
            by_cases h5 : c.val < 306
            · rw [dif_pos h5, dif_pos h5]
              rw [kP6_apply, rP6_apply, kDx_apply, rDx_apply _ _ (by show t.val < 99999; omega), hx, hx]
            · rw [dif_neg h5, dif_neg h5]
              by_cases h6 : c.val < 516
              · rw [dif_pos h6, dif_pos h6]
                rw [slice2_apply 0 0 _ _ t _ (⟨t.val, hT1⟩ : Fin 201) _ (Nat.zero_add _).symm (Nat.zero_add _).symm,
                  kD1_apply, rD1_apply, I1a_eq, I1b_eq,
                  show (fun (l : Fin 86) (d : Fin 3) => xfK (ix3 (⟨t.val, hT1⟩ : Fin 201) l d)) = (fun l d => xfR (ix3 (⟨t.val, hT⟩ : Fin 100000) l d)) from
                    funext fun l => funext fun d => hx _ l d]
              · rw [dif_neg h6, dif_neg h6]
                by_cases h7 : c.val < 816
                · rw [dif_pos h7, dif_pos h7]
                  rw [slice2_apply 0 0 _ _ t _ (⟨t.val, hT1⟩ : Fin 201) _ (Nat.zero_add _).symm (Nat.zero_add _).symm,
                    kD2_apply, rD2_apply, I2a_eq, I2b_eq,
                    show (fun (l : Fin 86) (d : Fin 3) => xfK (ix3 (⟨t.val, hT1⟩ : Fin 201) l d)) = (fun l d => xfR (ix3 (⟨t.val, hT⟩ : Fin 100000) l d)) from
                      funext fun l => funext fun d => hx _ l d]
                · rw [dif_neg h7, dif_neg h7]
                  by_cases h8 : c.val < 1006
                  · rw [dif_pos h8, dif_pos h8]
                    rw [slice2_apply 0 0 _ _ t _ (⟨t.val, hT1⟩ : Fin 201) _ (Nat.zero_add _).symm (Nat.zero_add _).symm,
                      kD3_apply, rD3_apply, I3a_eq, I3b_eq,
                      show (fun (l : Fin 86) (d : Fin 3) => xfK (ix3 (⟨t.val, hT1⟩ : Fin 201) l d)) = (fun l d => xfR (ix3 (⟨t.val, hT⟩ : Fin 100000) l d)) from
                        funext fun l => funext fun d => hx _ l d]
                  · rw [dif_neg h8, dif_neg h8]
                    by_cases h9 : c.val < 1196
                    · rw [dif_pos h9, dif_pos h9]
                      rw [slice2_apply 0 0 _ _ t _ (⟨t.val, hT1⟩ : Fin 201) _ (Nat.zero_add _).symm (Nat.zero_add _).symm,
                        kD4_apply, rD4_apply, I4a_eq, I4b_eq,
                        show (fun (l : Fin 86) (d : Fin 3) => xfK (ix3 (⟨t.val, hT1⟩ : Fin 201) l d)) = (fun l d => xfR (ix3 (⟨t.val, hT⟩ : Fin 100000) l d)) from
                          funext fun l => funext fun d => hx _ l d]
                    · rw [dif_neg h9, dif_neg h9]
                      by_cases h10 : c.val < 1197
                      · rw [dif_pos h10, dif_pos h10]
                        rw [bcast_a_a1_apply, bcast_a_a1_apply, slice1_apply 0 hmK _ t (⟨t.val, hT1⟩ : Fin 201) (Nat.zero_add _).symm, hh]
                      · rw [dif_neg h10, dif_neg h10]
                        rw [bcast_a_a1_apply, bcast_a_a1_apply, slice1_apply 0 tkK _ t (⟨t.val, hT1⟩ : Fin 201) (Nat.zero_add _).symm, ht]

/-! ## The whole host parts -/

/-- With the same condition bit the two results are equal. -/
theorem tails_eq (x : FVec Ideal Cert.KernelIdeal.S100000x115x3 .f32) (cl cr : FVec Ideal Cert.KernelIdeal.S1x1 .f32)
    (hc : kCond cl cr = rCond (rClean x)) : kTail cl cr x = rTail x := by
  unfold kTail rTail
  rw [hc]
  refine out_eq _ _ _ _ _ _ (fun t l d => ?_) (fun t => ?_) (fun t => ?_)
  · rw [kFeat_apply, rFeat_apply]
    congr 1
    funext l d
    rw [kClean_apply, rClean_eq]
  · rw [kHand_apply, rHand_apply]
    congr 1
    funext l d
    rw [kClean_apply, rClean_eq]
  · rw [kTok_apply, rTok_apply, kHand_apply, rHand_apply]
    congr 2
    funext l d
    rw [kClean_apply, rClean_eq]

end Cert.Tail.Bridge
-- ==== Proof.lean ====
/-
  The certificate of the feature-extraction kernel against its reference.

  The kernel program counts, block by block, the nonzero left-hand and right-hand coordinates of all frames, compares
  the two counts, and computes the features of frames 0..199 from the first 201 frames; the reference cleans and
  selects over all frames, reduces the two counts in one sum each, computes every frame's features and keeps the
  first 200. On the extended reals the two counts are the same sums regrouped, so the condition bits agree
  (Proof/Cond.lean, Proof/KCond.lean), and then frame by frame the two programs compute the same features
  (Proof/Tail/). The three frames come from the programs' runs: the kernel's region with its two carried
  accumulators (Proof/KI, Proof/KB) and the reference's host operations one after the other (Proof/Ref).
-/
import proofs.«176904_j2095944041143_2_alg».proof.Defs
import proofs.«176904_j2095944041143_2_alg».proof.Proof.Gen.Kernel
import proofs.«176904_j2095944041143_2_alg».proof.Proof.Gen.KernelIdeal
import proofs.«176904_j2095944041143_2_alg».proof.Proof.Gen.ReferenceIdeal
import proofs.«176904_j2095944041143_2_alg».proof.Proof.Gen.Pre_finite_inputs
import proofs.«176904_j2095944041143_2_alg».proof.Proof.KB.Frame
import proofs.«176904_j2095944041143_2_alg».proof.Proof.KI.Run
import proofs.«176904_j2095944041143_2_alg».proof.Proof.KCond
import proofs.«176904_j2095944041143_2_alg».proof.Proof.Ref.Run
import proofs.«176904_j2095944041143_2_alg».proof.Proof.Ref.Frame
import proofs.«176904_j2095944041143_2_alg».proof.Proof.Tail.Bridge

noncomputable section

namespace Cert.Proof

open Idealize.ShloMosaic Idealize.ShloMosaic.TcCoe Idealize.SL.Sem

/-- The word-level kernel program runs and leaves its argument as it found it. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- And the idealized reference. -/
theorem frame_ri : Cert.frame_ReferenceIdeal := Cert.ReferenceIdeal.HRun.frame

/-- The idealization rewrote nothing. -/
theorem preserves : Cert.preserves_Kernel_KernelIdeal := trivial

/-- From memories that agree on the argument both idealized programs end with the reference's term of the argument:
    the kernel program's run ends at its host part applied to the two counts, whose comparison is the reference's
    condition bit, and with that bit the two host parts are equal. -/
theorem algebraic : Cert.algebraic_KernelIdeal_ReferenceIdeal := by
  intro m ρ m' ρ' _ hagree
  refine ⟨fun c => Cert.ReferenceIdeal.Tail.rTail (F := Ideal)
    (m ((c.tc : Thread Cert.KernelIdeal.nD Cert.KernelIdeal.τ).loc Cert.KernelIdeal.main_arg0)), ?_, ?_⟩
  · refine (θ_run (Cert.KernelIdeal.defs (F := Ideal)) _ _).mono (fun _ h c => ⟨(h c).1.trans ?_, (h c).2⟩)
      (Cert.KernelIdeal.Fr.KRun (F := Ideal) m ρ)
    exact Cert.Tail.Bridge.tails_eq _ _ _ (Cert.KCond.kcond_eq m c _)
  · refine (θ_run (Cert.ReferenceIdeal.defs (F := Ideal)) _ _).mono (fun _ h c => ⟨(h c).1.trans ?_, (h c).2⟩)
      (Cert.ReferenceIdeal.HRun.run (F := Ideal) m' ρ')
    rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
